-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S50000 : Shape := ⟨1, ![50000]⟩
abbrev S512 : Shape := ⟨1, ![512]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg22 : FVec F S64x10 .f32) (main_arg23 : FVec F S10 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x10 .f32 := Host.absf main_arg22
  let main_cst_34 : FVec F S_ .f32 := constant S_ .f32 0x7F800000#32
  let main_v90 : FVec F S64x10 .f32 := broadcastInDim S64x10 ![] bcast_S_S64x10 main_cst_34
  let main_v91 : IVec S64x10 1 := cmpf .olt main_v89 main_v90
  let main_c_35 : IVec S_ 1 := constantI S_ 1 1#1
  let main_v92 : IVec S_ 1 := (fun x v => Host.reduce IntOp.andi x v reducesTo_S64x10_S_d0_1 h_S_) main_v91 main_c_35
  let main_v93 : IVec S_ 1 := andi main_v88 main_v92
  let main_v94 : FVec F S10 .f32 := Host.absf main_arg23
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  main_v98

def fn_part4 {F : FTy → Type} [FloatOps F] (main_arg18 : FVec F S64x128 .f32) (main_arg19 : FVec F S128 .f32) (main_arg20 : FVec F S128x64 .f32) (main_arg21 : FVec F S64 .f32) (main_arg22 : FVec F S64x10 .f32) (main_arg23 : FVec F S10 .f32) (main_v63 : IVec S_ 1) (main_v67 : IVec S_ 1) : IVec S_ 1 :=
  let main_v68 : IVec S_ 1 := andi main_v63 main_v67
  let main_v69 : FVec F S64x128 .f32 := Host.absf main_arg18
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg20
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_arg22 main_arg23 main_v83 main_v84 main_cst_32

def fn_part3 {F : FTy → Type} [FloatOps F] (main_arg15 : FVec F S64 .f32) (main_arg16 : FVec F S64 .f32) (main_arg17 : FVec F S64 .f32) (main_arg18 : FVec F S64x128 .f32) (main_arg19 : FVec F S128 .f32) (main_arg20 : FVec F S128x64 .f32) (main_arg21 : FVec F S64 .f32) (main_arg22 : FVec F S64x10 .f32) (main_arg23 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_arg20 main_arg21 main_arg22 main_arg23 main_v63 main_v67

def fn_part2 {F : FTy → Type} [FloatOps F] (main_arg11 : FVec F S64x64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64x128 .f32) (main_arg19 : FVec F S128 .f32) (main_arg20 : FVec F S128x64 .f32) (main_arg21 : FVec F S64 .f32) (main_arg22 : FVec F S64x10 .f32) (main_arg23 : FVec F S10 .f32) (main_v33 : IVec S_ 1) : IVec S_ 1 :=
  let main_v34 : FVec F S64x64 .f32 := Host.absf main_arg11
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg16 main_arg17 main_arg18 main_arg19 main_arg20 main_arg21 main_arg22 main_arg23 main_v48 main_v49 main_v50

def fn_part1 {F : FTy → Type} [FloatOps F] (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64x128 .f32) (main_arg19 : FVec F S128 .f32) (main_arg20 : FVec F S128x64 .f32) (main_arg21 : FVec F S64 .f32) (main_arg22 : FVec F S64x10 .f32) (main_arg23 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_v33

def fn {F : FTy → Type} [FloatOps F] (main_arg0 : FVec F S50000x64 .f32) (main_arg1 : IVec S800000 32) (main_arg2 : IVec S800000 32) (main_arg3 : IVec S50000 32) (main_arg4 : IVec S512 32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_arg18 : FVec F S64x128 .f32) (main_arg19 : FVec F S128 .f32) (main_arg20 : FVec F S128x64 .f32) (main_arg21 : FVec F S64 .f32) (main_arg22 : FVec F S64x10 .f32) (main_arg23 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x64 : Shape := ⟨2, ![50000, 64]⟩
abbrev S800000 : Shape := ⟨1, ![800000]⟩
abbrev S50000 : Shape := ⟨1, ![50000]⟩
abbrev S512 : Shape := ⟨1, ![512]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x10 : Shape := ⟨2, ![64, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩
abbrev S512x64 : Shape := ⟨2, ![512, 64]⟩
abbrev S1x128 : Shape := ⟨2, ![1, 128]⟩
abbrev S1x10 : Shape := ⟨2, ![1, 10]⟩
abbrev S512x10 : Shape := ⟨2, ![512, 10]⟩
abbrev S512x128 : Shape := ⟨2, ![512, 128]⟩

abbrev nBuf : Space → Nat
  | .hbm => 106
  | .vmem => 63
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S512, .i32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x128, .f32⟩
  | .hbm, ⟨19, _⟩ => ⟨S128, .f32⟩
  | .hbm, ⟨20, _⟩ => ⟨S128x64, .f32⟩
  | .hbm, ⟨21, _⟩ => ⟨S64, .f32⟩
  | .hbm, ⟨22, _⟩ => ⟨S64x10, .f32⟩
  | .hbm, ⟨23, _⟩ => ⟨S10, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S50000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S50000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S_, .f32⟩
  | .hbm, ⟨91, _⟩ => ⟨S50000x64, .f32⟩
  | .hbm, ⟨92, _⟩ => ⟨S800000x1, .i32⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S_, .f32⟩
  | .hbm, ⟨99, _⟩ => ⟨S512x64, .f32⟩
  | .hbm, ⟨100, _⟩ => ⟨S50000x1, .i32⟩
  | .hbm, ⟨101, _⟩ => ⟨S512x64, .f32⟩
  | .hbm, ⟨102, _⟩ => ⟨S1x128, .f32⟩
  | .hbm, ⟨103, _⟩ => ⟨S1x64, .f32⟩
  | .hbm, ⟨104, _⟩ => ⟨S1x10, .f32⟩
  | .hbm, ⟨105, _⟩ => ⟨S512x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x64, .f32⟩
  | .local _ .vmem, ⟨51, _⟩ => ⟨S64x64, .f32⟩
  | .local _ .vmem, ⟨52, _⟩ => ⟨S1x64, .f32⟩
  | .local _ .vmem, ⟨53, _⟩ => ⟨S5000x64, .f32⟩
  | .local _ .vmem, ⟨54, _⟩ => ⟨S5000x64, .f32⟩
  | .local _ .vmem, ⟨55, _⟩ => ⟨S512x64, .f32⟩
  | .local _ .vmem, ⟨56, _⟩ => ⟨S64x128, .f32⟩
  | .local _ .vmem, ⟨57, _⟩ => ⟨S1x128, .f32⟩
  | .local _ .vmem, ⟨58, _⟩ => ⟨S128x64, .f32⟩
  | .local _ .vmem, ⟨59, _⟩ => ⟨S1x64, .f32⟩
  | .local _ .vmem, ⟨60, _⟩ => ⟨S64x10, .f32⟩
  | .local _ .vmem, ⟨61, _⟩ => ⟨S1x10, .f32⟩
  | .local _ .vmem, ⟨62, _⟩ => ⟨S512x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_cst_0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst_1 : Ref sig .tc := ⟨.hbm, 30, rfl⟩
abbrev main_v4 : Ref sig .tc := ⟨.hbm, 31, rfl⟩
abbrev main_v5 : Ref sig .tc := ⟨.hbm, 32, rfl⟩
abbrev main_cst_2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_c : Ref sig .tc := ⟨.hbm, 37, rfl⟩
abbrev main_v9 : Ref sig .tc := ⟨.hbm, 38, rfl⟩
abbrev main_v10 : Ref sig .tc := ⟨.hbm, 39, rfl⟩
abbrev main_c_3 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23_0 : Ref sig .tc := ⟨.hbm, 54, rfl⟩
abbrev main_v23_1 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41_0 : Ref sig .tc := ⟨.hbm, 76, rfl⟩
abbrev main_v41_1 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_8 : Ref sig .tc := ⟨.hbm, 81, rfl⟩
abbrev main_v45 : Ref sig .tc := ⟨.hbm, 82, rfl⟩
abbrev main_v46 : Ref sig .tc := ⟨.hbm, 83, rfl⟩
abbrev main_c_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_10 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_11 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_scratch0 : Ref sig .tc := ⟨.vmem, 36, rfl⟩
abbrev cc4_scratch1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg5_1 : Ref sig .tc := ⟨.vmem, 54, rfl⟩
abbrev cc7_stg0_0 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg6_0 : Ref sig .tc := ⟨.vmem, 61, rfl⟩
abbrev cc7_stg7_0 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem1_0 : DmaSem sig := 52
abbrev cc7_sem2_0 : DmaSem sig := 53
abbrev cc7_sem3_0 : DmaSem sig := 54
abbrev cc7_sem4_0 : DmaSem sig := 55
abbrev cc7_sem5_0 : DmaSem sig := 56
abbrev cc7_sem6_0 : DmaSem sig := 57
abbrev cc7_sem7_0 : DmaSem sig := 58

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x10 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x10 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S512x10 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  bcast_S_S512x64 : S_.BroadcastsInDim S512x64 (![] : Fin 0 → Fin S512x64.rank)
  shapeCasts_S128_S1x128 : S128.ShapeCasts S1x128
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  broadcasts_S1x64_S512x64 : S1x64.Broadcasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S512x64_S50000x1_S50000x64_1_0_0_1_wf : ScatterDims.WF S512x64 S50000x1 S50000x64 [1] [0] [0] 1
  dot_S512x64_S64x128_S512x128_1_0_0_1_n_n_wf : DotDims.WF S512x64 S64x128 S512x128 [1] [0] [0] [1] [] []
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x64.size a ≤ S512x64.size a
  hwx7_0 : ∀ i : grid7.Coords, EltTy.bits .f32 = 32 ∨ (Rect.block (s := S512x64) S512x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x128.size a ≤ S64x128.size a
  hwx7_1 : ∀ i : grid7.Coords, EltTy.bits .f32 = 32 ∨ (Rect.block (s := S64x128) S64x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S128x64.size a
  hwx7_3 : ∀ i : grid7.Coords, EltTy.bits .f32 = 32 ∨ (Rect.block (s := S128x64) S128x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x10.size a ≤ S64x10.size a
  hwx7_5 : ∀ i : grid7.Coords, EltTy.bits .f32 = 32 ∨ (Rect.block (s := S64x10) S64x10.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x10.size a ≤ S1x10.size a
  hwx7_6 : ∀ i : grid7.Coords, EltTy.bits .f32 = 32 ∨ (Rect.block (s := S1x10) S1x10.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S512x10.size a ≤ S512x10.size a
  hwx7_7 : ∀ i : grid7.Coords, EltTy.bits .f32 = 32 ∨ (Rect.block (s := S512x10) S512x10.size (cc7_transform_7 i) (hinb7_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v22) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23_0) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23_1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v26) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v40) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v40) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41_0) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v41_1) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v42) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v43) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v44) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v44) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg11) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v57) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v58) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v61) S512x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg18) S64x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v62) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg20) S128x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v63) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg22) S64x10.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v64) S1x10.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v65) S512x10.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x64 : Shape := ⟨2, ![50000, 64]⟩
abbrev S800000 : Shape := ⟨1, ![800000]⟩
abbrev S50000 : Shape := ⟨1, ![50000]⟩
abbrev S512 : Shape := ⟨1, ![512]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x10 : Shape := ⟨2, ![64, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S512x64 : Shape := ⟨2, ![512, 64]⟩
abbrev S512x128 : Shape := ⟨2, ![512, 128]⟩
abbrev S1x128 : Shape := ⟨2, ![1, 128]⟩
abbrev S512x10 : Shape := ⟨2, ![512, 10]⟩
abbrev S1x10 : Shape := ⟨2, ![1, 10]⟩

abbrev nBuf : Space → Nat
  | .hbm => 219
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S50000, .i32⟩
  | 4 => ⟨S512, .i32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S64x128, .f32⟩
  | 19 => ⟨S128, .f32⟩
  | 20 => ⟨S128x64, .f32⟩
  | 21 => ⟨S64, .f32⟩
  | 22 => ⟨S64x10, .f32⟩
  | 23 => ⟨S10, .f32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S_, .f32⟩
  | 47 => ⟨S50000x64, .f32⟩
  | 48 => ⟨S800000x1, .i32⟩
  | 49 => ⟨S50000x64, .f32⟩
  | 50 => ⟨S50000x64, .f32⟩
  | 51 => ⟨S50000x64, .f32⟩
  | 52 => ⟨S50000x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S_, .f32⟩
  | 62 => ⟨S64, .f32⟩
  | 63 => ⟨S_, .f32⟩
  | 64 => ⟨S64, .f32⟩
  | 65 => ⟨S64, .f32⟩
  | 66 => ⟨S_, .i32⟩
  | 67 => ⟨S_, .f32⟩
  | 68 => ⟨S64, .f32⟩
  | 69 => ⟨S1x64, .f32⟩
  | 70 => ⟨S_, .f32⟩
  | 71 => ⟨S1x64, .f32⟩
  | 72 => ⟨S1x64, .f32⟩
  | 73 => ⟨S50000x64, .f32⟩
  | 74 => ⟨S50000x64, .f32⟩
  | 75 => ⟨S50000x64, .f32⟩
  | 76 => ⟨S_, .f32⟩
  | 77 => ⟨S_, .f32⟩
  | 78 => ⟨S_, .f32⟩
  | 79 => ⟨S_, .f32⟩
  | 80 => ⟨S64, .f32⟩
  | 81 => ⟨S64, .f32⟩
  | 82 => ⟨S64, .f32⟩
  | 83 => ⟨S_, .f32⟩
  | 84 => ⟨S_, .i1⟩
  | 85 => ⟨S_, .f32⟩
  | 86 => ⟨S_, .f32⟩
  | 87 => ⟨S64, .f32⟩
  | 88 => ⟨S64, .f32⟩
  | 89 => ⟨S1x64, .f32⟩
  | 90 => ⟨S50000x64, .f32⟩
  | 91 => ⟨S50000x64, .f32⟩
  | 92 => ⟨S_, .f32⟩
  | 93 => ⟨S64, .f32⟩
  | 94 => ⟨S64, .f32⟩
  | 95 => ⟨S64, .f32⟩
  | 96 => ⟨S1x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S_, .f32⟩
  | 115 => ⟨S50000x64, .f32⟩
  | 116 => ⟨S800000x1, .i32⟩
  | 117 => ⟨S50000x64, .f32⟩
  | 118 => ⟨S50000x64, .f32⟩
  | 119 => ⟨S50000x64, .f32⟩
  | 120 => ⟨S50000x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S_, .f32⟩
  | 127 => ⟨S50000x64, .f32⟩
  | _ => ⟨S50000x64, .f32⟩

abbrev hbmTy0_1 (i : Nat) : BufTy := match i % 128 with
  | 0 => ⟨S50000x64, .f32⟩
  | 1 => ⟨S_, .f32⟩
  | 2 => ⟨S64, .f32⟩
  | 3 => ⟨S_, .f32⟩
  | 4 => ⟨S64, .f32⟩
  | 5 => ⟨S64, .f32⟩
  | 6 => ⟨S_, .i32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S50000x64, .f32⟩
  | 14 => ⟨S50000x64, .f32⟩
  | 15 => ⟨S50000x64, .f32⟩
  | 16 => ⟨S_, .f32⟩
  | 17 => ⟨S_, .f32⟩
  | 18 => ⟨S_, .f32⟩
  | 19 => ⟨S_, .f32⟩
  | 20 => ⟨S64, .f32⟩
  | 21 => ⟨S64, .f32⟩
  | 22 => ⟨S64, .f32⟩
  | 23 => ⟨S_, .f32⟩
  | 24 => ⟨S_, .i1⟩
  | 25 => ⟨S_, .f32⟩
  | 26 => ⟨S_, .f32⟩
  | 27 => ⟨S64, .f32⟩
  | 28 => ⟨S64, .f32⟩
  | 29 => ⟨S1x64, .f32⟩
  | 30 => ⟨S50000x64, .f32⟩
  | 31 => ⟨S50000x64, .f32⟩
  | 32 => ⟨S_, .f32⟩
  | 33 => ⟨S64, .f32⟩
  | 34 => ⟨S64, .f32⟩
  | 35 => ⟨S64, .f32⟩
  | 36 => ⟨S1x64, .f32⟩
  | 37 => ⟨S50000x64, .f32⟩
  | 38 => ⟨S50000x64, .f32⟩
  | 39 => ⟨S1x64, .f32⟩
  | 40 => ⟨S50000x64, .f32⟩
  | 41 => ⟨S50000x64, .f32⟩
  | 42 => ⟨S1x64, .f32⟩
  | 43 => ⟨S50000x64, .f32⟩
  | 44 => ⟨S50000x64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S50000x64, .f32⟩
  | 59 => ⟨S50000x64, .f32⟩
  | 60 => ⟨S50000x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S_, .f32⟩
  | 70 => ⟨S512x64, .f32⟩
  | 71 => ⟨S50000x1, .i32⟩
  | 72 => ⟨S512x64, .f32⟩
  | 73 => ⟨S512x128, .f32⟩
  | 74 => ⟨S1x128, .f32⟩
  | 75 => ⟨S512x128, .f32⟩
  | 76 => ⟨S512x128, .f32⟩
  | 77 => ⟨S_, .f32⟩
  | 78 => ⟨S512x128, .f32⟩
  | 79 => ⟨S512x128, .f32⟩
  | 80 => ⟨S512x64, .f32⟩
  | 81 => ⟨S1x64, .f32⟩
  | 82 => ⟨S512x64, .f32⟩
  | 83 => ⟨S512x64, .f32⟩
  | 84 => ⟨S_, .f32⟩
  | 85 => ⟨S512x64, .f32⟩
  | 86 => ⟨S512x64, .f32⟩
  | 87 => ⟨S512x10, .f32⟩
  | 88 => ⟨S1x10, .f32⟩
  | 89 => ⟨S512x10, .f32⟩
  | 90 => ⟨S512x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_cst_0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst_1 : Ref sig .tc := ⟨.hbm, 30, rfl⟩
abbrev main_v4 : Ref sig .tc := ⟨.hbm, 31, rfl⟩
abbrev main_v5 : Ref sig .tc := ⟨.hbm, 32, rfl⟩
abbrev main_cst_2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_c : Ref sig .tc := ⟨.hbm, 37, rfl⟩
abbrev main_v9 : Ref sig .tc := ⟨.hbm, 38, rfl⟩
abbrev main_v10 : Ref sig .tc := ⟨.hbm, 39, rfl⟩
abbrev main_c_3 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call0_cst : Ref sig .tc := ⟨.hbm, 58, rfl⟩
abbrev main_call0_v0 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_cst_6 : Ref sig .tc := ⟨.hbm, 63, rfl⟩
abbrev main_v29 : Ref sig .tc := ⟨.hbm, 64, rfl⟩
abbrev main_v30 : Ref sig .tc := ⟨.hbm, 65, rfl⟩
abbrev main_c_7 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_cst_2 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_cst_3 : Ref sig .tc := ⟨.hbm, 83, rfl⟩
abbrev main_call1_v12 : Ref sig .tc := ⟨.hbm, 84, rfl⟩
abbrev main_call1_cst_4 : Ref sig .tc := ⟨.hbm, 85, rfl⟩
abbrev main_call1_call0_v0 : Ref sig .tc := ⟨.hbm, 86, rfl⟩
abbrev main_call1_call0_v1 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_8 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_c_9 : Ref sig .tc := ⟨.hbm, 105, rfl⟩
abbrev main_v47 : Ref sig .tc := ⟨.hbm, 106, rfl⟩
abbrev main_v48 : Ref sig .tc := ⟨.hbm, 107, rfl⟩
abbrev main_c_10 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_11 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_call2_cst : Ref sig .tc := ⟨.hbm, 126, rfl⟩
abbrev main_call2_v0 : Ref sig .tc := ⟨.hbm, 127, rfl⟩
abbrev main_v65 : Ref sig .tc := ⟨.hbm, 128, rfl⟩
abbrev main_cst_12 : Ref sig .tc := ⟨.hbm, 129, rfl⟩
abbrev main_v66 : Ref sig .tc := ⟨.hbm, 130, rfl⟩
abbrev main_cst_13 : Ref sig .tc := ⟨.hbm, 131, rfl⟩
abbrev main_v67 : Ref sig .tc := ⟨.hbm, 132, rfl⟩
abbrev main_v68 : Ref sig .tc := ⟨.hbm, 133, rfl⟩
abbrev main_c_14 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_cst_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_v7 : Ref sig .tc := ⟨.hbm, 144, rfl⟩
abbrev main_call3_cst_1 : Ref sig .tc := ⟨.hbm, 145, rfl⟩
abbrev main_call3_v8 : Ref sig .tc := ⟨.hbm, 146, rfl⟩
abbrev main_call3_cst_2 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_cst_3 : Ref sig .tc := ⟨.hbm, 151, rfl⟩
abbrev main_call3_v12 : Ref sig .tc := ⟨.hbm, 152, rfl⟩
abbrev main_call3_cst_4 : Ref sig .tc := ⟨.hbm, 153, rfl⟩
abbrev main_call3_call0_v0 : Ref sig .tc := ⟨.hbm, 154, rfl⟩
abbrev main_call3_call0_v1 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_cst_15 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_c_16 : Ref sig .tc := ⟨.hbm, 173, rfl⟩
abbrev main_v85 : Ref sig .tc := ⟨.hbm, 174, rfl⟩
abbrev main_v86 : Ref sig .tc := ⟨.hbm, 175, rfl⟩
abbrev main_c_17 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_cst_18 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_call4_cst : Ref sig .tc := ⟨.hbm, 194, rfl⟩
abbrev main_call4_v0 : Ref sig .tc := ⟨.hbm, 195, rfl⟩
abbrev main_v103 : Ref sig .tc := ⟨.hbm, 196, rfl⟩
abbrev main_cst_19 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_call5_cst : Ref sig .tc := ⟨.hbm, 205, rfl⟩
abbrev main_call5_v0 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_call6_cst : Ref sig .tc := ⟨.hbm, 212, rfl⟩
abbrev main_call6_v0 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S512x64 : S_.BroadcastsInDim S512x64 (![] : Fin 0 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1x64_S512x64_0_1 : S1x64.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  dot_S512x64_S64x128_S512x128_1_0_0_1_n_n_wf : DotDims.WF S512x64 S64x128 S512x128 [1] [0] [0] [1] [] []
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KRegion0.lean ====
/-
  Region 0 of the program (the call of cc0__sage_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.Kernel.Launch
import proofs.«159573_j34617436406345_1_alg».proof.Proof.Gen.Kernel.Skeleton
import proofs.«159573_j34617436406345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S5000x64 := Rect.unit (s := S5000x64) ![0, 0] S5000x64.size inb_S5000x64_S5000x64_0_0
abbrev r0_2 : Rect S64x64 := Rect.unit (s := S64x64) ![0, 0] S64x64.size inb_S64x64_S64x64_0_0
abbrev r0_3 : Rect S64x64 := Rect.unit (s := S64x64) ![0, 0] S64x64.size inb_S64x64_S64x64_0_0
abbrev r0_4 : Rect S1x64 := Rect.unit (s := S1x64) ![0, 0] S1x64.size inb_S1x64_S1x64_0_0
abbrev r0_5 : Rect S5000x64 := Rect.unit (s := S5000x64) ![0, 0] S5000x64.size inb_S5000x64_S5000x64_0_0

/-- What the body leaves in the output window's buffer: its one store, over the whole block, of the value computed
    from the loaded input blocks. -/
def out0_5 (x0 : Vec F S5000x64 .f32) (x1 : Vec F S5000x64 .f32) (x2 : Vec F S64x64 .f32) (x3 : Vec F S64x64 .f32) (x4 : Vec F S1x64 .f32) : Vec F S5000x64 .f32 :=
  View.canon [⟨r0_5, k0_pay1 (View.ld x0 r0_0) (View.ld x1 r0_1) (View.ld x2 r0_2) (View.ld x3 r0_3) (View.ld x4 r0_4)⟩]

theorem cover0_5 (p0 : Vec F S5000x64 .f32) (y : S5000x64.Idx) :
    ∃ pc ∈ ([⟨r0_5, p0⟩] : List (View.Piece (Elt F) S5000x64 .f32)), y ∈ pc.1.set :=
  View.cover_of_tiled [⟨r0_5, p0⟩] S5000x64.size (by rfl) y

set_option maxHeartbeats 1000000 in
/-- The body on whole staging memrefs, the inputs' at read contents and the output's at anything, runs to the
    continuation holding the inputs' as they were and the output's at the stored value. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover0_5 _)

/-- The proof data of the pipeline on core c: the arrays as the region finds them; after the body at point t each
    input's buffer at its block and the output's at the stored value of the input blocks; the invariant the pipeline's
    own; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  Region 1 of the program (the call of the batch-statistics kernel): the proof data of its pipeline at any entry
  contents V, and the body obligation at every grid point. The body adds, at every point, the column sums of the
  point's block and of its squares onto two scratch rows that it zeroes at the first point; only at the last point
  does it divide them by the row count and store the mean and the variance into the two output blocks, which are
  idle before that and written back once. So the invariant between points holds the two scratch rows at what the
  points so far have accumulated, and the outputs' buffers pass through the earlier points untouched.
-/
import proofs.«159573_j34617436406345_1_alg».proof.Proof.Gen.Kernel.Launch
import proofs.«159573_j34617436406345_1_alg».proof.Proof.Gen.Kernel.Skeleton
import proofs.«159573_j34617436406345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- The first conditional's test: the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second conditional's test: the point is the last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-- The input window is never idle; the two outputs are idle, and not written back, exactly before the last point. -/
theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The memrefs the body is called with -/

abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
/-- The two scratch rows: whole scoped buffers of the kernel's own. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view

/-- The scoped buffers of the core that belong to no window of this region and are not its two scratch rows. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The pipeline's own invariant with the two scratch rows taken out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 c) ∗ (∃ r, prngReg c r)) := by
  unfold Pipeline.ΦA; rw [scopedRest1_split]; simp only [scM1_0, scM1_1, owns_whole]; try rfl

/-! ## The body, run once per control case -/

set_option maxHeartbeats 1000000 in
/-- The first point: both scratch rows are zeroed and then receive the block's column sums; the outputs' buffers
    are handed back as found. The lists are the stores the run finds for the two scratch rows, last first. -/
noncomputable def kernelRun1_A (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, fun xi1 xi2 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A middle point: the scratch rows, at what the points before left, receive the block's column sums; the outputs'
    buffers are handed back as found. -/
noncomputable def kernelRun1_B (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, fun xi1 xi2 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the scratch rows receive the last block's column sums, and the mean and the variance computed
    from them are stored over the two output blocks. -/
noncomputable def kernelRun1_C (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

/-! ## What each case leaves in the scratch rows and the outputs -/

def sout1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VS1_0.read (Elt F) (VS1_0.writes (Elt F) VS1_0.junk ((kernelRun1_A c i arg1 harg1 arg2 harg2 arg3 harg3 arg4 harg4 arg5 harg5 hc0 hc1 x0).1))

def sout1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VS1_1.read (Elt F) (VS1_1.writes (Elt F) VS1_1.junk ((kernelRun1_A c i arg1 harg1 arg2 harg2 arg3 harg3 arg4 harg4 arg5 harg5 hc0 hc1 x0).2.1))

theorem scover1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) (y : S1x64.Idx) :
    ∃ pc ∈ (kernelRun1_A c i arg1 harg1 arg2 harg2 arg3 harg3 arg4 harg4 arg5 harg5 hc0 hc1 x0).1, y ∈ pc.1.set :=
  View.cover_of_tiledL (kernelRun1_A c i arg1 harg1 arg2 harg2 arg3 harg3 arg4 harg4 arg5 harg5 hc0 hc1 x0).1 S1x64.size (by sl_kernel_rfl) y

theorem scover1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) (y : S1x64.Idx) :
    ∃ pc ∈ (kernelRun1_A c i arg1 harg1 arg2 harg2 arg3 harg3 arg4 harg4 arg5 harg5 hc0 hc1 x0).2.1, y ∈ pc.1.set :=
  View.cover_of_tiledL (kernelRun1_A c i arg1 harg1 arg2 harg2 arg3 harg3 arg4 harg4 arg5 harg5 hc0 hc1 x0).2.1 S1x64.size (by sl_kernel_rfl) y

def sout1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VS1_0.read (Elt F) (VS1_0.writes (Elt F) VS1_0.junk ((kernelRun1_B c i arg1 harg1 arg2 harg2 arg3 harg3 arg4 harg4 arg5 harg5 hc0 hc1 x0 xs0 xs1).1))

def sout1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VS1_1.read (Elt F) (VS1_1.writes (Elt F) VS1_1.junk ((kernelRun1_B c i arg1 harg1 arg2 harg2 arg3 harg3 arg4 harg4 arg5 harg5 hc0 hc1 x0 xs0 xs1).2.1))

theorem scover1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).1, y ∈ pc.1.set :=
  View.cover_of_tiledL (kernelRun1_B c i arg1 harg1 arg2 harg2 arg3 harg3 arg4 harg4 arg5 harg5 hc0 hc1 x0 xs0 xs1).1 S1x64.size (by sl_kernel_rfl) y

theorem scover1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).2.1, y ∈ pc.1.set :=
  View.cover_of_tiledL (kernelRun1_B c i arg1 harg1 arg2 harg2 arg3 harg3 arg4 harg4 arg5 harg5 hc0 hc1 x0 xs0 xs1).2.1 S1x64.size (by sl_kernel_rfl) y

def out1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VO1_1.read (Elt F) (VO1_1.writes (Elt F) VO1_1.junk ((kernelRun1_C c i arg1 harg1 arg2 harg2 arg3 harg3 arg4 harg4 arg5 harg5 hc0 hc1 x0 xs0 xs1).1))

def out1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VO1_2.read (Elt F) (VO1_2.writes (Elt F) VO1_2.junk ((kernelRun1_C c i arg1 harg1 arg2 harg2 arg3 harg3 arg4 harg4 arg5 harg5 hc0 hc1 x0 xs0 xs1).2.1))

def sout1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VS1_0.read (Elt F) (VS1_0.writes (Elt F) VS1_0.junk ((kernelRun1_C c i arg1 harg1 arg2 harg2 arg3 harg3 arg4 harg4 arg5 harg5 hc0 hc1 x0 xs0 xs1).2.2.1))

def sout1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VS1_1.read (Elt F) (VS1_1.writes (Elt F) VS1_1.junk ((kernelRun1_C c i arg1 harg1 arg2 harg2 arg3 harg3 arg4 harg4 arg5 harg5 hc0 hc1 x0 xs0 xs1).2.2.2.1))

theorem cover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x64.size (by sl_kernel_rfl) y

theorem cover1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x64.size (by sl_kernel_rfl) y

theorem scover1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x64.size (by sl_kernel_rfl) y

theorem scover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x64.size (by sl_kernel_rfl) y

/-! ## What the scratch rows hold after each point -/

/-- The two scratch rows after the body at position n: the first point's case from anything, every later point's
    case over what the point before left. -/
def sAt1 (c : Dev nD) : (n : ℕ) → n < cfg1.N → Vec F S1x64 .f32 × Vec F S1x64 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr rfl) (fun h => by have h9 := (hcond1_1 ⟨0, hn⟩).mp h; simp at h9) (iblk1 V c 0 ⟨0, hn⟩),
              sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr rfl) (fun h => by have h9 := (hcond1_1 ⟨0, hn⟩).mp h; simp at h9) (iblk1 V c 0 ⟨0, hn⟩))
  | n + 1, hn =>
    if h1 : n + 1 = 9 then
      (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (sAt1 c n (Nat.lt_of_succ_lt hn)).1 (sAt1 c n (Nat.lt_of_succ_lt hn)).2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (sAt1 c n (Nat.lt_of_succ_lt hn)).1 (sAt1 c n (Nat.lt_of_succ_lt hn)).2)
    else
      (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (sAt1 c n (Nat.lt_of_succ_lt hn)).1 (sAt1 c n (Nat.lt_of_succ_lt hn)).2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (sAt1 c n (Nat.lt_of_succ_lt hn)).1 (sAt1 c n (Nat.lt_of_succ_lt hn)).2)

theorem sAt1_A (c : Dev nD) (t : Fin cfg1.N) (h0 : t.val = 0) (hc0 : cond1_0 (grid1.coords t)) (hc1 : ¬cond1_1 (grid1.coords t)) :
    sAt1 V c t.val t.isLt = (sout1_A_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t)) := by
  obtain ⟨n, hn⟩ := t
  cases n with
  | zero => rfl
  | succ n => exact absurd h0 (Nat.succ_ne_zero n)

theorem sAt1_B (c : Dev nD) (t : Fin cfg1.N) (h0 : t.val ≠ 0) (h1 : t.val ≠ 9) (hc0 : ¬cond1_0 (grid1.coords t)) (hc1 : ¬cond1_1 (grid1.coords t)) :
    sAt1 V c t.val t.isLt = (sout1_B_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2,
      sout1_B_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2) := by
  obtain ⟨n, hn⟩ := t
  cases n with
  | zero => exact absurd rfl h0
  | succ n => exact (dif_neg h1).trans rfl

theorem sAt1_C (c : Dev nD) (t : Fin cfg1.N) (h1 : t.val = 9) (hc0 : ¬cond1_0 (grid1.coords t)) (hc1 : cond1_1 (grid1.coords t)) :
    sAt1 V c t.val t.isLt = (sout1_C_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2,
      sout1_C_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2) := by
  obtain ⟨n, hn⟩ := t
  cases n with
  | zero => simp at h1
  | succ n => exact (dif_pos h1).trans rfl

/-- The two outputs' buffers after the body at point t: at the last point the mean and the variance computed from
    the scratch rows; before it the window is idle and nothing consults this value. -/
def oAt1 (c : Dev nD) (t : Fin cfg1.N) : Vec F S1x64 .f32 × Vec F S1x64 .f32 :=
  if h1 : t.val = 9 then
    (out1_C_1 c (grid1.coords t) (ms1_0 t) (hs1_0 t) (ms1_1 t) (hs1_1 t) (ms1_2 t) (hs1_2 t) scM1_0 (Memref.isWhole_whole _) scM1_1 (Memref.isWhole_whole _) (fun h => absurd ((hcond1_0 t).mp h) (by omega)) ((hcond1_1 t).mpr h1) (iblk1 V c 0 t) (sAt1 V c (t.val - 1) (Nat.lt_of_le_of_lt (Nat.sub_le _ _) t.isLt)).1 (sAt1 V c (t.val - 1) (Nat.lt_of_le_of_lt (Nat.sub_le _ _) t.isLt)).2,
     out1_C_2 c (grid1.coords t) (ms1_0 t) (hs1_0 t) (ms1_1 t) (hs1_1 t) (ms1_2 t) (hs1_2 t) scM1_0 (Memref.isWhole_whole _) scM1_1 (Memref.isWhole_whole _) (fun h => absurd ((hcond1_0 t).mp h) (by omega)) ((hcond1_1 t).mpr h1) (iblk1 V c 0 t) (sAt1 V c (t.val - 1) (Nat.lt_of_le_of_lt (Nat.sub_le _ _) t.isLt)).1 (sAt1 V c (t.val - 1) (Nat.lt_of_le_of_lt (Nat.sub_le _ _) t.isLt)).2)
  else (VO1_1.read (Elt F) VO1_1.junk, VO1_2.read (Elt F) VO1_2.junk)

theorem oAt1_C (c : Dev nD) (t : Fin cfg1.N) (h1 : t.val = 9) (hc0 : ¬cond1_0 (grid1.coords t)) (hc1 : cond1_1 (grid1.coords t)) :
    oAt1 V c t = (out1_C_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2,
      out1_C_2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2) :=
  dif_pos h1

/-! ## The invariant between points, and the proof data -/

/-- Before the first point the pipeline's own invariant (every scratch at anything); afterwards the two scratch
    rows at what the point before left, beside the other scoped buffers and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare (sAt1 V c n hn).1 ∗ owns (c : Thread nD τ) scM1_1 fullShare (sAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (sAt1 V c n hn).1 ∗ owns (c : Thread nD τ) scM1_1 fullShare (sAt1 V c n hn).2) ∗ restBut1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (sAt1 V c (n - 1) (by omega)).1 ∗ owns (c : Thread nD τ) scM1_1 fullShare (sAt1 V c (n - 1) (by omega)).2) ∗ restBut1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (oAt1 V c t).1
    | ⟨2, _⟩ => (oAt1 V c t).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (oAt1 V c t).1 := by dsimp only [dat1]
theorem after1_2 (c : Dev nD) (t : Fin cfg1.N) : (dat1 V c).after 2 t = (oAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which of the three cases the point is in is decided by its position; the invariant hands
    the body the scratch rows at what the point before left (at anything at the first point) and takes them back at
    this point's contents; the outputs' buffers come back as found except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
      unfold Dat.leavesExact; rw [liveAt1_0 t], after1_0]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    rw [sAt1_A V c t h0 hc0 hc1]
    unfold sout1_A_0 sout1_A_1; (try dsimp only)
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩⟩
    iapply ((kernelRun1_A c (grid1.coords t) _ _ _ _ _ _ _ _ _ _ hc0 hc1 (iblk1 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ hc0 hc1 _)
          · unfold owns; iexists _; isplitr
            swap; · iexact HS1
            ipureintro; exact View.read_writes_of_cover _ _ _ _ _ (scover1_A_1 c _ _ _ _ _ _ _ _ _ _ _ hc0 hc1 _)
        iexact Hrest
      iexact Hg
    isplitl [Ho]; · iexact Ho
    isplitl [H0]; · iexact H0
    isplitl [H1]; · iexists _; iexact H1
    iexists _; iexact H2
  · have hc0 : ¬cond1_0 (grid1.coords t) := fun h => h0 ((hcond1_0 t).mp h)
    by_cases h1 : t.val = 9
    · have hc1 : cond1_1 (grid1.coords t) := (hcond1_1 t).mpr h1
      rw [show (dat1 V c).leavesExact 1 t = owns (c : Thread nD τ) (ms1_1 t) fullShare ((dat1 V c).after 1 t) from by
          unfold Dat.leavesExact; rw [liveAt1_1 t hc1], after1_1]
      rw [show (dat1 V c).leavesExact 2 t = owns (c : Thread nD τ) (ms1_2 t) fullShare ((dat1 V c).after 2 t) from by
          unfold Dat.leavesExact; rw [liveAt1_2 t hc1], after1_2]
      rw [sAt1_C V c t h1 hc0 hc1, oAt1_C V c t h1 hc0 hc1]
      unfold out1_C_1 out1_C_2 sout1_C_0 sout1_C_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩⟩
      iapply ((kernelRun1_C c (grid1.coords t) _ _ _ _ _ _ _ _ _ _ hc0 hc1 (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ hc0 hc1 _ _ _)
            · unfold owns; iexists _; isplitr
              swap; · iexact HS1
              ipureintro; exact View.read_writes_of_cover _ _ _ _ _ (scover1_C_1 c _ _ _ _ _ _ _ _ _ _ _ hc0 hc1 _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ hc0 hc1 _ _ _)
      unfold owns; iexists _; isplitr
      swap; · iexact H2
      ipureintro; exact View.read_writes_of_cover _ _ _ _ _ (cover1_C_2 c _ _ _ _ _ _ _ _ _ _ _ hc0 hc1 _ _ _)
    · have hc1 : ¬cond1_1 (grid1.coords t) := fun h => h1 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      rw [sAt1_B V c t h0 h1 hc0 hc1]
      unfold sout1_B_0 sout1_B_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩⟩
      iapply ((kernelRun1_B c (grid1.coords t) _ _ _ _ _ _ _ _ _ _ hc0 hc1 (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ hc0 hc1 _ _ _)
            · unfold owns; iexists _; isplitr
              swap; · iexact HS1
              ipureintro; exact View.read_writes_of_cover _ _ _ _ _ (scover1_B_1 c _ _ _ _ _ _ _ _ _ _ _ hc0 hc1 _ _ _)
          iexact Hrest
        iexact Hg
      isplitl [Ho]; · iexact Ho
      isplitl [H0]; · iexact H0
      isplitl [H1]; · iexists _; iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the pipeline's own back: the scratch rows' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.KRegion2.lean ====
/-
  Region 2 of the program (the call of cc2__bn_apply_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.Kernel.Launch
import proofs.«159573_j34617436406345_1_alg».proof.Proof.Gen.Kernel.Skeleton
import proofs.«159573_j34617436406345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S5000x64 := Rect.unit (s := S5000x64) ![0, 0] S5000x64.size inb_S5000x64_S5000x64_0_0

/-- What the body leaves in the output window's buffer: its one store, over the whole block, of the value computed
    from the loaded input blocks. -/
def out2_5 (x0 : Vec F S5000x64 .f32) (x1 : Vec F S1x64 .f32) (x2 : Vec F S1x64 .f32) (x3 : Vec F S1x64 .f32) (x4 : Vec F S1x64 .f32) : Vec F S5000x64 .f32 :=
  View.canon [⟨r2_5, k2_pay1 (View.ld x0 r2_0) (View.ld x1 r2_1) (View.ld x2 r2_2) (View.ld x3 r2_3) (View.ld x4 r2_4)⟩]

theorem cover2_5 (p0 : Vec F S5000x64 .f32) (y : S5000x64.Idx) :
    ∃ pc ∈ ([⟨r2_5, p0⟩] : List (View.Piece (Elt F) S5000x64 .f32)), y ∈ pc.1.set :=
  View.cover_of_tiled [⟨r2_5, p0⟩] S5000x64.size (by rfl) y

set_option maxHeartbeats 1000000 in
/-- The body on whole staging memrefs, the inputs' at read contents and the output's at anything, runs to the
    continuation holding the inputs' as they were and the output's at the stored value. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover2_5 _)

/-- The proof data of the pipeline on core c: the arrays as the region finds them; after the body at point t each
    input's buffer at its block and the output's at the stored value of the input blocks; the invariant the pipeline's
    own; nothing owed; whole shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
/-
  Region 3 of the program (the call of cc3__sage_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.Kernel.Launch
import proofs.«159573_j34617436406345_1_alg».proof.Proof.Gen.Kernel.Skeleton
import proofs.«159573_j34617436406345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x64 := Rect.unit (s := S5000x64) ![0, 0] S5000x64.size inb_S5000x64_S5000x64_0_0
abbrev r3_1 : Rect S5000x64 := Rect.unit (s := S5000x64) ![0, 0] S5000x64.size inb_S5000x64_S5000x64_0_0
abbrev r3_2 : Rect S64x64 := Rect.unit (s := S64x64) ![0, 0] S64x64.size inb_S64x64_S64x64_0_0
abbrev r3_3 : Rect S64x64 := Rect.unit (s := S64x64) ![0, 0] S64x64.size inb_S64x64_S64x64_0_0
abbrev r3_4 : Rect S1x64 := Rect.unit (s := S1x64) ![0, 0] S1x64.size inb_S1x64_S1x64_0_0
abbrev r3_5 : Rect S5000x64 := Rect.unit (s := S5000x64) ![0, 0] S5000x64.size inb_S5000x64_S5000x64_0_0

/-- What the body leaves in the output window's buffer: its one store, over the whole block, of the value computed
    from the loaded input blocks. -/
def out3_5 (x0 : Vec F S5000x64 .f32) (x1 : Vec F S5000x64 .f32) (x2 : Vec F S64x64 .f32) (x3 : Vec F S64x64 .f32) (x4 : Vec F S1x64 .f32) : Vec F S5000x64 .f32 :=
  View.canon [⟨r3_5, k3_pay1 (View.ld x0 r3_0) (View.ld x1 r3_1) (View.ld x2 r3_2) (View.ld x3 r3_3) (View.ld x4 r3_4)⟩]

theorem cover3_5 (p0 : Vec F S5000x64 .f32) (y : S5000x64.Idx) :
    ∃ pc ∈ ([⟨r3_5, p0⟩] : List (View.Piece (Elt F) S5000x64 .f32)), y ∈ pc.1.set :=
  View.cover_of_tiled [⟨r3_5, p0⟩] S5000x64.size (by rfl) y

set_option maxHeartbeats 1000000 in
/-- The body on whole staging memrefs, the inputs' at read contents and the output's at anything, runs to the
    continuation holding the inputs' as they were and the output's at the stored value. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__sage_kernel i arg1 harg1 arg2 harg2 arg3 harg3 arg4 harg4 arg5 harg5 arg6 harg6) K := by
  simp only [cc3__sage_kernel_eq_skeleton]; unfold cc3__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover3_5 _)

/-- The proof data of the pipeline on core c: the arrays as the region finds them; after the body at point t each
    input's buffer at its block and the output's at the stored value of the input blocks; the invariant the pipeline's
    own; nothing owed; whole shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegion4.lean ====
/-
  Region 4 of the program (the call of the batch-statistics kernel): the proof data of its pipeline at any entry
  contents V, and the body obligation at every grid point. The body adds, at every point, the column sums of the
  point's block and of its squares onto two scratch rows that it zeroes at the first point; only at the last point
  does it divide them by the row count and store the mean and the variance into the two output blocks, which are
  idle before that and written back once. So the invariant between points holds the two scratch rows at what the
  points so far have accumulated, and the outputs' buffers pass through the earlier points untouched.
-/
import proofs.«159573_j34617436406345_1_alg».proof.Proof.Gen.Kernel.Launch
import proofs.«159573_j34617436406345_1_alg».proof.Proof.Gen.Kernel.Skeleton
import proofs.«159573_j34617436406345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body, decided over the grid -/

/-- The first conditional's test: the point is the first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second conditional's test: the point is the last. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-- The input window is never idle; the two outputs are idle, and not written back, exactly before the last point. -/
theorem liveAt4_0 : ∀ t : Fin cfg4.N, cfg4.idle 0 (grid4.coords t) = false := by decide +kernel
theorem idleAt4_1 : ∀ t : Fin cfg4.N, ¬cond4_1 (grid4.coords t) → cfg4.idle 1 (grid4.coords t) = true := by decide +kernel
theorem idleAt4_2 : ∀ t : Fin cfg4.N, ¬cond4_1 (grid4.coords t) → cfg4.idle 2 (grid4.coords t) = true := by decide +kernel
theorem noFlush4_1 : ∀ t : Fin cfg4.N, ¬cond4_1 (grid4.coords t) → (cfg4.win 1).flush t = false := by decide +kernel
theorem noFlush4_2 : ∀ t : Fin cfg4.N, ¬cond4_1 (grid4.coords t) → (cfg4.win 2).flush t = false := by decide +kernel
theorem liveAt4_1 : ∀ t : Fin cfg4.N, cond4_1 (grid4.coords t) → cfg4.idle 1 (grid4.coords t) = false := by decide +kernel
theorem liveAt4_2 : ∀ t : Fin cfg4.N, cond4_1 (grid4.coords t) → cfg4.idle 2 (grid4.coords t) = false := by decide +kernel

/-! ## The memrefs the body is called with -/

abbrev VO4_1 : View sig .tc .vmem S1x64 .f32 := (Memref.whole cc4_stg1_0 : Memref sig .tc .vmem S1x64 .f32).view
abbrev VO4_2 : View sig .tc .vmem S1x64 .f32 := (Memref.whole cc4_stg2_0 : Memref sig .tc .vmem S1x64 .f32).view
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
/-- The two scratch rows: whole scoped buffers of the kernel's own. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view

/-- The scoped buffers of the core that belong to no window of this region and are not its two scratch rows. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The pipeline's own invariant with the two scratch rows taken out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ restBut4 c) ∗ (∃ r, prngReg c r)) := by
  unfold Pipeline.ΦA; rw [scopedRest4_split]; simp only [scM4_0, scM4_1, owns_whole]; try rfl

/-! ## The body, run once per control case -/

set_option maxHeartbeats 1000000 in
/-- The first point: both scratch rows are zeroed and then receive the block's column sums; the outputs' buffers
    are handed back as found. The lists are the stores the run finds for the two scratch rows, last first. -/
noncomputable def kernelRun4_A (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, fun xi1 xi2 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A middle point: the scratch rows, at what the points before left, receive the block's column sums; the outputs'
    buffers are handed back as found. -/
noncomputable def kernelRun4_B (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, fun xi1 xi2 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the scratch rows receive the last block's column sums, and the mean and the variance computed
    from them are stored over the two output blocks. -/
noncomputable def kernelRun4_C (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

/-! ## What each case leaves in the scratch rows and the outputs -/

def sout4_A_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) : Vec F S1x64 .f32 :=
  VS4_0.read (Elt F) (VS4_0.writes (Elt F) VS4_0.junk ((kernelRun4_A c i arg1 harg1 arg2 harg2 arg3 harg3 arg4 harg4 arg5 harg5 hc0 hc1 x0).1))

def sout4_A_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) : Vec F S1x64 .f32 :=
  VS4_1.read (Elt F) (VS4_1.writes (Elt F) VS4_1.junk ((kernelRun4_A c i arg1 harg1 arg2 harg2 arg3 harg3 arg4 harg4 arg5 harg5 hc0 hc1 x0).2.1))

theorem scover4_A_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) (y : S1x64.Idx) :
    ∃ pc ∈ (kernelRun4_A c i arg1 harg1 arg2 harg2 arg3 harg3 arg4 harg4 arg5 harg5 hc0 hc1 x0).1, y ∈ pc.1.set :=
  View.cover_of_tiledL (kernelRun4_A c i arg1 harg1 arg2 harg2 arg3 harg3 arg4 harg4 arg5 harg5 hc0 hc1 x0).1 S1x64.size (by sl_kernel_rfl) y

theorem scover4_A_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) (y : S1x64.Idx) :
    ∃ pc ∈ (kernelRun4_A c i arg1 harg1 arg2 harg2 arg3 harg3 arg4 harg4 arg5 harg5 hc0 hc1 x0).2.1, y ∈ pc.1.set :=
  View.cover_of_tiledL (kernelRun4_A c i arg1 harg1 arg2 harg2 arg3 harg3 arg4 harg4 arg5 harg5 hc0 hc1 x0).2.1 S1x64.size (by sl_kernel_rfl) y

def sout4_B_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) : Vec F S1x64 .f32 :=
  VS4_0.read (Elt F) (VS4_0.writes (Elt F) VS4_0.junk ((kernelRun4_B c i arg1 harg1 arg2 harg2 arg3 harg3 arg4 harg4 arg5 harg5 hc0 hc1 x0 xs0 xs1).1))

def sout4_B_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) : Vec F S1x64 .f32 :=
  VS4_1.read (Elt F) (VS4_1.writes (Elt F) VS4_1.junk ((kernelRun4_B c i arg1 harg1 arg2 harg2 arg3 harg3 arg4 harg4 arg5 harg5 hc0 hc1 x0 xs0 xs1).2.1))

theorem scover4_B_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) (y : S1x64.Idx) :
    ∃ pc ∈ (kernelRun4_B c i arg1 harg1 arg2 harg2 arg3 harg3 arg4 harg4 arg5 harg5 hc0 hc1 x0 xs0 xs1).1, y ∈ pc.1.set :=
  View.cover_of_tiledL (kernelRun4_B c i arg1 harg1 arg2 harg2 arg3 harg3 arg4 harg4 arg5 harg5 hc0 hc1 x0 xs0 xs1).1 S1x64.size (by sl_kernel_rfl) y

theorem scover4_B_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) (y : S1x64.Idx) :
    ∃ pc ∈ (kernelRun4_B c i arg1 harg1 arg2 harg2 arg3 harg3 arg4 harg4 arg5 harg5 hc0 hc1 x0 xs0 xs1).2.1, y ∈ pc.1.set :=
  View.cover_of_tiledL (kernelRun4_B c i arg1 harg1 arg2 harg2 arg3 harg3 arg4 harg4 arg5 harg5 hc0 hc1 x0 xs0 xs1).2.1 S1x64.size (by sl_kernel_rfl) y

def out4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) : Vec F S1x64 .f32 :=
  VO4_1.read (Elt F) (VO4_1.writes (Elt F) VO4_1.junk ((kernelRun4_C c i arg1 harg1 arg2 harg2 arg3 harg3 arg4 harg4 arg5 harg5 hc0 hc1 x0 xs0 xs1).1))

def out4_C_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) : Vec F S1x64 .f32 :=
  VO4_2.read (Elt F) (VO4_2.writes (Elt F) VO4_2.junk ((kernelRun4_C c i arg1 harg1 arg2 harg2 arg3 harg3 arg4 harg4 arg5 harg5 hc0 hc1 x0 xs0 xs1).2.1))

def sout4_C_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) : Vec F S1x64 .f32 :=
  VS4_0.read (Elt F) (VS4_0.writes (Elt F) VS4_0.junk ((kernelRun4_C c i arg1 harg1 arg2 harg2 arg3 harg3 arg4 harg4 arg5 harg5 hc0 hc1 x0 xs0 xs1).2.2.1))

def sout4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) : Vec F S1x64 .f32 :=
  VS4_1.read (Elt F) (VS4_1.writes (Elt F) VS4_1.junk ((kernelRun4_C c i arg1 harg1 arg2 harg2 arg3 harg3 arg4 harg4 arg5 harg5 hc0 hc1 x0 xs0 xs1).2.2.2.1))

theorem cover4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) (y : S1x64.Idx) :
    ∃ pc ∈ (kernelRun4_C c i arg1 harg1 arg2 harg2 arg3 harg3 arg4 harg4 arg5 harg5 hc0 hc1 x0 xs0 xs1).1, y ∈ pc.1.set :=
  View.cover_of_tiledL (kernelRun4_C c i arg1 harg1 arg2 harg2 arg3 harg3 arg4 harg4 arg5 harg5 hc0 hc1 x0 xs0 xs1).1 S1x64.size (by sl_kernel_rfl) y

theorem cover4_C_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) (y : S1x64.Idx) :
    ∃ pc ∈ (kernelRun4_C c i arg1 harg1 arg2 harg2 arg3 harg3 arg4 harg4 arg5 harg5 hc0 hc1 x0 xs0 xs1).2.1, y ∈ pc.1.set :=
  View.cover_of_tiledL (kernelRun4_C c i arg1 harg1 arg2 harg2 arg3 harg3 arg4 harg4 arg5 harg5 hc0 hc1 x0 xs0 xs1).2.1 S1x64.size (by sl_kernel_rfl) y

theorem scover4_C_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) (y : S1x64.Idx) :
    ∃ pc ∈ (kernelRun4_C c i arg1 harg1 arg2 harg2 arg3 harg3 arg4 harg4 arg5 harg5 hc0 hc1 x0 xs0 xs1).2.2.1, y ∈ pc.1.set :=
  View.cover_of_tiledL (kernelRun4_C c i arg1 harg1 arg2 harg2 arg3 harg3 arg4 harg4 arg5 harg5 hc0 hc1 x0 xs0 xs1).2.2.1 S1x64.size (by sl_kernel_rfl) y

theorem scover4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) (y : S1x64.Idx) :
    ∃ pc ∈ (kernelRun4_C c i arg1 harg1 arg2 harg2 arg3 harg3 arg4 harg4 arg5 harg5 hc0 hc1 x0 xs0 xs1).2.2.2.1, y ∈ pc.1.set :=
  View.cover_of_tiledL (kernelRun4_C c i arg1 harg1 arg2 harg2 arg3 harg3 arg4 harg4 arg5 harg5 hc0 hc1 x0 xs0 xs1).2.2.2.1 S1x64.size (by sl_kernel_rfl) y

/-! ## What the scratch rows hold after each point -/

/-- The two scratch rows after the body at position n: the first point's case from anything, every later point's
    case over what the point before left. -/
def sAt4 (c : Dev nD) : (n : ℕ) → n < cfg4.N → Vec F S1x64 .f32 × Vec F S1x64 .f32
  | 0, hn => (sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr rfl) (fun h => by have h9 := (hcond4_1 ⟨0, hn⟩).mp h; simp at h9) (iblk4 V c 0 ⟨0, hn⟩),
              sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr rfl) (fun h => by have h9 := (hcond4_1 ⟨0, hn⟩).mp h; simp at h9) (iblk4 V c 0 ⟨0, hn⟩))
  | n + 1, hn =>
    if h1 : n + 1 = 9 then
      (sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (sAt4 c n (Nat.lt_of_succ_lt hn)).1 (sAt4 c n (Nat.lt_of_succ_lt hn)).2,
       sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (sAt4 c n (Nat.lt_of_succ_lt hn)).1 (sAt4 c n (Nat.lt_of_succ_lt hn)).2)
    else
      (sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (sAt4 c n (Nat.lt_of_succ_lt hn)).1 (sAt4 c n (Nat.lt_of_succ_lt hn)).2,
       sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (sAt4 c n (Nat.lt_of_succ_lt hn)).1 (sAt4 c n (Nat.lt_of_succ_lt hn)).2)

theorem sAt4_A (c : Dev nD) (t : Fin cfg4.N) (h0 : t.val = 0) (hc0 : cond4_0 (grid4.coords t)) (hc1 : ¬cond4_1 (grid4.coords t)) :
    sAt4 V c t.val t.isLt = (sout4_A_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t), sout4_A_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t)) := by
  obtain ⟨n, hn⟩ := t
  cases n with
  | zero => rfl
  | succ n => exact absurd h0 (Nat.succ_ne_zero n)

theorem sAt4_B (c : Dev nD) (t : Fin cfg4.N) (h0 : t.val ≠ 0) (h1 : t.val ≠ 9) (hc0 : ¬cond4_0 (grid4.coords t)) (hc1 : ¬cond4_1 (grid4.coords t)) :
    sAt4 V c t.val t.isLt = (sout4_B_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2,
      sout4_B_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2) := by
  obtain ⟨n, hn⟩ := t
  cases n with
  | zero => exact absurd rfl h0
  | succ n => exact (dif_neg h1).trans rfl

theorem sAt4_C (c : Dev nD) (t : Fin cfg4.N) (h1 : t.val = 9) (hc0 : ¬cond4_0 (grid4.coords t)) (hc1 : cond4_1 (grid4.coords t)) :
    sAt4 V c t.val t.isLt = (sout4_C_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2,
      sout4_C_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2) := by
  obtain ⟨n, hn⟩ := t
  cases n with
  | zero => simp at h1
  | succ n => exact (dif_pos h1).trans rfl

/-- The two outputs' buffers after the body at point t: at the last point the mean and the variance computed from
    the scratch rows; before it the window is idle and nothing consults this value. -/
def oAt4 (c : Dev nD) (t : Fin cfg4.N) : Vec F S1x64 .f32 × Vec F S1x64 .f32 :=
  if h1 : t.val = 9 then
    (out4_C_1 c (grid4.coords t) (ms4_0 t) (hs4_0 t) (ms4_1 t) (hs4_1 t) (ms4_2 t) (hs4_2 t) scM4_0 (Memref.isWhole_whole _) scM4_1 (Memref.isWhole_whole _) (fun h => absurd ((hcond4_0 t).mp h) (by omega)) ((hcond4_1 t).mpr h1) (iblk4 V c 0 t) (sAt4 V c (t.val - 1) (Nat.lt_of_le_of_lt (Nat.sub_le _ _) t.isLt)).1 (sAt4 V c (t.val - 1) (Nat.lt_of_le_of_lt (Nat.sub_le _ _) t.isLt)).2,
     out4_C_2 c (grid4.coords t) (ms4_0 t) (hs4_0 t) (ms4_1 t) (hs4_1 t) (ms4_2 t) (hs4_2 t) scM4_0 (Memref.isWhole_whole _) scM4_1 (Memref.isWhole_whole _) (fun h => absurd ((hcond4_0 t).mp h) (by omega)) ((hcond4_1 t).mpr h1) (iblk4 V c 0 t) (sAt4 V c (t.val - 1) (Nat.lt_of_le_of_lt (Nat.sub_le _ _) t.isLt)).1 (sAt4 V c (t.val - 1) (Nat.lt_of_le_of_lt (Nat.sub_le _ _) t.isLt)).2)
  else (VO4_1.read (Elt F) VO4_1.junk, VO4_2.read (Elt F) VO4_2.junk)

theorem oAt4_C (c : Dev nD) (t : Fin cfg4.N) (h1 : t.val = 9) (hc0 : ¬cond4_0 (grid4.coords t)) (hc1 : cond4_1 (grid4.coords t)) :
    oAt4 V c t = (out4_C_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2,
      out4_C_2 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2) :=
  dif_pos h1

/-! ## The invariant between points, and the proof data -/

/-- Before the first point the pipeline's own invariant (every scratch at anything); afterwards the two scratch
    rows at what the point before left, beside the other scoped buffers and the generator register. -/
def PhiS4 (c : Dev nD) : (n : ℕ) → n ≤ cfg4.N → sProp 𝕄
  | 0, _ => Pipeline.ΦA spec4 c
  | n + 1, hn => iprop(iprop(iprop(owns (c : Thread nD τ) scM4_0 fullShare (sAt4 V c n hn).1 ∗ owns (c : Thread nD τ) scM4_1 fullShare (sAt4 V c n hn).2) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (sAt4 V c n hn).1 ∗ owns (c : Thread nD τ) scM4_1 fullShare (sAt4 V c n hn).2) ∗ restBut4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (sAt4 V c (n - 1) (by omega)).1 ∗ owns (c : Thread nD τ) scM4_1 fullShare (sAt4 V c (n - 1) (by omega)).2) ∗ restBut4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (oAt4 V c t).1
    | ⟨2, _⟩ => (oAt4 V c t).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = (oAt4 V c t).1 := by dsimp only [dat4]
theorem after4_2 (c : Dev nD) (t : Fin cfg4.N) : (dat4 V c).after 2 t = (oAt4 V c t).2 := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: which of the three cases the point is in is decided by its position; the invariant hands
    the body the scratch rows at what the point before left (at anything at the first point) and takes them back at
    this point's contents; the outputs' buffers come back as found except at the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
      unfold Dat.leavesExact; rw [liveAt4_0 t], after4_0]
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 1 t (idleAt4_1 t hc1) (noFlush4_1 t hc1),
      Dat.leavesExact_idle (dat4 V c) 2 t (idleAt4_2 t hc1) (noFlush4_2 t hc1)]
    rw [sAt4_A V c t h0 hc0 hc1]
    unfold sout4_A_0 sout4_A_1; (try dsimp only)
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩⟩
    iapply ((kernelRun4_A c (grid4.coords t) _ _ _ _ _ _ _ _ _ _ hc0 hc1 (iblk4 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ hc0 hc1 _)
          · unfold owns; iexists _; isplitr
            swap; · iexact HS1
            ipureintro; exact View.read_writes_of_cover _ _ _ _ _ (scover4_A_1 c _ _ _ _ _ _ _ _ _ _ _ hc0 hc1 _)
        iexact Hrest
      iexact Hg
    isplitl [Ho]; · iexact Ho
    isplitl [H0]; · iexact H0
    isplitl [H1]; · iexists _; iexact H1
    iexists _; iexact H2
  · have hc0 : ¬cond4_0 (grid4.coords t) := fun h => h0 ((hcond4_0 t).mp h)
    by_cases h1 : t.val = 9
    · have hc1 : cond4_1 (grid4.coords t) := (hcond4_1 t).mpr h1
      rw [show (dat4 V c).leavesExact 1 t = owns (c : Thread nD τ) (ms4_1 t) fullShare ((dat4 V c).after 1 t) from by
          unfold Dat.leavesExact; rw [liveAt4_1 t hc1], after4_1]
      rw [show (dat4 V c).leavesExact 2 t = owns (c : Thread nD τ) (ms4_2 t) fullShare ((dat4 V c).after 2 t) from by
          unfold Dat.leavesExact; rw [liveAt4_2 t hc1], after4_2]
      rw [sAt4_C V c t h1 hc0 hc1, oAt4_C V c t h1 hc0 hc1]
      unfold out4_C_1 out4_C_2 sout4_C_0 sout4_C_1; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩⟩
      iapply ((kernelRun4_C c (grid4.coords t) _ _ _ _ _ _ _ _ _ _ hc0 hc1 (iblk4 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_C_0 c _ _ _ _ _ _ _ _ _ _ _ hc0 hc1 _ _ _)
            · unfold owns; iexists _; isplitr
              swap; · iexact HS1
              ipureintro; exact View.read_writes_of_cover _ _ _ _ _ (scover4_C_1 c _ _ _ _ _ _ _ _ _ _ _ hc0 hc1 _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (cover4_C_1 c _ _ _ _ _ _ _ _ _ _ _ hc0 hc1 _ _ _)
      unfold owns; iexists _; isplitr
      swap; · iexact H2
      ipureintro; exact View.read_writes_of_cover _ _ _ _ _ (cover4_C_2 c _ _ _ _ _ _ _ _ _ _ _ hc0 hc1 _ _ _)
    · have hc1 : ¬cond4_1 (grid4.coords t) := fun h => h1 ((hcond4_1 t).mp h)
      rw [Dat.leavesExact_idle (dat4 V c) 1 t (idleAt4_1 t hc1) (noFlush4_1 t hc1),
        Dat.leavesExact_idle (dat4 V c) 2 t (idleAt4_2 t hc1) (noFlush4_2 t hc1)]
      rw [sAt4_B V c t h0 h1 hc0 hc1]
      unfold sout4_B_0 sout4_B_1; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩⟩
      iapply ((kernelRun4_B c (grid4.coords t) _ _ _ _ _ _ _ _ _ _ hc0 hc1 (iblk4 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ hc0 hc1 _ _ _)
            · unfold owns; iexists _; isplitr
              swap; · iexact HS1
              ipureintro; exact View.read_writes_of_cover _ _ _ _ _ (scover4_B_1 c _ _ _ _ _ _ _ _ _ _ _ hc0 hc1 _ _ _)
          iexact Hrest
        iexact Hg
      isplitl [Ho]; · iexact Ho
      isplitl [H0]; · iexact H0
      isplitl [H1]; · iexists _; iexact H1
      iexists _; iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the pipeline's own back: the scratch rows' contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.KRegion5.lean ====
/-
  Region 5 of the program (the call of cc5__bn_apply_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.Kernel.Launch
import proofs.«159573_j34617436406345_1_alg».proof.Proof.Gen.Kernel.Skeleton
import proofs.«159573_j34617436406345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0
abbrev r5_2 : Rect S1x64 := Rect.unit (s := S1x64) ![0, 0] S1x64.size inb_S1x64_S1x64_0_0
abbrev r5_3 : Rect S1x64 := Rect.unit (s := S1x64) ![0, 0] S1x64.size inb_S1x64_S1x64_0_0
abbrev r5_4 : Rect S1x64 := Rect.unit (s := S1x64) ![0, 0] S1x64.size inb_S1x64_S1x64_0_0
abbrev r5_5 : Rect S5000x64 := Rect.unit (s := S5000x64) ![0, 0] S5000x64.size inb_S5000x64_S5000x64_0_0

/-- What the body leaves in the output window's buffer: its one store, over the whole block, of the value computed
    from the loaded input blocks. -/
def out5_5 (x0 : Vec F S5000x64 .f32) (x1 : Vec F S1x64 .f32) (x2 : Vec F S1x64 .f32) (x3 : Vec F S1x64 .f32) (x4 : Vec F S1x64 .f32) : Vec F S5000x64 .f32 :=
  View.canon [⟨r5_5, k5_pay1 (View.ld x0 r5_0) (View.ld x1 r5_1) (View.ld x2 r5_2) (View.ld x3 r5_3) (View.ld x4 r5_4)⟩]

theorem cover5_5 (p0 : Vec F S5000x64 .f32) (y : S5000x64.Idx) :
    ∃ pc ∈ ([⟨r5_5, p0⟩] : List (View.Piece (Elt F) S5000x64 .f32)), y ∈ pc.1.set :=
  View.cover_of_tiled [⟨r5_5, p0⟩] S5000x64.size (by rfl) y

set_option maxHeartbeats 1000000 in
/-- The body on whole staging memrefs, the inputs' at read contents and the output's at anything, runs to the
    continuation holding the inputs' as they were and the output's at the stored value. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover5_5 _)

/-- The proof data of the pipeline on core c: the arrays as the region finds them; after the body at point t each
    input's buffer at its block and the output's at the stored value of the input blocks; the invariant the pipeline's
    own; nothing owed; whole shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KRegion6.lean ====
/-
  Region 6 of the program (the call of cc6__sage_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.Kernel.Launch
import proofs.«159573_j34617436406345_1_alg».proof.Proof.Gen.Kernel.Skeleton
import proofs.«159573_j34617436406345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x64 := Rect.unit (s := S5000x64) ![0, 0] S5000x64.size inb_S5000x64_S5000x64_0_0
abbrev r6_1 : Rect S5000x64 := Rect.unit (s := S5000x64) ![0, 0] S5000x64.size inb_S5000x64_S5000x64_0_0
abbrev r6_2 : Rect S64x64 := Rect.unit (s := S64x64) ![0, 0] S64x64.size inb_S64x64_S64x64_0_0
abbrev r6_3 : Rect S64x64 := Rect.unit (s := S64x64) ![0, 0] S64x64.size inb_S64x64_S64x64_0_0
abbrev r6_4 : Rect S1x64 := Rect.unit (s := S1x64) ![0, 0] S1x64.size inb_S1x64_S1x64_0_0
abbrev r6_5 : Rect S5000x64 := Rect.unit (s := S5000x64) ![0, 0] S5000x64.size inb_S5000x64_S5000x64_0_0

/-- What the body leaves in the output window's buffer: its one store, over the whole block, of the value computed
    from the loaded input blocks. -/
def out6_5 (x0 : Vec F S5000x64 .f32) (x1 : Vec F S5000x64 .f32) (x2 : Vec F S64x64 .f32) (x3 : Vec F S64x64 .f32) (x4 : Vec F S1x64 .f32) : Vec F S5000x64 .f32 :=
  View.canon [⟨r6_5, k6_pay1 (View.ld x0 r6_0) (View.ld x1 r6_1) (View.ld x2 r6_2) (View.ld x3 r6_3) (View.ld x4 r6_4)⟩]

theorem cover6_5 (p0 : Vec F S5000x64 .f32) (y : S5000x64.Idx) :
    ∃ pc ∈ ([⟨r6_5, p0⟩] : List (View.Piece (Elt F) S5000x64 .f32)), y ∈ pc.1.set :=
  View.cover_of_tiled [⟨r6_5, p0⟩] S5000x64.size (by rfl) y

set_option maxHeartbeats 1000000 in
/-- The body on whole staging memrefs, the inputs' at read contents and the output's at anything, runs to the
    continuation holding the inputs' as they were and the output's at the stored value. -/
theorem sound_kernel6 (c : Dev nD) (E : Set ℕ) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__sage_kernel i arg1 harg1 arg2 harg2 arg3 harg3 arg4 harg4 arg5 harg5 arg6 harg6) K := by
  simp only [cc6__sage_kernel_eq_skeleton]; unfold cc6__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover6_5 _)

/-- The proof data of the pipeline on core c: the arrays as the region finds them; after the body at point t each
    input's buffer at its block and the output's at the stored value of the input blocks; the invariant the pipeline's
    own; nothing owed; whole shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KRegion7.lean ====
/-
  Region 7 of the program (the call of cc7__mlp_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.Kernel.Launch
import proofs.«159573_j34617436406345_1_alg».proof.Proof.Gen.Kernel.Skeleton
import proofs.«159573_j34617436406345_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S512x64 := Rect.unit (s := S512x64) ![0, 0] S512x64.size inb_S512x64_S512x64_0_0
abbrev r7_1 : Rect S64x128 := Rect.unit (s := S64x128) ![0, 0] S64x128.size inb_S64x128_S64x128_0_0
abbrev r7_2 : Rect S1x128 := Rect.unit (s := S1x128) ![0, 0] S1x128.size inb_S1x128_S1x128_0_0
abbrev r7_3 : Rect S128x64 := Rect.unit (s := S128x64) ![0, 0] S128x64.size inb_S128x64_S128x64_0_0
abbrev r7_4 : Rect S1x64 := Rect.unit (s := S1x64) ![0, 0] S1x64.size inb_S1x64_S1x64_0_0
abbrev r7_5 : Rect S64x10 := Rect.unit (s := S64x10) ![0, 0] S64x10.size inb_S64x10_S64x10_0_0
abbrev r7_6 : Rect S1x10 := Rect.unit (s := S1x10) ![0, 0] S1x10.size inb_S1x10_S1x10_0_0
abbrev r7_7 : Rect S512x10 := Rect.unit (s := S512x10) ![0, 0] S512x10.size inb_S512x10_S512x10_0_0

/-- What the body leaves in the output window's buffer: its one store, over the whole block, of the value computed
    from the loaded input blocks. -/
def out7_7 (x0 : Vec F S512x64 .f32) (x1 : Vec F S64x128 .f32) (x2 : Vec F S1x128 .f32) (x3 : Vec F S128x64 .f32) (x4 : Vec F S1x64 .f32) (x5 : Vec F S64x10 .f32) (x6 : Vec F S1x10 .f32) : Vec F S512x10 .f32 :=
  View.canon [⟨r7_7, k7_pay1 (View.ld x0 r7_0) (View.ld x1 r7_1) (View.ld x2 r7_2) (View.ld x3 r7_3) (View.ld x4 r7_4) (View.ld x5 r7_5) (View.ld x6 r7_6)⟩]

theorem cover7_7 (p0 : Vec F S512x10 .f32) (y : S512x10.Idx) :
    ∃ pc ∈ ([⟨r7_7, p0⟩] : List (View.Piece (Elt F) S512x10 .f32)), y ∈ pc.1.set :=
  View.cover_of_tiled [⟨r7_7, p0⟩] S512x10.size (by rfl) y

set_option maxHeartbeats 1000000 in
/-- The body on whole staging memrefs, the inputs' at read contents and the output's at anything, runs to the
    continuation holding the inputs' as they were and the output's at the stored value. -/
theorem sound_kernel7 (c : Dev nD) (E : Set ℕ) (i : grid7.Coords) (arg1 : Memref sig .tc .vmem S512x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S512x10 .f32) (harg8 : arg8.IsWhole)
    (x0 : Vec F S512x64 .f32) (x1 : Vec F S64x128 .f32) (x2 : Vec F S1x128 .f32) (x3 : Vec F S128x64 .f32) (x4 : Vec F S1x64 .f32) (x5 : Vec F S64x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__mlp_kernel i arg1 harg1 arg2 harg2 arg3 harg3 arg4 harg4 arg5 harg5 arg6 harg6 arg7 harg7 arg8 harg8) K := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (cover7_7 _)

/-- The proof data of the pipeline on core c: the arrays as the region finds them; after the body at point t each
    input's buffer at its block and the output's at the stored value of the input blocks; the invariant the pipeline's
    own; nothing owed; whole shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.LibRegionRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# A kernel region's segment record over the thread state "every unscoped buffer at a valuation"

For a program whose @main is host stretches and kernel regions, the thread state between two segments is: every unscoped
TensorCore buffer of the core, whole, at a valuation; the core's generator register at some state; the core owing
nothing. This file builds, once and for any pipeline, the segment record of a kernel region over that thread state:
the region is entered at a valuation W and left at a valuation W' that holds the pipeline's arrays at what the
write-backs leave and agrees with W elsewhere. The pipeline may read prefetched tables: they are unscoped buffers, they
hold the admissible contents at W, they pass through the region's invariant whole and are put back at the exit.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

/-- A valuation of the device's references read at the TensorCore's references of core c. -/
abbrev tcVal (W : Dev nD → Valuation τ sig Val) (c : Dev nD) (b : Ref sig .tc) : Buf Val ((c : Thread nD τ).loc b) :=
  W c (Proc.devRef .tc b)

/-- What rides beside the buffers through every segment: the core's generator register at some state, and the core
    owing nothing. -/
abbrev rider (c : Dev nD) : sProp 𝕄 :=
  iprop((∃ r, prngReg c r) ∗ ∃ Wo, owes (c : Thread nD τ) (0 : CellTallies nD τ sig Unit) Wo)

/-- The thread state: every unscoped buffer of core c whole at the valuation, beside the rider. -/
abbrev threadState (W : Dev nD → Valuation τ sig Val) (c : Dev nD) : sProp 𝕄 :=
  iprop(StableHlo.held (c : Thread nD τ) (Pipeline.ucRefs τ sig) (W c) ∗ rider (U := U) (Val := Val) c)

section Record

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)

-- the library's lemmas are stated over the pinned pipeline `pin pcs a p`; matching it against the family's member takes
-- unfolding plain definitions inside a metavariable's type
set_option backward.isDefEq.respectTransparency.types false in
/-- The segment record of kernel region p between the valuations W and W'. The proof data lend whole shares and owe
    nothing; their entry arrays are read off W; the tables hold the admissible contents at W; W' has the arrays at what
    the write-backs leave and is W elsewhere; the class invariant and the whole tables yield the data's invariant
    before the first point and are yielded back after the last. -/
def regionSeg
    (hbody : ∀ c, BodyObligationLoose (pdats p c) defs₀ 𝒱₀ () Set.univ)
    (hshare : ∀ c w, (pdats p c).share w = fullShare) (howed : ∀ c t, (pdats p c).owed t = 0)
    (hrec : ∀ c, (pdats p c).recorded 0 = Set.univ)
    (hA : ∀ c w, (pdats p c).A w = tcVal W c (arrRef (pin pcs a p).spec w))
    (hpf : ∀ c k, tcVal W c ((pcs p).pre.ref k) = (a p).1 k)
    (hF : ∀ c w, (pdats p c).arrAt w (pin pcs a p).N = tcVal W' c (arrRef (pin pcs a p).spec w))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := kit.win.to₀
  block_pos := kit.block_pos
  stage_whole := kit.stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have hsplit := arrays_of_unscopedBufs (p := p) pcs a pdats kit.win kit.arr_whole c (hshare c) (tcVal W c) (hA c)
    rw [unscopedBufs_held, unscopedRest_split kit.pre c (tcVal W c),
      show (fun k => tcVal W c ((pcs p).pre.ref k)) = (a p).1 from funext (hpf c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have hjoin := unscopedBufs_of_arrays (p := p) pcs a (Ix := Unit) (Name := ℕ) (U := U) (Lvl := ℕ)
      kit.win kit.arr_whole c pdats (hshare c) (tcVal W c) (tcVal W' c) ((pdats p c).arrAt · (pin pcs a p).N) (hF c) (hrest c)
    rw [unscopedBufs_held, unscopedRest_split kit.pre c (tcVal W c),
      show (fun k => tcVal W c ((pcs p).pre.ref k)) = (a p).1 from funext (hpf c)] at hjoin
    iintro ⟨Ha, HO, ⟨HY, Ht⟩, Hrest⟩
    imodintro
    isplitl [Ha Ht Hrest]
    · iapply hjoin
      isplitl [Ha]; · iexact Ha
      isplitl [Ht] <;> iassumption
    isplitl [HY]; · iexact HY
    unfold Dat.owesAt owesWithin
    rw [howed c (Fin.last _)]
    icases HO with ⟨%Wo, -, HO⟩; iexists Wo; iexact HO

end Record

section Ends

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)
  (hbody : ∀ c, BodyObligationLoose (pdats p c) defs₀ 𝒱₀ () Set.univ)
  (hshare : ∀ c w, (pdats p c).share w = fullShare) (howed : ∀ c t, (pdats p c).owed t = 0)
  (hrec : ∀ c, (pdats p c).recorded 0 = Set.univ)
  (hA : ∀ c w, (pdats p c).A w = tcVal W c (arrRef (pin pcs a p).spec w))
  (hpf : ∀ c k, tcVal W c ((pcs p).pre.ref k) = (a p).1 k)
  (hF : ∀ c w, (pdats p c).arrAt w (pin pcs a p).N = tcVal W' c (arrRef (pin pcs a p).spec w))
  (hrest : ∀ c b, b ∉ Finset.univ.image (arrRef (pin pcs a p).spec) → tcVal W' c b = tcVal W c b)
  (hin : ∀ c, iprop(ΦA (U := U) (pin pcs a p).spec c ∗ prefHeld (Ix := Unit) (Name := ℕ) (U := U) (Lvl := ℕ) (pcs p).pre c (fun _ => fullShare) (a p).1) ⊢ (pdats p c).Φ 0)
  (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1))

/-- The record is entered from the thread state at W … -/
theorem regionSeg_pre (c : Dev nD) :
    (regionSeg pcs a pdats p kit defs₀ 𝒱₀ W W' hbody hshare howed hrec hA hpf hF hrest hin hout).pre c = threadState W c := rfl

/-- … and left at the thread state at W'. -/
theorem regionSeg_post (c : Dev nD) :
    (regionSeg pcs a pdats p kit defs₀ 𝒱₀ W W' hbody hshare howed hrec hA hpf hF hrest hin hout).post c = threadState W' c := rfl

end Ends

end RegionRecord

end
-- ==== Proof.KFrame.lean ====
/-
  The whole program as a list of segments — six stretches of host operations and eight kernel regions — run from
  the launch to the return. Between two segments the thread state is: every unscoped buffer of the core, whole, at a
  valuation, beside the generator register and the core owing nothing. A host stretch moves the valuation to the
  fold of its operations; a region replaces its arrays by what its write-backs leave and keeps every other buffer.
  The run ends with every unscoped buffer at the last valuation, which is read back against the final memory.
-/
import proofs.«159573_j34617436406345_1_alg».proof.Proof.Gen.Kernel.Regions
import proofs.«159573_j34617436406345_1_alg».proof.Proof.KRegion0
import proofs.«159573_j34617436406345_1_alg».proof.Proof.KRegion1
import proofs.«159573_j34617436406345_1_alg».proof.Proof.KRegion2
import proofs.«159573_j34617436406345_1_alg».proof.Proof.KRegion3
import proofs.«159573_j34617436406345_1_alg».proof.Proof.KRegion4
import proofs.«159573_j34617436406345_1_alg».proof.Proof.KRegion5
import proofs.«159573_j34617436406345_1_alg».proof.Proof.KRegion6
import proofs.«159573_j34617436406345_1_alg».proof.Proof.KRegion7
import proofs.«159573_j34617436406345_1_alg».proof.Proof.LibRegionRecord
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen RegionRecord

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

abbrev Wv0 : Dev nD → Valuation τ sig (Elt F) := fun c b => m (c, b)
abbrev Wv1 : Dev nD → Valuation τ sig (Elt F) := fun c => StableHlo.after hostOps0 (Wv0 m c)
def Wv2 (c : Dev nD) : Valuation τ sig (Elt F) :=
  Pipeline.withArrays spec0 c (Wv1 m c) fun w => (dat0 (tcVal (Wv1 m)) c).arrAt w cfg0.N
theorem Wv2_arr (c : Dev nD) (w : Fin cfg0.W) :
    Wv2 m c (Proc.devRef .tc (Pipeline.arrRef spec0 w)) = (dat0 (tcVal (Wv1 m)) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m c (Proc.devRef .tc b) = Wv1 m c (Proc.devRef .tc b) := by
  unfold Wv2; exact Pipeline.withArrays_of_ne spec0 c _ _ b hb
/-- Region 0 leaves every buffer that is none of its output arrays as it found it. -/
theorem Wv2_keep (c : Dev nD) (b : Ref sig .tc) (hb : ∀ w, (cfg0.win w).isOut = true → Pipeline.arrRef spec0 w ≠ b) :
    Wv2 m c (Proc.devRef .tc b) = Wv1 m c (Proc.devRef .tc b) := by
  by_cases h : ∃ w, Pipeline.arrRef spec0 w = b
  · obtain ⟨w, rfl⟩ := h
    have hw : (cfg0.win w).isOut = false := by
      cases hio : (cfg0.win w).isOut
      · rfl
      · exact absurd rfl (hb w hio)
    rw [Wv2_arr, (dat0 (tcVal (Wv1 m)) c).arrAt_in w hw, A_eq0]
  · exact Wv2_of_ne m c b fun w e => h ⟨w, e⟩
def Wv3 (c : Dev nD) : Valuation τ sig (Elt F) :=
  Pipeline.withArrays spec1 c (Wv2 m c) fun w => (dat1 (tcVal (Wv2 m)) c).arrAt w cfg1.N
theorem Wv3_arr (c : Dev nD) (w : Fin cfg1.W) :
    Wv3 m c (Proc.devRef .tc (Pipeline.arrRef spec1 w)) = (dat1 (tcVal (Wv2 m)) c).arrAt w cfg1.N := by
  unfold Wv3; exact Pipeline.withArrays_arr spec1 launch1.win.arr_inj c _ _ w
theorem Wv3_of_ne (c : Dev nD) (b : Ref sig .tc) (hb : ∀ w, Pipeline.arrRef spec1 w ≠ b) :
    Wv3 m c (Proc.devRef .tc b) = Wv2 m c (Proc.devRef .tc b) := by
  unfold Wv3; exact Pipeline.withArrays_of_ne spec1 c _ _ b hb
/-- Region 1 leaves every buffer that is none of its output arrays as it found it. -/
theorem Wv3_keep (c : Dev nD) (b : Ref sig .tc) (hb : ∀ w, (cfg1.win w).isOut = true → Pipeline.arrRef spec1 w ≠ b) :
    Wv3 m c (Proc.devRef .tc b) = Wv2 m c (Proc.devRef .tc b) := by
  by_cases h : ∃ w, Pipeline.arrRef spec1 w = b
  · obtain ⟨w, rfl⟩ := h
    have hw : (cfg1.win w).isOut = false := by
      cases hio : (cfg1.win w).isOut
      · rfl
      · exact absurd rfl (hb w hio)
    rw [Wv3_arr, (dat1 (tcVal (Wv2 m)) c).arrAt_in w hw, A_eq1]
  · exact Wv3_of_ne m c b fun w e => h ⟨w, e⟩
abbrev Wv4 : Dev nD → Valuation τ sig (Elt F) := fun c => StableHlo.after hostOps2 (Wv3 m c)
def Wv5 (c : Dev nD) : Valuation τ sig (Elt F) :=
  Pipeline.withArrays spec2 c (Wv4 m c) fun w => (dat2 (tcVal (Wv4 m)) c).arrAt w cfg2.N
theorem Wv5_arr (c : Dev nD) (w : Fin cfg2.W) :
    Wv5 m c (Proc.devRef .tc (Pipeline.arrRef spec2 w)) = (dat2 (tcVal (Wv4 m)) c).arrAt w cfg2.N := by
  unfold Wv5; exact Pipeline.withArrays_arr spec2 launch2.win.arr_inj c _ _ w
theorem Wv5_of_ne (c : Dev nD) (b : Ref sig .tc) (hb : ∀ w, Pipeline.arrRef spec2 w ≠ b) :
    Wv5 m c (Proc.devRef .tc b) = Wv4 m c (Proc.devRef .tc b) := by
  unfold Wv5; exact Pipeline.withArrays_of_ne spec2 c _ _ b hb
/-- Region 2 leaves every buffer that is none of its output arrays as it found it. -/
theorem Wv5_keep (c : Dev nD) (b : Ref sig .tc) (hb : ∀ w, (cfg2.win w).isOut = true → Pipeline.arrRef spec2 w ≠ b) :
    Wv5 m c (Proc.devRef .tc b) = Wv4 m c (Proc.devRef .tc b) := by
  by_cases h : ∃ w, Pipeline.arrRef spec2 w = b
  · obtain ⟨w, rfl⟩ := h
    have hw : (cfg2.win w).isOut = false := by
      cases hio : (cfg2.win w).isOut
      · rfl
      · exact absurd rfl (hb w hio)
    rw [Wv5_arr, (dat2 (tcVal (Wv4 m)) c).arrAt_in w hw, A_eq2]
  · exact Wv5_of_ne m c b fun w e => h ⟨w, e⟩
abbrev Wv6 : Dev nD → Valuation τ sig (Elt F) := fun c => StableHlo.after hostOps3 (Wv5 m c)
def Wv7 (c : Dev nD) : Valuation τ sig (Elt F) :=
  Pipeline.withArrays spec3 c (Wv6 m c) fun w => (dat3 (tcVal (Wv6 m)) c).arrAt w cfg3.N
theorem Wv7_arr (c : Dev nD) (w : Fin cfg3.W) :
    Wv7 m c (Proc.devRef .tc (Pipeline.arrRef spec3 w)) = (dat3 (tcVal (Wv6 m)) c).arrAt w cfg3.N := by
  unfold Wv7; exact Pipeline.withArrays_arr spec3 launch3.win.arr_inj c _ _ w
theorem Wv7_of_ne (c : Dev nD) (b : Ref sig .tc) (hb : ∀ w, Pipeline.arrRef spec3 w ≠ b) :
    Wv7 m c (Proc.devRef .tc b) = Wv6 m c (Proc.devRef .tc b) := by
  unfold Wv7; exact Pipeline.withArrays_of_ne spec3 c _ _ b hb
/-- Region 3 leaves every buffer that is none of its output arrays as it found it. -/
theorem Wv7_keep (c : Dev nD) (b : Ref sig .tc) (hb : ∀ w, (cfg3.win w).isOut = true → Pipeline.arrRef spec3 w ≠ b) :
    Wv7 m c (Proc.devRef .tc b) = Wv6 m c (Proc.devRef .tc b) := by
  by_cases h : ∃ w, Pipeline.arrRef spec3 w = b
  · obtain ⟨w, rfl⟩ := h
    have hw : (cfg3.win w).isOut = false := by
      cases hio : (cfg3.win w).isOut
      · rfl
      · exact absurd rfl (hb w hio)
    rw [Wv7_arr, (dat3 (tcVal (Wv6 m)) c).arrAt_in w hw, A_eq3]
  · exact Wv7_of_ne m c b fun w e => h ⟨w, e⟩
def Wv8 (c : Dev nD) : Valuation τ sig (Elt F) :=
  Pipeline.withArrays spec4 c (Wv7 m c) fun w => (dat4 (tcVal (Wv7 m)) c).arrAt w cfg4.N
theorem Wv8_arr (c : Dev nD) (w : Fin cfg4.W) :
    Wv8 m c (Proc.devRef .tc (Pipeline.arrRef spec4 w)) = (dat4 (tcVal (Wv7 m)) c).arrAt w cfg4.N := by
  unfold Wv8; exact Pipeline.withArrays_arr spec4 launch4.win.arr_inj c _ _ w
theorem Wv8_of_ne (c : Dev nD) (b : Ref sig .tc) (hb : ∀ w, Pipeline.arrRef spec4 w ≠ b) :
    Wv8 m c (Proc.devRef .tc b) = Wv7 m c (Proc.devRef .tc b) := by
  unfold Wv8; exact Pipeline.withArrays_of_ne spec4 c _ _ b hb
/-- Region 4 leaves every buffer that is none of its output arrays as it found it. -/
theorem Wv8_keep (c : Dev nD) (b : Ref sig .tc) (hb : ∀ w, (cfg4.win w).isOut = true → Pipeline.arrRef spec4 w ≠ b) :
    Wv8 m c (Proc.devRef .tc b) = Wv7 m c (Proc.devRef .tc b) := by
  by_cases h : ∃ w, Pipeline.arrRef spec4 w = b
  · obtain ⟨w, rfl⟩ := h
    have hw : (cfg4.win w).isOut = false := by
      cases hio : (cfg4.win w).isOut
      · rfl
      · exact absurd rfl (hb w hio)
    rw [Wv8_arr, (dat4 (tcVal (Wv7 m)) c).arrAt_in w hw, A_eq4]
  · exact Wv8_of_ne m c b fun w e => h ⟨w, e⟩
abbrev Wv9 : Dev nD → Valuation τ sig (Elt F) := fun c => StableHlo.after hostOps5 (Wv8 m c)
def Wv10 (c : Dev nD) : Valuation τ sig (Elt F) :=
  Pipeline.withArrays spec5 c (Wv9 m c) fun w => (dat5 (tcVal (Wv9 m)) c).arrAt w cfg5.N
theorem Wv10_arr (c : Dev nD) (w : Fin cfg5.W) :
    Wv10 m c (Proc.devRef .tc (Pipeline.arrRef spec5 w)) = (dat5 (tcVal (Wv9 m)) c).arrAt w cfg5.N := by
  unfold Wv10; exact Pipeline.withArrays_arr spec5 launch5.win.arr_inj c _ _ w
theorem Wv10_of_ne (c : Dev nD) (b : Ref sig .tc) (hb : ∀ w, Pipeline.arrRef spec5 w ≠ b) :
    Wv10 m c (Proc.devRef .tc b) = Wv9 m c (Proc.devRef .tc b) := by
  unfold Wv10; exact Pipeline.withArrays_of_ne spec5 c _ _ b hb
/-- Region 5 leaves every buffer that is none of its output arrays as it found it. -/
theorem Wv10_keep (c : Dev nD) (b : Ref sig .tc) (hb : ∀ w, (cfg5.win w).isOut = true → Pipeline.arrRef spec5 w ≠ b) :
    Wv10 m c (Proc.devRef .tc b) = Wv9 m c (Proc.devRef .tc b) := by
  by_cases h : ∃ w, Pipeline.arrRef spec5 w = b
  · obtain ⟨w, rfl⟩ := h
    have hw : (cfg5.win w).isOut = false := by
      cases hio : (cfg5.win w).isOut
      · rfl
      · exact absurd rfl (hb w hio)
    rw [Wv10_arr, (dat5 (tcVal (Wv9 m)) c).arrAt_in w hw, A_eq5]
  · exact Wv10_of_ne m c b fun w e => h ⟨w, e⟩
abbrev Wv11 : Dev nD → Valuation τ sig (Elt F) := fun c => StableHlo.after hostOps6 (Wv10 m c)
def Wv12 (c : Dev nD) : Valuation τ sig (Elt F) :=
  Pipeline.withArrays spec6 c (Wv11 m c) fun w => (dat6 (tcVal (Wv11 m)) c).arrAt w cfg6.N
theorem Wv12_arr (c : Dev nD) (w : Fin cfg6.W) :
    Wv12 m c (Proc.devRef .tc (Pipeline.arrRef spec6 w)) = (dat6 (tcVal (Wv11 m)) c).arrAt w cfg6.N := by
  unfold Wv12; exact Pipeline.withArrays_arr spec6 launch6.win.arr_inj c _ _ w
theorem Wv12_of_ne (c : Dev nD) (b : Ref sig .tc) (hb : ∀ w, Pipeline.arrRef spec6 w ≠ b) :
    Wv12 m c (Proc.devRef .tc b) = Wv11 m c (Proc.devRef .tc b) := by
  unfold Wv12; exact Pipeline.withArrays_of_ne spec6 c _ _ b hb
/-- Region 6 leaves every buffer that is none of its output arrays as it found it. -/
theorem Wv12_keep (c : Dev nD) (b : Ref sig .tc) (hb : ∀ w, (cfg6.win w).isOut = true → Pipeline.arrRef spec6 w ≠ b) :
    Wv12 m c (Proc.devRef .tc b) = Wv11 m c (Proc.devRef .tc b) := by
  by_cases h : ∃ w, Pipeline.arrRef spec6 w = b
  · obtain ⟨w, rfl⟩ := h
    have hw : (cfg6.win w).isOut = false := by
      cases hio : (cfg6.win w).isOut
      · rfl
      · exact absurd rfl (hb w hio)
    rw [Wv12_arr, (dat6 (tcVal (Wv11 m)) c).arrAt_in w hw, A_eq6]
  · exact Wv12_of_ne m c b fun w e => h ⟨w, e⟩
abbrev Wv13 : Dev nD → Valuation τ sig (Elt F) := fun c => StableHlo.after hostOps7 (Wv12 m c)
def Wv14 (c : Dev nD) : Valuation τ sig (Elt F) :=
  Pipeline.withArrays spec7 c (Wv13 m c) fun w => (dat7 (tcVal (Wv13 m)) c).arrAt w cfg7.N
theorem Wv14_arr (c : Dev nD) (w : Fin cfg7.W) :
    Wv14 m c (Proc.devRef .tc (Pipeline.arrRef spec7 w)) = (dat7 (tcVal (Wv13 m)) c).arrAt w cfg7.N := by
  unfold Wv14; exact Pipeline.withArrays_arr spec7 launch7.win.arr_inj c _ _ w
theorem Wv14_of_ne (c : Dev nD) (b : Ref sig .tc) (hb : ∀ w, Pipeline.arrRef spec7 w ≠ b) :
    Wv14 m c (Proc.devRef .tc b) = Wv13 m c (Proc.devRef .tc b) := by
  unfold Wv14; exact Pipeline.withArrays_of_ne spec7 c _ _ b hb
/-- Region 7 leaves every buffer that is none of its output arrays as it found it. -/
theorem Wv14_keep (c : Dev nD) (b : Ref sig .tc) (hb : ∀ w, (cfg7.win w).isOut = true → Pipeline.arrRef spec7 w ≠ b) :
    Wv14 m c (Proc.devRef .tc b) = Wv13 m c (Proc.devRef .tc b) := by
  by_cases h : ∃ w, Pipeline.arrRef spec7 w = b
  · obtain ⟨w, rfl⟩ := h
    have hw : (cfg7.win w).isOut = false := by
      cases hio : (cfg7.win w).isOut
      · rfl
      · exact absurd rfl (hb w hio)
    rw [Wv14_arr, (dat7 (tcVal (Wv13 m)) c).arrAt_in w hw, A_eq7]
  · exact Wv14_of_ne m c b fun w e => h ⟨w, e⟩

/-! ## The proof data family, the riders, the host stretches -/

def pdats : (p : Fin 8) → (c : Dev nD) → Dat τ (Elt F) Unit ℕ (UR sig nD τ) ℕ (Pipeline.pin (pcfgs (F := F)) adm p) c
  | ⟨0, _⟩ => fun c => dat0 (tcVal (Wv1 m)) c
  | ⟨1, _⟩ => fun c => dat1 (tcVal (Wv2 m)) c
  | ⟨2, _⟩ => fun c => dat2 (tcVal (Wv4 m)) c
  | ⟨3, _⟩ => fun c => dat3 (tcVal (Wv6 m)) c
  | ⟨4, _⟩ => fun c => dat4 (tcVal (Wv7 m)) c
  | ⟨5, _⟩ => fun c => dat5 (tcVal (Wv9 m)) c
  | ⟨6, _⟩ => fun c => dat6 (tcVal (Wv11 m)) c
  | ⟨7, _⟩ => fun c => dat7 (tcVal (Wv13 m)) c
abbrev 𝒱₀ : Variants := Variants.none
abbrev L : GSem nD τ sig → Finset Unit := fun _ => ∅
abbrev lv : GSem nD τ sig → Unit → ℕ := fun _ _ => 0

/-- No region of this program prefetches a table: the tables' share of an invariant is empty. -/
theorem dropPref (p : Fin 8) (c : Dev nD) {X : sProp 𝕄} :
    iprop(X ∗ Pipeline.prefHeld (Ix := Unit) (Name := ℕ) (U := UR sig nD τ) (Lvl := ℕ) (pcfgs (F := F) p).pre c (fun _ => fullShare) (adm p).1) ⊢ X := by
  iintro ⟨H, -⟩; iexact H
theorem addPref (p : Fin 8) (c : Dev nD) {X : sProp 𝕄} :
    X ⊢ iprop(X ∗ Pipeline.prefHeld (Ix := Unit) (Name := ℕ) (U := UR sig nD τ) (Lvl := ℕ) (pcfgs (F := F) p).pre c (fun _ => fullShare) (adm p).1) := by
  unfold Pipeline.prefHeld
  rw [show (Finset.univ : Finset (Fin (pcfgs (F := F) p).pre.K)) = ∅ from Finset.univ_eq_empty, BI.bigSep_empty]
  iintro H; isplitl [H]; · iexact H
  iempintro

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (rider (U := UR sig nD τ) (Val := Elt F))

/-! ## The regions as segments -/

set_option backward.isDefEq.respectTransparency.types false in
/-- Region 0 over the thread state: entered with every unscoped buffer at Wv1, left with them at Wv2. -/
def reg0 : Pipeline.RegionSeg (pcfgs (F := F)) adm (pdats m) () defs₀ 𝒱₀ L lv 0 :=
  regionSeg (U := UR sig nD τ) (pcfgs (F := F)) adm (pdats m) 0 launch0.toP defs₀ 𝒱₀ (Wv1 m) (Wv2 m)
    (fun c => (body_obligation0 (tcVal (Wv1 m)) c).loose)
    (fun c w => by unfold Dat.share; split <;> rfl) (fun c t => rfl) (fun c => rfl)
    (fun c w => A_eq0 (tcVal (Wv1 m)) c w)
    (fun c k => k.elim0)
    (fun c w => (Wv2_arr m c w).symm)
    (fun c b hb => Wv2_of_ne m c b fun w e => hb (Finset.mem_image.mpr ⟨w, Finset.mem_univ _, e⟩))
    (fun c => (dropPref _ c).trans .rfl)
    (fun c => (addPref _ c))

set_option backward.isDefEq.respectTransparency.types false in
/-- Region 1 over the thread state: entered with every unscoped buffer at Wv2, left with them at Wv3. -/
def reg1 : Pipeline.RegionSeg (pcfgs (F := F)) adm (pdats m) () defs₀ 𝒱₀ L lv 1 :=
  regionSeg (U := UR sig nD τ) (pcfgs (F := F)) adm (pdats m) 1 launch1.toP defs₀ 𝒱₀ (Wv2 m) (Wv3 m)
    (fun c => (body_obligation1 (tcVal (Wv2 m)) c).loose)
    (fun c w => by unfold Dat.share; split <;> rfl) (fun c t => rfl) (fun c => rfl)
    (fun c w => A_eq1 (tcVal (Wv2 m)) c w)
    (fun c k => k.elim0)
    (fun c w => (Wv3_arr m c w).symm)
    (fun c b hb => Wv3_of_ne m c b fun w e => hb (Finset.mem_image.mpr ⟨w, Finset.mem_univ _, e⟩))
    (fun c => (dropPref _ c).trans (hin1 (tcVal (Wv2 m)) c))
    (fun c => (hout1 (tcVal (Wv2 m)) c).trans (addPref _ c))

set_option backward.isDefEq.respectTransparency.types false in
/-- Region 2 over the thread state: entered with every unscoped buffer at Wv4, left with them at Wv5. -/
def reg2 : Pipeline.RegionSeg (pcfgs (F := F)) adm (pdats m) () defs₀ 𝒱₀ L lv 2 :=
  regionSeg (U := UR sig nD τ) (pcfgs (F := F)) adm (pdats m) 2 launch2.toP defs₀ 𝒱₀ (Wv4 m) (Wv5 m)
    (fun c => (body_obligation2 (tcVal (Wv4 m)) c).loose)
    (fun c w => by unfold Dat.share; split <;> rfl) (fun c t => rfl) (fun c => rfl)
    (fun c w => A_eq2 (tcVal (Wv4 m)) c w)
    (fun c k => k.elim0)
    (fun c w => (Wv5_arr m c w).symm)
    (fun c b hb => Wv5_of_ne m c b fun w e => hb (Finset.mem_image.mpr ⟨w, Finset.mem_univ _, e⟩))
    (fun c => (dropPref _ c).trans .rfl)
    (fun c => (addPref _ c))

set_option backward.isDefEq.respectTransparency.types false in
/-- Region 3 over the thread state: entered with every unscoped buffer at Wv6, left with them at Wv7. -/
def reg3 : Pipeline.RegionSeg (pcfgs (F := F)) adm (pdats m) () defs₀ 𝒱₀ L lv 3 :=
  regionSeg (U := UR sig nD τ) (pcfgs (F := F)) adm (pdats m) 3 launch3.toP defs₀ 𝒱₀ (Wv6 m) (Wv7 m)
    (fun c => (body_obligation3 (tcVal (Wv6 m)) c).loose)
    (fun c w => by unfold Dat.share; split <;> rfl) (fun c t => rfl) (fun c => rfl)
    (fun c w => A_eq3 (tcVal (Wv6 m)) c w)
    (fun c k => k.elim0)
    (fun c w => (Wv7_arr m c w).symm)
    (fun c b hb => Wv7_of_ne m c b fun w e => hb (Finset.mem_image.mpr ⟨w, Finset.mem_univ _, e⟩))
    (fun c => (dropPref _ c).trans .rfl)
    (fun c => (addPref _ c))

set_option backward.isDefEq.respectTransparency.types false in
/-- Region 4 over the thread state: entered with every unscoped buffer at Wv7, left with them at Wv8. -/
def reg4 : Pipeline.RegionSeg (pcfgs (F := F)) adm (pdats m) () defs₀ 𝒱₀ L lv 4 :=
  regionSeg (U := UR sig nD τ) (pcfgs (F := F)) adm (pdats m) 4 launch4.toP defs₀ 𝒱₀ (Wv7 m) (Wv8 m)
    (fun c => (body_obligation4 (tcVal (Wv7 m)) c).loose)
    (fun c w => by unfold Dat.share; split <;> rfl) (fun c t => rfl) (fun c => rfl)
    (fun c w => A_eq4 (tcVal (Wv7 m)) c w)
    (fun c k => k.elim0)
    (fun c w => (Wv8_arr m c w).symm)
    (fun c b hb => Wv8_of_ne m c b fun w e => hb (Finset.mem_image.mpr ⟨w, Finset.mem_univ _, e⟩))
    (fun c => (dropPref _ c).trans (hin4 (tcVal (Wv7 m)) c))
    (fun c => (hout4 (tcVal (Wv7 m)) c).trans (addPref _ c))

set_option backward.isDefEq.respectTransparency.types false in
/-- Region 5 over the thread state: entered with every unscoped buffer at Wv9, left with them at Wv10. -/
def reg5 : Pipeline.RegionSeg (pcfgs (F := F)) adm (pdats m) () defs₀ 𝒱₀ L lv 5 :=
  regionSeg (U := UR sig nD τ) (pcfgs (F := F)) adm (pdats m) 5 launch5.toP defs₀ 𝒱₀ (Wv9 m) (Wv10 m)
    (fun c => (body_obligation5 (tcVal (Wv9 m)) c).loose)
    (fun c w => by unfold Dat.share; split <;> rfl) (fun c t => rfl) (fun c => rfl)
    (fun c w => A_eq5 (tcVal (Wv9 m)) c w)
    (fun c k => k.elim0)
    (fun c w => (Wv10_arr m c w).symm)
    (fun c b hb => Wv10_of_ne m c b fun w e => hb (Finset.mem_image.mpr ⟨w, Finset.mem_univ _, e⟩))
    (fun c => (dropPref _ c).trans .rfl)
    (fun c => (addPref _ c))

set_option backward.isDefEq.respectTransparency.types false in
/-- Region 6 over the thread state: entered with every unscoped buffer at Wv11, left with them at Wv12. -/
def reg6 : Pipeline.RegionSeg (pcfgs (F := F)) adm (pdats m) () defs₀ 𝒱₀ L lv 6 :=
  regionSeg (U := UR sig nD τ) (pcfgs (F := F)) adm (pdats m) 6 launch6.toP defs₀ 𝒱₀ (Wv11 m) (Wv12 m)
    (fun c => (body_obligation6 (tcVal (Wv11 m)) c).loose)
    (fun c w => by unfold Dat.share; split <;> rfl) (fun c t => rfl) (fun c => rfl)
    (fun c w => A_eq6 (tcVal (Wv11 m)) c w)
    (fun c k => k.elim0)
    (fun c w => (Wv12_arr m c w).symm)
    (fun c b hb => Wv12_of_ne m c b fun w e => hb (Finset.mem_image.mpr ⟨w, Finset.mem_univ _, e⟩))
    (fun c => (dropPref _ c).trans .rfl)
    (fun c => (addPref _ c))

set_option backward.isDefEq.respectTransparency.types false in
/-- Region 7 over the thread state: entered with every unscoped buffer at Wv13, left with them at Wv14. -/
def reg7 : Pipeline.RegionSeg (pcfgs (F := F)) adm (pdats m) () defs₀ 𝒱₀ L lv 7 :=
  regionSeg (U := UR sig nD τ) (pcfgs (F := F)) adm (pdats m) 7 launch7.toP defs₀ 𝒱₀ (Wv13 m) (Wv14 m)
    (fun c => (body_obligation7 (tcVal (Wv13 m)) c).loose)
    (fun c w => by unfold Dat.share; split <;> rfl) (fun c t => rfl) (fun c => rfl)
    (fun c w => A_eq7 (tcVal (Wv13 m)) c w)
    (fun c k => k.elim0)
    (fun c w => (Wv14_arr m c w).symm)
    (fun c b hb => Wv14_of_ne m c b fun w e => hb (Finset.mem_image.mpr ⟨w, Finset.mem_univ _, e⟩))
    (fun c => (dropPref _ c).trans .rfl)
    (fun c => (addPref _ c))

/-! ## The program as segments, and the run -/

abbrev segs : List (Pipeline.Seg (pcfgs (F := F)) adm (pdats m) () defs₀ 𝒱₀ L lv) :=
  [ .host (hseg hostOps0 hostOps0_sub hostOps0_fresh (Wv0 m)),
    .region (reg0 m),
    .region (reg1 m),
    .host (hseg hostOps2 hostOps2_sub hostOps2_fresh (Wv3 m)),
    .region (reg2 m),
    .host (hseg hostOps3 hostOps3_sub hostOps3_fresh (Wv5 m)),
    .region (reg3 m),
    .region (reg4 m),
    .host (hseg hostOps5 hostOps5_sub hostOps5_fresh (Wv8 m)),
    .region (reg5 m),
    .host (hseg hostOps6 hostOps6_sub hostOps6_fresh (Wv10 m)),
    .region (reg6 m),
    .host (hseg hostOps7 hostOps7_sub hostOps7_fresh (Wv12 m)),
    .region (reg7 m) ]

theorem main_run (c : Dev nD) : main (F := F) c = Pipeline.Seg.run (segs m) :=
  (main_chain c).trans (by
    rw [Pipeline.Seg.run_eq_chain, show (segs m).map Pipeline.Seg.prog = [
        StableHlo.seq hostOps0,
        Prog.lift (.customCall (Pipeline.entry 0) ()),
        Prog.lift (.customCall (Pipeline.entry 1) ()),
        StableHlo.seq hostOps2,
        Prog.lift (.customCall (Pipeline.entry 2) ()),
        StableHlo.seq hostOps3,
        Prog.lift (.customCall (Pipeline.entry 3) ()),
        Prog.lift (.customCall (Pipeline.entry 4) ()),
        StableHlo.seq hostOps5,
        Prog.lift (.customCall (Pipeline.entry 5) ()),
        StableHlo.seq hostOps6,
        Prog.lift (.customCall (Pipeline.entry 6) ()),
        StableHlo.seq hostOps7,
        Prog.lift (.customCall (Pipeline.entry 7) ()) ] from rfl])

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program from memory m with zero counters terminates, nothing faulting, and
    every final memory holds every unscoped buffer at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = Wv14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => threadState (U := UR sig nD τ) (Wv0 m) c)
    (Tₙ := fun c => iprop(StableHlo.held (c : Thread nD τ) (Pipeline.ucRefs τ sig) (Wv14 m c) ∗ ∃ r, prngReg c r))
    (hch := ⟨fun c => (BIBase.Entails.rfl : threadState (U := UR sig nD τ) (Wv0 m) c ⊢ threadState (U := UR sig nD τ) (Wv0 m) c),
      fun c => (BIBase.Entails.rfl : threadState (U := UR sig nD τ) (Wv1 m) c ⊢ threadState (U := UR sig nD τ) (Wv1 m) c),
      fun c => (BIBase.Entails.rfl : threadState (U := UR sig nD τ) (Wv2 m) c ⊢ threadState (U := UR sig nD τ) (Wv2 m) c),
      fun c => (BIBase.Entails.rfl : threadState (U := UR sig nD τ) (Wv3 m) c ⊢ threadState (U := UR sig nD τ) (Wv3 m) c),
      fun c => (BIBase.Entails.rfl : threadState (U := UR sig nD τ) (Wv4 m) c ⊢ threadState (U := UR sig nD τ) (Wv4 m) c),
      fun c => (BIBase.Entails.rfl : threadState (U := UR sig nD τ) (Wv5 m) c ⊢ threadState (U := UR sig nD τ) (Wv5 m) c),
      fun c => (BIBase.Entails.rfl : threadState (U := UR sig nD τ) (Wv6 m) c ⊢ threadState (U := UR sig nD τ) (Wv6 m) c),
      fun c => (BIBase.Entails.rfl : threadState (U := UR sig nD τ) (Wv7 m) c ⊢ threadState (U := UR sig nD τ) (Wv7 m) c),
      fun c => (BIBase.Entails.rfl : threadState (U := UR sig nD τ) (Wv8 m) c ⊢ threadState (U := UR sig nD τ) (Wv8 m) c),
      fun c => (BIBase.Entails.rfl : threadState (U := UR sig nD τ) (Wv9 m) c ⊢ threadState (U := UR sig nD τ) (Wv9 m) c),
      fun c => (BIBase.Entails.rfl : threadState (U := UR sig nD τ) (Wv10 m) c ⊢ threadState (U := UR sig nD τ) (Wv10 m) c),
      fun c => (BIBase.Entails.rfl : threadState (U := UR sig nD τ) (Wv11 m) c ⊢ threadState (U := UR sig nD τ) (Wv11 m) c),
      fun c => (BIBase.Entails.rfl : threadState (U := UR sig nD τ) (Wv12 m) c ⊢ threadState (U := UR sig nD τ) (Wv12 m) c),
      fun c => (BIBase.Entails.rfl : threadState (U := UR sig nD τ) (Wv13 m) c ⊢ threadState (U := UR sig nD τ) (Wv13 m) c),
      fun c => by
        show threadState (U := UR sig nD τ) (Wv14 m) c ⊢ _
        iintro ⟨Hh, ⟨Hp, Ho⟩⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv14 m c b)
    (hfin := fun c s' => by
      iintro ⟨⟨Hh, -⟩, HSI⟩
      unfold StableHlo.held
      imodintro
      iapply (pointsTo_read_all (Pipeline.ucRefs τ sig) (fun b => (((c : Thread nD τ)).1, b)) (Wv14 m c) s')
      isplitl [Hh] <;> iassumption)
    (hQ := fun s h c => h c)

end Cert.Kernel.Hand

end
-- ==== Proof.KArgs.lean ====
/-
  No segment of the program changes an argument array: a host stretch writes only the buffers of its own results,
  and a region changes only its output arrays. So each argument holds, at the last boundary, what it held at launch,
  and the run of the whole program ends with the arguments unchanged.
-/
import proofs.«159573_j34617436406345_1_alg».proof.Proof.KFrame

set_option maxRecDepth 16384

noncomputable section

namespace Cert.Kernel.Hand

open Idealize.ShloMosaic Idealize.ShloMosaic.TcCoe
open Idealize.SL Idealize.SL.Sem
open Cert.Kernel Cert.Kernel.Gen RegionRecord

variable {F : FTy → Type} [FloatOps F]
variable (m : (ℓ : Loc nD τ sig) → Buf (Elt F) ℓ)

/-- A host stretch leaves every buffer it does not write as it found it. -/
theorem Wv1_keep (c : Dev nD) (r : Ref sig .tc) (h : r ∉ hostOps0_W) : Wv1 m c (Proc.devRef .tc r) = Wv0 m c (Proc.devRef .tc r) :=
  StableHlo.after_of_writes_sub hostOps0 _ hostOps0_writes h
theorem Wv4_keep (c : Dev nD) (r : Ref sig .tc) (h : r ∉ hostOps2_W) : Wv4 m c (Proc.devRef .tc r) = Wv3 m c (Proc.devRef .tc r) :=
  StableHlo.after_of_writes_sub hostOps2 _ hostOps2_writes h
theorem Wv6_keep (c : Dev nD) (r : Ref sig .tc) (h : r ∉ hostOps3_W) : Wv6 m c (Proc.devRef .tc r) = Wv5 m c (Proc.devRef .tc r) :=
  StableHlo.after_of_writes_sub hostOps3 _ hostOps3_writes h
theorem Wv9_keep (c : Dev nD) (r : Ref sig .tc) (h : r ∉ hostOps5_W) : Wv9 m c (Proc.devRef .tc r) = Wv8 m c (Proc.devRef .tc r) :=
  StableHlo.after_of_writes_sub hostOps5 _ hostOps5_writes h
theorem Wv11_keep (c : Dev nD) (r : Ref sig .tc) (h : r ∉ hostOps6_W) : Wv11 m c (Proc.devRef .tc r) = Wv10 m c (Proc.devRef .tc r) :=
  StableHlo.after_of_writes_sub hostOps6 _ hostOps6_writes h
theorem Wv13_keep (c : Dev nD) (r : Ref sig .tc) (h : r ∉ hostOps7_W) : Wv13 m c (Proc.devRef .tc r) = Wv12 m c (Proc.devRef .tc r) :=
  StableHlo.after_of_writes_sub hostOps7 _ hostOps7_writes h

theorem Wv14_main_arg0_from0 (c : Dev nD) : Wv14 m c (Proc.devRef .tc main_arg0) = Wv0 m c (Proc.devRef .tc main_arg0) :=
  (Wv14_keep m c main_arg0 (by decide)).trans <| (Wv13_keep m c main_arg0 (by decide)).trans <| (Wv12_keep m c main_arg0 (by decide)).trans <| (Wv11_keep m c main_arg0 (by decide)).trans <| (Wv10_keep m c main_arg0 (by decide)).trans <| (Wv9_keep m c main_arg0 (by decide)).trans <| (Wv8_keep m c main_arg0 (by decide)).trans <| (Wv7_keep m c main_arg0 (by decide)).trans <| (Wv6_keep m c main_arg0 (by decide)).trans <| (Wv5_keep m c main_arg0 (by decide)).trans <| (Wv4_keep m c main_arg0 (by decide)).trans <| (Wv3_keep m c main_arg0 (by decide)).trans <| (Wv2_keep m c main_arg0 (by decide)).trans <| (Wv1_keep m c main_arg0 (by decide))
theorem Wv14_main_arg1_from0 (c : Dev nD) : Wv14 m c (Proc.devRef .tc main_arg1) = Wv0 m c (Proc.devRef .tc main_arg1) :=
  (Wv14_keep m c main_arg1 (by decide)).trans <| (Wv13_keep m c main_arg1 (by decide)).trans <| (Wv12_keep m c main_arg1 (by decide)).trans <| (Wv11_keep m c main_arg1 (by decide)).trans <| (Wv10_keep m c main_arg1 (by decide)).trans <| (Wv9_keep m c main_arg1 (by decide)).trans <| (Wv8_keep m c main_arg1 (by decide)).trans <| (Wv7_keep m c main_arg1 (by decide)).trans <| (Wv6_keep m c main_arg1 (by decide)).trans <| (Wv5_keep m c main_arg1 (by decide)).trans <| (Wv4_keep m c main_arg1 (by decide)).trans <| (Wv3_keep m c main_arg1 (by decide)).trans <| (Wv2_keep m c main_arg1 (by decide)).trans <| (Wv1_keep m c main_arg1 (by decide))
theorem Wv14_main_arg2_from0 (c : Dev nD) : Wv14 m c (Proc.devRef .tc main_arg2) = Wv0 m c (Proc.devRef .tc main_arg2) :=
  (Wv14_keep m c main_arg2 (by decide)).trans <| (Wv13_keep m c main_arg2 (by decide)).trans <| (Wv12_keep m c main_arg2 (by decide)).trans <| (Wv11_keep m c main_arg2 (by decide)).trans <| (Wv10_keep m c main_arg2 (by decide)).trans <| (Wv9_keep m c main_arg2 (by decide)).trans <| (Wv8_keep m c main_arg2 (by decide)).trans <| (Wv7_keep m c main_arg2 (by decide)).trans <| (Wv6_keep m c main_arg2 (by decide)).trans <| (Wv5_keep m c main_arg2 (by decide)).trans <| (Wv4_keep m c main_arg2 (by decide)).trans <| (Wv3_keep m c main_arg2 (by decide)).trans <| (Wv2_keep m c main_arg2 (by decide)).trans <| (Wv1_keep m c main_arg2 (by decide))
theorem Wv14_main_arg3_from0 (c : Dev nD) : Wv14 m c (Proc.devRef .tc main_arg3) = Wv0 m c (Proc.devRef .tc main_arg3) :=
  (Wv14_keep m c main_arg3 (by decide)).trans <| (Wv13_keep m c main_arg3 (by decide)).trans <| (Wv12_keep m c main_arg3 (by decide)).trans <| (Wv11_keep m c main_arg3 (by decide)).trans <| (Wv10_keep m c main_arg3 (by decide)).trans <| (Wv9_keep m c main_arg3 (by decide)).trans <| (Wv8_keep m c main_arg3 (by decide)).trans <| (Wv7_keep m c main_arg3 (by decide)).trans <| (Wv6_keep m c main_arg3 (by decide)).trans <| (Wv5_keep m c main_arg3 (by decide)).trans <| (Wv4_keep m c main_arg3 (by decide)).trans <| (Wv3_keep m c main_arg3 (by decide)).trans <| (Wv2_keep m c main_arg3 (by decide)).trans <| (Wv1_keep m c main_arg3 (by decide))
theorem Wv14_main_arg4_from0 (c : Dev nD) : Wv14 m c (Proc.devRef .tc main_arg4) = Wv0 m c (Proc.devRef .tc main_arg4) :=
  (Wv14_keep m c main_arg4 (by decide)).trans <| (Wv13_keep m c main_arg4 (by decide)).trans <| (Wv12_keep m c main_arg4 (by decide)).trans <| (Wv11_keep m c main_arg4 (by decide)).trans <| (Wv10_keep m c main_arg4 (by decide)).trans <| (Wv9_keep m c main_arg4 (by decide)).trans <| (Wv8_keep m c main_arg4 (by decide)).trans <| (Wv7_keep m c main_arg4 (by decide)).trans <| (Wv6_keep m c main_arg4 (by decide)).trans <| (Wv5_keep m c main_arg4 (by decide)).trans <| (Wv4_keep m c main_arg4 (by decide)).trans <| (Wv3_keep m c main_arg4 (by decide)).trans <| (Wv2_keep m c main_arg4 (by decide)).trans <| (Wv1_keep m c main_arg4 (by decide))
theorem Wv14_main_arg5_from0 (c : Dev nD) : Wv14 m c (Proc.devRef .tc main_arg5) = Wv0 m c (Proc.devRef .tc main_arg5) :=
  (Wv14_keep m c main_arg5 (by decide)).trans <| (Wv13_keep m c main_arg5 (by decide)).trans <| (Wv12_keep m c main_arg5 (by decide)).trans <| (Wv11_keep m c main_arg5 (by decide)).trans <| (Wv10_keep m c main_arg5 (by decide)).trans <| (Wv9_keep m c main_arg5 (by decide)).trans <| (Wv8_keep m c main_arg5 (by decide)).trans <| (Wv7_keep m c main_arg5 (by decide)).trans <| (Wv6_keep m c main_arg5 (by decide)).trans <| (Wv5_keep m c main_arg5 (by decide)).trans <| (Wv4_keep m c main_arg5 (by decide)).trans <| (Wv3_keep m c main_arg5 (by decide)).trans <| (Wv2_keep m c main_arg5 (by decide)).trans <| (Wv1_keep m c main_arg5 (by decide))
theorem Wv14_main_arg6_from0 (c : Dev nD) : Wv14 m c (Proc.devRef .tc main_arg6) = Wv0 m c (Proc.devRef .tc main_arg6) :=
  (Wv14_keep m c main_arg6 (by decide)).trans <| (Wv13_keep m c main_arg6 (by decide)).trans <| (Wv12_keep m c main_arg6 (by decide)).trans <| (Wv11_keep m c main_arg6 (by decide)).trans <| (Wv10_keep m c main_arg6 (by decide)).trans <| (Wv9_keep m c main_arg6 (by decide)).trans <| (Wv8_keep m c main_arg6 (by decide)).trans <| (Wv7_keep m c main_arg6 (by decide)).trans <| (Wv6_keep m c main_arg6 (by decide)).trans <| (Wv5_keep m c main_arg6 (by decide)).trans <| (Wv4_keep m c main_arg6 (by decide)).trans <| (Wv3_keep m c main_arg6 (by decide)).trans <| (Wv2_keep m c main_arg6 (by decide)).trans <| (Wv1_keep m c main_arg6 (by decide))
theorem Wv14_main_arg7_from0 (c : Dev nD) : Wv14 m c (Proc.devRef .tc main_arg7) = Wv0 m c (Proc.devRef .tc main_arg7) :=
  (Wv14_keep m c main_arg7 (by decide)).trans <| (Wv13_keep m c main_arg7 (by decide)).trans <| (Wv12_keep m c main_arg7 (by decide)).trans <| (Wv11_keep m c main_arg7 (by decide)).trans <| (Wv10_keep m c main_arg7 (by decide)).trans <| (Wv9_keep m c main_arg7 (by decide)).trans <| (Wv8_keep m c main_arg7 (by decide)).trans <| (Wv7_keep m c main_arg7 (by decide)).trans <| (Wv6_keep m c main_arg7 (by decide)).trans <| (Wv5_keep m c main_arg7 (by decide)).trans <| (Wv4_keep m c main_arg7 (by decide)).trans <| (Wv3_keep m c main_arg7 (by decide)).trans <| (Wv2_keep m c main_arg7 (by decide)).trans <| (Wv1_keep m c main_arg7 (by decide))
theorem Wv14_main_arg8_from0 (c : Dev nD) : Wv14 m c (Proc.devRef .tc main_arg8) = Wv0 m c (Proc.devRef .tc main_arg8) :=
  (Wv14_keep m c main_arg8 (by decide)).trans <| (Wv13_keep m c main_arg8 (by decide)).trans <| (Wv12_keep m c main_arg8 (by decide)).trans <| (Wv11_keep m c main_arg8 (by decide)).trans <| (Wv10_keep m c main_arg8 (by decide)).trans <| (Wv9_keep m c main_arg8 (by decide)).trans <| (Wv8_keep m c main_arg8 (by decide)).trans <| (Wv7_keep m c main_arg8 (by decide)).trans <| (Wv6_keep m c main_arg8 (by decide)).trans <| (Wv5_keep m c main_arg8 (by decide)).trans <| (Wv4_keep m c main_arg8 (by decide)).trans <| (Wv3_keep m c main_arg8 (by decide)).trans <| (Wv2_keep m c main_arg8 (by decide)).trans <| (Wv1_keep m c main_arg8 (by decide))
theorem Wv14_main_arg9_from0 (c : Dev nD) : Wv14 m c (Proc.devRef .tc main_arg9) = Wv0 m c (Proc.devRef .tc main_arg9) :=
  (Wv14_keep m c main_arg9 (by decide)).trans <| (Wv13_keep m c main_arg9 (by decide)).trans <| (Wv12_keep m c main_arg9 (by decide)).trans <| (Wv11_keep m c main_arg9 (by decide)).trans <| (Wv10_keep m c main_arg9 (by decide)).trans <| (Wv9_keep m c main_arg9 (by decide)).trans <| (Wv8_keep m c main_arg9 (by decide)).trans <| (Wv7_keep m c main_arg9 (by decide)).trans <| (Wv6_keep m c main_arg9 (by decide)).trans <| (Wv5_keep m c main_arg9 (by decide)).trans <| (Wv4_keep m c main_arg9 (by decide)).trans <| (Wv3_keep m c main_arg9 (by decide)).trans <| (Wv2_keep m c main_arg9 (by decide)).trans <| (Wv1_keep m c main_arg9 (by decide))
theorem Wv14_main_arg10_from0 (c : Dev nD) : Wv14 m c (Proc.devRef .tc main_arg10) = Wv0 m c (Proc.devRef .tc main_arg10) :=
  (Wv14_keep m c main_arg10 (by decide)).trans <| (Wv13_keep m c main_arg10 (by decide)).trans <| (Wv12_keep m c main_arg10 (by decide)).trans <| (Wv11_keep m c main_arg10 (by decide)).trans <| (Wv10_keep m c main_arg10 (by decide)).trans <| (Wv9_keep m c main_arg10 (by decide)).trans <| (Wv8_keep m c main_arg10 (by decide)).trans <| (Wv7_keep m c main_arg10 (by decide)).trans <| (Wv6_keep m c main_arg10 (by decide)).trans <| (Wv5_keep m c main_arg10 (by decide)).trans <| (Wv4_keep m c main_arg10 (by decide)).trans <| (Wv3_keep m c main_arg10 (by decide)).trans <| (Wv2_keep m c main_arg10 (by decide)).trans <| (Wv1_keep m c main_arg10 (by decide))
theorem Wv14_main_arg11_from0 (c : Dev nD) : Wv14 m c (Proc.devRef .tc main_arg11) = Wv0 m c (Proc.devRef .tc main_arg11) :=
  (Wv14_keep m c main_arg11 (by decide)).trans <| (Wv13_keep m c main_arg11 (by decide)).trans <| (Wv12_keep m c main_arg11 (by decide)).trans <| (Wv11_keep m c main_arg11 (by decide)).trans <| (Wv10_keep m c main_arg11 (by decide)).trans <| (Wv9_keep m c main_arg11 (by decide)).trans <| (Wv8_keep m c main_arg11 (by decide)).trans <| (Wv7_keep m c main_arg11 (by decide)).trans <| (Wv6_keep m c main_arg11 (by decide)).trans <| (Wv5_keep m c main_arg11 (by decide)).trans <| (Wv4_keep m c main_arg11 (by decide)).trans <| (Wv3_keep m c main_arg11 (by decide)).trans <| (Wv2_keep m c main_arg11 (by decide)).trans <| (Wv1_keep m c main_arg11 (by decide))
theorem Wv14_main_arg12_from0 (c : Dev nD) : Wv14 m c (Proc.devRef .tc main_arg12) = Wv0 m c (Proc.devRef .tc main_arg12) :=
  (Wv14_keep m c main_arg12 (by decide)).trans <| (Wv13_keep m c main_arg12 (by decide)).trans <| (Wv12_keep m c main_arg12 (by decide)).trans <| (Wv11_keep m c main_arg12 (by decide)).trans <| (Wv10_keep m c main_arg12 (by decide)).trans <| (Wv9_keep m c main_arg12 (by decide)).trans <| (Wv8_keep m c main_arg12 (by decide)).trans <| (Wv7_keep m c main_arg12 (by decide)).trans <| (Wv6_keep m c main_arg12 (by decide)).trans <| (Wv5_keep m c main_arg12 (by decide)).trans <| (Wv4_keep m c main_arg12 (by decide)).trans <| (Wv3_keep m c main_arg12 (by decide)).trans <| (Wv2_keep m c main_arg12 (by decide)).trans <| (Wv1_keep m c main_arg12 (by decide))
theorem Wv14_main_arg13_from0 (c : Dev nD) : Wv14 m c (Proc.devRef .tc main_arg13) = Wv0 m c (Proc.devRef .tc main_arg13) :=
  (Wv14_keep m c main_arg13 (by decide)).trans <| (Wv13_keep m c main_arg13 (by decide)).trans <| (Wv12_keep m c main_arg13 (by decide)).trans <| (Wv11_keep m c main_arg13 (by decide)).trans <| (Wv10_keep m c main_arg13 (by decide)).trans <| (Wv9_keep m c main_arg13 (by decide)).trans <| (Wv8_keep m c main_arg13 (by decide)).trans <| (Wv7_keep m c main_arg13 (by decide)).trans <| (Wv6_keep m c main_arg13 (by decide)).trans <| (Wv5_keep m c main_arg13 (by decide)).trans <| (Wv4_keep m c main_arg13 (by decide)).trans <| (Wv3_keep m c main_arg13 (by decide)).trans <| (Wv2_keep m c main_arg13 (by decide)).trans <| (Wv1_keep m c main_arg13 (by decide))
theorem Wv14_main_arg14_from0 (c : Dev nD) : Wv14 m c (Proc.devRef .tc main_arg14) = Wv0 m c (Proc.devRef .tc main_arg14) :=
  (Wv14_keep m c main_arg14 (by decide)).trans <| (Wv13_keep m c main_arg14 (by decide)).trans <| (Wv12_keep m c main_arg14 (by decide)).trans <| (Wv11_keep m c main_arg14 (by decide)).trans <| (Wv10_keep m c main_arg14 (by decide)).trans <| (Wv9_keep m c main_arg14 (by decide)).trans <| (Wv8_keep m c main_arg14 (by decide)).trans <| (Wv7_keep m c main_arg14 (by decide)).trans <| (Wv6_keep m c main_arg14 (by decide)).trans <| (Wv5_keep m c main_arg14 (by decide)).trans <| (Wv4_keep m c main_arg14 (by decide)).trans <| (Wv3_keep m c main_arg14 (by decide)).trans <| (Wv2_keep m c main_arg14 (by decide)).trans <| (Wv1_keep m c main_arg14 (by decide))
theorem Wv14_main_arg15_from0 (c : Dev nD) : Wv14 m c (Proc.devRef .tc main_arg15) = Wv0 m c (Proc.devRef .tc main_arg15) :=
  (Wv14_keep m c main_arg15 (by decide)).trans <| (Wv13_keep m c main_arg15 (by decide)).trans <| (Wv12_keep m c main_arg15 (by decide)).trans <| (Wv11_keep m c main_arg15 (by decide)).trans <| (Wv10_keep m c main_arg15 (by decide)).trans <| (Wv9_keep m c main_arg15 (by decide)).trans <| (Wv8_keep m c main_arg15 (by decide)).trans <| (Wv7_keep m c main_arg15 (by decide)).trans <| (Wv6_keep m c main_arg15 (by decide)).trans <| (Wv5_keep m c main_arg15 (by decide)).trans <| (Wv4_keep m c main_arg15 (by decide)).trans <| (Wv3_keep m c main_arg15 (by decide)).trans <| (Wv2_keep m c main_arg15 (by decide)).trans <| (Wv1_keep m c main_arg15 (by decide))
theorem Wv14_main_arg16_from0 (c : Dev nD) : Wv14 m c (Proc.devRef .tc main_arg16) = Wv0 m c (Proc.devRef .tc main_arg16) :=
  (Wv14_keep m c main_arg16 (by decide)).trans <| (Wv13_keep m c main_arg16 (by decide)).trans <| (Wv12_keep m c main_arg16 (by decide)).trans <| (Wv11_keep m c main_arg16 (by decide)).trans <| (Wv10_keep m c main_arg16 (by decide)).trans <| (Wv9_keep m c main_arg16 (by decide)).trans <| (Wv8_keep m c main_arg16 (by decide)).trans <| (Wv7_keep m c main_arg16 (by decide)).trans <| (Wv6_keep m c main_arg16 (by decide)).trans <| (Wv5_keep m c main_arg16 (by decide)).trans <| (Wv4_keep m c main_arg16 (by decide)).trans <| (Wv3_keep m c main_arg16 (by decide)).trans <| (Wv2_keep m c main_arg16 (by decide)).trans <| (Wv1_keep m c main_arg16 (by decide))
theorem Wv14_main_arg17_from0 (c : Dev nD) : Wv14 m c (Proc.devRef .tc main_arg17) = Wv0 m c (Proc.devRef .tc main_arg17) :=
  (Wv14_keep m c main_arg17 (by decide)).trans <| (Wv13_keep m c main_arg17 (by decide)).trans <| (Wv12_keep m c main_arg17 (by decide)).trans <| (Wv11_keep m c main_arg17 (by decide)).trans <| (Wv10_keep m c main_arg17 (by decide)).trans <| (Wv9_keep m c main_arg17 (by decide)).trans <| (Wv8_keep m c main_arg17 (by decide)).trans <| (Wv7_keep m c main_arg17 (by decide)).trans <| (Wv6_keep m c main_arg17 (by decide)).trans <| (Wv5_keep m c main_arg17 (by decide)).trans <| (Wv4_keep m c main_arg17 (by decide)).trans <| (Wv3_keep m c main_arg17 (by decide)).trans <| (Wv2_keep m c main_arg17 (by decide)).trans <| (Wv1_keep m c main_arg17 (by decide))
theorem Wv14_main_arg18_from0 (c : Dev nD) : Wv14 m c (Proc.devRef .tc main_arg18) = Wv0 m c (Proc.devRef .tc main_arg18) :=
  (Wv14_keep m c main_arg18 (by decide)).trans <| (Wv13_keep m c main_arg18 (by decide)).trans <| (Wv12_keep m c main_arg18 (by decide)).trans <| (Wv11_keep m c main_arg18 (by decide)).trans <| (Wv10_keep m c main_arg18 (by decide)).trans <| (Wv9_keep m c main_arg18 (by decide)).trans <| (Wv8_keep m c main_arg18 (by decide)).trans <| (Wv7_keep m c main_arg18 (by decide)).trans <| (Wv6_keep m c main_arg18 (by decide)).trans <| (Wv5_keep m c main_arg18 (by decide)).trans <| (Wv4_keep m c main_arg18 (by decide)).trans <| (Wv3_keep m c main_arg18 (by decide)).trans <| (Wv2_keep m c main_arg18 (by decide)).trans <| (Wv1_keep m c main_arg18 (by decide))
theorem Wv14_main_arg19_from0 (c : Dev nD) : Wv14 m c (Proc.devRef .tc main_arg19) = Wv0 m c (Proc.devRef .tc main_arg19) :=
  (Wv14_keep m c main_arg19 (by decide)).trans <| (Wv13_keep m c main_arg19 (by decide)).trans <| (Wv12_keep m c main_arg19 (by decide)).trans <| (Wv11_keep m c main_arg19 (by decide)).trans <| (Wv10_keep m c main_arg19 (by decide)).trans <| (Wv9_keep m c main_arg19 (by decide)).trans <| (Wv8_keep m c main_arg19 (by decide)).trans <| (Wv7_keep m c main_arg19 (by decide)).trans <| (Wv6_keep m c main_arg19 (by decide)).trans <| (Wv5_keep m c main_arg19 (by decide)).trans <| (Wv4_keep m c main_arg19 (by decide)).trans <| (Wv3_keep m c main_arg19 (by decide)).trans <| (Wv2_keep m c main_arg19 (by decide)).trans <| (Wv1_keep m c main_arg19 (by decide))
theorem Wv14_main_arg20_from0 (c : Dev nD) : Wv14 m c (Proc.devRef .tc main_arg20) = Wv0 m c (Proc.devRef .tc main_arg20) :=
  (Wv14_keep m c main_arg20 (by decide)).trans <| (Wv13_keep m c main_arg20 (by decide)).trans <| (Wv12_keep m c main_arg20 (by decide)).trans <| (Wv11_keep m c main_arg20 (by decide)).trans <| (Wv10_keep m c main_arg20 (by decide)).trans <| (Wv9_keep m c main_arg20 (by decide)).trans <| (Wv8_keep m c main_arg20 (by decide)).trans <| (Wv7_keep m c main_arg20 (by decide)).trans <| (Wv6_keep m c main_arg20 (by decide)).trans <| (Wv5_keep m c main_arg20 (by decide)).trans <| (Wv4_keep m c main_arg20 (by decide)).trans <| (Wv3_keep m c main_arg20 (by decide)).trans <| (Wv2_keep m c main_arg20 (by decide)).trans <| (Wv1_keep m c main_arg20 (by decide))
theorem Wv14_main_arg21_from0 (c : Dev nD) : Wv14 m c (Proc.devRef .tc main_arg21) = Wv0 m c (Proc.devRef .tc main_arg21) :=
  (Wv14_keep m c main_arg21 (by decide)).trans <| (Wv13_keep m c main_arg21 (by decide)).trans <| (Wv12_keep m c main_arg21 (by decide)).trans <| (Wv11_keep m c main_arg21 (by decide)).trans <| (Wv10_keep m c main_arg21 (by decide)).trans <| (Wv9_keep m c main_arg21 (by decide)).trans <| (Wv8_keep m c main_arg21 (by decide)).trans <| (Wv7_keep m c main_arg21 (by decide)).trans <| (Wv6_keep m c main_arg21 (by decide)).trans <| (Wv5_keep m c main_arg21 (by decide)).trans <| (Wv4_keep m c main_arg21 (by decide)).trans <| (Wv3_keep m c main_arg21 (by decide)).trans <| (Wv2_keep m c main_arg21 (by decide)).trans <| (Wv1_keep m c main_arg21 (by decide))
theorem Wv14_main_arg22_from0 (c : Dev nD) : Wv14 m c (Proc.devRef .tc main_arg22) = Wv0 m c (Proc.devRef .tc main_arg22) :=
  (Wv14_keep m c main_arg22 (by decide)).trans <| (Wv13_keep m c main_arg22 (by decide)).trans <| (Wv12_keep m c main_arg22 (by decide)).trans <| (Wv11_keep m c main_arg22 (by decide)).trans <| (Wv10_keep m c main_arg22 (by decide)).trans <| (Wv9_keep m c main_arg22 (by decide)).trans <| (Wv8_keep m c main_arg22 (by decide)).trans <| (Wv7_keep m c main_arg22 (by decide)).trans <| (Wv6_keep m c main_arg22 (by decide)).trans <| (Wv5_keep m c main_arg22 (by decide)).trans <| (Wv4_keep m c main_arg22 (by decide)).trans <| (Wv3_keep m c main_arg22 (by decide)).trans <| (Wv2_keep m c main_arg22 (by decide)).trans <| (Wv1_keep m c main_arg22 (by decide))
theorem Wv14_main_arg23_from0 (c : Dev nD) : Wv14 m c (Proc.devRef .tc main_arg23) = Wv0 m c (Proc.devRef .tc main_arg23) :=
  (Wv14_keep m c main_arg23 (by decide)).trans <| (Wv13_keep m c main_arg23 (by decide)).trans <| (Wv12_keep m c main_arg23 (by decide)).trans <| (Wv11_keep m c main_arg23 (by decide)).trans <| (Wv10_keep m c main_arg23 (by decide)).trans <| (Wv9_keep m c main_arg23 (by decide)).trans <| (Wv8_keep m c main_arg23 (by decide)).trans <| (Wv7_keep m c main_arg23 (by decide)).trans <| (Wv6_keep m c main_arg23 (by decide)).trans <| (Wv5_keep m c main_arg23 (by decide)).trans <| (Wv4_keep m c main_arg23 (by decide)).trans <| (Wv3_keep m c main_arg23 (by decide)).trans <| (Wv2_keep m c main_arg23 (by decide)).trans <| (Wv1_keep m c main_arg23 (by decide))

/-- The frame: every weakly fair execution terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨
    (h c _ (mem_uc main_arg0 (by decide))).trans (Wv14_main_arg0_from0 m c),
    (h c _ (mem_uc main_arg1 (by decide))).trans (Wv14_main_arg1_from0 m c),
    (h c _ (mem_uc main_arg2 (by decide))).trans (Wv14_main_arg2_from0 m c),
    (h c _ (mem_uc main_arg3 (by decide))).trans (Wv14_main_arg3_from0 m c),
    (h c _ (mem_uc main_arg4 (by decide))).trans (Wv14_main_arg4_from0 m c),
    (h c _ (mem_uc main_arg5 (by decide))).trans (Wv14_main_arg5_from0 m c),
    (h c _ (mem_uc main_arg6 (by decide))).trans (Wv14_main_arg6_from0 m c),
    (h c _ (mem_uc main_arg7 (by decide))).trans (Wv14_main_arg7_from0 m c),
    (h c _ (mem_uc main_arg8 (by decide))).trans (Wv14_main_arg8_from0 m c),
    (h c _ (mem_uc main_arg9 (by decide))).trans (Wv14_main_arg9_from0 m c),
    (h c _ (mem_uc main_arg10 (by decide))).trans (Wv14_main_arg10_from0 m c),
    (h c _ (mem_uc main_arg11 (by decide))).trans (Wv14_main_arg11_from0 m c),
    (h c _ (mem_uc main_arg12 (by decide))).trans (Wv14_main_arg12_from0 m c),
    (h c _ (mem_uc main_arg13 (by decide))).trans (Wv14_main_arg13_from0 m c),
    (h c _ (mem_uc main_arg14 (by decide))).trans (Wv14_main_arg14_from0 m c),
    (h c _ (mem_uc main_arg15 (by decide))).trans (Wv14_main_arg15_from0 m c),
    (h c _ (mem_uc main_arg16 (by decide))).trans (Wv14_main_arg16_from0 m c),
    (h c _ (mem_uc main_arg17 (by decide))).trans (Wv14_main_arg17_from0 m c),
    (h c _ (mem_uc main_arg18 (by decide))).trans (Wv14_main_arg18_from0 m c),
    (h c _ (mem_uc main_arg19 (by decide))).trans (Wv14_main_arg19_from0 m c),
    (h c _ (mem_uc main_arg20 (by decide))).trans (Wv14_main_arg20_from0 m c),
    (h c _ (mem_uc main_arg21 (by decide))).trans (Wv14_main_arg21_from0 m c),
    (h c _ (mem_uc main_arg22 (by decide))).trans (Wv14_main_arg22_from0 m c),
    (h c _ (mem_uc main_arg23 (by decide))).trans (Wv14_main_arg23_from0 m c)⟩) (run_all m ρ)

end Cert.Kernel.Hand

end
-- ==== Proof.KiRegion0.lean ====
/-
  Region 0 of the program (the call of cc0__sage_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.KernelIdeal.Launch
import proofs.«159573_j34617436406345_1_alg».proof.Proof.Gen.KernelIdeal.Skeleton
import proofs.«159573_j34617436406345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S5000x64 := Rect.unit (s := S5000x64) ![0, 0] S5000x64.size inb_S5000x64_S5000x64_0_0
abbrev r0_2 : Rect S64x64 := Rect.unit (s := S64x64) ![0, 0] S64x64.size inb_S64x64_S64x64_0_0
abbrev r0_3 : Rect S64x64 := Rect.unit (s := S64x64) ![0, 0] S64x64.size inb_S64x64_S64x64_0_0
abbrev r0_4 : Rect S1x64 := Rect.unit (s := S1x64) ![0, 0] S1x64.size inb_S1x64_S1x64_0_0
abbrev r0_5 : Rect S5000x64 := Rect.unit (s := S5000x64) ![0, 0] S5000x64.size inb_S5000x64_S5000x64_0_0

/-- What the body leaves in the output window's buffer: its one store, over the whole block, of the value computed
    from the loaded input blocks. -/
def out0_5 (x0 : Vec F S5000x64 .f32) (x1 : Vec F S5000x64 .f32) (x2 : Vec F S64x64 .f32) (x3 : Vec F S64x64 .f32) (x4 : Vec F S1x64 .f32) : Vec F S5000x64 .f32 :=
  View.canon [⟨r0_5, k0_pay1 (View.ld x0 r0_0) (View.ld x1 r0_1) (View.ld x2 r0_2) (View.ld x3 r0_3) (View.ld x4 r0_4)⟩]

theorem cover0_5 (p0 : Vec F S5000x64 .f32) (y : S5000x64.Idx) :
    ∃ pc ∈ ([⟨r0_5, p0⟩] : List (View.Piece (Elt F) S5000x64 .f32)), y ∈ pc.1.set :=
  View.cover_of_tiled [⟨r0_5, p0⟩] S5000x64.size (by rfl) y

set_option maxHeartbeats 1000000 in
/-- The body on whole staging memrefs, the inputs' at read contents and the output's at anything, runs to the
    continuation holding the inputs' as they were and the output's at the stored value. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover0_5 _)

/-- The proof data of the pipeline on core c: the arrays as the region finds them; after the body at point t each
    input's buffer at its block and the output's at the stored value of the input blocks; the invariant the pipeline's
    own; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  Region 1 of the program (the call of the batch-statistics kernel): the proof data of its pipeline at any entry
  contents V, and the body obligation at every grid point. The body adds, at every point, the column sums of the
  point's block and of its squares onto two scratch rows that it zeroes at the first point; only at the last point
  does it divide them by the row count and store the mean and the variance into the two output blocks, which are
  idle before that and written back once. So the invariant between points holds the two scratch rows at what the
  points so far have accumulated, and the outputs' buffers pass through the earlier points untouched.
-/
import proofs.«159573_j34617436406345_1_alg».proof.Proof.Gen.KernelIdeal.Launch
import proofs.«159573_j34617436406345_1_alg».proof.Proof.Gen.KernelIdeal.Skeleton
import proofs.«159573_j34617436406345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, decided over the grid -/

/-- The first conditional's test: the point is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second conditional's test: the point is the last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-- The input window is never idle; the two outputs are idle, and not written back, exactly before the last point. -/
theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The memrefs the body is called with -/

abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
/-- The two scratch rows: whole scoped buffers of the kernel's own. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view

/-- The scoped buffers of the core that belong to no window of this region and are not its two scratch rows. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The pipeline's own invariant with the two scratch rows taken out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 c) ∗ (∃ r, prngReg c r)) := by
  unfold Pipeline.ΦA; rw [scopedRest1_split]; simp only [scM1_0, scM1_1, owns_whole]; try rfl

/-! ## The body, run once per control case -/

set_option maxHeartbeats 1000000 in
/-- The first point: both scratch rows are zeroed and then receive the block's column sums; the outputs' buffers
    are handed back as found. The lists are the stores the run finds for the two scratch rows, last first. -/
noncomputable def kernelRun1_A (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, fun xi1 xi2 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A middle point: the scratch rows, at what the points before left, receive the block's column sums; the outputs'
    buffers are handed back as found. -/
noncomputable def kernelRun1_B (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, fun xi1 xi2 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the scratch rows receive the last block's column sums, and the mean and the variance computed
    from them are stored over the two output blocks. -/
noncomputable def kernelRun1_C (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__bn_stats_kernel i arg1 harg1 arg2 harg2 arg3 harg3 arg4 harg4 arg5 harg5) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

/-! ## What each case leaves in the scratch rows and the outputs -/

def sout1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VS1_0.read (Elt F) (VS1_0.writes (Elt F) VS1_0.junk ((kernelRun1_A c i arg1 harg1 arg2 harg2 arg3 harg3 arg4 harg4 arg5 harg5 hc0 hc1 x0).1))

def sout1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VS1_1.read (Elt F) (VS1_1.writes (Elt F) VS1_1.junk ((kernelRun1_A c i arg1 harg1 arg2 harg2 arg3 harg3 arg4 harg4 arg5 harg5 hc0 hc1 x0).2.1))

theorem scover1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) (y : S1x64.Idx) :
    ∃ pc ∈ (kernelRun1_A c i arg1 harg1 arg2 harg2 arg3 harg3 arg4 harg4 arg5 harg5 hc0 hc1 x0).1, y ∈ pc.1.set :=
  View.cover_of_tiledL (kernelRun1_A c i arg1 harg1 arg2 harg2 arg3 harg3 arg4 harg4 arg5 harg5 hc0 hc1 x0).1 S1x64.size (by sl_kernel_rfl) y

theorem scover1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) (y : S1x64.Idx) :
    ∃ pc ∈ (kernelRun1_A c i arg1 harg1 arg2 harg2 arg3 harg3 arg4 harg4 arg5 harg5 hc0 hc1 x0).2.1, y ∈ pc.1.set :=
  View.cover_of_tiledL (kernelRun1_A c i arg1 harg1 arg2 harg2 arg3 harg3 arg4 harg4 arg5 harg5 hc0 hc1 x0).2.1 S1x64.size (by sl_kernel_rfl) y

def sout1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VS1_0.read (Elt F) (VS1_0.writes (Elt F) VS1_0.junk ((kernelRun1_B c i arg1 harg1 arg2 harg2 arg3 harg3 arg4 harg4 arg5 harg5 hc0 hc1 x0 xs0 xs1).1))

def sout1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VS1_1.read (Elt F) (VS1_1.writes (Elt F) VS1_1.junk ((kernelRun1_B c i arg1 harg1 arg2 harg2 arg3 harg3 arg4 harg4 arg5 harg5 hc0 hc1 x0 xs0 xs1).2.1))

theorem scover1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).1, y ∈ pc.1.set :=
  View.cover_of_tiledL (kernelRun1_B c i arg1 harg1 arg2 harg2 arg3 harg3 arg4 harg4 arg5 harg5 hc0 hc1 x0 xs0 xs1).1 S1x64.size (by sl_kernel_rfl) y

theorem scover1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).2.1, y ∈ pc.1.set :=
  View.cover_of_tiledL (kernelRun1_B c i arg1 harg1 arg2 harg2 arg3 harg3 arg4 harg4 arg5 harg5 hc0 hc1 x0 xs0 xs1).2.1 S1x64.size (by sl_kernel_rfl) y

def out1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VO1_1.read (Elt F) (VO1_1.writes (Elt F) VO1_1.junk ((kernelRun1_C c i arg1 harg1 arg2 harg2 arg3 harg3 arg4 harg4 arg5 harg5 hc0 hc1 x0 xs0 xs1).1))

def out1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VO1_2.read (Elt F) (VO1_2.writes (Elt F) VO1_2.junk ((kernelRun1_C c i arg1 harg1 arg2 harg2 arg3 harg3 arg4 harg4 arg5 harg5 hc0 hc1 x0 xs0 xs1).2.1))

def sout1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VS1_0.read (Elt F) (VS1_0.writes (Elt F) VS1_0.junk ((kernelRun1_C c i arg1 harg1 arg2 harg2 arg3 harg3 arg4 harg4 arg5 harg5 hc0 hc1 x0 xs0 xs1).2.2.1))

def sout1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VS1_1.read (Elt F) (VS1_1.writes (Elt F) VS1_1.junk ((kernelRun1_C c i arg1 harg1 arg2 harg2 arg3 harg3 arg4 harg4 arg5 harg5 hc0 hc1 x0 xs0 xs1).2.2.2.1))

theorem cover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x64.size (by sl_kernel_rfl) y

theorem cover1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x64.size (by sl_kernel_rfl) y

theorem scover1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x64.size (by sl_kernel_rfl) y

theorem scover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x64.size (by sl_kernel_rfl) y

/-! ## What the scratch rows hold after each point -/

/-- The two scratch rows after the body at position n: the first point's case from anything, every later point's
    case over what the point before left. -/
def sAt1 (c : Dev nD) : (n : ℕ) → n < cfg1.N → Vec F S1x64 .f32 × Vec F S1x64 .f32
  | 0, hn => (sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr rfl) (fun h => by have h9 := (hcond1_1 ⟨0, hn⟩).mp h; simp at h9) (iblk1 V c 0 ⟨0, hn⟩),
              sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr rfl) (fun h => by have h9 := (hcond1_1 ⟨0, hn⟩).mp h; simp at h9) (iblk1 V c 0 ⟨0, hn⟩))
  | n + 1, hn =>
    if h1 : n + 1 = 9 then
      (sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (sAt1 c n (Nat.lt_of_succ_lt hn)).1 (sAt1 c n (Nat.lt_of_succ_lt hn)).2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (sAt1 c n (Nat.lt_of_succ_lt hn)).1 (sAt1 c n (Nat.lt_of_succ_lt hn)).2)
    else
      (sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (sAt1 c n (Nat.lt_of_succ_lt hn)).1 (sAt1 c n (Nat.lt_of_succ_lt hn)).2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (sAt1 c n (Nat.lt_of_succ_lt hn)).1 (sAt1 c n (Nat.lt_of_succ_lt hn)).2)

theorem sAt1_A (c : Dev nD) (t : Fin cfg1.N) (h0 : t.val = 0) (hc0 : cond1_0 (grid1.coords t)) (hc1 : ¬cond1_1 (grid1.coords t)) :
    sAt1 V c t.val t.isLt = (sout1_A_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t)) := by
  obtain ⟨n, hn⟩ := t
  cases n with
  | zero => rfl
  | succ n => exact absurd h0 (Nat.succ_ne_zero n)

theorem sAt1_B (c : Dev nD) (t : Fin cfg1.N) (h0 : t.val ≠ 0) (h1 : t.val ≠ 9) (hc0 : ¬cond1_0 (grid1.coords t)) (hc1 : ¬cond1_1 (grid1.coords t)) :
    sAt1 V c t.val t.isLt = (sout1_B_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2,
      sout1_B_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2) := by
  obtain ⟨n, hn⟩ := t
  cases n with
  | zero => exact absurd rfl h0
  | succ n => exact (dif_neg h1).trans rfl

theorem sAt1_C (c : Dev nD) (t : Fin cfg1.N) (h1 : t.val = 9) (hc0 : ¬cond1_0 (grid1.coords t)) (hc1 : cond1_1 (grid1.coords t)) :
    sAt1 V c t.val t.isLt = (sout1_C_0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2,
      sout1_C_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2) := by
  obtain ⟨n, hn⟩ := t
  cases n with
  | zero => simp at h1
  | succ n => exact (dif_pos h1).trans rfl

/-- The two outputs' buffers after the body at point t: at the last point the mean and the variance computed from
    the scratch rows; before it the window is idle and nothing consults this value. -/
def oAt1 (c : Dev nD) (t : Fin cfg1.N) : Vec F S1x64 .f32 × Vec F S1x64 .f32 :=
  if h1 : t.val = 9 then
    (out1_C_1 c (grid1.coords t) (ms1_0 t) (hs1_0 t) (ms1_1 t) (hs1_1 t) (ms1_2 t) (hs1_2 t) scM1_0 (Memref.isWhole_whole _) scM1_1 (Memref.isWhole_whole _) (fun h => absurd ((hcond1_0 t).mp h) (by omega)) ((hcond1_1 t).mpr h1) (iblk1 V c 0 t) (sAt1 V c (t.val - 1) (Nat.lt_of_le_of_lt (Nat.sub_le _ _) t.isLt)).1 (sAt1 V c (t.val - 1) (Nat.lt_of_le_of_lt (Nat.sub_le _ _) t.isLt)).2,
     out1_C_2 c (grid1.coords t) (ms1_0 t) (hs1_0 t) (ms1_1 t) (hs1_1 t) (ms1_2 t) (hs1_2 t) scM1_0 (Memref.isWhole_whole _) scM1_1 (Memref.isWhole_whole _) (fun h => absurd ((hcond1_0 t).mp h) (by omega)) ((hcond1_1 t).mpr h1) (iblk1 V c 0 t) (sAt1 V c (t.val - 1) (Nat.lt_of_le_of_lt (Nat.sub_le _ _) t.isLt)).1 (sAt1 V c (t.val - 1) (Nat.lt_of_le_of_lt (Nat.sub_le _ _) t.isLt)).2)
  else (VO1_1.read (Elt F) VO1_1.junk, VO1_2.read (Elt F) VO1_2.junk)

theorem oAt1_C (c : Dev nD) (t : Fin cfg1.N) (h1 : t.val = 9) (hc0 : ¬cond1_0 (grid1.coords t)) (hc1 : cond1_1 (grid1.coords t)) :
    oAt1 V c t = (out1_C_1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2,
      out1_C_2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (sAt1 V c (t.val - 1) (Nat.lt_of_le_of_lt (Nat.sub_le _ _) t.isLt)).1 (sAt1 V c (t.val - 1) (Nat.lt_of_le_of_lt (Nat.sub_le _ _) t.isLt)).2) :=
  dif_pos h1

/-! ## The invariant between points, and the proof data -/

/-- Before the first point the pipeline's own invariant (every scratch at anything); afterwards the two scratch
    rows at what the point before left, beside the other scoped buffers and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare (sAt1 V c n hn).1 ∗ owns (c : Thread nD τ) scM1_1 fullShare (sAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (sAt1 V c n hn).1 ∗ owns (c : Thread nD τ) scM1_1 fullShare (sAt1 V c n hn).2) ∗ restBut1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (sAt1 V c (n - 1) (by omega)).1 ∗ owns (c : Thread nD τ) scM1_1 fullShare (sAt1 V c (n - 1) (by omega)).2) ∗ restBut1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (oAt1 V c t).1
    | ⟨2, _⟩ => (oAt1 V c t).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (oAt1 V c t).1 := by dsimp only [dat1]
theorem after1_2 (c : Dev nD) (t : Fin cfg1.N) : (dat1 V c).after 2 t = (oAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which of the three cases the point is in is decided by its position; the invariant hands
    the body the scratch rows at what the point before left (at anything at the first point) and takes them back at
    this point's contents; the outputs' buffers come back as found except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
      unfold Dat.leavesExact; rw [liveAt1_0 t], after1_0]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    rw [sAt1_A V c t h0 hc0 hc1]
    unfold sout1_A_0 sout1_A_1; (try dsimp only)
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩⟩
    iapply ((kernelRun1_A c (grid1.coords t) _ _ _ _ _ _ _ _ _ _ hc0 hc1 (iblk1 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ hc0 hc1 _)
          · unfold owns; iexists _; isplitr
            swap; · iexact HS1
            ipureintro; exact View.read_writes_of_cover _ _ _ _ _ (scover1_A_1 c _ _ _ _ _ _ _ _ _ _ _ hc0 hc1 _)
        iexact Hrest
      iexact Hg
    isplitl [Ho]; · iexact Ho
    isplitl [H0]; · iexact H0
    isplitl [H1]; · iexists _; iexact H1
    iexists _; iexact H2
  · have hc0 : ¬cond1_0 (grid1.coords t) := fun h => h0 ((hcond1_0 t).mp h)
    by_cases h1 : t.val = 9
    · have hc1 : cond1_1 (grid1.coords t) := (hcond1_1 t).mpr h1
      rw [show (dat1 V c).leavesExact 1 t = owns (c : Thread nD τ) (ms1_1 t) fullShare ((dat1 V c).after 1 t) from by
          unfold Dat.leavesExact; rw [liveAt1_1 t hc1], after1_1]
      rw [show (dat1 V c).leavesExact 2 t = owns (c : Thread nD τ) (ms1_2 t) fullShare ((dat1 V c).after 2 t) from by
          unfold Dat.leavesExact; rw [liveAt1_2 t hc1], after1_2]
      rw [sAt1_C V c t h1 hc0 hc1, oAt1_C V c t h1 hc0 hc1]
      unfold out1_C_1 out1_C_2 sout1_C_0 sout1_C_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩⟩
      iapply ((kernelRun1_C c (grid1.coords t) _ _ _ _ _ _ _ _ _ _ hc0 hc1 (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ hc0 hc1 _ _ _)
            · unfold owns; iexists _; isplitr
              swap; · iexact HS1
              ipureintro; exact View.read_writes_of_cover _ _ _ _ _ (scover1_C_1 c _ _ _ _ _ _ _ _ _ _ _ hc0 hc1 _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ hc0 hc1 _ _ _)
      unfold owns; iexists _; isplitr
      swap; · iexact H2
      ipureintro; exact View.read_writes_of_cover _ _ _ _ _ (cover1_C_2 c _ _ _ _ _ _ _ _ _ _ _ hc0 hc1 _ _ _)
    · have hc1 : ¬cond1_1 (grid1.coords t) := fun h => h1 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      rw [sAt1_B V c t h0 h1 hc0 hc1]
      unfold sout1_B_0 sout1_B_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩⟩
      iapply ((kernelRun1_B c (grid1.coords t) _ _ _ _ _ _ _ _ _ _ hc0 hc1 (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ hc0 hc1 _ _ _)
            · unfold owns; iexists _; isplitr
              swap; · iexact HS1
              ipureintro; exact View.read_writes_of_cover _ _ _ _ _ (scover1_B_1 c _ _ _ _ _ _ _ _ _ _ _ hc0 hc1 _ _ _)
          iexact Hrest
        iexact Hg
      isplitl [Ho]; · iexact Ho
      isplitl [H0]; · iexact H0
      isplitl [H1]; · iexists _; iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the pipeline's own back: the scratch rows' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KiRegion2.lean ====
/-
  Region 2 of the program (the call of cc2__bn_apply_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.KernelIdeal.Launch
import proofs.«159573_j34617436406345_1_alg».proof.Proof.Gen.KernelIdeal.Skeleton
import proofs.«159573_j34617436406345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S5000x64 := Rect.unit (s := S5000x64) ![0, 0] S5000x64.size inb_S5000x64_S5000x64_0_0

/-- What the body leaves in the output window's buffer: its one store, over the whole block, of the value computed
    from the loaded input blocks. -/
def out2_5 (x0 : Vec F S5000x64 .f32) (x1 : Vec F S1x64 .f32) (x2 : Vec F S1x64 .f32) (x3 : Vec F S1x64 .f32) (x4 : Vec F S1x64 .f32) : Vec F S5000x64 .f32 :=
  View.canon [⟨r2_5, k2_pay1 (View.ld x0 r2_0) (View.ld x1 r2_1) (View.ld x2 r2_2) (View.ld x3 r2_3) (View.ld x4 r2_4)⟩]

theorem cover2_5 (p0 : Vec F S5000x64 .f32) (y : S5000x64.Idx) :
    ∃ pc ∈ ([⟨r2_5, p0⟩] : List (View.Piece (Elt F) S5000x64 .f32)), y ∈ pc.1.set :=
  View.cover_of_tiled [⟨r2_5, p0⟩] S5000x64.size (by rfl) y

set_option maxHeartbeats 1000000 in
/-- The body on whole staging memrefs, the inputs' at read contents and the output's at anything, runs to the
    continuation holding the inputs' as they were and the output's at the stored value. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover2_5 _)

/-- The proof data of the pipeline on core c: the arrays as the region finds them; after the body at point t each
    input's buffer at its block and the output's at the stored value of the input blocks; the invariant the pipeline's
    own; nothing owed; whole shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRegion3.lean ====
/-
  Region 3 of the program (the call of cc3__sage_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.KernelIdeal.Launch
import proofs.«159573_j34617436406345_1_alg».proof.Proof.Gen.KernelIdeal.Skeleton
import proofs.«159573_j34617436406345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x64 := Rect.unit (s := S5000x64) ![0, 0] S5000x64.size inb_S5000x64_S5000x64_0_0
abbrev r3_1 : Rect S5000x64 := Rect.unit (s := S5000x64) ![0, 0] S5000x64.size inb_S5000x64_S5000x64_0_0
abbrev r3_2 : Rect S64x64 := Rect.unit (s := S64x64) ![0, 0] S64x64.size inb_S64x64_S64x64_0_0
abbrev r3_3 : Rect S64x64 := Rect.unit (s := S64x64) ![0, 0] S64x64.size inb_S64x64_S64x64_0_0
abbrev r3_4 : Rect S1x64 := Rect.unit (s := S1x64) ![0, 0] S1x64.size inb_S1x64_S1x64_0_0
abbrev r3_5 : Rect S5000x64 := Rect.unit (s := S5000x64) ![0, 0] S5000x64.size inb_S5000x64_S5000x64_0_0

/-- What the body leaves in the output window's buffer: its one store, over the whole block, of the value computed
    from the loaded input blocks. -/
def out3_5 (x0 : Vec F S5000x64 .f32) (x1 : Vec F S5000x64 .f32) (x2 : Vec F S64x64 .f32) (x3 : Vec F S64x64 .f32) (x4 : Vec F S1x64 .f32) : Vec F S5000x64 .f32 :=
  View.canon [⟨r3_5, k3_pay1 (View.ld x0 r3_0) (View.ld x1 r3_1) (View.ld x2 r3_2) (View.ld x3 r3_3) (View.ld x4 r3_4)⟩]

theorem cover3_5 (p0 : Vec F S5000x64 .f32) (y : S5000x64.Idx) :
    ∃ pc ∈ ([⟨r3_5, p0⟩] : List (View.Piece (Elt F) S5000x64 .f32)), y ∈ pc.1.set :=
  View.cover_of_tiled [⟨r3_5, p0⟩] S5000x64.size (by rfl) y

set_option maxHeartbeats 1000000 in
/-- The body on whole staging memrefs, the inputs' at read contents and the output's at anything, runs to the
    continuation holding the inputs' as they were and the output's at the stored value. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__sage_kernel i arg1 harg1 arg2 harg2 arg3 harg3 arg4 harg4 arg5 harg5 arg6 harg6) K := by
  simp only [cc3__sage_kernel_eq_skeleton]; unfold cc3__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover3_5 _)

/-- The proof data of the pipeline on core c: the arrays as the region finds them; after the body at point t each
    input's buffer at its block and the output's at the stored value of the input blocks; the invariant the pipeline's
    own; nothing owed; whole shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KiRegion4.lean ====
/-
  Region 4 of the program (the call of the batch-statistics kernel): the proof data of its pipeline at any entry
  contents V, and the body obligation at every grid point. The body adds, at every point, the column sums of the
  point's block and of its squares onto two scratch rows that it zeroes at the first point; only at the last point
  does it divide them by the row count and store the mean and the variance into the two output blocks, which are
  idle before that and written back once. So the invariant between points holds the two scratch rows at what the
  points so far have accumulated, and the outputs' buffers pass through the earlier points untouched.
-/
import proofs.«159573_j34617436406345_1_alg».proof.Proof.Gen.KernelIdeal.Launch
import proofs.«159573_j34617436406345_1_alg».proof.Proof.Gen.KernelIdeal.Skeleton
import proofs.«159573_j34617436406345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body, decided over the grid -/

/-- The first conditional's test: the point is the first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second conditional's test: the point is the last. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-- The input window is never idle; the two outputs are idle, and not written back, exactly before the last point. -/
theorem liveAt4_0 : ∀ t : Fin cfg4.N, cfg4.idle 0 (grid4.coords t) = false := by decide +kernel
theorem idleAt4_1 : ∀ t : Fin cfg4.N, ¬cond4_1 (grid4.coords t) → cfg4.idle 1 (grid4.coords t) = true := by decide +kernel
theorem idleAt4_2 : ∀ t : Fin cfg4.N, ¬cond4_1 (grid4.coords t) → cfg4.idle 2 (grid4.coords t) = true := by decide +kernel
theorem noFlush4_1 : ∀ t : Fin cfg4.N, ¬cond4_1 (grid4.coords t) → (cfg4.win 1).flush t = false := by decide +kernel
theorem noFlush4_2 : ∀ t : Fin cfg4.N, ¬cond4_1 (grid4.coords t) → (cfg4.win 2).flush t = false := by decide +kernel
theorem liveAt4_1 : ∀ t : Fin cfg4.N, cond4_1 (grid4.coords t) → cfg4.idle 1 (grid4.coords t) = false := by decide +kernel
theorem liveAt4_2 : ∀ t : Fin cfg4.N, cond4_1 (grid4.coords t) → cfg4.idle 2 (grid4.coords t) = false := by decide +kernel

/-! ## The memrefs the body is called with -/

abbrev VO4_1 : View sig .tc .vmem S1x64 .f32 := (Memref.whole cc4_stg1_0 : Memref sig .tc .vmem S1x64 .f32).view
abbrev VO4_2 : View sig .tc .vmem S1x64 .f32 := (Memref.whole cc4_stg2_0 : Memref sig .tc .vmem S1x64 .f32).view
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
/-- The two scratch rows: whole scoped buffers of the kernel's own. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view

/-- The scoped buffers of the core that belong to no window of this region and are not its two scratch rows. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The pipeline's own invariant with the two scratch rows taken out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ restBut4 c) ∗ (∃ r, prngReg c r)) := by
  unfold Pipeline.ΦA; rw [scopedRest4_split]; simp only [scM4_0, scM4_1, owns_whole]; try rfl

/-! ## The body, run once per control case -/

set_option maxHeartbeats 1000000 in
/-- The first point: both scratch rows are zeroed and then receive the block's column sums; the outputs' buffers
    are handed back as found. The lists are the stores the run finds for the two scratch rows, last first. -/
noncomputable def kernelRun4_A (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, fun xi1 xi2 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A middle point: the scratch rows, at what the points before left, receive the block's column sums; the outputs'
    buffers are handed back as found. -/
noncomputable def kernelRun4_B (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, fun xi1 xi2 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the scratch rows receive the last block's column sums, and the mean and the variance computed
    from them are stored over the two output blocks. -/
noncomputable def kernelRun4_C (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__bn_stats_kernel i arg1 harg1 arg2 harg2 arg3 harg3 arg4 harg4 arg5 harg5) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

/-! ## What each case leaves in the scratch rows and the outputs -/

def sout4_A_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) : Vec F S1x64 .f32 :=
  VS4_0.read (Elt F) (VS4_0.writes (Elt F) VS4_0.junk ((kernelRun4_A c i arg1 harg1 arg2 harg2 arg3 harg3 arg4 harg4 arg5 harg5 hc0 hc1 x0).1))

def sout4_A_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) : Vec F S1x64 .f32 :=
  VS4_1.read (Elt F) (VS4_1.writes (Elt F) VS4_1.junk ((kernelRun4_A c i arg1 harg1 arg2 harg2 arg3 harg3 arg4 harg4 arg5 harg5 hc0 hc1 x0).2.1))

theorem scover4_A_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) (y : S1x64.Idx) :
    ∃ pc ∈ (kernelRun4_A c i arg1 harg1 arg2 harg2 arg3 harg3 arg4 harg4 arg5 harg5 hc0 hc1 x0).1, y ∈ pc.1.set :=
  View.cover_of_tiledL (kernelRun4_A c i arg1 harg1 arg2 harg2 arg3 harg3 arg4 harg4 arg5 harg5 hc0 hc1 x0).1 S1x64.size (by sl_kernel_rfl) y

theorem scover4_A_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) (y : S1x64.Idx) :
    ∃ pc ∈ (kernelRun4_A c i arg1 harg1 arg2 harg2 arg3 harg3 arg4 harg4 arg5 harg5 hc0 hc1 x0).2.1, y ∈ pc.1.set :=
  View.cover_of_tiledL (kernelRun4_A c i arg1 harg1 arg2 harg2 arg3 harg3 arg4 harg4 arg5 harg5 hc0 hc1 x0).2.1 S1x64.size (by sl_kernel_rfl) y

def sout4_B_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) : Vec F S1x64 .f32 :=
  VS4_0.read (Elt F) (VS4_0.writes (Elt F) VS4_0.junk ((kernelRun4_B c i arg1 harg1 arg2 harg2 arg3 harg3 arg4 harg4 arg5 harg5 hc0 hc1 x0 xs0 xs1).1))

def sout4_B_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) : Vec F S1x64 .f32 :=
  VS4_1.read (Elt F) (VS4_1.writes (Elt F) VS4_1.junk ((kernelRun4_B c i arg1 harg1 arg2 harg2 arg3 harg3 arg4 harg4 arg5 harg5 hc0 hc1 x0 xs0 xs1).2.1))

theorem scover4_B_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) (y : S1x64.Idx) :
    ∃ pc ∈ (kernelRun4_B c i arg1 harg1 arg2 harg2 arg3 harg3 arg4 harg4 arg5 harg5 hc0 hc1 x0 xs0 xs1).1, y ∈ pc.1.set :=
  View.cover_of_tiledL (kernelRun4_B c i arg1 harg1 arg2 harg2 arg3 harg3 arg4 harg4 arg5 harg5 hc0 hc1 x0 xs0 xs1).1 S1x64.size (by sl_kernel_rfl) y

theorem scover4_B_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) (y : S1x64.Idx) :
    ∃ pc ∈ (kernelRun4_B c i arg1 harg1 arg2 harg2 arg3 harg3 arg4 harg4 arg5 harg5 hc0 hc1 x0 xs0 xs1).2.1, y ∈ pc.1.set :=
  View.cover_of_tiledL (kernelRun4_B c i arg1 harg1 arg2 harg2 arg3 harg3 arg4 harg4 arg5 harg5 hc0 hc1 x0 xs0 xs1).2.1 S1x64.size (by sl_kernel_rfl) y

def out4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) : Vec F S1x64 .f32 :=
  VO4_1.read (Elt F) (VO4_1.writes (Elt F) VO4_1.junk ((kernelRun4_C c i arg1 harg1 arg2 harg2 arg3 harg3 arg4 harg4 arg5 harg5 hc0 hc1 x0 xs0 xs1).1))

def out4_C_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) : Vec F S1x64 .f32 :=
  VO4_2.read (Elt F) (VO4_2.writes (Elt F) VO4_2.junk ((kernelRun4_C c i arg1 harg1 arg2 harg2 arg3 harg3 arg4 harg4 arg5 harg5 hc0 hc1 x0 xs0 xs1).2.1))

def sout4_C_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) : Vec F S1x64 .f32 :=
  VS4_0.read (Elt F) (VS4_0.writes (Elt F) VS4_0.junk ((kernelRun4_C c i arg1 harg1 arg2 harg2 arg3 harg3 arg4 harg4 arg5 harg5 hc0 hc1 x0 xs0 xs1).2.2.1))

def sout4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) : Vec F S1x64 .f32 :=
  VS4_1.read (Elt F) (VS4_1.writes (Elt F) VS4_1.junk ((kernelRun4_C c i arg1 harg1 arg2 harg2 arg3 harg3 arg4 harg4 arg5 harg5 hc0 hc1 x0 xs0 xs1).2.2.2.1))

theorem cover4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) (y : S1x64.Idx) :
    ∃ pc ∈ (kernelRun4_C c i arg1 harg1 arg2 harg2 arg3 harg3 arg4 harg4 arg5 harg5 hc0 hc1 x0 xs0 xs1).1, y ∈ pc.1.set :=
  View.cover_of_tiledL (kernelRun4_C c i arg1 harg1 arg2 harg2 arg3 harg3 arg4 harg4 arg5 harg5 hc0 hc1 x0 xs0 xs1).1 S1x64.size (by sl_kernel_rfl) y

theorem cover4_C_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) (y : S1x64.Idx) :
    ∃ pc ∈ (kernelRun4_C c i arg1 harg1 arg2 harg2 arg3 harg3 arg4 harg4 arg5 harg5 hc0 hc1 x0 xs0 xs1).2.1, y ∈ pc.1.set :=
  View.cover_of_tiledL (kernelRun4_C c i arg1 harg1 arg2 harg2 arg3 harg3 arg4 harg4 arg5 harg5 hc0 hc1 x0 xs0 xs1).2.1 S1x64.size (by sl_kernel_rfl) y

theorem scover4_C_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) (y : S1x64.Idx) :
    ∃ pc ∈ (kernelRun4_C c i arg1 harg1 arg2 harg2 arg3 harg3 arg4 harg4 arg5 harg5 hc0 hc1 x0 xs0 xs1).2.2.1, y ∈ pc.1.set :=
  View.cover_of_tiledL (kernelRun4_C c i arg1 harg1 arg2 harg2 arg3 harg3 arg4 harg4 arg5 harg5 hc0 hc1 x0 xs0 xs1).2.2.1 S1x64.size (by sl_kernel_rfl) y

theorem scover4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) (y : S1x64.Idx) :
    ∃ pc ∈ (kernelRun4_C c i arg1 harg1 arg2 harg2 arg3 harg3 arg4 harg4 arg5 harg5 hc0 hc1 x0 xs0 xs1).2.2.2.1, y ∈ pc.1.set :=
  View.cover_of_tiledL (kernelRun4_C c i arg1 harg1 arg2 harg2 arg3 harg3 arg4 harg4 arg5 harg5 hc0 hc1 x0 xs0 xs1).2.2.2.1 S1x64.size (by sl_kernel_rfl) y

/-! ## What the scratch rows hold after each point -/

/-- The two scratch rows after the body at position n: the first point's case from anything, every later point's
    case over what the point before left. -/
def sAt4 (c : Dev nD) : (n : ℕ) → n < cfg4.N → Vec F S1x64 .f32 × Vec F S1x64 .f32
  | 0, hn => (sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr rfl) (fun h => by have h9 := (hcond4_1 ⟨0, hn⟩).mp h; simp at h9) (iblk4 V c 0 ⟨0, hn⟩),
              sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 ⟨0, hn⟩).mpr rfl) (fun h => by have h9 := (hcond4_1 ⟨0, hn⟩).mp h; simp at h9) (iblk4 V c 0 ⟨0, hn⟩))
  | n + 1, hn =>
    if h1 : n + 1 = 9 then
      (sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (sAt4 c n (Nat.lt_of_succ_lt hn)).1 (sAt4 c n (Nat.lt_of_succ_lt hn)).2,
       sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (sAt4 c n (Nat.lt_of_succ_lt hn)).1 (sAt4 c n (Nat.lt_of_succ_lt hn)).2)
    else
      (sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (sAt4 c n (Nat.lt_of_succ_lt hn)).1 (sAt4 c n (Nat.lt_of_succ_lt hn)).2,
       sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (sAt4 c n (Nat.lt_of_succ_lt hn)).1 (sAt4 c n (Nat.lt_of_succ_lt hn)).2)

theorem sAt4_A (c : Dev nD) (t : Fin cfg4.N) (h0 : t.val = 0) (hc0 : cond4_0 (grid4.coords t)) (hc1 : ¬cond4_1 (grid4.coords t)) :
    sAt4 V c t.val t.isLt = (sout4_A_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t), sout4_A_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t)) := by
  obtain ⟨n, hn⟩ := t
  cases n with
  | zero => rfl
  | succ n => exact absurd h0 (Nat.succ_ne_zero n)

theorem sAt4_B (c : Dev nD) (t : Fin cfg4.N) (h0 : t.val ≠ 0) (h1 : t.val ≠ 9) (hc0 : ¬cond4_0 (grid4.coords t)) (hc1 : ¬cond4_1 (grid4.coords t)) :
    sAt4 V c t.val t.isLt = (sout4_B_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2,
      sout4_B_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2) := by
  obtain ⟨n, hn⟩ := t
  cases n with
  | zero => exact absurd rfl h0
  | succ n => exact (dif_neg h1).trans rfl

theorem sAt4_C (c : Dev nD) (t : Fin cfg4.N) (h1 : t.val = 9) (hc0 : ¬cond4_0 (grid4.coords t)) (hc1 : cond4_1 (grid4.coords t)) :
    sAt4 V c t.val t.isLt = (sout4_C_0 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2,
      sout4_C_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2) := by
  obtain ⟨n, hn⟩ := t
  cases n with
  | zero => simp at h1
  | succ n => exact (dif_pos h1).trans rfl

/-- The two outputs' buffers after the body at point t: at the last point the mean and the variance computed from
    the scratch rows; before it the window is idle and nothing consults this value. -/
def oAt4 (c : Dev nD) (t : Fin cfg4.N) : Vec F S1x64 .f32 × Vec F S1x64 .f32 :=
  if h1 : t.val = 9 then
    (out4_C_1 c (grid4.coords t) (ms4_0 t) (hs4_0 t) (ms4_1 t) (hs4_1 t) (ms4_2 t) (hs4_2 t) scM4_0 (Memref.isWhole_whole _) scM4_1 (Memref.isWhole_whole _) (fun h => absurd ((hcond4_0 t).mp h) (by omega)) ((hcond4_1 t).mpr h1) (iblk4 V c 0 t) (sAt4 V c (t.val - 1) (Nat.lt_of_le_of_lt (Nat.sub_le _ _) t.isLt)).1 (sAt4 V c (t.val - 1) (Nat.lt_of_le_of_lt (Nat.sub_le _ _) t.isLt)).2,
     out4_C_2 c (grid4.coords t) (ms4_0 t) (hs4_0 t) (ms4_1 t) (hs4_1 t) (ms4_2 t) (hs4_2 t) scM4_0 (Memref.isWhole_whole _) scM4_1 (Memref.isWhole_whole _) (fun h => absurd ((hcond4_0 t).mp h) (by omega)) ((hcond4_1 t).mpr h1) (iblk4 V c 0 t) (sAt4 V c (t.val - 1) (Nat.lt_of_le_of_lt (Nat.sub_le _ _) t.isLt)).1 (sAt4 V c (t.val - 1) (Nat.lt_of_le_of_lt (Nat.sub_le _ _) t.isLt)).2)
  else (VO4_1.read (Elt F) VO4_1.junk, VO4_2.read (Elt F) VO4_2.junk)

theorem oAt4_C (c : Dev nD) (t : Fin cfg4.N) (h1 : t.val = 9) (hc0 : ¬cond4_0 (grid4.coords t)) (hc1 : cond4_1 (grid4.coords t)) :
    oAt4 V c t = (out4_C_1 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2,
      out4_C_2 c (grid4.coords t) (ms4_0 t) (hs4_0 t) (ms4_1 t) (hs4_1 t) (ms4_2 t) (hs4_2 t) scM4_0 (Memref.isWhole_whole _) scM4_1 (Memref.isWhole_whole _) hc0 hc1 (iblk4 V c 0 t) (sAt4 V c (t.val - 1) (Nat.lt_of_le_of_lt (Nat.sub_le _ _) t.isLt)).1 (sAt4 V c (t.val - 1) (Nat.lt_of_le_of_lt (Nat.sub_le _ _) t.isLt)).2) :=
  dif_pos h1

/-! ## The invariant between points, and the proof data -/

/-- Before the first point the pipeline's own invariant (every scratch at anything); afterwards the two scratch
    rows at what the point before left, beside the other scoped buffers and the generator register. -/
def PhiS4 (c : Dev nD) : (n : ℕ) → n ≤ cfg4.N → sProp 𝕄
  | 0, _ => Pipeline.ΦA spec4 c
  | n + 1, hn => iprop(iprop(iprop(owns (c : Thread nD τ) scM4_0 fullShare (sAt4 V c n hn).1 ∗ owns (c : Thread nD τ) scM4_1 fullShare (sAt4 V c n hn).2) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (sAt4 V c n hn).1 ∗ owns (c : Thread nD τ) scM4_1 fullShare (sAt4 V c n hn).2) ∗ restBut4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (sAt4 V c (n - 1) (by omega)).1 ∗ owns (c : Thread nD τ) scM4_1 fullShare (sAt4 V c (n - 1) (by omega)).2) ∗ restBut4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (oAt4 V c t).1
    | ⟨2, _⟩ => (oAt4 V c t).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = (oAt4 V c t).1 := by dsimp only [dat4]
theorem after4_2 (c : Dev nD) (t : Fin cfg4.N) : (dat4 V c).after 2 t = (oAt4 V c t).2 := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: which of the three cases the point is in is decided by its position; the invariant hands
    the body the scratch rows at what the point before left (at anything at the first point) and takes them back at
    this point's contents; the outputs' buffers come back as found except at the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
      unfold Dat.leavesExact; rw [liveAt4_0 t], after4_0]
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 1 t (idleAt4_1 t hc1) (noFlush4_1 t hc1),
      Dat.leavesExact_idle (dat4 V c) 2 t (idleAt4_2 t hc1) (noFlush4_2 t hc1)]
    rw [sAt4_A V c t h0 hc0 hc1]
    unfold sout4_A_0 sout4_A_1; (try dsimp only)
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩⟩
    iapply ((kernelRun4_A c (grid4.coords t) _ _ _ _ _ _ _ _ _ _ hc0 hc1 (iblk4 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ hc0 hc1 _)
          · unfold owns; iexists _; isplitr
            swap; · iexact HS1
            ipureintro; exact View.read_writes_of_cover _ _ _ _ _ (scover4_A_1 c _ _ _ _ _ _ _ _ _ _ _ hc0 hc1 _)
        iexact Hrest
      iexact Hg
    isplitl [Ho]; · iexact Ho
    isplitl [H0]; · iexact H0
    isplitl [H1]; · iexists _; iexact H1
    iexists _; iexact H2
  · have hc0 : ¬cond4_0 (grid4.coords t) := fun h => h0 ((hcond4_0 t).mp h)
    by_cases h1 : t.val = 9
    · have hc1 : cond4_1 (grid4.coords t) := (hcond4_1 t).mpr h1
      rw [show (dat4 V c).leavesExact 1 t = owns (c : Thread nD τ) (ms4_1 t) fullShare ((dat4 V c).after 1 t) from by
          unfold Dat.leavesExact; rw [liveAt4_1 t hc1], after4_1]
      rw [show (dat4 V c).leavesExact 2 t = owns (c : Thread nD τ) (ms4_2 t) fullShare ((dat4 V c).after 2 t) from by
          unfold Dat.leavesExact; rw [liveAt4_2 t hc1], after4_2]
      rw [sAt4_C V c t h1 hc0 hc1, oAt4_C V c t h1 hc0 hc1]
      unfold out4_C_1 out4_C_2 sout4_C_0 sout4_C_1; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩⟩
      iapply ((kernelRun4_C c (grid4.coords t) _ _ _ _ _ _ _ _ _ _ hc0 hc1 (iblk4 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_C_0 c _ _ _ _ _ _ _ _ _ _ _ hc0 hc1 _ _ _)
            · unfold owns; iexists _; isplitr
              swap; · iexact HS1
              ipureintro; exact View.read_writes_of_cover _ _ _ _ _ (scover4_C_1 c _ _ _ _ _ _ _ _ _ _ _ hc0 hc1 _ _ _)
          iexact Hrest
        iexact Hg
      isplitl [Ho]; · iexact Ho
      isplitl [H0]; · iexact H0
      isplitl [H1]
      · unfold owns; iexists _; isplitr
        swap; · iexact H1
        ipureintro; exact View.read_writes_of_cover _ _ _ _ _ (cover4_C_1 c _ _ _ _ _ _ _ _ _ _ _ hc0 hc1 _ _ _)
      unfold owns; iexists _; isplitr
      swap; · iexact H2
      ipureintro; exact View.read_writes_of_cover _ _ _ _ _ (cover4_C_2 c _ _ _ _ _ _ _ _ _ _ _ hc0 hc1 _ _ _)
    · have hc1 : ¬cond4_1 (grid4.coords t) := fun h => h1 ((hcond4_1 t).mp h)
      rw [Dat.leavesExact_idle (dat4 V c) 1 t (idleAt4_1 t hc1) (noFlush4_1 t hc1),
        Dat.leavesExact_idle (dat4 V c) 2 t (idleAt4_2 t hc1) (noFlush4_2 t hc1)]
      rw [sAt4_B V c t h0 h1 hc0 hc1]
      unfold sout4_B_0 sout4_B_1; (try dsimp only)
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩⟩
      iapply ((kernelRun4_B c (grid4.coords t) _ _ _ _ _ _ _ _ _ _ hc0 hc1 (iblk4 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ hc0 hc1 _ _ _)
            · unfold owns; iexists _; isplitr
              swap; · iexact HS1
              ipureintro; exact View.read_writes_of_cover _ _ _ _ _ (scover4_B_1 c _ _ _ _ _ _ _ _ _ _ _ hc0 hc1 _ _ _)
          iexact Hrest
        iexact Hg
      isplitl [Ho]; · iexact Ho
      isplitl [H0]; · iexact H0
      isplitl [H1]; · iexists _; iexact H1
      iexists _; iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the pipeline's own back: the scratch rows' contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KiRegion5.lean ====
/-
  Region 5 of the program (the call of cc5__bn_apply_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.KernelIdeal.Launch
import proofs.«159573_j34617436406345_1_alg».proof.Proof.Gen.KernelIdeal.Skeleton
import proofs.«159573_j34617436406345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0
abbrev r5_2 : Rect S1x64 := Rect.unit (s := S1x64) ![0, 0] S1x64.size inb_S1x64_S1x64_0_0
abbrev r5_3 : Rect S1x64 := Rect.unit (s := S1x64) ![0, 0] S1x64.size inb_S1x64_S1x64_0_0
abbrev r5_4 : Rect S1x64 := Rect.unit (s := S1x64) ![0, 0] S1x64.size inb_S1x64_S1x64_0_0
abbrev r5_5 : Rect S5000x64 := Rect.unit (s := S5000x64) ![0, 0] S5000x64.size inb_S5000x64_S5000x64_0_0

/-- What the body leaves in the output window's buffer: its one store, over the whole block, of the value computed
    from the loaded input blocks. -/
def out5_5 (x0 : Vec F S5000x64 .f32) (x1 : Vec F S1x64 .f32) (x2 : Vec F S1x64 .f32) (x3 : Vec F S1x64 .f32) (x4 : Vec F S1x64 .f32) : Vec F S5000x64 .f32 :=
  View.canon [⟨r5_5, k5_pay1 (View.ld x0 r5_0) (View.ld x1 r5_1) (View.ld x2 r5_2) (View.ld x3 r5_3) (View.ld x4 r5_4)⟩]

theorem cover5_5 (p0 : Vec F S5000x64 .f32) (y : S5000x64.Idx) :
    ∃ pc ∈ ([⟨r5_5, p0⟩] : List (View.Piece (Elt F) S5000x64 .f32)), y ∈ pc.1.set :=
  View.cover_of_tiled [⟨r5_5, p0⟩] S5000x64.size (by rfl) y

set_option maxHeartbeats 1000000 in
/-- The body on whole staging memrefs, the inputs' at read contents and the output's at anything, runs to the
    continuation holding the inputs' as they were and the output's at the stored value. -/
theorem sound_kernel5 (c : Dev nD) (E : Set ℕ) (i : grid5.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover5_5 _)

/-- The proof data of the pipeline on core c: the arrays as the region finds them; after the body at point t each
    input's buffer at its block and the output's at the stored value of the input blocks; the invariant the pipeline's
    own; nothing owed; whole shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KiRegion6.lean ====
/-
  Region 6 of the program (the call of cc6__sage_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.KernelIdeal.Launch
import proofs.«159573_j34617436406345_1_alg».proof.Proof.Gen.KernelIdeal.Skeleton
import proofs.«159573_j34617436406345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x64 := Rect.unit (s := S5000x64) ![0, 0] S5000x64.size inb_S5000x64_S5000x64_0_0
abbrev r6_1 : Rect S5000x64 := Rect.unit (s := S5000x64) ![0, 0] S5000x64.size inb_S5000x64_S5000x64_0_0
abbrev r6_2 : Rect S64x64 := Rect.unit (s := S64x64) ![0, 0] S64x64.size inb_S64x64_S64x64_0_0
abbrev r6_3 : Rect S64x64 := Rect.unit (s := S64x64) ![0, 0] S64x64.size inb_S64x64_S64x64_0_0
abbrev r6_4 : Rect S1x64 := Rect.unit (s := S1x64) ![0, 0] S1x64.size inb_S1x64_S1x64_0_0
abbrev r6_5 : Rect S5000x64 := Rect.unit (s := S5000x64) ![0, 0] S5000x64.size inb_S5000x64_S5000x64_0_0

/-- What the body leaves in the output window's buffer: its one store, over the whole block, of the value computed
    from the loaded input blocks. -/
def out6_5 (x0 : Vec F S5000x64 .f32) (x1 : Vec F S5000x64 .f32) (x2 : Vec F S64x64 .f32) (x3 : Vec F S64x64 .f32) (x4 : Vec F S1x64 .f32) : Vec F S5000x64 .f32 :=
  View.canon [⟨r6_5, k6_pay1 (View.ld x0 r6_0) (View.ld x1 r6_1) (View.ld x2 r6_2) (View.ld x3 r6_3) (View.ld x4 r6_4)⟩]

theorem cover6_5 (p0 : Vec F S5000x64 .f32) (y : S5000x64.Idx) :
    ∃ pc ∈ ([⟨r6_5, p0⟩] : List (View.Piece (Elt F) S5000x64 .f32)), y ∈ pc.1.set :=
  View.cover_of_tiled [⟨r6_5, p0⟩] S5000x64.size (by rfl) y

set_option maxHeartbeats 1000000 in
/-- The body on whole staging memrefs, the inputs' at read contents and the output's at anything, runs to the
    continuation holding the inputs' as they were and the output's at the stored value. -/
theorem sound_kernel6 (c : Dev nD) (E : Set ℕ) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__sage_kernel i arg1 harg1 arg2 harg2 arg3 harg3 arg4 harg4 arg5 harg5 arg6 harg6) K := by
  simp only [cc6__sage_kernel_eq_skeleton]; unfold cc6__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover6_5 _)

/-- The proof data of the pipeline on core c: the arrays as the region finds them; after the body at point t each
    input's buffer at its block and the output's at the stored value of the input blocks; the invariant the pipeline's
    own; nothing owed; whole shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KiRegion7.lean ====
/-
  Region 7 of the program (the call of cc7__mlp_kernel): the proof data of its pipeline at any entry contents V, and the body
  obligation at every grid point. Each input window's staging buffer holds that window's block of its array at the
  point, whether the pipeline fetched it there or kept it from the point before; the body loads the whole blocks,
  computes one value from them and stores it over the whole output block; nothing else is touched, so the invariant
  between points is the pipeline's own and the core owes nothing.
-/
import proofs.«159573_j34617436406345_1_alg».proof.Proof.Gen.KernelIdeal.Launch
import proofs.«159573_j34617436406345_1_alg».proof.Proof.Gen.KernelIdeal.Skeleton
import proofs.«159573_j34617436406345_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S512x64 := Rect.unit (s := S512x64) ![0, 0] S512x64.size inb_S512x64_S512x64_0_0
abbrev r7_1 : Rect S64x128 := Rect.unit (s := S64x128) ![0, 0] S64x128.size inb_S64x128_S64x128_0_0
abbrev r7_2 : Rect S1x128 := Rect.unit (s := S1x128) ![0, 0] S1x128.size inb_S1x128_S1x128_0_0
abbrev r7_3 : Rect S128x64 := Rect.unit (s := S128x64) ![0, 0] S128x64.size inb_S128x64_S128x64_0_0
abbrev r7_4 : Rect S1x64 := Rect.unit (s := S1x64) ![0, 0] S1x64.size inb_S1x64_S1x64_0_0
abbrev r7_5 : Rect S64x10 := Rect.unit (s := S64x10) ![0, 0] S64x10.size inb_S64x10_S64x10_0_0
abbrev r7_6 : Rect S1x10 := Rect.unit (s := S1x10) ![0, 0] S1x10.size inb_S1x10_S1x10_0_0
abbrev r7_7 : Rect S512x10 := Rect.unit (s := S512x10) ![0, 0] S512x10.size inb_S512x10_S512x10_0_0

/-- What the body leaves in the output window's buffer: its one store, over the whole block, of the value computed
    from the loaded input blocks. -/
def out7_7 (x0 : Vec F S512x64 .f32) (x1 : Vec F S64x128 .f32) (x2 : Vec F S1x128 .f32) (x3 : Vec F S128x64 .f32) (x4 : Vec F S1x64 .f32) (x5 : Vec F S64x10 .f32) (x6 : Vec F S1x10 .f32) : Vec F S512x10 .f32 :=
  View.canon [⟨r7_7, k7_pay1 (View.ld x0 r7_0) (View.ld x1 r7_1) (View.ld x2 r7_2) (View.ld x3 r7_3) (View.ld x4 r7_4) (View.ld x5 r7_5) (View.ld x6 r7_6)⟩]

theorem cover7_7 (p0 : Vec F S512x10 .f32) (y : S512x10.Idx) :
    ∃ pc ∈ ([⟨r7_7, p0⟩] : List (View.Piece (Elt F) S512x10 .f32)), y ∈ pc.1.set :=
  View.cover_of_tiled [⟨r7_7, p0⟩] S512x10.size (by rfl) y

set_option maxHeartbeats 1000000 in
/-- The body on whole staging memrefs, the inputs' at read contents and the output's at anything, runs to the
    continuation holding the inputs' as they were and the output's at the stored value. -/
theorem sound_kernel7 (c : Dev nD) (E : Set ℕ) (i : grid7.Coords) (arg1 : Memref sig .tc .vmem S512x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S512x10 .f32) (harg8 : arg8.IsWhole)
    (x0 : Vec F S512x64 .f32) (x1 : Vec F S64x128 .f32) (x2 : Vec F S1x128 .f32) (x3 : Vec F S128x64 .f32) (x4 : Vec F S1x64 .f32) (x5 : Vec F S64x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__mlp_kernel i arg1 harg1 arg2 harg2 arg3 harg3 arg4 harg4 arg5 harg5 arg6 harg6 arg7 harg7 arg8 harg8) K := by
  simp only [cc7__mlp_kernel_eq_skeleton]; unfold cc7__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (cover7_7 _)

/-- The proof data of the pipeline on core c: the arrays as the region finds them; after the body at point t each
    input's buffer at its block and the output's at the stored value of the input blocks; the invariant the pipeline's
    own; nothing owed; whole shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KiFrame.lean ====
/-
  The whole program as a list of segments — six stretches of host operations and eight kernel regions — run from
  the launch to the return. Between two segments the thread state is: every unscoped buffer of the core, whole, at a
  valuation, beside the generator register and the core owing nothing. A host stretch moves the valuation to the
  fold of its operations; a region replaces its arrays by what its write-backs leave and keeps every other buffer.
  The run ends with every unscoped buffer at the last valuation, which is read back against the final memory.
-/
import proofs.«159573_j34617436406345_1_alg».proof.Proof.Gen.KernelIdeal.Regions
import proofs.«159573_j34617436406345_1_alg».proof.Proof.KiRegion0
import proofs.«159573_j34617436406345_1_alg».proof.Proof.KiRegion1
import proofs.«159573_j34617436406345_1_alg».proof.Proof.KiRegion2
import proofs.«159573_j34617436406345_1_alg».proof.Proof.KiRegion3
import proofs.«159573_j34617436406345_1_alg».proof.Proof.KiRegion4
import proofs.«159573_j34617436406345_1_alg».proof.Proof.KiRegion5
import proofs.«159573_j34617436406345_1_alg».proof.Proof.KiRegion6
import proofs.«159573_j34617436406345_1_alg».proof.Proof.KiRegion7
import proofs.«159573_j34617436406345_1_alg».proof.Proof.LibRegionRecord
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen RegionRecord

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

abbrev Wv0 : Dev nD → Valuation τ sig (Elt F) := fun c b => m (c, b)
abbrev Wv1 : Dev nD → Valuation τ sig (Elt F) := fun c => StableHlo.after hostOps0 (Wv0 m c)
def Wv2 (c : Dev nD) : Valuation τ sig (Elt F) :=
  Pipeline.withArrays spec0 c (Wv1 m c) fun w => (dat0 (tcVal (Wv1 m)) c).arrAt w cfg0.N
theorem Wv2_arr (c : Dev nD) (w : Fin cfg0.W) :
    Wv2 m c (Proc.devRef .tc (Pipeline.arrRef spec0 w)) = (dat0 (tcVal (Wv1 m)) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m c (Proc.devRef .tc b) = Wv1 m c (Proc.devRef .tc b) := by
  unfold Wv2; exact Pipeline.withArrays_of_ne spec0 c _ _ b hb
/-- Region 0 leaves every buffer that is none of its output arrays as it found it. -/
theorem Wv2_keep (c : Dev nD) (b : Ref sig .tc) (hb : ∀ w, (cfg0.win w).isOut = true → Pipeline.arrRef spec0 w ≠ b) :
    Wv2 m c (Proc.devRef .tc b) = Wv1 m c (Proc.devRef .tc b) := by
  by_cases h : ∃ w, Pipeline.arrRef spec0 w = b
  · obtain ⟨w, rfl⟩ := h
    have hw : (cfg0.win w).isOut = false := by
      cases hio : (cfg0.win w).isOut
      · rfl
      · exact absurd rfl (hb w hio)
    rw [Wv2_arr, (dat0 (tcVal (Wv1 m)) c).arrAt_in w hw, A_eq0]
  · exact Wv2_of_ne m c b fun w e => h ⟨w, e⟩
def Wv3 (c : Dev nD) : Valuation τ sig (Elt F) :=
  Pipeline.withArrays spec1 c (Wv2 m c) fun w => (dat1 (tcVal (Wv2 m)) c).arrAt w cfg1.N
theorem Wv3_arr (c : Dev nD) (w : Fin cfg1.W) :
    Wv3 m c (Proc.devRef .tc (Pipeline.arrRef spec1 w)) = (dat1 (tcVal (Wv2 m)) c).arrAt w cfg1.N := by
  unfold Wv3; exact Pipeline.withArrays_arr spec1 launch1.win.arr_inj c _ _ w
theorem Wv3_of_ne (c : Dev nD) (b : Ref sig .tc) (hb : ∀ w, Pipeline.arrRef spec1 w ≠ b) :
    Wv3 m c (Proc.devRef .tc b) = Wv2 m c (Proc.devRef .tc b) := by
  unfold Wv3; exact Pipeline.withArrays_of_ne spec1 c _ _ b hb
/-- Region 1 leaves every buffer that is none of its output arrays as it found it. -/
theorem Wv3_keep (c : Dev nD) (b : Ref sig .tc) (hb : ∀ w, (cfg1.win w).isOut = true → Pipeline.arrRef spec1 w ≠ b) :
    Wv3 m c (Proc.devRef .tc b) = Wv2 m c (Proc.devRef .tc b) := by
  by_cases h : ∃ w, Pipeline.arrRef spec1 w = b
  · obtain ⟨w, rfl⟩ := h
    have hw : (cfg1.win w).isOut = false := by
      cases hio : (cfg1.win w).isOut
      · rfl
      · exact absurd rfl (hb w hio)
    rw [Wv3_arr, (dat1 (tcVal (Wv2 m)) c).arrAt_in w hw, A_eq1]
  · exact Wv3_of_ne m c b fun w e => h ⟨w, e⟩
abbrev Wv4 : Dev nD → Valuation τ sig (Elt F) := fun c => StableHlo.after hostOps2 (Wv3 m c)
def Wv5 (c : Dev nD) : Valuation τ sig (Elt F) :=
  Pipeline.withArrays spec2 c (Wv4 m c) fun w => (dat2 (tcVal (Wv4 m)) c).arrAt w cfg2.N
theorem Wv5_arr (c : Dev nD) (w : Fin cfg2.W) :
    Wv5 m c (Proc.devRef .tc (Pipeline.arrRef spec2 w)) = (dat2 (tcVal (Wv4 m)) c).arrAt w cfg2.N := by
  unfold Wv5; exact Pipeline.withArrays_arr spec2 launch2.win.arr_inj c _ _ w
theorem Wv5_of_ne (c : Dev nD) (b : Ref sig .tc) (hb : ∀ w, Pipeline.arrRef spec2 w ≠ b) :
    Wv5 m c (Proc.devRef .tc b) = Wv4 m c (Proc.devRef .tc b) := by
  unfold Wv5; exact Pipeline.withArrays_of_ne spec2 c _ _ b hb
/-- Region 2 leaves every buffer that is none of its output arrays as it found it. -/
theorem Wv5_keep (c : Dev nD) (b : Ref sig .tc) (hb : ∀ w, (cfg2.win w).isOut = true → Pipeline.arrRef spec2 w ≠ b) :
    Wv5 m c (Proc.devRef .tc b) = Wv4 m c (Proc.devRef .tc b) := by
  by_cases h : ∃ w, Pipeline.arrRef spec2 w = b
  · obtain ⟨w, rfl⟩ := h
    have hw : (cfg2.win w).isOut = false := by
      cases hio : (cfg2.win w).isOut
      · rfl
      · exact absurd rfl (hb w hio)
    rw [Wv5_arr, (dat2 (tcVal (Wv4 m)) c).arrAt_in w hw, A_eq2]
  · exact Wv5_of_ne m c b fun w e => h ⟨w, e⟩
abbrev Wv6 : Dev nD → Valuation τ sig (Elt F) := fun c => StableHlo.after hostOps3 (Wv5 m c)
def Wv7 (c : Dev nD) : Valuation τ sig (Elt F) :=
  Pipeline.withArrays spec3 c (Wv6 m c) fun w => (dat3 (tcVal (Wv6 m)) c).arrAt w cfg3.N
theorem Wv7_arr (c : Dev nD) (w : Fin cfg3.W) :
    Wv7 m c (Proc.devRef .tc (Pipeline.arrRef spec3 w)) = (dat3 (tcVal (Wv6 m)) c).arrAt w cfg3.N := by
  unfold Wv7; exact Pipeline.withArrays_arr spec3 launch3.win.arr_inj c _ _ w
theorem Wv7_of_ne (c : Dev nD) (b : Ref sig .tc) (hb : ∀ w, Pipeline.arrRef spec3 w ≠ b) :
    Wv7 m c (Proc.devRef .tc b) = Wv6 m c (Proc.devRef .tc b) := by
  unfold Wv7; exact Pipeline.withArrays_of_ne spec3 c _ _ b hb
/-- Region 3 leaves every buffer that is none of its output arrays as it found it. -/
theorem Wv7_keep (c : Dev nD) (b : Ref sig .tc) (hb : ∀ w, (cfg3.win w).isOut = true → Pipeline.arrRef spec3 w ≠ b) :
    Wv7 m c (Proc.devRef .tc b) = Wv6 m c (Proc.devRef .tc b) := by
  by_cases h : ∃ w, Pipeline.arrRef spec3 w = b
  · obtain ⟨w, rfl⟩ := h
    have hw : (cfg3.win w).isOut = false := by
      cases hio : (cfg3.win w).isOut
      · rfl
      · exact absurd rfl (hb w hio)
    rw [Wv7_arr, (dat3 (tcVal (Wv6 m)) c).arrAt_in w hw, A_eq3]
  · exact Wv7_of_ne m c b fun w e => h ⟨w, e⟩
def Wv8 (c : Dev nD) : Valuation τ sig (Elt F) :=
  Pipeline.withArrays spec4 c (Wv7 m c) fun w => (dat4 (tcVal (Wv7 m)) c).arrAt w cfg4.N
theorem Wv8_arr (c : Dev nD) (w : Fin cfg4.W) :
    Wv8 m c (Proc.devRef .tc (Pipeline.arrRef spec4 w)) = (dat4 (tcVal (Wv7 m)) c).arrAt w cfg4.N := by
  unfold Wv8; exact Pipeline.withArrays_arr spec4 launch4.win.arr_inj c _ _ w
theorem Wv8_of_ne (c : Dev nD) (b : Ref sig .tc) (hb : ∀ w, Pipeline.arrRef spec4 w ≠ b) :
    Wv8 m c (Proc.devRef .tc b) = Wv7 m c (Proc.devRef .tc b) := by
  unfold Wv8; exact Pipeline.withArrays_of_ne spec4 c _ _ b hb
/-- Region 4 leaves every buffer that is none of its output arrays as it found it. -/
theorem Wv8_keep (c : Dev nD) (b : Ref sig .tc) (hb : ∀ w, (cfg4.win w).isOut = true → Pipeline.arrRef spec4 w ≠ b) :
    Wv8 m c (Proc.devRef .tc b) = Wv7 m c (Proc.devRef .tc b) := by
  by_cases h : ∃ w, Pipeline.arrRef spec4 w = b
  · obtain ⟨w, rfl⟩ := h
    have hw : (cfg4.win w).isOut = false := by
      cases hio : (cfg4.win w).isOut
      · rfl
      · exact absurd rfl (hb w hio)
    rw [Wv8_arr, (dat4 (tcVal (Wv7 m)) c).arrAt_in w hw, A_eq4]
  · exact Wv8_of_ne m c b fun w e => h ⟨w, e⟩
abbrev Wv9 : Dev nD → Valuation τ sig (Elt F) := fun c => StableHlo.after hostOps5 (Wv8 m c)
def Wv10 (c : Dev nD) : Valuation τ sig (Elt F) :=
  Pipeline.withArrays spec5 c (Wv9 m c) fun w => (dat5 (tcVal (Wv9 m)) c).arrAt w cfg5.N
theorem Wv10_arr (c : Dev nD) (w : Fin cfg5.W) :
    Wv10 m c (Proc.devRef .tc (Pipeline.arrRef spec5 w)) = (dat5 (tcVal (Wv9 m)) c).arrAt w cfg5.N := by
  unfold Wv10; exact Pipeline.withArrays_arr spec5 launch5.win.arr_inj c _ _ w
theorem Wv10_of_ne (c : Dev nD) (b : Ref sig .tc) (hb : ∀ w, Pipeline.arrRef spec5 w ≠ b) :
    Wv10 m c (Proc.devRef .tc b) = Wv9 m c (Proc.devRef .tc b) := by
  unfold Wv10; exact Pipeline.withArrays_of_ne spec5 c _ _ b hb
/-- Region 5 leaves every buffer that is none of its output arrays as it found it. -/
theorem Wv10_keep (c : Dev nD) (b : Ref sig .tc) (hb : ∀ w, (cfg5.win w).isOut = true → Pipeline.arrRef spec5 w ≠ b) :
    Wv10 m c (Proc.devRef .tc b) = Wv9 m c (Proc.devRef .tc b) := by
  by_cases h : ∃ w, Pipeline.arrRef spec5 w = b
  · obtain ⟨w, rfl⟩ := h
    have hw : (cfg5.win w).isOut = false := by
      cases hio : (cfg5.win w).isOut
      · rfl
      · exact absurd rfl (hb w hio)
    rw [Wv10_arr, (dat5 (tcVal (Wv9 m)) c).arrAt_in w hw, A_eq5]
  · exact Wv10_of_ne m c b fun w e => h ⟨w, e⟩
abbrev Wv11 : Dev nD → Valuation τ sig (Elt F) := fun c => StableHlo.after hostOps6 (Wv10 m c)
def Wv12 (c : Dev nD) : Valuation τ sig (Elt F) :=
  Pipeline.withArrays spec6 c (Wv11 m c) fun w => (dat6 (tcVal (Wv11 m)) c).arrAt w cfg6.N
theorem Wv12_arr (c : Dev nD) (w : Fin cfg6.W) :
    Wv12 m c (Proc.devRef .tc (Pipeline.arrRef spec6 w)) = (dat6 (tcVal (Wv11 m)) c).arrAt w cfg6.N := by
  unfold Wv12; exact Pipeline.withArrays_arr spec6 launch6.win.arr_inj c _ _ w
theorem Wv12_of_ne (c : Dev nD) (b : Ref sig .tc) (hb : ∀ w, Pipeline.arrRef spec6 w ≠ b) :
    Wv12 m c (Proc.devRef .tc b) = Wv11 m c (Proc.devRef .tc b) := by
  unfold Wv12; exact Pipeline.withArrays_of_ne spec6 c _ _ b hb
/-- Region 6 leaves every buffer that is none of its output arrays as it found it. -/
theorem Wv12_keep (c : Dev nD) (b : Ref sig .tc) (hb : ∀ w, (cfg6.win w).isOut = true → Pipeline.arrRef spec6 w ≠ b) :
    Wv12 m c (Proc.devRef .tc b) = Wv11 m c (Proc.devRef .tc b) := by
  by_cases h : ∃ w, Pipeline.arrRef spec6 w = b
  · obtain ⟨w, rfl⟩ := h
    have hw : (cfg6.win w).isOut = false := by
      cases hio : (cfg6.win w).isOut
      · rfl
      · exact absurd rfl (hb w hio)
    rw [Wv12_arr, (dat6 (tcVal (Wv11 m)) c).arrAt_in w hw, A_eq6]
  · exact Wv12_of_ne m c b fun w e => h ⟨w, e⟩
abbrev Wv13 : Dev nD → Valuation τ sig (Elt F) := fun c => StableHlo.after hostOps7 (Wv12 m c)
def Wv14 (c : Dev nD) : Valuation τ sig (Elt F) :=
  Pipeline.withArrays spec7 c (Wv13 m c) fun w => (dat7 (tcVal (Wv13 m)) c).arrAt w cfg7.N
theorem Wv14_arr (c : Dev nD) (w : Fin cfg7.W) :
    Wv14 m c (Proc.devRef .tc (Pipeline.arrRef spec7 w)) = (dat7 (tcVal (Wv13 m)) c).arrAt w cfg7.N := by
  unfold Wv14; exact Pipeline.withArrays_arr spec7 launch7.win.arr_inj c _ _ w
theorem Wv14_of_ne (c : Dev nD) (b : Ref sig .tc) (hb : ∀ w, Pipeline.arrRef spec7 w ≠ b) :
    Wv14 m c (Proc.devRef .tc b) = Wv13 m c (Proc.devRef .tc b) := by
  unfold Wv14; exact Pipeline.withArrays_of_ne spec7 c _ _ b hb
/-- Region 7 leaves every buffer that is none of its output arrays as it found it. -/
theorem Wv14_keep (c : Dev nD) (b : Ref sig .tc) (hb : ∀ w, (cfg7.win w).isOut = true → Pipeline.arrRef spec7 w ≠ b) :
    Wv14 m c (Proc.devRef .tc b) = Wv13 m c (Proc.devRef .tc b) := by
  by_cases h : ∃ w, Pipeline.arrRef spec7 w = b
  · obtain ⟨w, rfl⟩ := h
    have hw : (cfg7.win w).isOut = false := by
      cases hio : (cfg7.win w).isOut
      · rfl
      · exact absurd rfl (hb w hio)
    rw [Wv14_arr, (dat7 (tcVal (Wv13 m)) c).arrAt_in w hw, A_eq7]
  · exact Wv14_of_ne m c b fun w e => h ⟨w, e⟩

/-! ## The proof data family, the riders, the host stretches -/

def pdats : (p : Fin 8) → (c : Dev nD) → Dat τ (Elt F) Unit ℕ (UR sig nD τ) ℕ (Pipeline.pin (pcfgs (F := F)) adm p) c
  | ⟨0, _⟩ => fun c => dat0 (tcVal (Wv1 m)) c
  | ⟨1, _⟩ => fun c => dat1 (tcVal (Wv2 m)) c
  | ⟨2, _⟩ => fun c => dat2 (tcVal (Wv4 m)) c
  | ⟨3, _⟩ => fun c => dat3 (tcVal (Wv6 m)) c
  | ⟨4, _⟩ => fun c => dat4 (tcVal (Wv7 m)) c
  | ⟨5, _⟩ => fun c => dat5 (tcVal (Wv9 m)) c
  | ⟨6, _⟩ => fun c => dat6 (tcVal (Wv11 m)) c
  | ⟨7, _⟩ => fun c => dat7 (tcVal (Wv13 m)) c
abbrev 𝒱₀ : Variants := Variants.none
abbrev L : GSem nD τ sig → Finset Unit := fun _ => ∅
abbrev lv : GSem nD τ sig → Unit → ℕ := fun _ _ => 0

/-- No region of this program prefetches a table: the tables' share of an invariant is empty. -/
theorem dropPref (p : Fin 8) (c : Dev nD) {X : sProp 𝕄} :
    iprop(X ∗ Pipeline.prefHeld (Ix := Unit) (Name := ℕ) (U := UR sig nD τ) (Lvl := ℕ) (pcfgs (F := F) p).pre c (fun _ => fullShare) (adm p).1) ⊢ X := by
  iintro ⟨H, -⟩; iexact H
theorem addPref (p : Fin 8) (c : Dev nD) {X : sProp 𝕄} :
    X ⊢ iprop(X ∗ Pipeline.prefHeld (Ix := Unit) (Name := ℕ) (U := UR sig nD τ) (Lvl := ℕ) (pcfgs (F := F) p).pre c (fun _ => fullShare) (adm p).1) := by
  unfold Pipeline.prefHeld
  rw [show (Finset.univ : Finset (Fin (pcfgs (F := F) p).pre.K)) = ∅ from Finset.univ_eq_empty, BI.bigSep_empty]
  iintro H; isplitl [H]; · iexact H
  iempintro

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (rider (U := UR sig nD τ) (Val := Elt F))

/-! ## The regions as segments -/

set_option backward.isDefEq.respectTransparency.types false in
/-- Region 0 over the thread state: entered with every unscoped buffer at Wv1, left with them at Wv2. -/
def reg0 : Pipeline.RegionSeg (pcfgs (F := F)) adm (pdats m) () defs₀ 𝒱₀ L lv 0 :=
  regionSeg (U := UR sig nD τ) (pcfgs (F := F)) adm (pdats m) 0 launch0.toP defs₀ 𝒱₀ (Wv1 m) (Wv2 m)
    (fun c => (body_obligation0 (tcVal (Wv1 m)) c).loose)
    (fun c w => by unfold Dat.share; split <;> rfl) (fun c t => rfl) (fun c => rfl)
    (fun c w => A_eq0 (tcVal (Wv1 m)) c w)
    (fun c k => k.elim0)
    (fun c w => (Wv2_arr m c w).symm)
    (fun c b hb => Wv2_of_ne m c b fun w e => hb (Finset.mem_image.mpr ⟨w, Finset.mem_univ _, e⟩))
    (fun c => (dropPref _ c).trans .rfl)
    (fun c => (addPref _ c))

set_option backward.isDefEq.respectTransparency.types false in
/-- Region 1 over the thread state: entered with every unscoped buffer at Wv2, left with them at Wv3. -/
def reg1 : Pipeline.RegionSeg (pcfgs (F := F)) adm (pdats m) () defs₀ 𝒱₀ L lv 1 :=
  regionSeg (U := UR sig nD τ) (pcfgs (F := F)) adm (pdats m) 1 launch1.toP defs₀ 𝒱₀ (Wv2 m) (Wv3 m)
    (fun c => (body_obligation1 (tcVal (Wv2 m)) c).loose)
    (fun c w => by unfold Dat.share; split <;> rfl) (fun c t => rfl) (fun c => rfl)
    (fun c w => A_eq1 (tcVal (Wv2 m)) c w)
    (fun c k => k.elim0)
    (fun c w => (Wv3_arr m c w).symm)
    (fun c b hb => Wv3_of_ne m c b fun w e => hb (Finset.mem_image.mpr ⟨w, Finset.mem_univ _, e⟩))
    (fun c => (dropPref _ c).trans (hin1 (tcVal (Wv2 m)) c))
    (fun c => (hout1 (tcVal (Wv2 m)) c).trans (addPref _ c))

set_option backward.isDefEq.respectTransparency.types false in
/-- Region 2 over the thread state: entered with every unscoped buffer at Wv4, left with them at Wv5. -/
def reg2 : Pipeline.RegionSeg (pcfgs (F := F)) adm (pdats m) () defs₀ 𝒱₀ L lv 2 :=
  regionSeg (U := UR sig nD τ) (pcfgs (F := F)) adm (pdats m) 2 launch2.toP defs₀ 𝒱₀ (Wv4 m) (Wv5 m)
    (fun c => (body_obligation2 (tcVal (Wv4 m)) c).loose)
    (fun c w => by unfold Dat.share; split <;> rfl) (fun c t => rfl) (fun c => rfl)
    (fun c w => A_eq2 (tcVal (Wv4 m)) c w)
    (fun c k => k.elim0)
    (fun c w => (Wv5_arr m c w).symm)
    (fun c b hb => Wv5_of_ne m c b fun w e => hb (Finset.mem_image.mpr ⟨w, Finset.mem_univ _, e⟩))
    (fun c => (dropPref _ c).trans .rfl)
    (fun c => (addPref _ c))

set_option backward.isDefEq.respectTransparency.types false in
/-- Region 3 over the thread state: entered with every unscoped buffer at Wv6, left with them at Wv7. -/
def reg3 : Pipeline.RegionSeg (pcfgs (F := F)) adm (pdats m) () defs₀ 𝒱₀ L lv 3 :=
  regionSeg (U := UR sig nD τ) (pcfgs (F := F)) adm (pdats m) 3 launch3.toP defs₀ 𝒱₀ (Wv6 m) (Wv7 m)
    (fun c => (body_obligation3 (tcVal (Wv6 m)) c).loose)
    (fun c w => by unfold Dat.share; split <;> rfl) (fun c t => rfl) (fun c => rfl)
    (fun c w => A_eq3 (tcVal (Wv6 m)) c w)
    (fun c k => k.elim0)
    (fun c w => (Wv7_arr m c w).symm)
    (fun c b hb => Wv7_of_ne m c b fun w e => hb (Finset.mem_image.mpr ⟨w, Finset.mem_univ _, e⟩))
    (fun c => (dropPref _ c).trans .rfl)
    (fun c => (addPref _ c))

set_option backward.isDefEq.respectTransparency.types false in
/-- Region 4 over the thread state: entered with every unscoped buffer at Wv7, left with them at Wv8. -/
def reg4 : Pipeline.RegionSeg (pcfgs (F := F)) adm (pdats m) () defs₀ 𝒱₀ L lv 4 :=
  regionSeg (U := UR sig nD τ) (pcfgs (F := F)) adm (pdats m) 4 launch4.toP defs₀ 𝒱₀ (Wv7 m) (Wv8 m)
    (fun c => (body_obligation4 (tcVal (Wv7 m)) c).loose)
    (fun c w => by unfold Dat.share; split <;> rfl) (fun c t => rfl) (fun c => rfl)
    (fun c w => A_eq4 (tcVal (Wv7 m)) c w)
    (fun c k => k.elim0)
    (fun c w => (Wv8_arr m c w).symm)
    (fun c b hb => Wv8_of_ne m c b fun w e => hb (Finset.mem_image.mpr ⟨w, Finset.mem_univ _, e⟩))
    (fun c => (dropPref _ c).trans (hin4 (tcVal (Wv7 m)) c))
    (fun c => (hout4 (tcVal (Wv7 m)) c).trans (addPref _ c))

set_option backward.isDefEq.respectTransparency.types false in
/-- Region 5 over the thread state: entered with every unscoped buffer at Wv9, left with them at Wv10. -/
def reg5 : Pipeline.RegionSeg (pcfgs (F := F)) adm (pdats m) () defs₀ 𝒱₀ L lv 5 :=
  regionSeg (U := UR sig nD τ) (pcfgs (F := F)) adm (pdats m) 5 launch5.toP defs₀ 𝒱₀ (Wv9 m) (Wv10 m)
    (fun c => (body_obligation5 (tcVal (Wv9 m)) c).loose)
    (fun c w => by unfold Dat.share; split <;> rfl) (fun c t => rfl) (fun c => rfl)
    (fun c w => A_eq5 (tcVal (Wv9 m)) c w)
    (fun c k => k.elim0)
    (fun c w => (Wv10_arr m c w).symm)
    (fun c b hb => Wv10_of_ne m c b fun w e => hb (Finset.mem_image.mpr ⟨w, Finset.mem_univ _, e⟩))
    (fun c => (dropPref _ c).trans .rfl)
    (fun c => (addPref _ c))

set_option backward.isDefEq.respectTransparency.types false in
/-- Region 6 over the thread state: entered with every unscoped buffer at Wv11, left with them at Wv12. -/
def reg6 : Pipeline.RegionSeg (pcfgs (F := F)) adm (pdats m) () defs₀ 𝒱₀ L lv 6 :=
  regionSeg (U := UR sig nD τ) (pcfgs (F := F)) adm (pdats m) 6 launch6.toP defs₀ 𝒱₀ (Wv11 m) (Wv12 m)
    (fun c => (body_obligation6 (tcVal (Wv11 m)) c).loose)
    (fun c w => by unfold Dat.share; split <;> rfl) (fun c t => rfl) (fun c => rfl)
    (fun c w => A_eq6 (tcVal (Wv11 m)) c w)
    (fun c k => k.elim0)
    (fun c w => (Wv12_arr m c w).symm)
    (fun c b hb => Wv12_of_ne m c b fun w e => hb (Finset.mem_image.mpr ⟨w, Finset.mem_univ _, e⟩))
    (fun c => (dropPref _ c).trans .rfl)
    (fun c => (addPref _ c))

set_option backward.isDefEq.respectTransparency.types false in
/-- Region 7 over the thread state: entered with every unscoped buffer at Wv13, left with them at Wv14. -/
def reg7 : Pipeline.RegionSeg (pcfgs (F := F)) adm (pdats m) () defs₀ 𝒱₀ L lv 7 :=
  regionSeg (U := UR sig nD τ) (pcfgs (F := F)) adm (pdats m) 7 launch7.toP defs₀ 𝒱₀ (Wv13 m) (Wv14 m)
    (fun c => (body_obligation7 (tcVal (Wv13 m)) c).loose)
    (fun c w => by unfold Dat.share; split <;> rfl) (fun c t => rfl) (fun c => rfl)
    (fun c w => A_eq7 (tcVal (Wv13 m)) c w)
    (fun c k => k.elim0)
    (fun c w => (Wv14_arr m c w).symm)
    (fun c b hb => Wv14_of_ne m c b fun w e => hb (Finset.mem_image.mpr ⟨w, Finset.mem_univ _, e⟩))
    (fun c => (dropPref _ c).trans .rfl)
    (fun c => (addPref _ c))

/-! ## The program as segments, and the run -/

abbrev segs : List (Pipeline.Seg (pcfgs (F := F)) adm (pdats m) () defs₀ 𝒱₀ L lv) :=
  [ .host (hseg hostOps0 hostOps0_sub hostOps0_fresh (Wv0 m)),
    .region (reg0 m),
    .region (reg1 m),
    .host (hseg hostOps2 hostOps2_sub hostOps2_fresh (Wv3 m)),
    .region (reg2 m),
    .host (hseg hostOps3 hostOps3_sub hostOps3_fresh (Wv5 m)),
    .region (reg3 m),
    .region (reg4 m),
    .host (hseg hostOps5 hostOps5_sub hostOps5_fresh (Wv8 m)),
    .region (reg5 m),
    .host (hseg hostOps6 hostOps6_sub hostOps6_fresh (Wv10 m)),
    .region (reg6 m),
    .host (hseg hostOps7 hostOps7_sub hostOps7_fresh (Wv12 m)),
    .region (reg7 m) ]

theorem main_run (c : Dev nD) : main (F := F) c = Pipeline.Seg.run (segs m) :=
  (main_chain c).trans (by
    rw [Pipeline.Seg.run_eq_chain, show (segs m).map Pipeline.Seg.prog = [
        StableHlo.seq hostOps0,
        Prog.lift (.customCall (Pipeline.entry 0) ()),
        Prog.lift (.customCall (Pipeline.entry 1) ()),
        StableHlo.seq hostOps2,
        Prog.lift (.customCall (Pipeline.entry 2) ()),
        StableHlo.seq hostOps3,
        Prog.lift (.customCall (Pipeline.entry 3) ()),
        Prog.lift (.customCall (Pipeline.entry 4) ()),
        StableHlo.seq hostOps5,
        Prog.lift (.customCall (Pipeline.entry 5) ()),
        StableHlo.seq hostOps6,
        Prog.lift (.customCall (Pipeline.entry 6) ()),
        StableHlo.seq hostOps7,
        Prog.lift (.customCall (Pipeline.entry 7) ()) ] from rfl])

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program from memory m with zero counters terminates, nothing faulting, and
    every final memory holds every unscoped buffer at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = Wv14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => threadState (U := UR sig nD τ) (Wv0 m) c)
    (Tₙ := fun c => iprop(StableHlo.held (c : Thread nD τ) (Pipeline.ucRefs τ sig) (Wv14 m c) ∗ ∃ r, prngReg c r))
    (hch := ⟨fun c => (BIBase.Entails.rfl : threadState (U := UR sig nD τ) (Wv0 m) c ⊢ threadState (U := UR sig nD τ) (Wv0 m) c),
      fun c => (BIBase.Entails.rfl : threadState (U := UR sig nD τ) (Wv1 m) c ⊢ threadState (U := UR sig nD τ) (Wv1 m) c),
      fun c => (BIBase.Entails.rfl : threadState (U := UR sig nD τ) (Wv2 m) c ⊢ threadState (U := UR sig nD τ) (Wv2 m) c),
      fun c => (BIBase.Entails.rfl : threadState (U := UR sig nD τ) (Wv3 m) c ⊢ threadState (U := UR sig nD τ) (Wv3 m) c),
      fun c => (BIBase.Entails.rfl : threadState (U := UR sig nD τ) (Wv4 m) c ⊢ threadState (U := UR sig nD τ) (Wv4 m) c),
      fun c => (BIBase.Entails.rfl : threadState (U := UR sig nD τ) (Wv5 m) c ⊢ threadState (U := UR sig nD τ) (Wv5 m) c),
      fun c => (BIBase.Entails.rfl : threadState (U := UR sig nD τ) (Wv6 m) c ⊢ threadState (U := UR sig nD τ) (Wv6 m) c),
      fun c => (BIBase.Entails.rfl : threadState (U := UR sig nD τ) (Wv7 m) c ⊢ threadState (U := UR sig nD τ) (Wv7 m) c),
      fun c => (BIBase.Entails.rfl : threadState (U := UR sig nD τ) (Wv8 m) c ⊢ threadState (U := UR sig nD τ) (Wv8 m) c),
      fun c => (BIBase.Entails.rfl : threadState (U := UR sig nD τ) (Wv9 m) c ⊢ threadState (U := UR sig nD τ) (Wv9 m) c),
      fun c => (BIBase.Entails.rfl : threadState (U := UR sig nD τ) (Wv10 m) c ⊢ threadState (U := UR sig nD τ) (Wv10 m) c),
      fun c => (BIBase.Entails.rfl : threadState (U := UR sig nD τ) (Wv11 m) c ⊢ threadState (U := UR sig nD τ) (Wv11 m) c),
      fun c => (BIBase.Entails.rfl : threadState (U := UR sig nD τ) (Wv12 m) c ⊢ threadState (U := UR sig nD τ) (Wv12 m) c),
      fun c => (BIBase.Entails.rfl : threadState (U := UR sig nD τ) (Wv13 m) c ⊢ threadState (U := UR sig nD τ) (Wv13 m) c),
      fun c => by
        show threadState (U := UR sig nD τ) (Wv14 m) c ⊢ _
        iintro ⟨Hh, ⟨Hp, Ho⟩⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv14 m c b)
    (hfin := fun c s' => by
      iintro ⟨⟨Hh, -⟩, HSI⟩
      unfold StableHlo.held
      imodintro
      iapply (pointsTo_read_all (Pipeline.ucRefs τ sig) (fun b => (((c : Thread nD τ)).1, b)) (Wv14 m c) s')
      isplitl [Hh] <;> iassumption)
    (hQ := fun s h c => h c)

end Cert.KernelIdeal.Hand

end
-- ==== Proof.KiArgs.lean ====
/-
  No segment of the program changes an argument array: a host stretch writes only the buffers of its own results,
  and a region changes only its output arrays. So each argument holds, at the last boundary, what it held at launch,
  and the run of the whole program ends with the arguments unchanged.
-/
import proofs.«159573_j34617436406345_1_alg».proof.Proof.KiFrame

set_option maxRecDepth 16384

noncomputable section

namespace Cert.KernelIdeal.Hand

open Idealize.ShloMosaic Idealize.ShloMosaic.TcCoe
open Idealize.SL Idealize.SL.Sem
open Cert.KernelIdeal Cert.KernelIdeal.Gen RegionRecord

variable {F : FTy → Type} [FloatOps F]
variable (m : (ℓ : Loc nD τ sig) → Buf (Elt F) ℓ)

/-- A host stretch leaves every buffer it does not write as it found it. -/
theorem Wv1_keep (c : Dev nD) (r : Ref sig .tc) (h : r ∉ hostOps0_W) : Wv1 m c (Proc.devRef .tc r) = Wv0 m c (Proc.devRef .tc r) :=
  StableHlo.after_of_writes_sub hostOps0 _ hostOps0_writes h
theorem Wv4_keep (c : Dev nD) (r : Ref sig .tc) (h : r ∉ hostOps2_W) : Wv4 m c (Proc.devRef .tc r) = Wv3 m c (Proc.devRef .tc r) :=
  StableHlo.after_of_writes_sub hostOps2 _ hostOps2_writes h
theorem Wv6_keep (c : Dev nD) (r : Ref sig .tc) (h : r ∉ hostOps3_W) : Wv6 m c (Proc.devRef .tc r) = Wv5 m c (Proc.devRef .tc r) :=
  StableHlo.after_of_writes_sub hostOps3 _ hostOps3_writes h
theorem Wv9_keep (c : Dev nD) (r : Ref sig .tc) (h : r ∉ hostOps5_W) : Wv9 m c (Proc.devRef .tc r) = Wv8 m c (Proc.devRef .tc r) :=
  StableHlo.after_of_writes_sub hostOps5 _ hostOps5_writes h
theorem Wv11_keep (c : Dev nD) (r : Ref sig .tc) (h : r ∉ hostOps6_W) : Wv11 m c (Proc.devRef .tc r) = Wv10 m c (Proc.devRef .tc r) :=
  StableHlo.after_of_writes_sub hostOps6 _ hostOps6_writes h
theorem Wv13_keep (c : Dev nD) (r : Ref sig .tc) (h : r ∉ hostOps7_W) : Wv13 m c (Proc.devRef .tc r) = Wv12 m c (Proc.devRef .tc r) :=
  StableHlo.after_of_writes_sub hostOps7 _ hostOps7_writes h

theorem Wv14_main_arg0_from0 (c : Dev nD) : Wv14 m c (Proc.devRef .tc main_arg0) = Wv0 m c (Proc.devRef .tc main_arg0) :=
  (Wv14_keep m c main_arg0 (by decide)).trans <| (Wv13_keep m c main_arg0 (by decide)).trans <| (Wv12_keep m c main_arg0 (by decide)).trans <| (Wv11_keep m c main_arg0 (by decide)).trans <| (Wv10_keep m c main_arg0 (by decide)).trans <| (Wv9_keep m c main_arg0 (by decide)).trans <| (Wv8_keep m c main_arg0 (by decide)).trans <| (Wv7_keep m c main_arg0 (by decide)).trans <| (Wv6_keep m c main_arg0 (by decide)).trans <| (Wv5_keep m c main_arg0 (by decide)).trans <| (Wv4_keep m c main_arg0 (by decide)).trans <| (Wv3_keep m c main_arg0 (by decide)).trans <| (Wv2_keep m c main_arg0 (by decide)).trans <| (Wv1_keep m c main_arg0 (by decide))
theorem Wv14_main_arg1_from0 (c : Dev nD) : Wv14 m c (Proc.devRef .tc main_arg1) = Wv0 m c (Proc.devRef .tc main_arg1) :=
  (Wv14_keep m c main_arg1 (by decide)).trans <| (Wv13_keep m c main_arg1 (by decide)).trans <| (Wv12_keep m c main_arg1 (by decide)).trans <| (Wv11_keep m c main_arg1 (by decide)).trans <| (Wv10_keep m c main_arg1 (by decide)).trans <| (Wv9_keep m c main_arg1 (by decide)).trans <| (Wv8_keep m c main_arg1 (by decide)).trans <| (Wv7_keep m c main_arg1 (by decide)).trans <| (Wv6_keep m c main_arg1 (by decide)).trans <| (Wv5_keep m c main_arg1 (by decide)).trans <| (Wv4_keep m c main_arg1 (by decide)).trans <| (Wv3_keep m c main_arg1 (by decide)).trans <| (Wv2_keep m c main_arg1 (by decide)).trans <| (Wv1_keep m c main_arg1 (by decide))
theorem Wv14_main_arg2_from0 (c : Dev nD) : Wv14 m c (Proc.devRef .tc main_arg2) = Wv0 m c (Proc.devRef .tc main_arg2) :=
  (Wv14_keep m c main_arg2 (by decide)).trans <| (Wv13_keep m c main_arg2 (by decide)).trans <| (Wv12_keep m c main_arg2 (by decide)).trans <| (Wv11_keep m c main_arg2 (by decide)).trans <| (Wv10_keep m c main_arg2 (by decide)).trans <| (Wv9_keep m c main_arg2 (by decide)).trans <| (Wv8_keep m c main_arg2 (by decide)).trans <| (Wv7_keep m c main_arg2 (by decide)).trans <| (Wv6_keep m c main_arg2 (by decide)).trans <| (Wv5_keep m c main_arg2 (by decide)).trans <| (Wv4_keep m c main_arg2 (by decide)).trans <| (Wv3_keep m c main_arg2 (by decide)).trans <| (Wv2_keep m c main_arg2 (by decide)).trans <| (Wv1_keep m c main_arg2 (by decide))
theorem Wv14_main_arg3_from0 (c : Dev nD) : Wv14 m c (Proc.devRef .tc main_arg3) = Wv0 m c (Proc.devRef .tc main_arg3) :=
  (Wv14_keep m c main_arg3 (by decide)).trans <| (Wv13_keep m c main_arg3 (by decide)).trans <| (Wv12_keep m c main_arg3 (by decide)).trans <| (Wv11_keep m c main_arg3 (by decide)).trans <| (Wv10_keep m c main_arg3 (by decide)).trans <| (Wv9_keep m c main_arg3 (by decide)).trans <| (Wv8_keep m c main_arg3 (by decide)).trans <| (Wv7_keep m c main_arg3 (by decide)).trans <| (Wv6_keep m c main_arg3 (by decide)).trans <| (Wv5_keep m c main_arg3 (by decide)).trans <| (Wv4_keep m c main_arg3 (by decide)).trans <| (Wv3_keep m c main_arg3 (by decide)).trans <| (Wv2_keep m c main_arg3 (by decide)).trans <| (Wv1_keep m c main_arg3 (by decide))
theorem Wv14_main_arg4_from0 (c : Dev nD) : Wv14 m c (Proc.devRef .tc main_arg4) = Wv0 m c (Proc.devRef .tc main_arg4) :=
  (Wv14_keep m c main_arg4 (by decide)).trans <| (Wv13_keep m c main_arg4 (by decide)).trans <| (Wv12_keep m c main_arg4 (by decide)).trans <| (Wv11_keep m c main_arg4 (by decide)).trans <| (Wv10_keep m c main_arg4 (by decide)).trans <| (Wv9_keep m c main_arg4 (by decide)).trans <| (Wv8_keep m c main_arg4 (by decide)).trans <| (Wv7_keep m c main_arg4 (by decide)).trans <| (Wv6_keep m c main_arg4 (by decide)).trans <| (Wv5_keep m c main_arg4 (by decide)).trans <| (Wv4_keep m c main_arg4 (by decide)).trans <| (Wv3_keep m c main_arg4 (by decide)).trans <| (Wv2_keep m c main_arg4 (by decide)).trans <| (Wv1_keep m c main_arg4 (by decide))
theorem Wv14_main_arg5_from0 (c : Dev nD) : Wv14 m c (Proc.devRef .tc main_arg5) = Wv0 m c (Proc.devRef .tc main_arg5) :=
  (Wv14_keep m c main_arg5 (by decide)).trans <| (Wv13_keep m c main_arg5 (by decide)).trans <| (Wv12_keep m c main_arg5 (by decide)).trans <| (Wv11_keep m c main_arg5 (by decide)).trans <| (Wv10_keep m c main_arg5 (by decide)).trans <| (Wv9_keep m c main_arg5 (by decide)).trans <| (Wv8_keep m c main_arg5 (by decide)).trans <| (Wv7_keep m c main_arg5 (by decide)).trans <| (Wv6_keep m c main_arg5 (by decide)).trans <| (Wv5_keep m c main_arg5 (by decide)).trans <| (Wv4_keep m c main_arg5 (by decide)).trans <| (Wv3_keep m c main_arg5 (by decide)).trans <| (Wv2_keep m c main_arg5 (by decide)).trans <| (Wv1_keep m c main_arg5 (by decide))
theorem Wv14_main_arg6_from0 (c : Dev nD) : Wv14 m c (Proc.devRef .tc main_arg6) = Wv0 m c (Proc.devRef .tc main_arg6) :=
  (Wv14_keep m c main_arg6 (by decide)).trans <| (Wv13_keep m c main_arg6 (by decide)).trans <| (Wv12_keep m c main_arg6 (by decide)).trans <| (Wv11_keep m c main_arg6 (by decide)).trans <| (Wv10_keep m c main_arg6 (by decide)).trans <| (Wv9_keep m c main_arg6 (by decide)).trans <| (Wv8_keep m c main_arg6 (by decide)).trans <| (Wv7_keep m c main_arg6 (by decide)).trans <| (Wv6_keep m c main_arg6 (by decide)).trans <| (Wv5_keep m c main_arg6 (by decide)).trans <| (Wv4_keep m c main_arg6 (by decide)).trans <| (Wv3_keep m c main_arg6 (by decide)).trans <| (Wv2_keep m c main_arg6 (by decide)).trans <| (Wv1_keep m c main_arg6 (by decide))
theorem Wv14_main_arg7_from0 (c : Dev nD) : Wv14 m c (Proc.devRef .tc main_arg7) = Wv0 m c (Proc.devRef .tc main_arg7) :=
  (Wv14_keep m c main_arg7 (by decide)).trans <| (Wv13_keep m c main_arg7 (by decide)).trans <| (Wv12_keep m c main_arg7 (by decide)).trans <| (Wv11_keep m c main_arg7 (by decide)).trans <| (Wv10_keep m c main_arg7 (by decide)).trans <| (Wv9_keep m c main_arg7 (by decide)).trans <| (Wv8_keep m c main_arg7 (by decide)).trans <| (Wv7_keep m c main_arg7 (by decide)).trans <| (Wv6_keep m c main_arg7 (by decide)).trans <| (Wv5_keep m c main_arg7 (by decide)).trans <| (Wv4_keep m c main_arg7 (by decide)).trans <| (Wv3_keep m c main_arg7 (by decide)).trans <| (Wv2_keep m c main_arg7 (by decide)).trans <| (Wv1_keep m c main_arg7 (by decide))
theorem Wv14_main_arg8_from0 (c : Dev nD) : Wv14 m c (Proc.devRef .tc main_arg8) = Wv0 m c (Proc.devRef .tc main_arg8) :=
  (Wv14_keep m c main_arg8 (by decide)).trans <| (Wv13_keep m c main_arg8 (by decide)).trans <| (Wv12_keep m c main_arg8 (by decide)).trans <| (Wv11_keep m c main_arg8 (by decide)).trans <| (Wv10_keep m c main_arg8 (by decide)).trans <| (Wv9_keep m c main_arg8 (by decide)).trans <| (Wv8_keep m c main_arg8 (by decide)).trans <| (Wv7_keep m c main_arg8 (by decide)).trans <| (Wv6_keep m c main_arg8 (by decide)).trans <| (Wv5_keep m c main_arg8 (by decide)).trans <| (Wv4_keep m c main_arg8 (by decide)).trans <| (Wv3_keep m c main_arg8 (by decide)).trans <| (Wv2_keep m c main_arg8 (by decide)).trans <| (Wv1_keep m c main_arg8 (by decide))
theorem Wv14_main_arg9_from0 (c : Dev nD) : Wv14 m c (Proc.devRef .tc main_arg9) = Wv0 m c (Proc.devRef .tc main_arg9) :=
  (Wv14_keep m c main_arg9 (by decide)).trans <| (Wv13_keep m c main_arg9 (by decide)).trans <| (Wv12_keep m c main_arg9 (by decide)).trans <| (Wv11_keep m c main_arg9 (by decide)).trans <| (Wv10_keep m c main_arg9 (by decide)).trans <| (Wv9_keep m c main_arg9 (by decide)).trans <| (Wv8_keep m c main_arg9 (by decide)).trans <| (Wv7_keep m c main_arg9 (by decide)).trans <| (Wv6_keep m c main_arg9 (by decide)).trans <| (Wv5_keep m c main_arg9 (by decide)).trans <| (Wv4_keep m c main_arg9 (by decide)).trans <| (Wv3_keep m c main_arg9 (by decide)).trans <| (Wv2_keep m c main_arg9 (by decide)).trans <| (Wv1_keep m c main_arg9 (by decide))
theorem Wv14_main_arg10_from0 (c : Dev nD) : Wv14 m c (Proc.devRef .tc main_arg10) = Wv0 m c (Proc.devRef .tc main_arg10) :=
  (Wv14_keep m c main_arg10 (by decide)).trans <| (Wv13_keep m c main_arg10 (by decide)).trans <| (Wv12_keep m c main_arg10 (by decide)).trans <| (Wv11_keep m c main_arg10 (by decide)).trans <| (Wv10_keep m c main_arg10 (by decide)).trans <| (Wv9_keep m c main_arg10 (by decide)).trans <| (Wv8_keep m c main_arg10 (by decide)).trans <| (Wv7_keep m c main_arg10 (by decide)).trans <| (Wv6_keep m c main_arg10 (by decide)).trans <| (Wv5_keep m c main_arg10 (by decide)).trans <| (Wv4_keep m c main_arg10 (by decide)).trans <| (Wv3_keep m c main_arg10 (by decide)).trans <| (Wv2_keep m c main_arg10 (by decide)).trans <| (Wv1_keep m c main_arg10 (by decide))
theorem Wv14_main_arg11_from0 (c : Dev nD) : Wv14 m c (Proc.devRef .tc main_arg11) = Wv0 m c (Proc.devRef .tc main_arg11) :=
  (Wv14_keep m c main_arg11 (by decide)).trans <| (Wv13_keep m c main_arg11 (by decide)).trans <| (Wv12_keep m c main_arg11 (by decide)).trans <| (Wv11_keep m c main_arg11 (by decide)).trans <| (Wv10_keep m c main_arg11 (by decide)).trans <| (Wv9_keep m c main_arg11 (by decide)).trans <| (Wv8_keep m c main_arg11 (by decide)).trans <| (Wv7_keep m c main_arg11 (by decide)).trans <| (Wv6_keep m c main_arg11 (by decide)).trans <| (Wv5_keep m c main_arg11 (by decide)).trans <| (Wv4_keep m c main_arg11 (by decide)).trans <| (Wv3_keep m c main_arg11 (by decide)).trans <| (Wv2_keep m c main_arg11 (by decide)).trans <| (Wv1_keep m c main_arg11 (by decide))
theorem Wv14_main_arg12_from0 (c : Dev nD) : Wv14 m c (Proc.devRef .tc main_arg12) = Wv0 m c (Proc.devRef .tc main_arg12) :=
  (Wv14_keep m c main_arg12 (by decide)).trans <| (Wv13_keep m c main_arg12 (by decide)).trans <| (Wv12_keep m c main_arg12 (by decide)).trans <| (Wv11_keep m c main_arg12 (by decide)).trans <| (Wv10_keep m c main_arg12 (by decide)).trans <| (Wv9_keep m c main_arg12 (by decide)).trans <| (Wv8_keep m c main_arg12 (by decide)).trans <| (Wv7_keep m c main_arg12 (by decide)).trans <| (Wv6_keep m c main_arg12 (by decide)).trans <| (Wv5_keep m c main_arg12 (by decide)).trans <| (Wv4_keep m c main_arg12 (by decide)).trans <| (Wv3_keep m c main_arg12 (by decide)).trans <| (Wv2_keep m c main_arg12 (by decide)).trans <| (Wv1_keep m c main_arg12 (by decide))
theorem Wv14_main_arg13_from0 (c : Dev nD) : Wv14 m c (Proc.devRef .tc main_arg13) = Wv0 m c (Proc.devRef .tc main_arg13) :=
  (Wv14_keep m c main_arg13 (by decide)).trans <| (Wv13_keep m c main_arg13 (by decide)).trans <| (Wv12_keep m c main_arg13 (by decide)).trans <| (Wv11_keep m c main_arg13 (by decide)).trans <| (Wv10_keep m c main_arg13 (by decide)).trans <| (Wv9_keep m c main_arg13 (by decide)).trans <| (Wv8_keep m c main_arg13 (by decide)).trans <| (Wv7_keep m c main_arg13 (by decide)).trans <| (Wv6_keep m c main_arg13 (by decide)).trans <| (Wv5_keep m c main_arg13 (by decide)).trans <| (Wv4_keep m c main_arg13 (by decide)).trans <| (Wv3_keep m c main_arg13 (by decide)).trans <| (Wv2_keep m c main_arg13 (by decide)).trans <| (Wv1_keep m c main_arg13 (by decide))
theorem Wv14_main_arg14_from0 (c : Dev nD) : Wv14 m c (Proc.devRef .tc main_arg14) = Wv0 m c (Proc.devRef .tc main_arg14) :=
  (Wv14_keep m c main_arg14 (by decide)).trans <| (Wv13_keep m c main_arg14 (by decide)).trans <| (Wv12_keep m c main_arg14 (by decide)).trans <| (Wv11_keep m c main_arg14 (by decide)).trans <| (Wv10_keep m c main_arg14 (by decide)).trans <| (Wv9_keep m c main_arg14 (by decide)).trans <| (Wv8_keep m c main_arg14 (by decide)).trans <| (Wv7_keep m c main_arg14 (by decide)).trans <| (Wv6_keep m c main_arg14 (by decide)).trans <| (Wv5_keep m c main_arg14 (by decide)).trans <| (Wv4_keep m c main_arg14 (by decide)).trans <| (Wv3_keep m c main_arg14 (by decide)).trans <| (Wv2_keep m c main_arg14 (by decide)).trans <| (Wv1_keep m c main_arg14 (by decide))
theorem Wv14_main_arg15_from0 (c : Dev nD) : Wv14 m c (Proc.devRef .tc main_arg15) = Wv0 m c (Proc.devRef .tc main_arg15) :=
  (Wv14_keep m c main_arg15 (by decide)).trans <| (Wv13_keep m c main_arg15 (by decide)).trans <| (Wv12_keep m c main_arg15 (by decide)).trans <| (Wv11_keep m c main_arg15 (by decide)).trans <| (Wv10_keep m c main_arg15 (by decide)).trans <| (Wv9_keep m c main_arg15 (by decide)).trans <| (Wv8_keep m c main_arg15 (by decide)).trans <| (Wv7_keep m c main_arg15 (by decide)).trans <| (Wv6_keep m c main_arg15 (by decide)).trans <| (Wv5_keep m c main_arg15 (by decide)).trans <| (Wv4_keep m c main_arg15 (by decide)).trans <| (Wv3_keep m c main_arg15 (by decide)).trans <| (Wv2_keep m c main_arg15 (by decide)).trans <| (Wv1_keep m c main_arg15 (by decide))
theorem Wv14_main_arg16_from0 (c : Dev nD) : Wv14 m c (Proc.devRef .tc main_arg16) = Wv0 m c (Proc.devRef .tc main_arg16) :=
  (Wv14_keep m c main_arg16 (by decide)).trans <| (Wv13_keep m c main_arg16 (by decide)).trans <| (Wv12_keep m c main_arg16 (by decide)).trans <| (Wv11_keep m c main_arg16 (by decide)).trans <| (Wv10_keep m c main_arg16 (by decide)).trans <| (Wv9_keep m c main_arg16 (by decide)).trans <| (Wv8_keep m c main_arg16 (by decide)).trans <| (Wv7_keep m c main_arg16 (by decide)).trans <| (Wv6_keep m c main_arg16 (by decide)).trans <| (Wv5_keep m c main_arg16 (by decide)).trans <| (Wv4_keep m c main_arg16 (by decide)).trans <| (Wv3_keep m c main_arg16 (by decide)).trans <| (Wv2_keep m c main_arg16 (by decide)).trans <| (Wv1_keep m c main_arg16 (by decide))
theorem Wv14_main_arg17_from0 (c : Dev nD) : Wv14 m c (Proc.devRef .tc main_arg17) = Wv0 m c (Proc.devRef .tc main_arg17) :=
  (Wv14_keep m c main_arg17 (by decide)).trans <| (Wv13_keep m c main_arg17 (by decide)).trans <| (Wv12_keep m c main_arg17 (by decide)).trans <| (Wv11_keep m c main_arg17 (by decide)).trans <| (Wv10_keep m c main_arg17 (by decide)).trans <| (Wv9_keep m c main_arg17 (by decide)).trans <| (Wv8_keep m c main_arg17 (by decide)).trans <| (Wv7_keep m c main_arg17 (by decide)).trans <| (Wv6_keep m c main_arg17 (by decide)).trans <| (Wv5_keep m c main_arg17 (by decide)).trans <| (Wv4_keep m c main_arg17 (by decide)).trans <| (Wv3_keep m c main_arg17 (by decide)).trans <| (Wv2_keep m c main_arg17 (by decide)).trans <| (Wv1_keep m c main_arg17 (by decide))
theorem Wv14_main_arg18_from0 (c : Dev nD) : Wv14 m c (Proc.devRef .tc main_arg18) = Wv0 m c (Proc.devRef .tc main_arg18) :=
  (Wv14_keep m c main_arg18 (by decide)).trans <| (Wv13_keep m c main_arg18 (by decide)).trans <| (Wv12_keep m c main_arg18 (by decide)).trans <| (Wv11_keep m c main_arg18 (by decide)).trans <| (Wv10_keep m c main_arg18 (by decide)).trans <| (Wv9_keep m c main_arg18 (by decide)).trans <| (Wv8_keep m c main_arg18 (by decide)).trans <| (Wv7_keep m c main_arg18 (by decide)).trans <| (Wv6_keep m c main_arg18 (by decide)).trans <| (Wv5_keep m c main_arg18 (by decide)).trans <| (Wv4_keep m c main_arg18 (by decide)).trans <| (Wv3_keep m c main_arg18 (by decide)).trans <| (Wv2_keep m c main_arg18 (by decide)).trans <| (Wv1_keep m c main_arg18 (by decide))
theorem Wv14_main_arg19_from0 (c : Dev nD) : Wv14 m c (Proc.devRef .tc main_arg19) = Wv0 m c (Proc.devRef .tc main_arg19) :=
  (Wv14_keep m c main_arg19 (by decide)).trans <| (Wv13_keep m c main_arg19 (by decide)).trans <| (Wv12_keep m c main_arg19 (by decide)).trans <| (Wv11_keep m c main_arg19 (by decide)).trans <| (Wv10_keep m c main_arg19 (by decide)).trans <| (Wv9_keep m c main_arg19 (by decide)).trans <| (Wv8_keep m c main_arg19 (by decide)).trans <| (Wv7_keep m c main_arg19 (by decide)).trans <| (Wv6_keep m c main_arg19 (by decide)).trans <| (Wv5_keep m c main_arg19 (by decide)).trans <| (Wv4_keep m c main_arg19 (by decide)).trans <| (Wv3_keep m c main_arg19 (by decide)).trans <| (Wv2_keep m c main_arg19 (by decide)).trans <| (Wv1_keep m c main_arg19 (by decide))
theorem Wv14_main_arg20_from0 (c : Dev nD) : Wv14 m c (Proc.devRef .tc main_arg20) = Wv0 m c (Proc.devRef .tc main_arg20) :=
  (Wv14_keep m c main_arg20 (by decide)).trans <| (Wv13_keep m c main_arg20 (by decide)).trans <| (Wv12_keep m c main_arg20 (by decide)).trans <| (Wv11_keep m c main_arg20 (by decide)).trans <| (Wv10_keep m c main_arg20 (by decide)).trans <| (Wv9_keep m c main_arg20 (by decide)).trans <| (Wv8_keep m c main_arg20 (by decide)).trans <| (Wv7_keep m c main_arg20 (by decide)).trans <| (Wv6_keep m c main_arg20 (by decide)).trans <| (Wv5_keep m c main_arg20 (by decide)).trans <| (Wv4_keep m c main_arg20 (by decide)).trans <| (Wv3_keep m c main_arg20 (by decide)).trans <| (Wv2_keep m c main_arg20 (by decide)).trans <| (Wv1_keep m c main_arg20 (by decide))
theorem Wv14_main_arg21_from0 (c : Dev nD) : Wv14 m c (Proc.devRef .tc main_arg21) = Wv0 m c (Proc.devRef .tc main_arg21) :=
  (Wv14_keep m c main_arg21 (by decide)).trans <| (Wv13_keep m c main_arg21 (by decide)).trans <| (Wv12_keep m c main_arg21 (by decide)).trans <| (Wv11_keep m c main_arg21 (by decide)).trans <| (Wv10_keep m c main_arg21 (by decide)).trans <| (Wv9_keep m c main_arg21 (by decide)).trans <| (Wv8_keep m c main_arg21 (by decide)).trans <| (Wv7_keep m c main_arg21 (by decide)).trans <| (Wv6_keep m c main_arg21 (by decide)).trans <| (Wv5_keep m c main_arg21 (by decide)).trans <| (Wv4_keep m c main_arg21 (by decide)).trans <| (Wv3_keep m c main_arg21 (by decide)).trans <| (Wv2_keep m c main_arg21 (by decide)).trans <| (Wv1_keep m c main_arg21 (by decide))
theorem Wv14_main_arg22_from0 (c : Dev nD) : Wv14 m c (Proc.devRef .tc main_arg22) = Wv0 m c (Proc.devRef .tc main_arg22) :=
  (Wv14_keep m c main_arg22 (by decide)).trans <| (Wv13_keep m c main_arg22 (by decide)).trans <| (Wv12_keep m c main_arg22 (by decide)).trans <| (Wv11_keep m c main_arg22 (by decide)).trans <| (Wv10_keep m c main_arg22 (by decide)).trans <| (Wv9_keep m c main_arg22 (by decide)).trans <| (Wv8_keep m c main_arg22 (by decide)).trans <| (Wv7_keep m c main_arg22 (by decide)).trans <| (Wv6_keep m c main_arg22 (by decide)).trans <| (Wv5_keep m c main_arg22 (by decide)).trans <| (Wv4_keep m c main_arg22 (by decide)).trans <| (Wv3_keep m c main_arg22 (by decide)).trans <| (Wv2_keep m c main_arg22 (by decide)).trans <| (Wv1_keep m c main_arg22 (by decide))
theorem Wv14_main_arg23_from0 (c : Dev nD) : Wv14 m c (Proc.devRef .tc main_arg23) = Wv0 m c (Proc.devRef .tc main_arg23) :=
  (Wv14_keep m c main_arg23 (by decide)).trans <| (Wv13_keep m c main_arg23 (by decide)).trans <| (Wv12_keep m c main_arg23 (by decide)).trans <| (Wv11_keep m c main_arg23 (by decide)).trans <| (Wv10_keep m c main_arg23 (by decide)).trans <| (Wv9_keep m c main_arg23 (by decide)).trans <| (Wv8_keep m c main_arg23 (by decide)).trans <| (Wv7_keep m c main_arg23 (by decide)).trans <| (Wv6_keep m c main_arg23 (by decide)).trans <| (Wv5_keep m c main_arg23 (by decide)).trans <| (Wv4_keep m c main_arg23 (by decide)).trans <| (Wv3_keep m c main_arg23 (by decide)).trans <| (Wv2_keep m c main_arg23 (by decide)).trans <| (Wv1_keep m c main_arg23 (by decide))

/-- The frame: every weakly fair execution terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => ⟨
    (h c _ (mem_uc main_arg0 (by decide))).trans (Wv14_main_arg0_from0 m c),
    (h c _ (mem_uc main_arg1 (by decide))).trans (Wv14_main_arg1_from0 m c),
    (h c _ (mem_uc main_arg2 (by decide))).trans (Wv14_main_arg2_from0 m c),
    (h c _ (mem_uc main_arg3 (by decide))).trans (Wv14_main_arg3_from0 m c),
    (h c _ (mem_uc main_arg4 (by decide))).trans (Wv14_main_arg4_from0 m c),
    (h c _ (mem_uc main_arg5 (by decide))).trans (Wv14_main_arg5_from0 m c),
    (h c _ (mem_uc main_arg6 (by decide))).trans (Wv14_main_arg6_from0 m c),
    (h c _ (mem_uc main_arg7 (by decide))).trans (Wv14_main_arg7_from0 m c),
    (h c _ (mem_uc main_arg8 (by decide))).trans (Wv14_main_arg8_from0 m c),
    (h c _ (mem_uc main_arg9 (by decide))).trans (Wv14_main_arg9_from0 m c),
    (h c _ (mem_uc main_arg10 (by decide))).trans (Wv14_main_arg10_from0 m c),
    (h c _ (mem_uc main_arg11 (by decide))).trans (Wv14_main_arg11_from0 m c),
    (h c _ (mem_uc main_arg12 (by decide))).trans (Wv14_main_arg12_from0 m c),
    (h c _ (mem_uc main_arg13 (by decide))).trans (Wv14_main_arg13_from0 m c),
    (h c _ (mem_uc main_arg14 (by decide))).trans (Wv14_main_arg14_from0 m c),
    (h c _ (mem_uc main_arg15 (by decide))).trans (Wv14_main_arg15_from0 m c),
    (h c _ (mem_uc main_arg16 (by decide))).trans (Wv14_main_arg16_from0 m c),
    (h c _ (mem_uc main_arg17 (by decide))).trans (Wv14_main_arg17_from0 m c),
    (h c _ (mem_uc main_arg18 (by decide))).trans (Wv14_main_arg18_from0 m c),
    (h c _ (mem_uc main_arg19 (by decide))).trans (Wv14_main_arg19_from0 m c),
    (h c _ (mem_uc main_arg20 (by decide))).trans (Wv14_main_arg20_from0 m c),
    (h c _ (mem_uc main_arg21 (by decide))).trans (Wv14_main_arg21_from0 m c),
    (h c _ (mem_uc main_arg22 (by decide))).trans (Wv14_main_arg22_from0 m c),
    (h c _ (mem_uc main_arg23 (by decide))).trans (Wv14_main_arg23_from0 m c)⟩) (run_all m ρ)

end Cert.KernelIdeal.Hand

end
-- ==== Proof.RefRunOps.lean ====
/-
  The reference program as a list of its operations, in order, cut into the stages of its computation; the calls of
  its outlined functions (max with zero, the variance and the selection inside it) are listed in place, each over the
  buffers that call names.  Stated for any float instance.
-/
import proofs.«159573_j34617436406345_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reciprocal clamped in-degrees: thirteen operations ending in the column of reciprocals. -/
def cInv : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v6 (broadcastInDim S50000 ![] bcast_S_S50000 : (⟨S_, .f32⟩ : BufTy).Contents (Elt F) → (⟨S50000, .f32⟩ : BufTy).Contents (Elt F)),
    binary main_v6 main_v5 main_v7 (Host.divf : (⟨S50000, .f32⟩ : BufTy).Contents (Elt F) → (⟨S50000, .f32⟩ : BufTy).Contents (Elt F) → (⟨S50000, .f32⟩ : BufTy).Contents (Elt F)),
    unary main_v7 main_v8 (broadcastInDim S50000x1 ![0] bcast_S50000_S50000x1_0 : (⟨S50000, .f32⟩ : BufTy).Contents (Elt F) → (⟨S50000x1, .f32⟩ : BufTy).Contents (Elt F)) ]

/-- Round one's neighbourhood mean of the input rows. -/
def cAgg1 : List (HloOp τ sig (Elt F)) :=
  [ nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_arg1 main_v9 main_v10 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v11 (broadcastInDim S800000 ![] bcast_S_S800000 : (⟨S_, .i32⟩ : BufTy).Contents (Elt F) → (⟨S800000, .i32⟩ : BufTy).Contents (Elt F)),
    binary main_arg1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_arg1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_arg0 main_v14 main_v15 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_4 (constant S_ .f32 0x00000000#32),
    unary main_cst_4 main_v16 (broadcastInDim S50000x64 ![] bcast_S_S50000x64 : (⟨S_, .f32⟩ : BufTy).Contents (Elt F) → (⟨S50000x64, .f32⟩ : BufTy).Contents (Elt F)),
    unary main_arg2 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v19 (broadcastInDim S50000x64 ![0, 1] bcast_S50000x1_S50000x64_0_1 : (⟨S50000x1, .f32⟩ : BufTy).Contents (Elt F) → (⟨S50000x64, .f32⟩ : BufTy).Contents (Elt F)),
    binary main_v18 main_v19 main_v20 (mulf : (⟨S50000x64, .f32⟩ : BufTy).Contents (Elt F) → (⟨S50000x64, .f32⟩ : BufTy).Contents (Elt F) → (⟨S50000x64, .f32⟩ : BufTy).Contents (Elt F)) ]

/-- Round one's combine and its max with zero. -/
def cSage1 : List (HloOp τ sig (Elt F)) :=
  [ binary main_arg0 main_arg5 main_v21 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v20 main_arg6 main_v22 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v21 main_v22 main_v23 (addf : (⟨S50000x64, .f32⟩ : BufTy).Contents (Elt F) → (⟨S50000x64, .f32⟩ : BufTy).Contents (Elt F) → (⟨S50000x64, .f32⟩ : BufTy).Contents (Elt F)),
    unary main_arg7 main_v24 (broadcastInDim S1x64 ![1] bcast_S64_S1x64_1 : (⟨S64, .f32⟩ : BufTy).Contents (Elt F) → (⟨S1x64, .f32⟩ : BufTy).Contents (Elt F)),
    unary main_v24 main_v25 (broadcastInDim S50000x64 ![0, 1] bcast_S1x64_S50000x64_0_1 : (⟨S1x64, .f32⟩ : BufTy).Contents (Elt F) → (⟨S50000x64, .f32⟩ : BufTy).Contents (Elt F)),
    binary main_v23 main_v25 main_v26 (addf : (⟨S50000x64, .f32⟩ : BufTy).Contents (Elt F) → (⟨S50000x64, .f32⟩ : BufTy).Contents (Elt F) → (⟨S50000x64, .f32⟩ : BufTy).Contents (Elt F)),
    TRef.nullary main_call0.cst (constant S_ .f32 0x00000000#32),
    TRef.unary main_call0.cst main_call0.v0 (broadcastInDim S50000x64 ![] bcast_S_S50000x64),
    TRef.binary (TRef.of main_v26 : TRef sig ⟨S50000x64, .f32⟩) main_call0.v0 main_call0.v1 maximumf ]

/-- Round one's column means. -/
def cMean1 : List (HloOp τ sig (Elt F)) :=
  [ nullary main_cst_5 (constant S_ .f32 0x00000000#32),
    binary main_v27 main_cst_5 main_v28 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_6 (constant S_ .f32 0x47435000#32),
    unary main_cst_6 main_v29 (broadcastInDim S64 ![] bcast_S_S64 : (⟨S_, .f32⟩ : BufTy).Contents (Elt F) → (⟨S64, .f32⟩ : BufTy).Contents (Elt F)),
    binary main_v28 main_v29 main_v30 (Host.divf : (⟨S64, .f32⟩ : BufTy).Contents (Elt F) → (⟨S64, .f32⟩ : BufTy).Contents (Elt F) → (⟨S64, .f32⟩ : BufTy).Contents (Elt F)) ]

/-- Round one's column variances (the centred form, with its guard). -/
def cVar1 : List (HloOp τ sig (Elt F)) :=
  [ nullary main_c_7 (constantI S_ 32 0#32),
    TRef.nullary main_call1.cst (constant S_ .f32 0x00000000#32),
    TRef.binary (TRef.of main_v27 : TRef sig ⟨S50000x64, .f32⟩) main_call1.cst main_call1.v0 (fun x v => Host.reduceAdd x v reducesTo_S50000x64_S64_d0 h_S_),
    TRef.unary main_call1.v0 main_call1.v1 (broadcastInDim S1x64 ![1] bcast_S64_S1x64_1),
    TRef.nullary main_call1.cst_0 (constant S_ .f32 0x47435000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S50000x64 ![0, 1] bcast_S1x64_S50000x64_0_1),
    TRef.binary (TRef.of main_v27 : TRef sig ⟨S50000x64, .f32⟩) main_call1.v4 main_call1.v5 subf,
    TRef.binary main_call1.v5 main_call1.v5 main_call1.v6 mulf,
    TRef.unary (TRef.of main_c_7 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

/-- Round one's normalisation. -/
def cBn1 : List (HloOp τ sig (Elt F)) :=
  [ unary main_v30 main_v32 (broadcastInDim S1x64 ![1] bcast_S64_S1x64_1 : (⟨S64, .f32⟩ : BufTy).Contents (Elt F) → (⟨S1x64, .f32⟩ : BufTy).Contents (Elt F)),
    unary main_v32 main_v33 (broadcastInDim S50000x64 ![0, 1] bcast_S1x64_S50000x64_0_1 : (⟨S1x64, .f32⟩ : BufTy).Contents (Elt F) → (⟨S50000x64, .f32⟩ : BufTy).Contents (Elt F)),
    binary main_v27 main_v33 main_v34 (subf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x3727C5AC#32),
    unary main_cst_8 main_v35 (broadcastInDim S64 ![] bcast_S_S64 : (⟨S_, .f32⟩ : BufTy).Contents (Elt F) → (⟨S64, .f32⟩ : BufTy).Contents (Elt F)),
    binary main_v31 main_v35 main_v36 (addf : (⟨S64, .f32⟩ : BufTy).Contents (Elt F) → (⟨S64, .f32⟩ : BufTy).Contents (Elt F) → (⟨S64, .f32⟩ : BufTy).Contents (Elt F)),
    unary main_v36 main_v37 (Host.rsqrt : (⟨S64, .f32⟩ : BufTy).Contents (Elt F) → (⟨S64, .f32⟩ : BufTy).Contents (Elt F)),
    unary main_v37 main_v38 (broadcastInDim S1x64 ![1] bcast_S64_S1x64_1 : (⟨S64, .f32⟩ : BufTy).Contents (Elt F) → (⟨S1x64, .f32⟩ : BufTy).Contents (Elt F)),
    unary main_v38 main_v39 (broadcastInDim S50000x64 ![0, 1] bcast_S1x64_S50000x64_0_1 : (⟨S1x64, .f32⟩ : BufTy).Contents (Elt F) → (⟨S50000x64, .f32⟩ : BufTy).Contents (Elt F)),
    binary main_v34 main_v39 main_v40 (mulf : (⟨S50000x64, .f32⟩ : BufTy).Contents (Elt F) → (⟨S50000x64, .f32⟩ : BufTy).Contents (Elt F) → (⟨S50000x64, .f32⟩ : BufTy).Contents (Elt F)),
    unary main_arg14 main_v41 (broadcastInDim S1x64 ![1] bcast_S64_S1x64_1 : (⟨S64, .f32⟩ : BufTy).Contents (Elt F) → (⟨S1x64, .f32⟩ : BufTy).Contents (Elt F)),
    unary main_v41 main_v42 (broadcastInDim S50000x64 ![0, 1] bcast_S1x64_S50000x64_0_1 : (⟨S1x64, .f32⟩ : BufTy).Contents (Elt F) → (⟨S50000x64, .f32⟩ : BufTy).Contents (Elt F)),
    binary main_v40 main_v42 main_v43 (mulf : (⟨S50000x64, .f32⟩ : BufTy).Contents (Elt F) → (⟨S50000x64, .f32⟩ : BufTy).Contents (Elt F) → (⟨S50000x64, .f32⟩ : BufTy).Contents (Elt F)),
    unary main_arg15 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)) ]

/-- Round two's neighbourhood mean, its first two operations. -/
def cAgg2a : List (HloOp τ sig (Elt F)) :=
  [ nullary main_c_9 (constantI S_ 32 0#32),
    unary main_c_9 main_v47 (broadcastInDim S800000 ![] bcast_S_S800000 : (⟨S_, .i32⟩ : BufTy).Contents (Elt F) → (⟨S800000, .i32⟩ : BufTy).Contents (Elt F)) ]

/-- Round two's neighbourhood mean, the rest. -/
def cAgg2b : List (HloOp τ sig (Elt F)) :=
  [ binary main_arg1 main_v47 main_v48 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v49 (broadcastInDim S800000 ![] bcast_S_S800000 : (⟨S_, .i32⟩ : BufTy).Contents (Elt F) → (⟨S800000, .i32⟩ : BufTy).Contents (Elt F)),
    binary main_arg1 main_v49 main_v50 (addi : (⟨S800000, .i32⟩ : BufTy).Contents (Elt F) → (⟨S800000, .i32⟩ : BufTy).Contents (Elt F) → (⟨S800000, .i32⟩ : BufTy).Contents (Elt F)),
    ternary main_v48 main_v50 main_arg1 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v51 main_v52 (broadcastInDim S800000x1 ![0] bcast_S800000_S800000x1_0 : (⟨S800000, .i32⟩ : BufTy).Contents (Elt F) → (⟨S800000x1, .i32⟩ : BufTy).Contents (Elt F)),
    binary main_v46 main_v52 main_v53 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_11 (constant S_ .f32 0x00000000#32),
    unary main_cst_11 main_v54 (broadcastInDim S50000x64 ![] bcast_S_S50000x64 : (⟨S_, .f32⟩ : BufTy).Contents (Elt F) → (⟨S50000x64, .f32⟩ : BufTy).Contents (Elt F)),
    unary main_arg2 main_v55 (broadcastInDim S800000x1 ![0] bcast_S800000_S800000x1_0 : (⟨S800000, .i32⟩ : BufTy).Contents (Elt F) → (⟨S800000x1, .i32⟩ : BufTy).Contents (Elt F)),
    ternary main_v54 main_v55 main_v53 main_v56 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v57 (broadcastInDim S50000x64 ![0, 1] bcast_S50000x1_S50000x64_0_1 : (⟨S50000x1, .f32⟩ : BufTy).Contents (Elt F) → (⟨S50000x64, .f32⟩ : BufTy).Contents (Elt F)),
    binary main_v56 main_v57 main_v58 (mulf : (⟨S50000x64, .f32⟩ : BufTy).Contents (Elt F) → (⟨S50000x64, .f32⟩ : BufTy).Contents (Elt F) → (⟨S50000x64, .f32⟩ : BufTy).Contents (Elt F)) ]

/-- Round two's combine and its max with zero. -/
def cSage2 : List (HloOp τ sig (Elt F)) :=
  [ binary main_v46 main_arg8 main_v59 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v58 main_arg9 main_v60 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v59 main_v60 main_v61 (addf : (⟨S50000x64, .f32⟩ : BufTy).Contents (Elt F) → (⟨S50000x64, .f32⟩ : BufTy).Contents (Elt F) → (⟨S50000x64, .f32⟩ : BufTy).Contents (Elt F)),
    unary main_arg10 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (TRef.of main_v64 : TRef sig ⟨S50000x64, .f32⟩) main_call2.v0 main_call2.v1 maximumf ]

/-- Round two's column means. -/
def cMean2 : List (HloOp τ sig (Elt F)) :=
  [ nullary main_cst_12 (constant S_ .f32 0x00000000#32),
    binary main_v65 main_cst_12 main_v66 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_13 (constant S_ .f32 0x47435000#32),
    unary main_cst_13 main_v67 (broadcastInDim S64 ![] bcast_S_S64 : (⟨S_, .f32⟩ : BufTy).Contents (Elt F) → (⟨S64, .f32⟩ : BufTy).Contents (Elt F)),
    binary main_v66 main_v67 main_v68 (Host.divf : (⟨S64, .f32⟩ : BufTy).Contents (Elt F) → (⟨S64, .f32⟩ : BufTy).Contents (Elt F) → (⟨S64, .f32⟩ : BufTy).Contents (Elt F)) ]

/-- Round two's column variances. -/
def cVar2 : List (HloOp τ sig (Elt F)) :=
  [ nullary main_c_14 (constantI S_ 32 0#32),
    TRef.nullary main_call3.cst (constant S_ .f32 0x00000000#32),
    TRef.binary (TRef.of main_v65 : TRef sig ⟨S50000x64, .f32⟩) main_call3.cst main_call3.v0 (fun x v => Host.reduceAdd x v reducesTo_S50000x64_S64_d0 h_S_),
    TRef.unary main_call3.v0 main_call3.v1 (broadcastInDim S1x64 ![1] bcast_S64_S1x64_1),
    TRef.nullary main_call3.cst_0 (constant S_ .f32 0x47435000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S50000x64 ![0, 1] bcast_S1x64_S50000x64_0_1),
    TRef.binary (TRef.of main_v65 : TRef sig ⟨S50000x64, .f32⟩) main_call3.v4 main_call3.v5 subf,
    TRef.binary main_call3.v5 main_call3.v5 main_call3.v6 mulf,
    TRef.unary (TRef.of main_c_14 : TRef sig ⟨S_, .i32⟩) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b) ]

/-- Round two's normalisation. -/
def cBn2 : List (HloOp τ sig (Elt F)) :=
  [ unary main_v68 main_v70 (broadcastInDim S1x64 ![1] bcast_S64_S1x64_1 : (⟨S64, .f32⟩ : BufTy).Contents (Elt F) → (⟨S1x64, .f32⟩ : BufTy).Contents (Elt F)),
    unary main_v70 main_v71 (broadcastInDim S50000x64 ![0, 1] bcast_S1x64_S50000x64_0_1 : (⟨S1x64, .f32⟩ : BufTy).Contents (Elt F) → (⟨S50000x64, .f32⟩ : BufTy).Contents (Elt F)),
    binary main_v65 main_v71 main_v72 (subf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x3727C5AC#32),
    unary main_cst_15 main_v73 (broadcastInDim S64 ![] bcast_S_S64 : (⟨S_, .f32⟩ : BufTy).Contents (Elt F) → (⟨S64, .f32⟩ : BufTy).Contents (Elt F)),
    binary main_v69 main_v73 main_v74 (addf : (⟨S64, .f32⟩ : BufTy).Contents (Elt F) → (⟨S64, .f32⟩ : BufTy).Contents (Elt F) → (⟨S64, .f32⟩ : BufTy).Contents (Elt F)),
    unary main_v74 main_v75 (Host.rsqrt : (⟨S64, .f32⟩ : BufTy).Contents (Elt F) → (⟨S64, .f32⟩ : BufTy).Contents (Elt F)),
    unary main_v75 main_v76 (broadcastInDim S1x64 ![1] bcast_S64_S1x64_1 : (⟨S64, .f32⟩ : BufTy).Contents (Elt F) → (⟨S1x64, .f32⟩ : BufTy).Contents (Elt F)),
    unary main_v76 main_v77 (broadcastInDim S50000x64 ![0, 1] bcast_S1x64_S50000x64_0_1 : (⟨S1x64, .f32⟩ : BufTy).Contents (Elt F) → (⟨S50000x64, .f32⟩ : BufTy).Contents (Elt F)),
    binary main_v72 main_v77 main_v78 (mulf : (⟨S50000x64, .f32⟩ : BufTy).Contents (Elt F) → (⟨S50000x64, .f32⟩ : BufTy).Contents (Elt F) → (⟨S50000x64, .f32⟩ : BufTy).Contents (Elt F)),
    unary main_arg16 main_v79 (broadcastInDim S1x64 ![1] bcast_S64_S1x64_1 : (⟨S64, .f32⟩ : BufTy).Contents (Elt F) → (⟨S1x64, .f32⟩ : BufTy).Contents (Elt F)),
    unary main_v79 main_v80 (broadcastInDim S50000x64 ![0, 1] bcast_S1x64_S50000x64_0_1 : (⟨S1x64, .f32⟩ : BufTy).Contents (Elt F) → (⟨S50000x64, .f32⟩ : BufTy).Contents (Elt F)),
    binary main_v78 main_v80 main_v81 (mulf : (⟨S50000x64, .f32⟩ : BufTy).Contents (Elt F) → (⟨S50000x64, .f32⟩ : BufTy).Contents (Elt F) → (⟨S50000x64, .f32⟩ : BufTy).Contents (Elt F)),
    unary main_arg17 main_v82 (broadcastInDim S1x64 ![1] bcast_S64_S1x64_1 : (⟨S64, .f32⟩ : BufTy).Contents (Elt F) → (⟨S1x64, .f32⟩ : BufTy).Contents (Elt F)),
    unary main_v82 main_v83 (broadcastInDim S50000x64 ![0, 1] bcast_S1x64_S50000x64_0_1 : (⟨S1x64, .f32⟩ : BufTy).Contents (Elt F) → (⟨S50000x64, .f32⟩ : BufTy).Contents (Elt F)),
    binary main_v81 main_v83 main_v84 (addf : (⟨S50000x64, .f32⟩ : BufTy).Contents (Elt F) → (⟨S50000x64, .f32⟩ : BufTy).Contents (Elt F) → (⟨S50000x64, .f32⟩ : BufTy).Contents (Elt F)) ]

/-- Round three's neighbourhood mean. -/
def cAgg3 : List (HloOp τ sig (Elt F)) :=
  [ nullary main_c_16 (constantI S_ 32 0#32),
    unary main_c_16 main_v85 (broadcastInDim S800000 ![] bcast_S_S800000 : (⟨S_, .i32⟩ : BufTy).Contents (Elt F) → (⟨S800000, .i32⟩ : BufTy).Contents (Elt F)),
    binary main_arg1 main_v85 main_v86 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v87 (broadcastInDim S800000 ![] bcast_S_S800000 : (⟨S_, .i32⟩ : BufTy).Contents (Elt F) → (⟨S800000, .i32⟩ : BufTy).Contents (Elt F)),
    binary main_arg1 main_v87 main_v88 (addi : (⟨S800000, .i32⟩ : BufTy).Contents (Elt F) → (⟨S800000, .i32⟩ : BufTy).Contents (Elt F) → (⟨S800000, .i32⟩ : BufTy).Contents (Elt F)),
    ternary main_v86 main_v88 main_arg1 main_v89 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v89 main_v90 (broadcastInDim S800000x1 ![0] bcast_S800000_S800000x1_0 : (⟨S800000, .i32⟩ : BufTy).Contents (Elt F) → (⟨S800000x1, .i32⟩ : BufTy).Contents (Elt F)),
    binary main_v84 main_v90 main_v91 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_18 (constant S_ .f32 0x00000000#32),
    unary main_cst_18 main_v92 (broadcastInDim S50000x64 ![] bcast_S_S50000x64 : (⟨S_, .f32⟩ : BufTy).Contents (Elt F) → (⟨S50000x64, .f32⟩ : BufTy).Contents (Elt F)),
    unary main_arg2 main_v93 (broadcastInDim S800000x1 ![0] bcast_S800000_S800000x1_0 : (⟨S800000, .i32⟩ : BufTy).Contents (Elt F) → (⟨S800000x1, .i32⟩ : BufTy).Contents (Elt F)),
    ternary main_v92 main_v93 main_v91 main_v94 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v8 main_v95 (broadcastInDim S50000x64 ![0, 1] bcast_S50000x1_S50000x64_0_1 : (⟨S50000x1, .f32⟩ : BufTy).Contents (Elt F) → (⟨S50000x64, .f32⟩ : BufTy).Contents (Elt F)),
    binary main_v94 main_v95 main_v96 (mulf : (⟨S50000x64, .f32⟩ : BufTy).Contents (Elt F) → (⟨S50000x64, .f32⟩ : BufTy).Contents (Elt F) → (⟨S50000x64, .f32⟩ : BufTy).Contents (Elt F)) ]

/-- Round three's two matrix products. -/
def cSage3a : List (HloOp τ sig (Elt F)) :=
  [ binary main_v84 main_arg11 main_v97 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v96 main_arg12 main_v98 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- Round three's sum, bias and max with zero. -/
def cSage3b : List (HloOp τ sig (Elt F)) :=
  [ binary main_v97 main_v98 main_v99 (addf : (⟨S50000x64, .f32⟩ : BufTy).Contents (Elt F) → (⟨S50000x64, .f32⟩ : BufTy).Contents (Elt F) → (⟨S50000x64, .f32⟩ : BufTy).Contents (Elt F)),
    unary main_arg13 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v99 main_v101 main_v102 (addf : (⟨S50000x64, .f32⟩ : BufTy).Contents (Elt F) → (⟨S50000x64, .f32⟩ : BufTy).Contents (Elt F) → (⟨S50000x64, .f32⟩ : BufTy).Contents (Elt F)),
    TRef.nullary main_call4.cst (constant S_ .f32 0x00000000#32),
    TRef.unary main_call4.cst main_call4.v0 (broadcastInDim S50000x64 ![] bcast_S_S50000x64),
    TRef.binary (TRef.of main_v102 : TRef sig ⟨S50000x64, .f32⟩) main_call4.v0 main_call4.v1 maximumf ]

/-- The per-graph sums. -/
def cPool : List (HloOp τ sig (Elt F)) :=
  [ nullary main_cst_19 (constant S_ .f32 0x00000000#32),
    unary main_cst_19 main_v104 (broadcastInDim S512x64 ![] bcast_S_S512x64 : (⟨S_, .f32⟩ : BufTy).Contents (Elt F) → (⟨S512x64, .f32⟩ : BufTy).Contents (Elt F)),
    unary main_arg3 main_v105 (broadcastInDim S50000x1 ![0] bcast_S50000_S50000x1_0 : (⟨S50000, .i32⟩ : BufTy).Contents (Elt F) → (⟨S50000x1, .i32⟩ : BufTy).Contents (Elt F)),
    ternary main_v104 main_v105 main_v103 main_v106 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)) ]

/-- The perceptron. -/
def cMlp : List (HloOp τ sig (Elt F)) :=
  [ binary main_v106 main_arg18 main_v107 ((fun l r => Host.dotGeneral dot_S512x64_S64x128_S512x128_1_0_0_1_n_n none l r) : (⟨S512x64, .f32⟩ : BufTy).Contents (Elt F) → (⟨S64x128, .f32⟩ : BufTy).Contents (Elt F) → (⟨S512x128, .f32⟩ : BufTy).Contents (Elt F)),
    unary main_arg19 main_v108 (broadcastInDim S1x128 ![1] bcast_S128_S1x128_1 : (⟨S128, .f32⟩ : BufTy).Contents (Elt F) → (⟨S1x128, .f32⟩ : BufTy).Contents (Elt F)),
    unary main_v108 main_v109 (broadcastInDim S512x128 ![0, 1] bcast_S1x128_S512x128_0_1 : (⟨S1x128, .f32⟩ : BufTy).Contents (Elt F) → (⟨S512x128, .f32⟩ : BufTy).Contents (Elt F)),
    binary main_v107 main_v109 main_v110 (addf : (⟨S512x128, .f32⟩ : BufTy).Contents (Elt F) → (⟨S512x128, .f32⟩ : BufTy).Contents (Elt F) → (⟨S512x128, .f32⟩ : BufTy).Contents (Elt F)),
    TRef.nullary main_call5.cst (constant S_ .f32 0x00000000#32),
    TRef.unary main_call5.cst main_call5.v0 (broadcastInDim S512x128 ![] bcast_S_S512x128),
    TRef.binary (TRef.of main_v110 : TRef sig ⟨S512x128, .f32⟩) main_call5.v0 main_call5.v1 maximumf,
    binary main_v111 main_arg20 main_v112 ((fun l r => Host.dotGeneral dot_S512x128_S128x64_S512x64_1_0_0_1_n_n none l r) : (⟨S512x128, .f32⟩ : BufTy).Contents (Elt F) → (⟨S128x64, .f32⟩ : BufTy).Contents (Elt F) → (⟨S512x64, .f32⟩ : BufTy).Contents (Elt F)),
    unary main_arg21 main_v113 (broadcastInDim S1x64 ![1] bcast_S64_S1x64_1 : (⟨S64, .f32⟩ : BufTy).Contents (Elt F) → (⟨S1x64, .f32⟩ : BufTy).Contents (Elt F)),
    unary main_v113 main_v114 (broadcastInDim S512x64 ![0, 1] bcast_S1x64_S512x64_0_1 : (⟨S1x64, .f32⟩ : BufTy).Contents (Elt F) → (⟨S512x64, .f32⟩ : BufTy).Contents (Elt F)),
    binary main_v112 main_v114 main_v115 (addf : (⟨S512x64, .f32⟩ : BufTy).Contents (Elt F) → (⟨S512x64, .f32⟩ : BufTy).Contents (Elt F) → (⟨S512x64, .f32⟩ : BufTy).Contents (Elt F)),
    TRef.nullary main_call6.cst (constant S_ .f32 0x00000000#32),
    TRef.unary main_call6.cst main_call6.v0 (broadcastInDim S512x64 ![] bcast_S_S512x64),
    TRef.binary (TRef.of main_v115 : TRef sig ⟨S512x64, .f32⟩) main_call6.v0 main_call6.v1 maximumf,
    binary main_v116 main_arg22 main_v117 ((fun l r => Host.dotGeneral dot_S512x64_S64x10_S512x10_1_0_0_1_n_n none l r) : (⟨S512x64, .f32⟩ : BufTy).Contents (Elt F) → (⟨S64x10, .f32⟩ : BufTy).Contents (Elt F) → (⟨S512x10, .f32⟩ : BufTy).Contents (Elt F)),
    unary main_arg23 main_v118 (broadcastInDim S1x10 ![1] bcast_S10_S1x10_1 : (⟨S10, .f32⟩ : BufTy).Contents (Elt F) → (⟨S1x10, .f32⟩ : BufTy).Contents (Elt F)),
    unary main_v118 main_v119 (broadcastInDim S512x10 ![0, 1] bcast_S1x10_S512x10_0_1 : (⟨S1x10, .f32⟩ : BufTy).Contents (Elt F) → (⟨S512x10, .f32⟩ : BufTy).Contents (Elt F)),
    binary main_v117 main_v119 main_v120 (addf : (⟨S512x10, .f32⟩ : BufTy).Contents (Elt F) → (⟨S512x10, .f32⟩ : BufTy).Contents (Elt F) → (⟨S512x10, .f32⟩ : BufTy).Contents (Elt F)) ]

theorem cInv_sub : (cInv : List (HloOp τ sig (Elt F))).Forall fun op => op.bufs ⊆ tcRefs τ sig := by
  unfold cInv; exact ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩

theorem cAgg1_sub : (cAgg1 : List (HloOp τ sig (Elt F))).Forall fun op => op.bufs ⊆ tcRefs τ sig := by
  unfold cAgg1; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩

theorem cSage1_sub : (cSage1 : List (HloOp τ sig (Elt F))).Forall fun op => op.bufs ⊆ tcRefs τ sig := by
  unfold cSage1; exact ⟨binary_bufs_sub .., binary_bufs_sub .., binary_bufs_sub .., unary_bufs_sub .., unary_bufs_sub .., binary_bufs_sub .., nullary_bufs_sub .., unary_bufs_sub .., binary_bufs_sub ..⟩

theorem cMean1_sub : (cMean1 : List (HloOp τ sig (Elt F))).Forall fun op => op.bufs ⊆ tcRefs τ sig := by
  unfold cMean1; exact ⟨nullary_bufs_sub .., binary_bufs_sub .., nullary_bufs_sub .., unary_bufs_sub .., binary_bufs_sub ..⟩

theorem cVar1_sub : (cVar1 : List (HloOp τ sig (Elt F))).Forall fun op => op.bufs ⊆ tcRefs τ sig := by
  unfold cVar1; exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem cBn1_sub : (cBn1 : List (HloOp τ sig (Elt F))).Forall fun op => op.bufs ⊆ tcRefs τ sig := by
  unfold cBn1; exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem cAgg2a_sub : (cAgg2a : List (HloOp τ sig (Elt F))).Forall fun op => op.bufs ⊆ tcRefs τ sig := by
  unfold cAgg2a; exact ⟨nullary_bufs_sub .., unary_bufs_sub ..⟩

theorem cAgg2b_sub : (cAgg2b : List (HloOp τ sig (Elt F))).Forall fun op => op.bufs ⊆ tcRefs τ sig := by
  unfold cAgg2b; exact ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩

theorem cSage2_sub : (cSage2 : List (HloOp τ sig (Elt F))).Forall fun op => op.bufs ⊆ tcRefs τ sig := by
  unfold cSage2; exact ⟨binary_bufs_sub .., binary_bufs_sub .., binary_bufs_sub .., unary_bufs_sub .., unary_bufs_sub .., binary_bufs_sub .., nullary_bufs_sub .., unary_bufs_sub .., binary_bufs_sub ..⟩

theorem cMean2_sub : (cMean2 : List (HloOp τ sig (Elt F))).Forall fun op => op.bufs ⊆ tcRefs τ sig := by
  unfold cMean2; exact ⟨nullary_bufs_sub .., binary_bufs_sub .., nullary_bufs_sub .., unary_bufs_sub .., binary_bufs_sub ..⟩

theorem cVar2_sub : (cVar2 : List (HloOp τ sig (Elt F))).Forall fun op => op.bufs ⊆ tcRefs τ sig := by
  unfold cVar2; exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem cBn2_sub : (cBn2 : List (HloOp τ sig (Elt F))).Forall fun op => op.bufs ⊆ tcRefs τ sig := by
  unfold cBn2; exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem cAgg3_sub : (cAgg3 : List (HloOp τ sig (Elt F))).Forall fun op => op.bufs ⊆ tcRefs τ sig := by
  unfold cAgg3; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩

theorem cSage3a_sub : (cSage3a : List (HloOp τ sig (Elt F))).Forall fun op => op.bufs ⊆ tcRefs τ sig := by
  unfold cSage3a; exact ⟨binary_bufs_sub .., binary_bufs_sub ..⟩

theorem cSage3b_sub : (cSage3b : List (HloOp τ sig (Elt F))).Forall fun op => op.bufs ⊆ tcRefs τ sig := by
  unfold cSage3b; exact ⟨binary_bufs_sub .., unary_bufs_sub .., unary_bufs_sub .., binary_bufs_sub .., nullary_bufs_sub .., unary_bufs_sub .., binary_bufs_sub ..⟩

theorem cPool_sub : (cPool : List (HloOp τ sig (Elt F))).Forall fun op => op.bufs ⊆ tcRefs τ sig := by
  unfold cPool; exact ⟨nullary_bufs_sub .., unary_bufs_sub .., unary_bufs_sub .., ternary_bufs_sub ..⟩

theorem cMlp_sub : (cMlp : List (HloOp τ sig (Elt F))).Forall fun op => op.bufs ⊆ tcRefs τ sig := by
  unfold cMlp; exact ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers the operations of `cInv` write. -/
abbrev cInv_W : List (Ref sig .tc) := [main_cst, main_v0, main_cst_0, main_v1, main_v2, main_v3, main_cst_1, main_v4, main_v5, main_cst_2, main_v6, main_v7, main_v8]
theorem cInv_writes : (cInv : List (HloOp τ sig (Elt F))).Forall fun op => op.writes ⊆ (cInv_W.map (Proc.devRef (τ := τ) .tc)).toFinset := by
  unfold cInv; simp only [List.Forall]
  refine ⟨?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cInv` does not write keeps its contents through it. -/
theorem cInv_keep (W : Valuation τ sig (Elt F)) (r : Ref sig .tc) (h : r ∉ cInv_W) :
    after cInv W (no_index (Proc.devRef .tc r)) = W (Proc.devRef .tc r) :=
  after_of_writes_sub cInv _ cInv_writes h

/-- The buffers the operations of `cAgg1` write. -/
abbrev cAgg1_W : List (Ref sig .tc) := [main_c, main_v9, main_v10, main_c_3, main_v11, main_v12, main_v13, main_v14, main_v15, main_cst_4, main_v16, main_v17, main_v18, main_v19, main_v20]
theorem cAgg1_writes : (cAgg1 : List (HloOp τ sig (Elt F))).Forall fun op => op.writes ⊆ (cAgg1_W.map (Proc.devRef (τ := τ) .tc)).toFinset := by
  unfold cAgg1; simp only [List.Forall]
  refine ⟨?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cAgg1` does not write keeps its contents through it. -/
theorem cAgg1_keep (W : Valuation τ sig (Elt F)) (r : Ref sig .tc) (h : r ∉ cAgg1_W) :
    after cAgg1 W (no_index (Proc.devRef .tc r)) = W (Proc.devRef .tc r) :=
  after_of_writes_sub cAgg1 _ cAgg1_writes h

/-- The buffers the operations of `cSage1` write. -/
abbrev cSage1_W : List (Ref sig .tc) := [main_v21, main_v22, main_v23, main_v24, main_v25, main_v26, main_call0_cst, main_call0_v0, main_v27]
theorem cSage1_writes : (cSage1 : List (HloOp τ sig (Elt F))).Forall fun op => op.writes ⊆ (cSage1_W.map (Proc.devRef (τ := τ) .tc)).toFinset := by
  unfold cSage1; simp only [List.Forall]
  refine ⟨?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cSage1` does not write keeps its contents through it. -/
theorem cSage1_keep (W : Valuation τ sig (Elt F)) (r : Ref sig .tc) (h : r ∉ cSage1_W) :
    after cSage1 W (no_index (Proc.devRef .tc r)) = W (Proc.devRef .tc r) :=
  after_of_writes_sub cSage1 _ cSage1_writes h

/-- The buffers the operations of `cMean1` write. -/
abbrev cMean1_W : List (Ref sig .tc) := [main_cst_5, main_v28, main_cst_6, main_v29, main_v30]
theorem cMean1_writes : (cMean1 : List (HloOp τ sig (Elt F))).Forall fun op => op.writes ⊆ (cMean1_W.map (Proc.devRef (τ := τ) .tc)).toFinset := by
  unfold cMean1; simp only [List.Forall]
  refine ⟨?_, ?_, ?_, ?_, ?_⟩ <;>
    (simp only [nullary_writes, unary_writes, binary_writes, ternary_writes, Finset.singleton_subset_iff, List.mem_toFinset]; exact List.mem_map_of_mem (by decide))
/-- A buffer `cMean1` does not write keeps its contents through it. -/
theorem cMean1_keep (W : Valuation τ sig (Elt F)) (r : Ref sig .tc) (h : r ∉ cMean1_W) :
    after cMean1 W (no_index (Proc.devRef .tc r)) = W (Proc.devRef .tc r) :=
  after_of_writes_sub cMean1 _ cMean1_writes h

/-- The buffers the operations of `cVar1` write. -/
abbrev cVar1_W : List (Ref sig .tc) := [main_c_7, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v31]
theorem cVar1_writes : (cVar1 : List (HloOp τ sig (Elt F))).Forall fun op => op.writes ⊆ (cVar1_W.map (Proc.devRef (τ := τ) .tc)).toFinset := by
  unfold cVar1; simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cVar1` does not write keeps its contents through it. -/
theorem cVar1_keep (W : Valuation τ sig (Elt F)) (r : Ref sig .tc) (h : r ∉ cVar1_W) :
    after cVar1 W (no_index (Proc.devRef .tc r)) = W (Proc.devRef .tc r) :=
  after_of_writes_sub cVar1 _ cVar1_writes h

/-- The buffers the operations of `cBn1` write. -/
abbrev cBn1_W : List (Ref sig .tc) := [main_v32, main_v33, main_v34, main_cst_8, main_v35, main_v36, main_v37, main_v38, main_v39, main_v40, main_v41, main_v42, main_v43, main_v44, main_v45, main_v46]
theorem cBn1_writes : (cBn1 : List (HloOp τ sig (Elt F))).Forall fun op => op.writes ⊆ (cBn1_W.map (Proc.devRef (τ := τ) .tc)).toFinset := by
  unfold cBn1; simp only [List.Forall]
  refine ⟨?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cBn1` does not write keeps its contents through it. -/
theorem cBn1_keep (W : Valuation τ sig (Elt F)) (r : Ref sig .tc) (h : r ∉ cBn1_W) :
    after cBn1 W (no_index (Proc.devRef .tc r)) = W (Proc.devRef .tc r) :=
  after_of_writes_sub cBn1 _ cBn1_writes h

/-- The buffers the operations of `cAgg2a` write. -/
abbrev cAgg2a_W : List (Ref sig .tc) := [main_c_9, main_v47]
theorem cAgg2a_writes : (cAgg2a : List (HloOp τ sig (Elt F))).Forall fun op => op.writes ⊆ (cAgg2a_W.map (Proc.devRef (τ := τ) .tc)).toFinset := by
  unfold cAgg2a; simp only [List.Forall]
  refine ⟨?_, ?_⟩ <;>
    (simp only [nullary_writes, unary_writes, binary_writes, ternary_writes, Finset.singleton_subset_iff, List.mem_toFinset]; exact List.mem_map_of_mem (by decide))
/-- A buffer `cAgg2a` does not write keeps its contents through it. -/
theorem cAgg2a_keep (W : Valuation τ sig (Elt F)) (r : Ref sig .tc) (h : r ∉ cAgg2a_W) :
    after cAgg2a W (no_index (Proc.devRef .tc r)) = W (Proc.devRef .tc r) :=
  after_of_writes_sub cAgg2a _ cAgg2a_writes h

/-- The buffers the operations of `cAgg2b` write. -/
abbrev cAgg2b_W : List (Ref sig .tc) := [main_v48, main_c_10, main_v49, main_v50, main_v51, main_v52, main_v53, main_cst_11, main_v54, main_v55, main_v56, main_v57, main_v58]
theorem cAgg2b_writes : (cAgg2b : List (HloOp τ sig (Elt F))).Forall fun op => op.writes ⊆ (cAgg2b_W.map (Proc.devRef (τ := τ) .tc)).toFinset := by
  unfold cAgg2b; simp only [List.Forall]
  refine ⟨?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cAgg2b` does not write keeps its contents through it. -/
theorem cAgg2b_keep (W : Valuation τ sig (Elt F)) (r : Ref sig .tc) (h : r ∉ cAgg2b_W) :
    after cAgg2b W (no_index (Proc.devRef .tc r)) = W (Proc.devRef .tc r) :=
  after_of_writes_sub cAgg2b _ cAgg2b_writes h

/-- The buffers the operations of `cSage2` write. -/
abbrev cSage2_W : List (Ref sig .tc) := [main_v59, main_v60, main_v61, main_v62, main_v63, main_v64, main_call2_cst, main_call2_v0, main_v65]
theorem cSage2_writes : (cSage2 : List (HloOp τ sig (Elt F))).Forall fun op => op.writes ⊆ (cSage2_W.map (Proc.devRef (τ := τ) .tc)).toFinset := by
  unfold cSage2; simp only [List.Forall]
  refine ⟨?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cSage2` does not write keeps its contents through it. -/
theorem cSage2_keep (W : Valuation τ sig (Elt F)) (r : Ref sig .tc) (h : r ∉ cSage2_W) :
    after cSage2 W (no_index (Proc.devRef .tc r)) = W (Proc.devRef .tc r) :=
  after_of_writes_sub cSage2 _ cSage2_writes h

/-- The buffers the operations of `cMean2` write. -/
abbrev cMean2_W : List (Ref sig .tc) := [main_cst_12, main_v66, main_cst_13, main_v67, main_v68]
theorem cMean2_writes : (cMean2 : List (HloOp τ sig (Elt F))).Forall fun op => op.writes ⊆ (cMean2_W.map (Proc.devRef (τ := τ) .tc)).toFinset := by
  unfold cMean2; simp only [List.Forall]
  refine ⟨?_, ?_, ?_, ?_, ?_⟩ <;>
    (simp only [nullary_writes, unary_writes, binary_writes, ternary_writes, Finset.singleton_subset_iff, List.mem_toFinset]; exact List.mem_map_of_mem (by decide))
/-- A buffer `cMean2` does not write keeps its contents through it. -/
theorem cMean2_keep (W : Valuation τ sig (Elt F)) (r : Ref sig .tc) (h : r ∉ cMean2_W) :
    after cMean2 W (no_index (Proc.devRef .tc r)) = W (Proc.devRef .tc r) :=
  after_of_writes_sub cMean2 _ cMean2_writes h

/-- The buffers the operations of `cVar2` write. -/
abbrev cVar2_W : List (Ref sig .tc) := [main_c_14, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v69]
theorem cVar2_writes : (cVar2 : List (HloOp τ sig (Elt F))).Forall fun op => op.writes ⊆ (cVar2_W.map (Proc.devRef (τ := τ) .tc)).toFinset := by
  unfold cVar2; simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cVar2` does not write keeps its contents through it. -/
theorem cVar2_keep (W : Valuation τ sig (Elt F)) (r : Ref sig .tc) (h : r ∉ cVar2_W) :
    after cVar2 W (no_index (Proc.devRef .tc r)) = W (Proc.devRef .tc r) :=
  after_of_writes_sub cVar2 _ cVar2_writes h

/-- The buffers the operations of `cBn2` write. -/
abbrev cBn2_W : List (Ref sig .tc) := [main_v70, main_v71, main_v72, main_cst_15, main_v73, main_v74, main_v75, main_v76, main_v77, main_v78, main_v79, main_v80, main_v81, main_v82, main_v83, main_v84]
theorem cBn2_writes : (cBn2 : List (HloOp τ sig (Elt F))).Forall fun op => op.writes ⊆ (cBn2_W.map (Proc.devRef (τ := τ) .tc)).toFinset := by
  unfold cBn2; simp only [List.Forall]
  refine ⟨?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cBn2` does not write keeps its contents through it. -/
theorem cBn2_keep (W : Valuation τ sig (Elt F)) (r : Ref sig .tc) (h : r ∉ cBn2_W) :
    after cBn2 W (no_index (Proc.devRef .tc r)) = W (Proc.devRef .tc r) :=
  after_of_writes_sub cBn2 _ cBn2_writes h

/-- The buffers the operations of `cAgg3` write. -/
abbrev cAgg3_W : List (Ref sig .tc) := [main_c_16, main_v85, main_v86, main_c_17, main_v87, main_v88, main_v89, main_v90, main_v91, main_cst_18, main_v92, main_v93, main_v94, main_v95, main_v96]
theorem cAgg3_writes : (cAgg3 : List (HloOp τ sig (Elt F))).Forall fun op => op.writes ⊆ (cAgg3_W.map (Proc.devRef (τ := τ) .tc)).toFinset := by
  unfold cAgg3; simp only [List.Forall]
  refine ⟨?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cAgg3` does not write keeps its contents through it. -/
theorem cAgg3_keep (W : Valuation τ sig (Elt F)) (r : Ref sig .tc) (h : r ∉ cAgg3_W) :
    after cAgg3 W (no_index (Proc.devRef .tc r)) = W (Proc.devRef .tc r) :=
  after_of_writes_sub cAgg3 _ cAgg3_writes h

/-- The buffers the operations of `cSage3a` write. -/
abbrev cSage3a_W : List (Ref sig .tc) := [main_v97, main_v98]
theorem cSage3a_writes : (cSage3a : List (HloOp τ sig (Elt F))).Forall fun op => op.writes ⊆ (cSage3a_W.map (Proc.devRef (τ := τ) .tc)).toFinset := by
  unfold cSage3a; simp only [List.Forall]
  refine ⟨?_, ?_⟩ <;>
    (simp only [nullary_writes, unary_writes, binary_writes, ternary_writes, Finset.singleton_subset_iff, List.mem_toFinset]; exact List.mem_map_of_mem (by decide))
/-- A buffer `cSage3a` does not write keeps its contents through it. -/
theorem cSage3a_keep (W : Valuation τ sig (Elt F)) (r : Ref sig .tc) (h : r ∉ cSage3a_W) :
    after cSage3a W (no_index (Proc.devRef .tc r)) = W (Proc.devRef .tc r) :=
  after_of_writes_sub cSage3a _ cSage3a_writes h

/-- The buffers the operations of `cSage3b` write. -/
abbrev cSage3b_W : List (Ref sig .tc) := [main_v99, main_v100, main_v101, main_v102, main_call4_cst, main_call4_v0, main_v103]
theorem cSage3b_writes : (cSage3b : List (HloOp τ sig (Elt F))).Forall fun op => op.writes ⊆ (cSage3b_W.map (Proc.devRef (τ := τ) .tc)).toFinset := by
  unfold cSage3b; simp only [List.Forall]
  refine ⟨?_, ?_, ?_, ?_, ?_, ?_, ?_⟩ <;>
    (simp only [nullary_writes, unary_writes, binary_writes, ternary_writes, Finset.singleton_subset_iff, List.mem_toFinset]; exact List.mem_map_of_mem (by decide))
/-- A buffer `cSage3b` does not write keeps its contents through it. -/
theorem cSage3b_keep (W : Valuation τ sig (Elt F)) (r : Ref sig .tc) (h : r ∉ cSage3b_W) :
    after cSage3b W (no_index (Proc.devRef .tc r)) = W (Proc.devRef .tc r) :=
  after_of_writes_sub cSage3b _ cSage3b_writes h

/-- The buffers the operations of `cPool` write. -/
abbrev cPool_W : List (Ref sig .tc) := [main_cst_19, main_v104, main_v105, main_v106]
theorem cPool_writes : (cPool : List (HloOp τ sig (Elt F))).Forall fun op => op.writes ⊆ (cPool_W.map (Proc.devRef (τ := τ) .tc)).toFinset := by
  unfold cPool; simp only [List.Forall]
  refine ⟨?_, ?_, ?_, ?_⟩ <;>
    (simp only [nullary_writes, unary_writes, binary_writes, ternary_writes, Finset.singleton_subset_iff, List.mem_toFinset]; exact List.mem_map_of_mem (by decide))
/-- A buffer `cPool` does not write keeps its contents through it. -/
theorem cPool_keep (W : Valuation τ sig (Elt F)) (r : Ref sig .tc) (h : r ∉ cPool_W) :
    after cPool W (no_index (Proc.devRef .tc r)) = W (Proc.devRef .tc r) :=
  after_of_writes_sub cPool _ cPool_writes h

/-- The buffers the operations of `cMlp` write. -/
abbrev cMlp_W : List (Ref sig .tc) := [main_v107, main_v108, main_v109, main_v110, main_call5_cst, main_call5_v0, main_v111, main_v112, main_v113, main_v114, main_v115, main_call6_cst, main_call6_v0, main_v116, main_v117, main_v118, main_v119, main_v120]
theorem cMlp_writes : (cMlp : List (HloOp τ sig (Elt F))).Forall fun op => op.writes ⊆ (cMlp_W.map (Proc.devRef (τ := τ) .tc)).toFinset := by
  unfold cMlp; simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))
/-- A buffer `cMlp` does not write keeps its contents through it. -/
theorem cMlp_keep (W : Valuation τ sig (Elt F)) (r : Ref sig .tc) (h : r ∉ cMlp_W) :
    after cMlp W (no_index (Proc.devRef .tc r)) = W (Proc.devRef .tc r) :=
  after_of_writes_sub cMlp _ cMlp_writes h

/-- The operations of the program's three consecutive parts (its statements 1 … 60, 61 … 120 and 121 … 144, calls listed in
    place), and all of them. -/
def opsP0 : List (HloOp τ sig (Elt F)) := cInv ++ (cAgg1 ++ (cSage1 ++ (cMean1 ++ (cVar1 ++ (cBn1 ++ cAgg2a)))))
def opsP1 : List (HloOp τ sig (Elt F)) := cAgg2b ++ (cSage2 ++ (cMean2 ++ (cVar2 ++ (cBn2 ++ (cAgg3 ++ cSage3a)))))
def opsP2 : List (HloOp τ sig (Elt F)) := cSage3b ++ (cPool ++ cMlp)
def ops : List (HloOp τ sig (Elt F)) := opsP0 ++ (opsP1 ++ opsP2)

/-- The contents after two lists run in a row. -/
theorem after_concat : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_concat l₁ l₂]

end Cert.ReferenceIdeal.Hand

end
-- ==== Proof.RefRunMain.lean ====
/-
  The reference program IS the straight line of its operations, every operation touches device buffers only and
  determines its result; so every weakly fair execution of it terminates, faults nowhere, and leaves every buffer at
  the fold of the operations' results over the launch contents.
-/
import proofs.«159573_j34617436406345_1_alg».proof.Proof.RefRunOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The program's first part is the straight line of its operations: the outlined functions unfolded at
    their calls, both sides are one chain of steps once sequencing is reassociated. -/
theorem main_part0_eq (c : Dev nD) : main_part0 (F := F) c = seq opsP0 := by
  simp only [main_part0, fn_relu.body, fn_var.body, fn_where.body, opsP0, cInv, cAgg1, cSage1, cMean1, cVar1, cBn1, cAgg2a, List.cons_append, List.nil_append, seq, bind_assoc, pure_bind]
  rfl

set_option maxRecDepth 16384 in
set_option maxHeartbeats 4000000 in
/-- The program's second part is the straight line of its operations: the outlined functions unfolded at
    their calls, both sides are one chain of steps once sequencing is reassociated. -/
theorem main_part1_eq (c : Dev nD) : main_part1 (F := F) c = seq opsP1 := by
  simp only [main_part1, fn_relu.body, fn_var.body, fn_where.body, opsP1, cAgg2b, cSage2, cMean2, cVar2, cBn2, cAgg3, cSage3a, List.cons_append, List.nil_append, seq, bind_assoc, pure_bind]
  rfl

set_option maxRecDepth 16384 in
set_option maxHeartbeats 4000000 in
/-- The program's third part is the straight line of its operations: the outlined functions unfolded at
    their calls, both sides are one chain of steps once sequencing is reassociated. -/
theorem main_part2_eq (c : Dev nD) : main_part2 (F := F) c = seq opsP2 := by
  simp only [main_part2, fn_relu.body, fn_relu_0.body, fn_relu_1.body, opsP2, cSage3b, cPool, cMlp, List.cons_append, List.nil_append, seq, bind_assoc, pure_bind]

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, opsP0, opsP1, opsP2, List.mem_append] at h
    rcases h with (h | h | h | h | h | h | h) | (h | h | h | h | h | h | h) | (h | h | h)
    exacts [List.forall_iff_forall_mem.mp cInv_sub op h, List.forall_iff_forall_mem.mp cAgg1_sub op h, List.forall_iff_forall_mem.mp cSage1_sub op h, List.forall_iff_forall_mem.mp cMean1_sub op h, List.forall_iff_forall_mem.mp cVar1_sub op h, List.forall_iff_forall_mem.mp cBn1_sub op h, List.forall_iff_forall_mem.mp cAgg2a_sub op h, List.forall_iff_forall_mem.mp cAgg2b_sub op h, List.forall_iff_forall_mem.mp cSage2_sub op h, List.forall_iff_forall_mem.mp cMean2_sub op h, List.forall_iff_forall_mem.mp cVar2_sub op h, List.forall_iff_forall_mem.mp cBn2_sub op h, List.forall_iff_forall_mem.mp cAgg3_sub op h, List.forall_iff_forall_mem.mp cSage3a_sub op h, List.forall_iff_forall_mem.mp cSage3b_sub op h, List.forall_iff_forall_mem.mp cPool_sub op h, List.forall_iff_forall_mem.mp cMlp_sub op h]

theorem cInv_fresh : (cInv : List (HloOp τ sig (Elt F))).Forall fun op => op.fresh = ∅ := by
  unfold cInv; exact ⟨rfl, rfl, rfl, rfl, rfl, rfl, rfl, rfl, rfl, rfl, rfl, rfl, rfl⟩
theorem cAgg1_fresh : (cAgg1 : List (HloOp τ sig (Elt F))).Forall fun op => op.fresh = ∅ := by
  unfold cAgg1; exact ⟨rfl, rfl, rfl, rfl, rfl, rfl, rfl, rfl, rfl, rfl, rfl, rfl, rfl, rfl, rfl⟩
theorem cSage1_fresh : (cSage1 : List (HloOp τ sig (Elt F))).Forall fun op => op.fresh = ∅ := by
  unfold cSage1; exact ⟨rfl, rfl, rfl, rfl, rfl, rfl, rfl, rfl, rfl⟩
theorem cMean1_fresh : (cMean1 : List (HloOp τ sig (Elt F))).Forall fun op => op.fresh = ∅ := by
  unfold cMean1; exact ⟨rfl, rfl, rfl, rfl, rfl⟩
theorem cVar1_fresh : (cVar1 : List (HloOp τ sig (Elt F))).Forall fun op => op.fresh = ∅ := by
  unfold cVar1; exact ⟨rfl, rfl, rfl, rfl, rfl, rfl, rfl, rfl, rfl, rfl, rfl, rfl, rfl, rfl, rfl, rfl, rfl, rfl, rfl, rfl, rfl, rfl, rfl⟩
theorem cBn1_fresh : (cBn1 : List (HloOp τ sig (Elt F))).Forall fun op => op.fresh = ∅ := by
  unfold cBn1; exact ⟨rfl, rfl, rfl, rfl, rfl, rfl, rfl, rfl, rfl, rfl, rfl, rfl, rfl, rfl, rfl, rfl⟩
theorem cAgg2a_fresh : (cAgg2a : List (HloOp τ sig (Elt F))).Forall fun op => op.fresh = ∅ := by
  unfold cAgg2a; exact ⟨rfl, rfl⟩
theorem cAgg2b_fresh : (cAgg2b : List (HloOp τ sig (Elt F))).Forall fun op => op.fresh = ∅ := by
  unfold cAgg2b; exact ⟨rfl, rfl, rfl, rfl, rfl, rfl, rfl, rfl, rfl, rfl, rfl, rfl, rfl⟩
theorem cSage2_fresh : (cSage2 : List (HloOp τ sig (Elt F))).Forall fun op => op.fresh = ∅ := by
  unfold cSage2; exact ⟨rfl, rfl, rfl, rfl, rfl, rfl, rfl, rfl, rfl⟩
theorem cMean2_fresh : (cMean2 : List (HloOp τ sig (Elt F))).Forall fun op => op.fresh = ∅ := by
  unfold cMean2; exact ⟨rfl, rfl, rfl, rfl, rfl⟩
theorem cVar2_fresh : (cVar2 : List (HloOp τ sig (Elt F))).Forall fun op => op.fresh = ∅ := by
  unfold cVar2; exact ⟨rfl, rfl, rfl, rfl, rfl, rfl, rfl, rfl, rfl, rfl, rfl, rfl, rfl, rfl, rfl, rfl, rfl, rfl, rfl, rfl, rfl, rfl, rfl⟩
theorem cBn2_fresh : (cBn2 : List (HloOp τ sig (Elt F))).Forall fun op => op.fresh = ∅ := by
  unfold cBn2; exact ⟨rfl, rfl, rfl, rfl, rfl, rfl, rfl, rfl, rfl, rfl, rfl, rfl, rfl, rfl, rfl, rfl⟩
theorem cAgg3_fresh : (cAgg3 : List (HloOp τ sig (Elt F))).Forall fun op => op.fresh = ∅ := by
  unfold cAgg3; exact ⟨rfl, rfl, rfl, rfl, rfl, rfl, rfl, rfl, rfl, rfl, rfl, rfl, rfl, rfl, rfl⟩
theorem cSage3a_fresh : (cSage3a : List (HloOp τ sig (Elt F))).Forall fun op => op.fresh = ∅ := by
  unfold cSage3a; exact ⟨rfl, rfl⟩
theorem cSage3b_fresh : (cSage3b : List (HloOp τ sig (Elt F))).Forall fun op => op.fresh = ∅ := by
  unfold cSage3b; exact ⟨rfl, rfl, rfl, rfl, rfl, rfl, rfl⟩
theorem cPool_fresh : (cPool : List (HloOp τ sig (Elt F))).Forall fun op => op.fresh = ∅ := by
  unfold cPool; exact ⟨rfl, rfl, rfl, rfl⟩
theorem cMlp_fresh : (cMlp : List (HloOp τ sig (Elt F))).Forall fun op => op.fresh = ∅ := by
  unfold cMlp; exact ⟨rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ := fun op h => by
  simp only [ops, opsP0, opsP1, opsP2, List.mem_append] at h
  rcases h with (h | h | h | h | h | h | h) | (h | h | h | h | h | h | h) | (h | h | h)
  exacts [List.forall_iff_forall_mem.mp cInv_fresh op h, List.forall_iff_forall_mem.mp cAgg1_fresh op h, List.forall_iff_forall_mem.mp cSage1_fresh op h, List.forall_iff_forall_mem.mp cMean1_fresh op h, List.forall_iff_forall_mem.mp cVar1_fresh op h, List.forall_iff_forall_mem.mp cBn1_fresh op h, List.forall_iff_forall_mem.mp cAgg2a_fresh op h, List.forall_iff_forall_mem.mp cAgg2b_fresh op h, List.forall_iff_forall_mem.mp cSage2_fresh op h, List.forall_iff_forall_mem.mp cMean2_fresh op h, List.forall_iff_forall_mem.mp cVar2_fresh op h, List.forall_iff_forall_mem.mp cBn2_fresh op h, List.forall_iff_forall_mem.mp cAgg3_fresh op h, List.forall_iff_forall_mem.mp cSage3a_fresh op h, List.forall_iff_forall_mem.mp cSage3b_fresh op h, List.forall_iff_forall_mem.mp cPool_fresh op h, List.forall_iff_forall_mem.mp cMlp_fresh op h]

/-- On every device, for any float values, from any memory with zero counters: every weakly fair execution of the
    program terminates, and every final state has each device buffer at the fold of the operations' results over
    the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefRunStages.lean ====
/-
  The reference program's value, stage by stage, at the ideal instance (a float an extended real, every operation
  exact).  The program is three rounds of: neighbourhood mean (gather the source rows, sum them at the destination
  rows, scale each row by the reciprocal of its clamped in-degree), an affine combine of a row with its
  neighbourhood mean followed by max(·, 0), and — after rounds one and two — a normalisation of every column by its
  mean and its (centred) variance over all rows; then a sum of the rows of each graph and a three-layer perceptron.
  Each definition below is one such stage as a pure function of the arrays it reads: the composition of the
  program's own operations, in the program's order, with its literals as the words the program holds.
-/
import proofs.«159573_j34617436406345_1_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reciprocal of each row's in-degree clamped below at one, as a column: count the edges that end at the row
    (a scatter-add of ones at the destination indices), take the maximum with one, divide one by it. -/
def refInvDeg (a2 : (⟨S800000, .i32⟩ : BufTy).Contents (Elt Ideal)) : (⟨S50000x1, .f32⟩ : BufTy).Contents (Elt Ideal) :=
  broadcastInDim S50000x1 ![0] bcast_S50000_S50000x1_0
    (Host.divf
      (broadcastInDim S50000 ![] bcast_S_S50000 (constant (F := Ideal) S_ .f32 0x3F800000#32))
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 a2)
          (broadcastInDim S800000 ![] bcast_S_S800000 (constant (F := Ideal) S_ .f32 0x3F800000#32)))
        (broadcastInDim S50000 ![] bcast_S_S50000 (constant (F := Ideal) S_ .f32 0x3F800000#32))))

/-- The neighbourhood mean of the rows of `x`: the source index of each edge wrapped once if negative, the source
    rows gathered, summed at the destination rows, each row scaled by the reciprocal degree. -/
def refAgg (x : (⟨S50000x64, .f32⟩ : BufTy).Contents (Elt Ideal)) (a1 a2 : (⟨S800000, .i32⟩ : BufTy).Contents (Elt Ideal))
    (invdeg : (⟨S50000x1, .f32⟩ : BufTy).Contents (Elt Ideal)) : (⟨S50000x64, .f32⟩ : BufTy).Contents (Elt Ideal) :=
  mulf
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 a2)
      (Host.gather gather_S50000x64_S800000x1_S800000x64_1_0_n_n_0_1_164 x
        (broadcastInDim S800000x1 ![0] bcast_S800000_S800000x1_0
          (select
            (cmpi .slt a1 (broadcastInDim S800000 ![] bcast_S_S800000 (constantI S_ 32 0#32)))
            (addi a1 (broadcastInDim S800000 ![] bcast_S_S800000 (constantI S_ 32 50000#32)))
            a1))))
    (broadcastInDim S50000x64 ![0, 1] bcast_S50000x1_S50000x64_0_1 invdeg)

/-- The combine of a round: `max(x·Ws + agg·Wn + b, 0)`, the bias broadcast over the rows. -/
def refSageStage (x agg : (⟨S50000x64, .f32⟩ : BufTy).Contents (Elt Ideal)) (Ws Wn : (⟨S64x64, .f32⟩ : BufTy).Contents (Elt Ideal))
    (b : (⟨S64, .f32⟩ : BufTy).Contents (Elt Ideal)) : (⟨S50000x64, .f32⟩ : BufTy).Contents (Elt Ideal) :=
  maximumf
    (addf
      (addf
        (Host.dotGeneral (φ₁ := .f32) (φ₂ := .f32) dot_S50000x64_S64x64_S50000x64_1_0_0_1_n_n none x Ws)
        (Host.dotGeneral (φ₁ := .f32) (φ₂ := .f32) dot_S50000x64_S64x64_S50000x64_1_0_0_1_n_n none agg Wn))
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- The column means: the sum over the rows divided by the number of rows. -/
def refMeanStage (h : (⟨S50000x64, .f32⟩ : BufTy).Contents (Elt Ideal)) : (⟨S64, .f32⟩ : BufTy).Contents (Elt Ideal) :=
  Host.divf
    (Host.reduceAdd h (constant (F := Ideal) S_ .f32 0x00000000#32) reducesTo_S50000x64_S64_d0 h_S_)
    (broadcastInDim S64 ![] bcast_S_S64 (constant (F := Ideal) S_ .f32 0x47435000#32))

/-- The column variances in the centred form: the sum over the rows of the squared deviation from the column mean,
    divided by the number of rows less the correction (zero), and kept only where that divisor is positive. -/
def refVarStage (h : (⟨S50000x64, .f32⟩ : BufTy).Contents (Elt Ideal)) : (⟨S64, .f32⟩ : BufTy).Contents (Elt Ideal) :=
  select
    (broadcastInDim S64 ![] bcast_S_S64
      (cmpf .ogt
        (subf (constant (F := Ideal) S_ .f32 0x47435000#32) (sitofp .f32 (constantI S_ 32 0#32)))
        (constant (F := Ideal) S_ .f32 0x00000000#32)))
    (Host.divf
      (Host.reduceAdd
        (mulf
          (subf h
            (broadcastInDim S50000x64 ![0, 1] bcast_S1x64_S50000x64_0_1
              (Host.divf
                (broadcastInDim S1x64 ![1] bcast_S64_S1x64_1
                  (Host.reduceAdd h (constant (F := Ideal) S_ .f32 0x00000000#32) reducesTo_S50000x64_S64_d0 h_S_))
                (broadcastInDim S1x64 ![] bcast_S_S1x64 (constant (F := Ideal) S_ .f32 0x47435000#32)))))
          (subf h
            (broadcastInDim S50000x64 ![0, 1] bcast_S1x64_S50000x64_0_1
              (Host.divf
                (broadcastInDim S1x64 ![1] bcast_S64_S1x64_1
                  (Host.reduceAdd h (constant (F := Ideal) S_ .f32 0x00000000#32) reducesTo_S50000x64_S64_d0 h_S_))
                (broadcastInDim S1x64 ![] bcast_S_S1x64 (constant (F := Ideal) S_ .f32 0x47435000#32))))))
        (constant (F := Ideal) S_ .f32 0x00000000#32) reducesTo_S50000x64_S64_d0 h_S_)
      (broadcastInDim S64 ![] bcast_S_S64
        (subf (constant (F := Ideal) S_ .f32 0x47435000#32) (sitofp .f32 (constantI S_ 32 0#32)))))
    (broadcastInDim S64 ![] bcast_S_S64 (constant (F := Ideal) S_ .f32 0x7FC00000#32))

/-- The normalisation: `(h − mean)·rsqrt(var + ε)·g + be`, the four rows broadcast over the rows of `h`. -/
def refBnApplyStage (h : (⟨S50000x64, .f32⟩ : BufTy).Contents (Elt Ideal)) (mean var g be : (⟨S64, .f32⟩ : BufTy).Contents (Elt Ideal)) :
    (⟨S50000x64, .f32⟩ : BufTy).Contents (Elt Ideal) :=
  addf
    (mulf
      (mulf
        (subf h (broadcastInDim S50000x64 ![0, 1] bcast_S1x64_S50000x64_0_1 (broadcastInDim S1x64 ![1] bcast_S64_S1x64_1 mean)))
        (broadcastInDim S50000x64 ![0, 1] bcast_S1x64_S50000x64_0_1
          (broadcastInDim S1x64 ![1] bcast_S64_S1x64_1
            (Host.rsqrt (addf var (broadcastInDim S64 ![] bcast_S_S64 (constant (F := Ideal) S_ .f32 0x3727C5AC#32)))))))
      (broadcastInDim S50000x64 ![0, 1] bcast_S1x64_S50000x64_0_1 (broadcastInDim S1x64 ![1] bcast_S64_S1x64_1 g)))
    (broadcastInDim S50000x64 ![0, 1] bcast_S1x64_S50000x64_0_1 (broadcastInDim S1x64 ![1] bcast_S64_S1x64_1 be))

/-- The per-graph sums: the rows of `h` summed at the rows their graph indices name. -/
def refPoolStage (h : (⟨S50000x64, .f32⟩ : BufTy).Contents (Elt Ideal)) (a3 : (⟨S50000, .i32⟩ : BufTy).Contents (Elt Ideal)) :
    (⟨S512x64, .f32⟩ : BufTy).Contents (Elt Ideal) :=
  Host.scatterAdd scatter_S512x64_S50000x1_S50000x64_1_0_0_1
    (broadcastInDim S512x64 ![] bcast_S_S512x64 (constant (F := Ideal) S_ .f32 0x00000000#32))
    (broadcastInDim S50000x1 ![0] bcast_S50000_S50000x1_0 a3)
    h

/-- The perceptron: `max(max(p·W1 + b1, 0)·W2 + b2, 0)·W3 + b3`. -/
def refMlpStage (pooled : (⟨S512x64, .f32⟩ : BufTy).Contents (Elt Ideal))
    (W1 : (⟨S64x128, .f32⟩ : BufTy).Contents (Elt Ideal)) (b1 : (⟨S128, .f32⟩ : BufTy).Contents (Elt Ideal))
    (W2 : (⟨S128x64, .f32⟩ : BufTy).Contents (Elt Ideal)) (b2 : (⟨S64, .f32⟩ : BufTy).Contents (Elt Ideal))
    (W3 : (⟨S64x10, .f32⟩ : BufTy).Contents (Elt Ideal)) (b3 : (⟨S10, .f32⟩ : BufTy).Contents (Elt Ideal)) :
    (⟨S512x10, .f32⟩ : BufTy).Contents (Elt Ideal) :=
  addf
    (Host.dotGeneral (φ₁ := .f32) (φ₂ := .f32) dot_S512x64_S64x10_S512x10_1_0_0_1_n_n none
      (maximumf
        (addf
          (Host.dotGeneral (φ₁ := .f32) (φ₂ := .f32) dot_S512x128_S128x64_S512x64_1_0_0_1_n_n none
            (maximumf
              (addf
                (Host.dotGeneral (φ₁ := .f32) (φ₂ := .f32) dot_S512x64_S64x128_S512x128_1_0_0_1_n_n none pooled W1)
                (broadcastInDim S512x128 ![0, 1] bcast_S1x128_S512x128_0_1 (broadcastInDim S1x128 ![1] bcast_S128_S1x128_1 b1)))
              (broadcastInDim S512x128 ![] bcast_S_S512x128 (constant (F := Ideal) S_ .f32 0x00000000#32)))
            W2)
          (broadcastInDim S512x64 ![0, 1] bcast_S1x64_S512x64_0_1 (broadcastInDim S1x64 ![1] bcast_S64_S1x64_1 b2)))
        (broadcastInDim S512x64 ![] bcast_S_S512x64 (constant (F := Ideal) S_ .f32 0x00000000#32)))
      W3)
    (broadcastInDim S512x10 ![0, 1] bcast_S1x10_S512x10_0_1 (broadcastInDim S1x10 ![1] bcast_S10_S1x10_1 b3))

/-- One round before its normalisation: the combine of `x` with its neighbourhood mean. -/
def refLayer (x : (⟨S50000x64, .f32⟩ : BufTy).Contents (Elt Ideal)) (a1 a2 : (⟨S800000, .i32⟩ : BufTy).Contents (Elt Ideal))
    (Ws Wn : (⟨S64x64, .f32⟩ : BufTy).Contents (Elt Ideal)) (b : (⟨S64, .f32⟩ : BufTy).Contents (Elt Ideal)) :
    (⟨S50000x64, .f32⟩ : BufTy).Contents (Elt Ideal) :=
  refSageStage x (refAgg x a1 a2 (refInvDeg a2)) Ws Wn b

/-- The normalisation of `h` by its own column means and variances. -/
def refNorm (h : (⟨S50000x64, .f32⟩ : BufTy).Contents (Elt Ideal)) (g be : (⟨S64, .f32⟩ : BufTy).Contents (Elt Ideal)) :
    (⟨S50000x64, .f32⟩ : BufTy).Contents (Elt Ideal) :=
  refBnApplyStage h (refMeanStage h) (refVarStage h) g be

/-- The whole program: the contents of its result as a function of the contents of its twenty-four arguments
    (the fifth, the labels, is not read). -/
def refTerm
    (a0 : (⟨S50000x64, .f32⟩ : BufTy).Contents (Elt Ideal)) (a1 a2 : (⟨S800000, .i32⟩ : BufTy).Contents (Elt Ideal))
    (a3 : (⟨S50000, .i32⟩ : BufTy).Contents (Elt Ideal)) (a4 : (⟨S512, .i32⟩ : BufTy).Contents (Elt Ideal))
    (a5 a6 : (⟨S64x64, .f32⟩ : BufTy).Contents (Elt Ideal)) (a7 : (⟨S64, .f32⟩ : BufTy).Contents (Elt Ideal))
    (a8 a9 : (⟨S64x64, .f32⟩ : BufTy).Contents (Elt Ideal)) (a10 : (⟨S64, .f32⟩ : BufTy).Contents (Elt Ideal))
    (a11 a12 : (⟨S64x64, .f32⟩ : BufTy).Contents (Elt Ideal)) (a13 : (⟨S64, .f32⟩ : BufTy).Contents (Elt Ideal))
    (a14 a15 a16 a17 : (⟨S64, .f32⟩ : BufTy).Contents (Elt Ideal))
    (a18 : (⟨S64x128, .f32⟩ : BufTy).Contents (Elt Ideal)) (a19 : (⟨S128, .f32⟩ : BufTy).Contents (Elt Ideal))
    (a20 : (⟨S128x64, .f32⟩ : BufTy).Contents (Elt Ideal)) (a21 : (⟨S64, .f32⟩ : BufTy).Contents (Elt Ideal))
    (a22 : (⟨S64x10, .f32⟩ : BufTy).Contents (Elt Ideal)) (a23 : (⟨S10, .f32⟩ : BufTy).Contents (Elt Ideal)) :
    (⟨S512x10, .f32⟩ : BufTy).Contents (Elt Ideal) :=
  refMlpStage
    (refPoolStage
      (refLayer (refNorm (refLayer (refNorm (refLayer a0 a1 a2 a5 a6 a7) a14 a15) a1 a2 a8 a9 a10) a16 a17) a1 a2 a11 a12 a13)
      a3)
    a18 a19 a20 a21 a22 a23

end Cert.ReferenceIdeal.Hand

end
-- ==== Proof.RefRunVal1.lean ====
/-
  Round one, read off the operations: from any contents W, each stage's result buffer holds that stage's function of the
  buffers it reads.
-/
import proofs.«159573_j34617436406345_1_alg».proof.Proof.RefRunOps
import proofs.«159573_j34617436406345_1_alg».proof.Proof.RefRunStages

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.reduceAdd Host.scatterAdd Host.gather FloatOps.dotGeneral Host.rsqrt Host.divf

theorem cInv_val (W : Valuation τ sig (Elt Ideal)) :
    after (cInv (F := Ideal)) W (no_index (Proc.devRef .tc main_v8))
      = refInvDeg (W (Proc.devRef .tc main_arg2)) := by
  unfold cInv
  after_results_simp
  rfl

theorem cAgg1_val (W : Valuation τ sig (Elt Ideal)) :
    after (cAgg1 (F := Ideal)) W (no_index (Proc.devRef .tc main_v20))
      = refAgg (W (Proc.devRef .tc main_arg0)) (W (Proc.devRef .tc main_arg1)) (W (Proc.devRef .tc main_arg2)) (W (Proc.devRef .tc main_v8)) := by
  unfold cAgg1
  after_results_simp
  rfl

theorem cSage1_val (W : Valuation τ sig (Elt Ideal)) :
    after (cSage1 (F := Ideal)) W (no_index (Proc.devRef .tc main_v27))
      = refSageStage (W (Proc.devRef .tc main_arg0)) (W (Proc.devRef .tc main_v20)) (W (Proc.devRef .tc main_arg5)) (W (Proc.devRef .tc main_arg6)) (W (Proc.devRef .tc main_arg7)) := by
  unfold cSage1
  after_results_simp
  rfl

theorem cMean1_val (W : Valuation τ sig (Elt Ideal)) :
    after (cMean1 (F := Ideal)) W (no_index (Proc.devRef .tc main_v30))
      = refMeanStage (W (Proc.devRef .tc main_v27)) := by
  unfold cMean1
  after_results_simp
  rfl

theorem cVar1_val (W : Valuation τ sig (Elt Ideal)) :
    after (cVar1 (F := Ideal)) W (no_index (Proc.devRef .tc main_v31))
      = refVarStage (W (Proc.devRef .tc main_v27)) := by
  unfold cVar1
  after_results_simp
  rfl

theorem cBn1_val (W : Valuation τ sig (Elt Ideal)) :
    after (cBn1 (F := Ideal)) W (no_index (Proc.devRef .tc main_v46))
      = refBnApplyStage (W (Proc.devRef .tc main_v27)) (W (Proc.devRef .tc main_v30)) (W (Proc.devRef .tc main_v31)) (W (Proc.devRef .tc main_arg14)) (W (Proc.devRef .tc main_arg15)) := by
  unfold cBn1
  after_results_simp
  rfl

end Cert.ReferenceIdeal.Hand

end
-- ==== Proof.RefRunVal2.lean ====
/-
  Round two, read off the operations: from any contents W, each stage's result buffer holds that stage's function of the
  buffers it reads.
-/
import proofs.«159573_j34617436406345_1_alg».proof.Proof.RefRunOps
import proofs.«159573_j34617436406345_1_alg».proof.Proof.RefRunStages

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.reduceAdd Host.scatterAdd Host.gather FloatOps.dotGeneral Host.rsqrt Host.divf

theorem cAgg2_val (W : Valuation τ sig (Elt Ideal)) :
    after (cAgg2b (F := Ideal)) (after (cAgg2a (F := Ideal)) W) (no_index (Proc.devRef .tc main_v58))
      = refAgg (W (Proc.devRef .tc main_v46)) (W (Proc.devRef .tc main_arg1)) (W (Proc.devRef .tc main_arg2)) (W (Proc.devRef .tc main_v8)) := by
  unfold cAgg2b cAgg2a
  after_results_simp
  rfl

theorem cSage2_val (W : Valuation τ sig (Elt Ideal)) :
    after (cSage2 (F := Ideal)) W (no_index (Proc.devRef .tc main_v65))
      = refSageStage (W (Proc.devRef .tc main_v46)) (W (Proc.devRef .tc main_v58)) (W (Proc.devRef .tc main_arg8)) (W (Proc.devRef .tc main_arg9)) (W (Proc.devRef .tc main_arg10)) := by
  unfold cSage2
  after_results_simp
  rfl

theorem cMean2_val (W : Valuation τ sig (Elt Ideal)) :
    after (cMean2 (F := Ideal)) W (no_index (Proc.devRef .tc main_v68))
      = refMeanStage (W (Proc.devRef .tc main_v65)) := by
  unfold cMean2
  after_results_simp
  rfl

theorem cVar2_val (W : Valuation τ sig (Elt Ideal)) :
    after (cVar2 (F := Ideal)) W (no_index (Proc.devRef .tc main_v69))
      = refVarStage (W (Proc.devRef .tc main_v65)) := by
  unfold cVar2
  after_results_simp
  rfl

theorem cBn2_val (W : Valuation τ sig (Elt Ideal)) :
    after (cBn2 (F := Ideal)) W (no_index (Proc.devRef .tc main_v84))
      = refBnApplyStage (W (Proc.devRef .tc main_v65)) (W (Proc.devRef .tc main_v68)) (W (Proc.devRef .tc main_v69)) (W (Proc.devRef .tc main_arg16)) (W (Proc.devRef .tc main_arg17)) := by
  unfold cBn2
  after_results_simp
  rfl

end Cert.ReferenceIdeal.Hand

end
-- ==== Proof.RefRunVal3.lean ====
/-
  Round three, the per-graph sums and the perceptron, read off the operations: from any contents W, each stage's result
  buffer holds that stage's function of the buffers it reads.
-/
import proofs.«159573_j34617436406345_1_alg».proof.Proof.RefRunOps
import proofs.«159573_j34617436406345_1_alg».proof.Proof.RefRunStages

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.reduceAdd Host.scatterAdd Host.gather FloatOps.dotGeneral Host.rsqrt Host.divf

theorem cAgg3_val (W : Valuation τ sig (Elt Ideal)) :
    after (cAgg3 (F := Ideal)) W (no_index (Proc.devRef .tc main_v96))
      = refAgg (W (Proc.devRef .tc main_v84)) (W (Proc.devRef .tc main_arg1)) (W (Proc.devRef .tc main_arg2)) (W (Proc.devRef .tc main_v8)) := by
  unfold cAgg3
  after_results_simp
  rfl

theorem cSage3_val (W : Valuation τ sig (Elt Ideal)) :
    after (cSage3b (F := Ideal)) (after (cSage3a (F := Ideal)) W) (no_index (Proc.devRef .tc main_v103))
      = refSageStage (W (Proc.devRef .tc main_v84)) (W (Proc.devRef .tc main_v96)) (W (Proc.devRef .tc main_arg11)) (W (Proc.devRef .tc main_arg12)) (W (Proc.devRef .tc main_arg13)) := by
  unfold cSage3b cSage3a
  after_results_simp
  rfl

theorem cPool_val (W : Valuation τ sig (Elt Ideal)) :
    after (cPool (F := Ideal)) W (no_index (Proc.devRef .tc main_v106))
      = refPoolStage (W (Proc.devRef .tc main_v103)) (W (Proc.devRef .tc main_arg3)) := by
  unfold cPool
  after_results_simp
  rfl

theorem cMlp_val (W : Valuation τ sig (Elt Ideal)) :
    after (cMlp (F := Ideal)) W (no_index (Proc.devRef .tc main_v120))
      = refMlpStage (W (Proc.devRef .tc main_v106)) (W (Proc.devRef .tc main_arg18)) (W (Proc.devRef .tc main_arg19)) (W (Proc.devRef .tc main_arg20)) (W (Proc.devRef .tc main_arg21)) (W (Proc.devRef .tc main_arg22)) (W (Proc.devRef .tc main_arg23)) := by
  unfold cMlp
  after_results_simp
  rfl

end Cert.ReferenceIdeal.Hand

end
-- ==== Proof.RefRun.lean ====
/-
  The reference program's run: every weakly fair execution terminates with the result buffer at the program's value —
  the stages composed, as a function of the launch contents of the arguments — and the arguments unchanged.  The
  result is read stage by stage: each stage's operations, from whatever contents they start at, leave the stage's
  function of the buffers it reads in its result buffer, and no other stage writes that buffer or an argument.
-/
import proofs.«159573_j34617436406345_1_alg».proof.Defs
import proofs.«159573_j34617436406345_1_alg».proof.Proof.Gen.Pre_finite_inputs
import proofs.«159573_j34617436406345_1_alg».proof.Proof.RefRunMain
import proofs.«159573_j34617436406345_1_alg».proof.Proof.RefRunVal1
import proofs.«159573_j34617436406345_1_alg».proof.Proof.RefRunVal2
import proofs.«159573_j34617436406345_1_alg».proof.Proof.RefRunVal3

noncomputable section

namespace Cert.ReferenceIdeal.Hand

open Cert.ReferenceIdeal Cert.ReferenceIdeal.Gen Idealize.ShloMosaic Idealize.ShloMosaic.TcCoe Idealize.SL.Sem Idealize.ShloMosaic.StableHlo

/-- Every buffer some operation of the program writes. -/
abbrev allW : List (Ref sig .tc) := cInv_W ++ (cAgg1_W ++ (cSage1_W ++ (cMean1_W ++ (cVar1_W ++ (cBn1_W ++ (cAgg2a_W ++ (cAgg2b_W ++ (cSage2_W ++ (cMean2_W ++ (cVar2_W ++ (cBn2_W ++ (cAgg3_W ++ (cSage3a_W ++ (cSage3b_W ++ (cPool_W ++ (cMlp_W))))))))))))))))

/-- A buffer no operation writes keeps its contents through the whole program. -/
theorem after_keep (V : Valuation τ sig (Elt Ideal)) (r : Ref sig .tc) (h : r ∉ allW) :
    after (ops (F := Ideal)) V (Proc.devRef .tc r) = V (Proc.devRef .tc r) := by
  simp only [allW, List.mem_append, not_or] at h
  obtain ⟨h0, h1, h2, h3, h4, h5, h6, h7, h8, h9, h10, h11, h12, h13, h14, h15, h16⟩ := h
  simp only [ops, opsP0, opsP1, opsP2, after_concat]
  rw [cMlp_keep _ r h16, cPool_keep _ r h15, cSage3b_keep _ r h14, cSage3a_keep _ r h13, cAgg3_keep _ r h12, cBn2_keep _ r h11, cVar2_keep _ r h10, cMean2_keep _ r h9, cSage2_keep _ r h8, cAgg2b_keep _ r h7, cAgg2a_keep _ r h6, cBn1_keep _ r h5, cVar1_keep _ r h4, cMean1_keep _ r h3, cSage1_keep _ r h2, cAgg1_keep _ r h1, cInv_keep _ r h0]

set_option maxHeartbeats 2000000 in
/-- The result buffer after the whole program, from any contents: the stages composed over the arguments' contents. -/
theorem after_v120 (V : Valuation τ sig (Elt Ideal)) :
    after (ops (F := Ideal)) V (Proc.devRef .tc main_v120)
      = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) := by
  simp only [ops, opsP0, opsP1, opsP2, after_concat]
  simp (disch := decide) only [cMlp_val, cPool_val, cSage3_val, cAgg3_val, cBn2_val, cVar2_val, cMean2_val, cSage2_val, cAgg2_val, cBn1_val, cVar1_val, cMean1_val, cSage1_val, cAgg1_val, cInv_val, cInv_keep, cAgg1_keep, cSage1_keep, cMean1_keep, cVar1_keep, cBn1_keep, cAgg2a_keep, cAgg2b_keep, cSage2_keep, cMean2_keep, cVar2_keep, cBn2_keep, cAgg3_keep, cSage3a_keep, cSage3b_keep, cPool_keep, cMlp_keep]
  unfold refTerm refLayer refNorm
  rfl

/-- On every device, from any memory with zero counters: every weakly fair execution of the program terminates with the
    result at the program's value of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v120) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c main_v120).trans (after_v120 _),
      (h c main_arg0).trans (after_keep _ main_arg0 (by decide)),
      (h c main_arg1).trans (after_keep _ main_arg1 (by decide)),
      (h c main_arg2).trans (after_keep _ main_arg2 (by decide)),
      (h c main_arg3).trans (after_keep _ main_arg3 (by decide)),
      (h c main_arg4).trans (after_keep _ main_arg4 (by decide)),
      (h c main_arg5).trans (after_keep _ main_arg5 (by decide)),
      (h c main_arg6).trans (after_keep _ main_arg6 (by decide)),
      (h c main_arg7).trans (after_keep _ main_arg7 (by decide)),
      (h c main_arg8).trans (after_keep _ main_arg8 (by decide)),
      (h c main_arg9).trans (after_keep _ main_arg9 (by decide)),
      (h c main_arg10).trans (after_keep _ main_arg10 (by decide)),
      (h c main_arg11).trans (after_keep _ main_arg11 (by decide)),
      (h c main_arg12).trans (after_keep _ main_arg12 (by decide)),
      (h c main_arg13).trans (after_keep _ main_arg13 (by decide)),
      (h c main_arg14).trans (after_keep _ main_arg14 (by decide)),
      (h c main_arg15).trans (after_keep _ main_arg15 (by decide)),
      (h c main_arg16).trans (after_keep _ main_arg16 (by decide)),
      (h c main_arg17).trans (after_keep _ main_arg17 (by decide)),
      (h c main_arg18).trans (after_keep _ main_arg18 (by decide)),
      (h c main_arg19).trans (after_keep _ main_arg19 (by decide)),
      (h c main_arg20).trans (after_keep _ main_arg20 (by decide)),
      (h c main_arg21).trans (after_keep _ main_arg21 (by decide)),
      (h c main_arg22).trans (after_keep _ main_arg22 (by decide)),
      (h c main_arg23).trans (after_keep _ main_arg23 (by decide))⟩)
    (run_after m ρ)

/-- The program's frame: it terminates, faults nowhere, and leaves its arguments unchanged — its run with the result
    dropped. -/
theorem frame_ri : Cert.frame_ReferenceIdeal := fun m ρ _ => (θ_run _ _ _).mono (fun _ h c => (h c).2) (run m ρ)

end Cert.ReferenceIdeal.Hand

end
-- ==== Proof.KiHostVal0.lean ====
/-
  The kernel program's host operations before its first region, read from any contents W: the reciprocal clamped
  in-degrees, the neighbourhood mean of the input rows, and the first bias as a one-row matrix — the same functions of the
  arguments as the reference program's stages.
-/
import proofs.«159573_j34617436406345_1_alg».proof.Proof.Gen.KernelIdeal.Launch
import proofs.«159573_j34617436406345_1_alg».proof.Proof.RefRunStages
import Idealize.ShloMosaic.Lib.StableHlo.Run

noncomputable section

namespace Cert.KernelIdeal.HandValue

open Cert.KernelIdeal Cert.KernelIdeal.Gen Idealize.ShloMosaic Idealize.ShloMosaic.TcCoe Idealize.SL.Sem Idealize.ShloMosaic.StableHlo
open Cert.ReferenceIdeal.Hand (refInvDeg refAgg refPoolStage)

attribute [local irreducible] Host.scatterAdd Host.gather Host.divf

/-- The column of reciprocal clamped in-degrees. -/
theorem hostOps0_v8 (W : Valuation τ sig (Elt Ideal)) :
    after (hostOps0 (F := Ideal)) W (no_index (Proc.devRef .tc main_v8))
      = refInvDeg (W (Proc.devRef .tc main_arg2)) := by
  simp only [hostOps0]
  after_results_simp
  rfl

/-- The neighbourhood mean of the input rows, the reciprocal degrees computed in the same stretch. -/
theorem hostOps0_v20 (W : Valuation τ sig (Elt Ideal)) :
    after (hostOps0 (F := Ideal)) W (no_index (Proc.devRef .tc main_v20))
      = refAgg (W (Proc.devRef .tc main_arg0)) (W (Proc.devRef .tc main_arg1)) (W (Proc.devRef .tc main_arg2)) (refInvDeg (W (Proc.devRef .tc main_arg2))) := by
  simp only [hostOps0]
  after_results_simp
  rfl

/-- The row `main_arg7` laid out as a one-row matrix. -/
theorem hostOps0_v21 (W : Valuation τ sig (Elt Ideal)) :
    after (hostOps0 (F := Ideal)) W (no_index (Proc.devRef .tc main_v21))
      = shapeCast S1x64 (W (Proc.devRef .tc main_arg7) : (⟨S64, .f32⟩ : BufTy).Contents (Elt Ideal)) shapeCasts_S64_S1x64 := by
  simp only [hostOps0]
  after_results_simp
  rfl

end Cert.KernelIdeal.HandValue

end
-- ==== Proof.KiHostVal3.lean ====
/-
  The kernel program's host operations before its third and fourth regions, read from any contents W: the scale and shift
  rows of the first normalisation as one-row matrices; the neighbourhood mean of the normalised rows and the second bias.
-/
import proofs.«159573_j34617436406345_1_alg».proof.Proof.Gen.KernelIdeal.Launch
import proofs.«159573_j34617436406345_1_alg».proof.Proof.RefRunStages
import Idealize.ShloMosaic.Lib.StableHlo.Run

noncomputable section

namespace Cert.KernelIdeal.HandValue

open Cert.KernelIdeal Cert.KernelIdeal.Gen Idealize.ShloMosaic Idealize.ShloMosaic.TcCoe Idealize.SL.Sem Idealize.ShloMosaic.StableHlo
open Cert.ReferenceIdeal.Hand (refInvDeg refAgg refPoolStage)

attribute [local irreducible] Host.scatterAdd Host.gather Host.divf

/-- The row `main_arg14` laid out as a one-row matrix. -/
theorem hostOps2_v24 (W : Valuation τ sig (Elt Ideal)) :
    after (hostOps2 (F := Ideal)) W (no_index (Proc.devRef .tc main_v24))
      = shapeCast S1x64 (W (Proc.devRef .tc main_arg14) : (⟨S64, .f32⟩ : BufTy).Contents (Elt Ideal)) shapeCasts_S64_S1x64 := by
  simp only [hostOps2]
  after_results_simp
  rfl

/-- The row `main_arg15` laid out as a one-row matrix. -/
theorem hostOps2_v25 (W : Valuation τ sig (Elt Ideal)) :
    after (hostOps2 (F := Ideal)) W (no_index (Proc.devRef .tc main_v25))
      = shapeCast S1x64 (W (Proc.devRef .tc main_arg15) : (⟨S64, .f32⟩ : BufTy).Contents (Elt Ideal)) shapeCasts_S64_S1x64 := by
  simp only [hostOps2]
  after_results_simp
  rfl

/-- The neighbourhood mean of the rows of `main_v26`, with the reciprocal degrees found in `main_v8`. -/
theorem hostOps3_v38 (W : Valuation τ sig (Elt Ideal)) :
    after (hostOps3 (F := Ideal)) W (no_index (Proc.devRef .tc main_v38))
      = refAgg (W (Proc.devRef .tc main_v26)) (W (Proc.devRef .tc main_arg1)) (W (Proc.devRef .tc main_arg2)) (W (Proc.devRef .tc main_v8)) := by
  simp only [hostOps3]
  after_results_simp
  rfl

/-- The row `main_arg10` laid out as a one-row matrix. -/
theorem hostOps3_v39 (W : Valuation τ sig (Elt Ideal)) :
    after (hostOps3 (F := Ideal)) W (no_index (Proc.devRef .tc main_v39))
      = shapeCast S1x64 (W (Proc.devRef .tc main_arg10) : (⟨S64, .f32⟩ : BufTy).Contents (Elt Ideal)) shapeCasts_S64_S1x64 := by
  simp only [hostOps3]
  after_results_simp
  rfl

end Cert.KernelIdeal.HandValue

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.KiSageSpec.lean ====
/-
  The value of one graph-convolution combine step, stated index by index over the extended reals.

  For node features x and aggregated neighbour features agg (both [50000, 64]), two weight matrices ws, wn
  ([64, 64]) and a bias row b ([1, 64]) the step's result at (r, s) is

      max (Σ_k x(r,k)·ws(k,s) + Σ_k agg(r,k)·wn(k,s) + b(0,s)) 0.

  When every entry of the five arrays is a real number so is every entry of the result: a finite sum of
  products of reals is real, a sum of reals is real, and the larger of a real and zero is real.
-/
import Idealize.ShloMosaic.PureOps.Ideal.Laws
import Idealize.ShloMosaic.Lib.ValueIdx
import proofs.«159573_j34617436406345_1_alg».proof.Proof.LibPlainDot
import proofs.«159573_j34617436406345_1_alg».proof.Proof.LibRealSums

noncomputable section

namespace Cert.KernelIdeal.HandValue

open Idealize.ShloMosaic Idealize.ShloMosaic.ValueIdx Cert.Lib
open scoped BigOperators

/-- The plain matrix product at an index given by its two coordinates. -/
theorem mm_ix2 {R K C : Nat} (x : (⟨2, ![R, K]⟩ : Shape).Idx → EReal) (w : (⟨2, ![K, C]⟩ : Shape).Idx → EReal)
    (r : Fin R) (s : Fin C) : PlainDot.mm x w (ix2 r s) = ∑ k : Fin K, x (ix2 r k) * w (ix2 k s) := by
  unfold PlainDot.mm
  refine Finset.sum_congr rfl fun k _ => ?_
  have e1 : PlainDot.rowIdx (ix2 r s) k = ix2 r k := funext fun a => by
    match a with
    | ⟨0, _⟩ => rfl
    | ⟨1, _⟩ => rfl
  have e2 : PlainDot.colIdx (ix2 r s) k = ix2 k s := funext fun a => by
    match a with
    | ⟨0, _⟩ => rfl
    | ⟨1, _⟩ => rfl
  rw [e1, e2]

/-- The combine step at row r and column s. -/
def sageAt (x agg : (⟨2, ![50000, 64]⟩ : Shape).Idx → EReal) (ws wn : (⟨2, ![64, 64]⟩ : Shape).Idx → EReal)
    (b : (⟨2, ![1, 64]⟩ : Shape).Idx → EReal) (r : Fin 50000) (s : Fin 64) : EReal :=
  max (∑ k : Fin 64, x (ix2 r k) * ws (ix2 k s) + ∑ k : Fin 64, agg (ix2 r k) * wn (ix2 k s) + b (ix2 (0 : Fin 1) s)) 0

/-- The combine step as one function of the five arrays, index by index. -/
def sageSpec (x agg : (⟨2, ![50000, 64]⟩ : Shape).Idx → EReal) (ws wn : (⟨2, ![64, 64]⟩ : Shape).Idx → EReal)
    (b : (⟨2, ![1, 64]⟩ : Shape).Idx → EReal) : (⟨2, ![50000, 64]⟩ : Shape).Idx → EReal :=
  fun i => sageAt x agg ws wn b (i 0) (i 1)

theorem sageSpec_ix2 (x agg : (⟨2, ![50000, 64]⟩ : Shape).Idx → EReal) (ws wn : (⟨2, ![64, 64]⟩ : Shape).Idx → EReal)
    (b : (⟨2, ![1, 64]⟩ : Shape).Idx → EReal) (r : Fin 50000) (s : Fin 64) :
    sageSpec x agg ws wn b (ix2 r s) = sageAt x agg ws wn b r s := rfl

/-- Real entries in, real entries out. -/
theorem sageAt_real (x agg : (⟨2, ![50000, 64]⟩ : Shape).Idx → EReal) (ws wn : (⟨2, ![64, 64]⟩ : Shape).Idx → EReal)
    (b : (⟨2, ![1, 64]⟩ : Shape).Idx → EReal)
    (hx : ∀ i, ∃ r : ℝ, x i = r) (hagg : ∀ i, ∃ r : ℝ, agg i = r) (hws : ∀ i, ∃ r : ℝ, ws i = r)
    (hwn : ∀ i, ∃ r : ℝ, wn i = r) (hb : ∀ i, ∃ r : ℝ, b i = r) (r : Fin 50000) (s : Fin 64) :
    ∃ q : ℝ, sageAt x agg ws wn b r s = q :=
  RealSums.max_zero_real (RealSums.add_real (RealSums.add_real
    (RealSums.sum_mul_real Finset.univ (fun k : Fin 64 => x (ix2 r k)) (fun k => ws (ix2 k s)) (fun k => hx _) (fun k => hws _))
    (RealSums.sum_mul_real Finset.univ (fun k : Fin 64 => agg (ix2 r k)) (fun k => wn (ix2 k s)) (fun k => hagg _) (fun k => hwn _)))
    (hb _))

theorem sageSpec_real (x agg : (⟨2, ![50000, 64]⟩ : Shape).Idx → EReal) (ws wn : (⟨2, ![64, 64]⟩ : Shape).Idx → EReal)
    (b : (⟨2, ![1, 64]⟩ : Shape).Idx → EReal)
    (hx : ∀ i, ∃ r : ℝ, x i = r) (hagg : ∀ i, ∃ r : ℝ, agg i = r) (hws : ∀ i, ∃ r : ℝ, ws i = r)
    (hwn : ∀ i, ∃ r : ℝ, wn i = r) (hb : ∀ i, ∃ r : ℝ, b i = r) (i : (⟨2, ![50000, 64]⟩ : Shape).Idx) :
    ∃ q : ℝ, sageSpec x agg ws wn b i = q :=
  sageAt_real x agg ws wn b hx hagg hws hwn hb (i 0) (i 1)

end Cert.KernelIdeal.HandValue

end
-- ==== Proof.KiSageValue0.lean ====
/-
  Region 0 (a graph-convolution combine step over ten row tiles of 5000 rows): the output array after the region,
  as one function of the five arrays the region reads.

  At each grid point the body multiplies the point's 5000 rows of the two feature arrays by the two whole weight
  matrices (two matrix products into zero accumulators: at (p, s) the sum over k of row p times column s), adds the
  two products and the bias row spread over the rows, and keeps the larger of that and zero.  Row p of tile t is row
  5000·t + p of the arrays, a weight or bias block is the whole array, so what point t writes back is tile t of the
  whole-array function; row r lies in tile r / 5000, so the tiles cover the array.
-/
import proofs.«159573_j34617436406345_1_alg».proof.Proof.KiRegion0
import Idealize.ShloMosaic.Lib.Pipeline.Value
import Idealize.ShloMosaic.Lib.ValueLayout
import proofs.«159573_j34617436406345_1_alg».proof.Proof.LibPlainDot
import proofs.«159573_j34617436406345_1_alg».proof.Proof.KiSageSpec

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.Lib Cert.KernelIdeal Cert.KernelIdeal.Gen Cert.KernelIdeal.Hand
open scoped BigOperators

theorem hz0 : (![0, 0] : Fin 2 → Nat) = fun _ => 0 := funext fun a => by fin_cases a <;> rfl

/-- The body's stored value at (p, s): the two contractions of row p against column s, the bias at s, and zero. -/
theorem pay0_apply (x0 x1 : Vec Ideal S5000x64 .f32) (x2 x3 : Vec Ideal S64x64 .f32) (x4 : Vec Ideal S1x64 .f32)
    (p : Fin 5000) (s : Fin 64) :
    k0_pay1 (F := Ideal) x0 x1 x2 x3 x4 (ix2 p s)
      = max (∑ k : Fin 64, x0 (ix2 p k) * x2 (ix2 k s) + ∑ k : Fin 64, x1 (ix2 p k) * x3 (ix2 k s) + x4 (ix2 (0 : Fin 1) s)) 0 := by
  unfold k0_pay1
  have hd : dot_S5000x64_S64x64_S5000x64_1_0_0_1_n_n = DotDims.plain 5000 64 64 := rfl
  show max (FloatOps.matmul (F := Ideal) dot_S5000x64_S64x64_S5000x64_1_0_0_1_n_n none x0 x2 (constant (F := Ideal) S5000x64 .f32 0x00000000#32) (ix2 p s)
      + FloatOps.matmul (F := Ideal) dot_S5000x64_S64x64_S5000x64_1_0_0_1_n_n none (shapeCast S5000x64 x1 shapeCasts_S5000x64_S5000x64) x3 (constant (F := Ideal) S5000x64 .f32 0x00000000#32) (ix2 p s)
      + broadcastTo S5000x64 (shapeCast S1x64 x4 shapeCasts_S1x64_S1x64) broadcasts_S1x64_S5000x64 (ix2 p s)) (Ideal.ofBits .f32 0x00000000#32) = _
  rw [shapeCast_self, shapeCast_self, PlainDot.matmul_zero_apply _ hd, PlainDot.matmul_zero_apply _ hd, mm_ix2, mm_ix2,
    broadcastTo_1b_ab_apply, Ideal.ofBits_zero_f32]

/-- One stored entry against the whole-array function: when the two feature blocks are rows 5000·tv + p of their
    arrays and the weight and bias blocks are their arrays, the entry at y is the function at the array index i with
    row 5000·tv + (row of y) and the column of y. -/
theorem point0 (X AG : S50000x64.Idx → EReal) (WS WN : S64x64.Idx → EReal) (B : S1x64.Idx → EReal)
    (x0 x1 : Vec Ideal S5000x64 .f32) (x2 x3 : Vec Ideal S64x64 .f32) (x4 : Vec Ideal S1x64 .f32) (tv : Nat)
    (h0 : ∀ (y : S5000x64.Idx) (i : S50000x64.Idx), (i 0).val = tv * 5000 + (y 0).val → (i 1).val = (y 1).val → x0 y = X i)
    (h1 : ∀ (y : S5000x64.Idx) (i : S50000x64.Idx), (i 0).val = tv * 5000 + (y 0).val → (i 1).val = (y 1).val → x1 y = AG i)
    (h2 : x2 = WS) (h3 : x3 = WN) (h4 : x4 = B)
    (y : S5000x64.Idx) (i : S50000x64.Idx) (hi0 : (i 0).val = tv * 5000 + (y 0).val) (hi1 : (i 1).val = (y 1).val) :
    k0_pay1 (F := Ideal) x0 x1 x2 x3 x4 y = sageSpec X AG WS WN B i := by
  obtain ⟨p, s, rfl⟩ : ∃ (p : Fin 5000) (s : Fin 64), y = ix2 p s := ⟨y 0, y 1, eq_ix2 y⟩
  obtain ⟨r, s', rfl⟩ : ∃ (r : Fin 50000) (s' : Fin 64), i = ix2 r s' := ⟨i 0, i 1, eq_ix2 i⟩
  have hs : s' = s := Fin.ext hi1
  subst hs
  subst h2 h3 h4
  have e0 : ∀ k : Fin 64, x0 (ix2 p k) = X (ix2 r k) := fun k => h0 (ix2 p k) (ix2 r k) hi0 rfl
  have e1 : ∀ k : Fin 64, x1 (ix2 p k) = AG (ix2 r k) := fun k => h1 (ix2 p k) (ix2 r k) hi0 rfl
  rw [pay0_apply, sageSpec_ix2]
  unfold sageAt
  simp only [e0, e1]

variable (V : (c : Dev nD) → (b : Ref sig .tc) → Buf (Elt Ideal) ((c : Thread nD τ).loc b))

/-- The printed index maps over the grid: the feature windows and the output window sit at row tile t, column tile
    0; the weight and bias windows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first feature window's block at point t is rows 5000·t … of its array. -/
theorem iblk0_0_apply (c : Dev nD) (t : Fin cfg0.N) (y : S5000x64.Idx) (i : S50000x64.Idx)
    (h0 : (i 0).val = t.val * 5000 + (y 0).val) (h1 : (i 1).val = (y 1).val) :
    (iblk0 V c 0 t : Vec Ideal S5000x64 .f32) y = (V c (Pipeline.arrRef spec0 0) : S50000x64.Idx → EReal) i := by
  obtain ⟨e0, e1, -⟩ := idx_facts0 t
  unfold iblk0
  rw [View.read_apply]
  refine congrArg (V c (Pipeline.arrRef spec0 0) : S50000x64.Idx → EReal) ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

/-- The second feature window's block at point t is rows 5000·t … of its array. -/
theorem iblk0_1_apply (c : Dev nD) (t : Fin cfg0.N) (y : S5000x64.Idx) (i : S50000x64.Idx)
    (h0 : (i 0).val = t.val * 5000 + (y 0).val) (h1 : (i 1).val = (y 1).val) :
    (iblk0 V c 1 t : Vec Ideal S5000x64 .f32) y = (V c (Pipeline.arrRef spec0 1) : S50000x64.Idx → EReal) i := by
  obtain ⟨-, -, e0, e1, -⟩ := idx_facts0 t
  unfold iblk0
  rw [View.read_apply]
  refine congrArg (V c (Pipeline.arrRef spec0 1) : S50000x64.Idx → EReal) ?_
  funext a
  apply Fin.ext
  match a with
  | ⟨0, _⟩ => show win0_1.index t (0 : Fin 2) * 5000 + 1 * (y 0).val = (i 0).val; rw [e0, h0]; omega
  | ⟨1, _⟩ => show win0_1.index t (1 : Fin 2) * 64 + 1 * (y 1).val = (i 1).val; rw [e1, h1]; omega

/-- A weight window's block is its whole array. -/
theorem iblk0_2_eq (c : Dev nD) (t : Fin cfg0.N) :
    (iblk0 V c 2 t : Vec Ideal S64x64 .f32) = (V c (Pipeline.arrRef spec0 2) : S64x64.Idx → EReal) := by
  obtain ⟨-, -, -, -, e0, e1, -⟩ := idx_facts0 t
  unfold iblk0
  refine funext fun (y : S64x64.Idx) => ?_
  rw [View.read_apply]
  refine congrArg (V c (Pipeline.arrRef spec0 2) : S64x64.Idx → EReal) ?_
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

theorem iblk0_3_eq (c : Dev nD) (t : Fin cfg0.N) :
    (iblk0 V c 3 t : Vec Ideal S64x64 .f32) = (V c (Pipeline.arrRef spec0 3) : S64x64.Idx → EReal) := by
  obtain ⟨-, -, -, -, -, -, e0, e1, -⟩ := idx_facts0 t
  unfold iblk0
  refine funext fun (y : S64x64.Idx) => ?_
  rw [View.read_apply]
  refine congrArg (V c (Pipeline.arrRef spec0 3) : S64x64.Idx → EReal) ?_
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The bias window's block is its whole array. -/
theorem iblk0_4_eq (c : Dev nD) (t : Fin cfg0.N) :
    (iblk0 V c 4 t : Vec Ideal S1x64 .f32) = (V c (Pipeline.arrRef spec0 4) : S1x64.Idx → EReal) := by
  obtain ⟨-, -, -, -, -, -, -, -, e0, e1, -⟩ := idx_facts0 t
  unfold iblk0
  refine funext fun (y : S1x64.Idx) => ?_
  rw [View.read_apply]
  refine congrArg (V c (Pipeline.arrRef spec0 4) : S1x64.Idx → EReal) ?_
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- What point t writes back is tile t of the whole-array function of the arrays as the region finds them. -/
theorem flushed0_eq (c : Dev nD) (t : Fin cfg0.N) :
    (dat0 (F := Ideal) V c).flushed 5 t = ((cfg0.win 5).blk t).view.read (Elt Ideal)
      (sageSpec (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S64x64) hz0, View.ld_unit_zero (S := S1x64) hz0]
  obtain ⟨-, -, -, -, -, -, -, -, -, -, e0, e1⟩ := idx_facts0 t
  funext j
  rw [View.read_apply]
  refine point0 _ _ _ _ _ _ _ _ _ _ t.val (iblk0_0_apply V c t) (iblk0_1_apply V c t) (iblk0_2_eq V c t) (iblk0_3_eq V c t)
    (iblk0_4_eq V c t) j _ ?_ ?_
  · show win0_5.index t (0 : Fin 2) * 5000 + 1 * (j 0).val = t.val * 5000 + (j 0).val; rw [e0]; omega
  · show win0_5.index t (1 : Fin 2) * 64 + 1 * (j 1).val = (j 1).val; rw [e1]; omega

/-- An index of the array is in point t's block iff each coordinate is in the block's range on its axis. -/
theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v22).slice (win0_5.rect t)).set ↔ _
  rw [View.set_slice_whole, Rect.mem_set_unit]
  exact Iff.rfl

/-- Row r lies in tile r / 5000: the ten tiles cover the array. -/
theorem cover0 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  have ht : (i 0).val / 5000 < cfg0.N := by rw [hN]; omega
  refine ⟨⟨(i 0).val / 5000, ht⟩, flush0_5 _, ?_⟩
  rw [mem_blk0]
  obtain ⟨-, -, -, -, -, -, -, -, -, -, e0, e1⟩ := idx_facts0 ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    rw [e1]; omega

/-- The output array after the region: the combine step of the five arrays the region reads. -/
theorem value0 (c : Dev nD) :
    (dat0 (F := Ideal) V c).arrAt 5 cfg0.N
      = sageSpec (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed0_eq V c t) (cover0)

end Cert.KernelIdeal.HandValue

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibSpread.lean ====
/-
  A vector spread over a matrix in two steps, read at an index.

  One number per row, made an `[n, 1]` column by a broadcast along a new unit axis and then spread over `c` columns, reads
  at (r, k) the number of row r; one number per column, made a `[1, c]` row and then spread over `n` rows, reads at
  (r, k) the number of column k.  Each is the same as the vector cast (reshaped) to the column, or to the row, and read
  there: this is what joins a program that spreads with `broadcast_in_dim` to one that reshapes.  The extents are
  variables.
-/
import Idealize.ShloMosaic.Lib.Pipeline.Value
import Idealize.ShloMosaic.Lib.ValueLayout
import proofs.«159573_j34617436406345_1_alg».proof.Proof.LibRowLayout

noncomputable section

namespace Cert.Lib.Spread

open Idealize.ShloMosaic Idealize.ShloMosaic.ValueIdx Cert.KernelIdeal.MvnKernel

variable {α : Type} {n c : Nat}

/-- One number per row, made a column and then spread over the columns, reads at (r, k) the number of row r: the
    same as the vector cast to a column, read at (r, 0). -/
theorem spread_col (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1])
    (hc : (⟨1, ![n]⟩ : Shape).ShapeCasts ⟨2, ![n, 1]⟩) (i : (⟨2, ![n, c]⟩ : Shape).Idx) :
    broadcastInDim ⟨2, ![n, c]⟩ ![0, 1] h2 (broadcastInDim ⟨2, ![n, 1]⟩ ![0] h1 d) i
      = shapeCast ⟨2, ![n, 1]⟩ d hc (ix2 (i 0) (0 : Fin 1)) := by
  obtain ⟨a, k, rfl⟩ : ∃ (a : Fin n) (k : Fin c), i = ix2 a k := ⟨i 0, i 1, eq_ix2 i⟩
  rw [broadcastInDim_apply _ h2 _ (ix2 a k) (ix2 a (0 : Fin 1)) (fun ax => by
        match ax with
        | ⟨0, _⟩ => show a.val = if n = 1 then 0 else a.val; split; (have := a.isLt; omega); rfl
        | ⟨1, _⟩ => rfl),
      broadcastInDim_apply _ h1 _ (ix2 a (0 : Fin 1)) (ix1 a) (fun ax => by
        match ax with
        | ⟨0, _⟩ => show a.val = if n = 1 then 0 else a.val; split; (have := a.isLt; omega); rfl)]
  exact (shapeCast_a_a1_apply d hc a 0).symm

/-- One number per column, made a row and then spread over the rows, reads at (r, k) the number of column k: the
    same as the vector cast to a row, read at (0, k). -/
theorem spread_row (bv : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![n, c]⟩ ![0, 1])
    (hb : (⟨1, ![c]⟩ : Shape).ShapeCasts ⟨2, ![1, c]⟩) (i : (⟨2, ![n, c]⟩ : Shape).Idx) :
    broadcastInDim ⟨2, ![n, c]⟩ ![0, 1] h2 (broadcastInDim ⟨2, ![1, c]⟩ ![1] h1 bv) i
      = shapeCast ⟨2, ![1, c]⟩ bv hb (ix2 (0 : Fin 1) (i 1)) := by
  obtain ⟨a, k, rfl⟩ : ∃ (a : Fin n) (k : Fin c), i = ix2 a k := ⟨i 0, i 1, eq_ix2 i⟩
  rw [broadcastInDim_apply _ h2 _ (ix2 a k) (ix2 (0 : Fin 1) k) (fun ax => by
        match ax with
        | ⟨0, _⟩ => rfl
        | ⟨1, _⟩ => show k.val = if c = 1 then 0 else k.val; split; (have := k.isLt; omega); rfl),
      broadcastInDim_apply _ h1 _ (ix2 (0 : Fin 1) k) (ix1 k) (fun ax => by
        match ax with
        | ⟨0, _⟩ => show k.val = if c = 1 then 0 else k.val; split; (have := k.isLt; omega); rfl)]
  exact (shapeCast_a_1a_apply bv hb 0 k).symm

end Cert.Lib.Spread

end
-- ==== Proof.KiSageRef.lean ====
/-
  The reference's combine stage is the combine step of the specification.

  The reference multiplies the two feature arrays by the two weight matrices with the host's contraction (at (r, s)
  the sum over k of row r times column s), adds the two products, adds the bias vector spread first to a [1, 64] row
  and then over the 50000 rows (at (r, s) the vector's entry s, the same as the vector reshaped to the row, read at
  (0, s)), and takes the larger of that and the zero constant spread over the array.
-/
import proofs.«159573_j34617436406345_1_alg».proof.Proof.RefRunStages
import Idealize.ShloMosaic.Lib.Pipeline.Value
import Idealize.ShloMosaic.Lib.ValueLayout
import proofs.«159573_j34617436406345_1_alg».proof.Proof.LibPlainDot
import proofs.«159573_j34617436406345_1_alg».proof.Proof.LibSpread
import proofs.«159573_j34617436406345_1_alg».proof.Proof.KiSageSpec

noncomputable section

namespace Cert.KernelIdeal.HandValue

open Idealize.ShloMosaic Idealize.ShloMosaic.ValueIdx
open Cert.Lib Cert.ReferenceIdeal Cert.ReferenceIdeal.Gen Cert.ReferenceIdeal.Hand
open scoped BigOperators

/-- The reference's combine stage, with the bias vector reshaped to the [1, 64] row the kernel program stages. -/
theorem refSage_eq (x agg : (⟨S50000x64, .f32⟩ : BufTy).Contents (Elt Ideal)) (Ws Wn : (⟨S64x64, .f32⟩ : BufTy).Contents (Elt Ideal))
    (b : (⟨S64, .f32⟩ : BufTy).Contents (Elt Ideal)) (h : (⟨1, ![64]⟩ : Shape).ShapeCasts ⟨2, ![1, 64]⟩) :
    refSageStage x agg Ws Wn b = sageSpec x agg Ws Wn (shapeCast ⟨2, ![1, 64]⟩ b h) := by
  funext i
  obtain ⟨r, s, rfl⟩ : ∃ (r : Fin 50000) (s : Fin 64), i = ix2 r s := ⟨i 0, i 1, eq_ix2 i⟩
  have hd : dot_S50000x64_S64x64_S50000x64_1_0_0_1_n_n = DotDims.plain 50000 64 64 := rfl
  unfold refSageStage
  show max (FloatOps.dotGeneral (F := Ideal) (φ₁ := .f32) (φ₂ := .f32) dot_S50000x64_S64x64_S50000x64_1_0_0_1_n_n none .single x Ws (ix2 r s)
      + FloatOps.dotGeneral (F := Ideal) (φ₁ := .f32) (φ₂ := .f32) dot_S50000x64_S64x64_S50000x64_1_0_0_1_n_n none .single agg Wn (ix2 r s)
      + broadcastInDim S50000x64 ![0, 1] bcast_S1x64_S50000x64_0_1 (broadcastInDim S1x64 ![1] bcast_S64_S1x64_1 b) (ix2 r s))
    (Ideal.ofBits .f32 0x00000000#32) = _
  rw [PlainDot.dotGeneral_apply _ hd, PlainDot.dotGeneral_apply _ hd, mm_ix2, mm_ix2,
    Spread.spread_row b bcast_S64_S1x64_1 bcast_S1x64_S50000x64_0_1 h, Ideal.ofBits_zero_f32, sageSpec_ix2]
  rfl

end Cert.KernelIdeal.HandValue

end
-- ==== Proof.LibRealScalars.lean ====
/-
  Scalar facts on the extended reals at real arguments.

  What a few float words denote (1.0, -0.5, +inf); the reciprocal square root and the power -1/2 of a positive real,
  which are the same number 1/√x; a comparison's one-bit answer read back as the inequality it tested; and the two
  readings a finiteness-and-sign precondition needs entry by entry: an extended real whose absolute value max x (-x)
  tests below +∞ is a real number, and one that tests at least the zero word is nonnegative.
-/
import Idealize.ShloMosaic.PureOps.Ideal
import Idealize.ShloMosaic.PureOps.Ideal.Laws
import proofs.«159573_j34617436406345_1_alg».proof.Proof.LibRealSums

noncomputable section

namespace Cert.Lib.RealScalars

open Idealize.ShloMosaic Cert.Lib

/-- The word of 1.0 denotes the real 1. -/
theorem ofBits_one : Ideal.ofBits .f32 0x3F800000#32 = ((1 : ℝ) : EReal) := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- The word of +inf denotes +∞. -/
theorem ofBits_inf : Ideal.ofBits .f32 0x7F800000#32 = ⊤ := by
  simp [Ideal.ofBits, Ideal.ieee]

/-- The reciprocal square root of a positive real. -/
theorem rsqrt_pos (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- A positive real to the power -1/2 is the reciprocal of its square root. -/
theorem pow_neg_half (x : ℝ) (hx : 0 < x) :
    Ideal.pow (x : EReal) ((-(1 / 2) : ℝ) : EReal) = (((Real.sqrt x)⁻¹ : ℝ) : EReal) := by
  show ((Real.rpow x (-(1 / 2)) : ℝ) : EReal) = _
  congr 1
  show x ^ (-(1 / 2) : ℝ) = _
  rw [Real.rpow_neg hx.le, Real.sqrt_eq_rpow]

/-- A positive real is greater than zero, as the one-bit answer of the comparison. -/
theorem cmp_ogt_pos (x : ℝ) (hx : 0 < x) : Ideal.cmp .ogt (x : EReal) 0 = 1#1 := by
  show BitVec.ofBool (decide ((0 : EReal) < (x : EReal))) = 1#1
  rw [decide_eq_true (by exact_mod_cast hx)]
  rfl

/-- A one-bit answer that is 1 came from a true test. -/
theorem of_ofBool_eq_one {b : Bool} (h : BitVec.ofBool b = 1#1) : b = true := by
  cases b
  · exact absurd h (by decide)
  · rfl

/-- An entry whose absolute value tests below +∞ is a real number. -/
theorem real_of_abs_lt (x : EReal) (h : Ideal.cmp .olt (max x (-x)) (Ideal.ofBits .f32 0x7F800000#32) = 1#1) :
    ∃ r : ℝ, x = (r : EReal) := by
  have h1 : decide (max x (-x) < Ideal.ofBits .f32 0x7F800000#32) = true := of_ofBool_eq_one h
  rw [ofBits_inf] at h1
  exact RealSums.exists_real_of_max_neg_lt_top (of_decide_eq_true h1)

/-- An entry that tests at least zero is nonnegative. -/
theorem nonneg_of_ge (x : EReal) (h : Ideal.cmp .oge x (Ideal.ofBits .f32 0x00000000#32) = 1#1) : 0 ≤ x := by
  have h1 : decide (Ideal.ofBits .f32 0x00000000#32 ≤ x) = true := of_ofBool_eq_one h
  rw [Ideal.ofBits_zero_f32] at h1
  exact of_decide_eq_true h1

end Cert.Lib.RealScalars

end
-- ==== Proof.KiBnSpec.lean ====
/-
  Batch normalisation applied to a [50000, 64] array, as one function of its five operands, index by index.

  With per-column mean μ, variance v, scale g and shift b held as [1, 64] rows, the entry at (r, s) is
  (x(r, s) − μ(0, s)) · rsqrt(v(0, s) + ε) · g(0, s) + b(0, s), where ε is the float word 0x3727C5AC read exactly
  (10995116 · 2⁻⁴⁰, a positive real). When x, μ, g, b are real entry by entry and v is a nonnegative real entry by
  entry, v + ε is a positive real, its reciprocal square root is real, and so is every entry of the result.
-/
import Idealize.ShloMosaic.PureOps.Ideal
import Idealize.ShloMosaic.PureOps.Ideal.Laws
import Idealize.ShloMosaic.Lib.ValueIdx
import proofs.«159573_j34617436406345_1_alg».proof.Proof.LibRealScalars

noncomputable section

namespace Cert.KernelIdeal.HandValue

open Idealize.ShloMosaic Idealize.ShloMosaic.ValueIdx

/-- The shapes of the arrays involved, written out. -/
abbrev Sh50000x64 : Shape := ⟨2, ![50000, 64]⟩
abbrev Sh5000x64 : Shape := ⟨2, ![5000, 64]⟩
abbrev Sh1x64 : Shape := ⟨2, ![1, 64]⟩
abbrev Sh64 : Shape := ⟨1, ![64]⟩

/-- The constant added to the variance, kept as its float word. -/
def bnEps : EReal := Ideal.ofBits .f32 0x3727C5AC#32

/-- The word denotes a positive real. -/
theorem bnEps_pos : ∃ e : ℝ, 0 < e ∧ bnEps = (e : EReal) := by
  refine ⟨(10995116 : ℝ) * (2 : ℝ) ^ (-40 : ℤ), by positivity, ?_⟩
  simp [bnEps, Ideal.ofBits, Ideal.ieee, -EReal.coe_mul]

/-- The normalised array: entry (r, s) from x(r, s) and the four per-column rows at (0, s). -/
def bnApplySpec (x : Sh50000x64.Idx → EReal) (mean var g be : Sh1x64.Idx → EReal) : Sh50000x64.Idx → EReal :=
  fun i => (x i - mean (ix2 (0 : Fin 1) (i 1))) * Ideal.rsqrt (var (ix2 (0 : Fin 1) (i 1)) + bnEps)
    * g (ix2 (0 : Fin 1) (i 1)) + be (ix2 (0 : Fin 1) (i 1))

theorem bnApplySpec_apply (x : Sh50000x64.Idx → EReal) (mean var g be : Sh1x64.Idx → EReal) (r : Fin 50000) (s : Fin 64) :
    bnApplySpec x mean var g be (ix2 r s)
      = (x (ix2 r s) - mean (ix2 (0 : Fin 1) s)) * Ideal.rsqrt (var (ix2 (0 : Fin 1) s) + bnEps)
        * g (ix2 (0 : Fin 1) s) + be (ix2 (0 : Fin 1) s) := rfl

/-- One entry's arithmetic on real arguments: (a − μ) · rsqrt(v + ε) · g + b is real when v ≥ 0. -/
theorem bn_entry_real {a μ v g b : EReal} (ha : ∃ r : ℝ, a = r) (hμ : ∃ r : ℝ, μ = r) (hv : ∃ r : ℝ, 0 ≤ r ∧ v = r)
    (hg : ∃ r : ℝ, g = r) (hb : ∃ r : ℝ, b = r) : ∃ r : ℝ, (a - μ) * Ideal.rsqrt (v + bnEps) * g + b = r := by
  obtain ⟨a', rfl⟩ := ha; obtain ⟨μ', rfl⟩ := hμ; obtain ⟨v', hv0, rfl⟩ := hv
  obtain ⟨g', rfl⟩ := hg; obtain ⟨b', rfl⟩ := hb
  obtain ⟨e, he, hE⟩ := bnEps_pos
  refine ⟨(a' - μ') * (Real.sqrt (v' + e))⁻¹ * g' + b', ?_⟩
  rw [hE, ← EReal.coe_add, Cert.Lib.RealScalars.rsqrt_pos (v' + e) (by linarith), ← EReal.coe_sub, ← EReal.coe_mul,
    ← EReal.coe_mul, ← EReal.coe_add]

/-- Every entry of the normalised array is real when x, the mean, the scale and the shift are real entry by entry
    and the variance is a nonnegative real entry by entry. -/
theorem bnApplySpec_real (x : Sh50000x64.Idx → EReal) (mean var g be : Sh1x64.Idx → EReal)
    (hx : ∀ i, ∃ r : ℝ, x i = r) (hm : ∀ j, ∃ r : ℝ, mean j = r) (hv : ∀ j, ∃ r : ℝ, 0 ≤ r ∧ var j = r)
    (hg : ∀ j, ∃ r : ℝ, g j = r) (hb : ∀ j, ∃ r : ℝ, be j = r) (i : Sh50000x64.Idx) :
    ∃ r : ℝ, bnApplySpec x mean var g be i = r :=
  bn_entry_real (hx i) (hm _) (hv _) (hg _) (hb _)

end Cert.KernelIdeal.HandValue

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.LibAccChunks.lean ====
/-
  An accumulator that adds one chunk's sum per step.

  Starting from a value z and adding, at step n, the sum of the d terms at positions n · d, …, n · d + d − 1, the
  accumulator after N steps holds z plus the sum of all N · d terms. Only commutativity and associativity of addition
  are used, so the statements hold on the extended reals with no finiteness assumption. Stated for terms indexed by the
  naturals, for terms indexed below N · d, and for sixteen chunks of 512 terms indexed below 8192.
-/
import Mathlib.Algebra.BigOperators.Fin
import Mathlib.Algebra.BigOperators.Intervals
import proofs.«159573_j34617436406345_1_alg».proof.Proof.LibBlockSum
import proofs.«159573_j34617436406345_1_alg».proof.Proof.LibRealSums

namespace Cert.Lib.AccChunks

open Finset Cert.Lib.BlockSum

/-- An accumulator that starts at `z` and adds the term `B n` at each step `n < N` holds, after `N` steps, `z` plus
    the sum of the terms. -/
theorem acc_steps {M : Type*} [AddCommMonoid M] (N : ℕ) (B : ℕ → M) (z : M) (acc : ℕ → M) (h0 : acc 0 = z)
    (hs : ∀ n, n < N → acc (n + 1) = acc n + B n) : acc N = z + ∑ n ∈ range N, B n := by
  have h : ∀ n, n ≤ N → acc n = z + ∑ j ∈ range n, B j := by
    intro n
    induction n with
    | zero => intro _; rw [h0, sum_range_zero, add_zero]
    | succ n ih =>
      intro hn
      rw [hs n (Nat.lt_of_succ_le hn), ih (Nat.le_of_succ_le hn), sum_range_succ, add_assoc]
  exact h N le_rfl

/-- Terms indexed by the naturals: after `N` steps, each adding the `d` terms at positions `n * d + q`, the
    accumulator holds `z` plus the sum of the first `N * d` terms. -/
theorem acc_chunks {M : Type*} [AddCommMonoid M] (N d : ℕ) (f : ℕ → M) (z : M) (acc : ℕ → M) (h0 : acc 0 = z)
    (hs : ∀ n, n < N → acc (n + 1) = acc n + ∑ q : Fin d, f (n * d + q.val)) :
    acc N = z + ∑ k : Fin (N * d), f k.val := by
  rw [acc_steps N (fun n => ∑ q : Fin d, f (n * d + q.val)) z acc h0 hs,
    Cert.Lib.RealSums.sum_fin_eq_range (N * d) f, Cert.Lib.RealSums.sum_range_mul N d f]
  exact congrArg (z + ·) (sum_congr rfl fun n _ => Cert.Lib.RealSums.sum_fin_eq_range d (fun i => f (n * d + i)))

/-- Terms indexed below `N * d`: term `q` of chunk `n` is the term at position `n * d + q`. -/
theorem acc_chunks_fin {M : Type*} [AddCommMonoid M] (N d : ℕ) (g : Fin (N * d) → M) (z : M) (acc : ℕ → M)
    (h0 : acc 0 = z)
    (hs : ∀ (n : ℕ) (hn : n < N), acc (n + 1) = acc n + ∑ q : Fin d, g (pos N d ⟨n, hn⟩ q)) :
    acc N = z + ∑ k : Fin (N * d), g k := by
  have hf : ∀ k : Fin (N * d), (fun k : ℕ => if h : k < N * d then g ⟨k, h⟩ else 0) k.val = g k :=
    fun k => dif_pos k.isLt
  rw [acc_chunks N d (fun k => if h : k < N * d then g ⟨k, h⟩ else 0) z acc h0 (fun n hn => by
    rw [hs n hn]
    exact congrArg (acc n + ·) (sum_congr rfl fun q _ => (hf (pos N d ⟨n, hn⟩ q)).symm))]
  exact congrArg (z + ·) (sum_congr rfl fun k _ => hf k)

/-- Sixteen chunks of 512 terms indexed below 8192. -/
theorem acc_sixteen_chunks {M : Type*} [AddCommMonoid M] (g : Fin 8192 → M) (z : M) (acc : ℕ → M) (h0 : acc 0 = z)
    (hs : ∀ (n : ℕ) (hn : n < 16), acc (n + 1)
      = acc n + ∑ q : Fin 512, g ⟨n * 512 + q.val, by have := q.isLt; omega⟩) :
    acc 16 = z + ∑ k : Fin 8192, g k :=
  acc_chunks_fin 16 512 g z acc h0 hs

/-- The same with the sixteen chunk sums written as one sum over the chunks. -/
theorem sum_sixteen_chunks {M : Type*} [AddCommMonoid M] (g : Fin 8192 → M) :
    ∑ b : Fin 16, ∑ q : Fin 512, g ⟨b.val * 512 + q.val, by have := b.isLt; have := q.isLt; omega⟩
      = ∑ k : Fin 8192, g k :=
  (sum_blocks 16 512 g).symm

end Cert.Lib.AccChunks
-- ==== Proof.LibBatchNormStats.lean ====
/-
  Batch statistics on the extended reals when every entry is a real number.

  A column of n entries has mean μ = (Σ x)/n. Its variance can be written as the mean of the squared
  deviations, (Σ (x - μ)²)/n, or as the mean of the squares less the squared mean, (Σ x²)/n - μ². Over
  the reals the two agree whenever n is the number of entries: expanding the square gives
  Σ x² - 2μ Σ x + n μ², and Σ x = n μ. On the extended reals subtraction and distribution fail at the
  infinities, so the statements here take entries known to be real; then every sum, product, difference
  and quotient by the nonzero real n is the image of the real one, and the real identity carries over.
  Division is the extended reals' exact quotient, which by a nonzero real is the product with its
  reciprocal. Also here: the mean and the variance are real, and the variance is nonnegative, so that
  adding a positive constant leaves a positive real whose reciprocal square root is real.
-/
import Idealize.ShloMosaic.PureOps.Ideal
import proofs.«159573_j34617436406345_1_alg».proof.Proof.LibRealSums

noncomputable section

namespace Cert.Lib.BatchNormStats

open Finset Idealize.ShloMosaic Cert.Lib

variable {ι : Type*} [Fintype ι]

/-- The quotient of a real by a nonzero real, on the extended reals, is the image of the real product with
    the reciprocal. -/
theorem div_real (a n : ℝ) (hn : n ≠ 0) : Ideal.div (a : EReal) (n : EReal) = ((a * (1 / n) : ℝ) : EReal) := by
  rw [Ideal.div_coe hn, ← EReal.coe_mul]

/-- Over the reals: the mean of the squared deviations from the mean is the mean of the squares less the
    squared mean, when n counts the entries. -/
theorem real_var_two_forms (x : ι → ℝ) (n : ℝ) (hn : n ≠ 0) (hcard : (Fintype.card ι : ℝ) = n) :
    (∑ i, (x i - (∑ j, x j) * (1 / n)) * (x i - (∑ j, x j) * (1 / n))) * (1 / n)
      = (∑ i, x i * x i) * (1 / n) - ((∑ j, x j) * (1 / n)) * ((∑ j, x j) * (1 / n)) := by
  set S : ℝ := ∑ j, x j with hS
  have h1 : ∑ i, (x i - S * (1 / n)) * (x i - S * (1 / n))
      = ∑ i, x i * x i - 2 * (S * (1 / n)) * S + (Fintype.card ι : ℝ) * ((S * (1 / n)) * (S * (1 / n))) := by
    have e : ∀ i, (x i - S * (1 / n)) * (x i - S * (1 / n))
        = x i * x i - 2 * (S * (1 / n)) * x i + (S * (1 / n)) * (S * (1 / n)) := fun i => by ring
    simp only [e, sum_add_distrib, sum_sub_distrib, ← mul_sum, sum_const, card_univ, nsmul_eq_mul, ← hS]
    ring
  rw [h1, hcard]
  field_simp
  ring

/-- The mean of a column of reals, computed on the extended reals, is the image of the real mean. -/
theorem mean_coe (x : ι → ℝ) (n : ℝ) (hn : n ≠ 0) :
    Ideal.div (∑ i, (x i : EReal)) (n : EReal) = (((∑ i, x i) * (1 / n) : ℝ) : EReal) := by
  rw [← RealSums.coe_sum, div_real _ _ hn]

/-- The mean of the squares of a column of reals is the image of the real one. -/
theorem meansq_coe (x : ι → ℝ) (n : ℝ) (hn : n ≠ 0) :
    Ideal.div (∑ i, (x i : EReal) * (x i : EReal)) (n : EReal) = (((∑ i, x i * x i) * (1 / n) : ℝ) : EReal) := by
  rw [RealSums.sum_coe_mul_coe, div_real _ _ hn]

/-- The mean of the squared deviations from a real centre, computed on the extended reals, is the image of the
    real one. -/
theorem centred_coe (x : ι → ℝ) (μ n : ℝ) (hn : n ≠ 0) :
    Ideal.div (∑ i, ((x i : EReal) - (μ : EReal)) * ((x i : EReal) - (μ : EReal))) (n : EReal)
      = (((∑ i, (x i - μ) * (x i - μ)) * (1 / n) : ℝ) : EReal) := by
  have e : ∀ i ∈ (univ : Finset ι), ((x i : EReal) - (μ : EReal)) * ((x i : EReal) - (μ : EReal))
      = (((x i - μ) * (x i - μ) : ℝ) : EReal) := fun i _ => by rw [← EReal.coe_sub, ← EReal.coe_mul]
  rw [sum_congr rfl e, ← RealSums.coe_sum, div_real _ _ hn]

/-- The two spellings of the variance agree on a column of reals: the mean of the squared deviations from the
    mean is the mean of the squares less the squared mean. -/
theorem var_two_forms (x : ι → ℝ) (n : ℝ) (hn : n ≠ 0) (hcard : (Fintype.card ι : ℝ) = n) :
    Ideal.div (∑ i, ((x i : EReal) - Ideal.div (∑ j, (x j : EReal)) (n : EReal))
        * ((x i : EReal) - Ideal.div (∑ j, (x j : EReal)) (n : EReal))) (n : EReal)
      = Ideal.div (∑ i, (x i : EReal) * (x i : EReal)) (n : EReal)
        - Ideal.div (∑ j, (x j : EReal)) (n : EReal) * Ideal.div (∑ j, (x j : EReal)) (n : EReal) := by
  rw [mean_coe x n hn, centred_coe x _ n hn, meansq_coe x n hn, ← EReal.coe_mul, ← EReal.coe_sub,
    real_var_two_forms x n hn hcard]

/-- The same for a column of extended reals known to be real entry by entry. -/
theorem var_two_forms_of_real (x : ι → EReal) (hx : ∀ i, ∃ r : ℝ, x i = r) (n : ℝ) (hn : n ≠ 0)
    (hcard : (Fintype.card ι : ℝ) = n) :
    Ideal.div (∑ i, (x i - Ideal.div (∑ j, x j) (n : EReal)) * (x i - Ideal.div (∑ j, x j) (n : EReal))) (n : EReal)
      = Ideal.div (∑ i, x i * x i) (n : EReal)
        - Ideal.div (∑ j, x j) (n : EReal) * Ideal.div (∑ j, x j) (n : EReal) := by
  choose x' hx' using hx
  simp only [hx']
  exact var_two_forms x' n hn hcard

/-- The mean of a column of real entries is real. -/
theorem mean_real (x : ι → EReal) (hx : ∀ i, ∃ r : ℝ, x i = r) (n : ℝ) (hn : n ≠ 0) :
    ∃ r : ℝ, Ideal.div (∑ i, x i) (n : EReal) = r := by
  choose x' hx' using hx
  exact ⟨_, by simp only [hx']; exact mean_coe x' n hn⟩

/-- The centred variance of a column of real entries is a nonnegative real when n is positive. -/
theorem centred_var_nonneg (x : ι → EReal) (hx : ∀ i, ∃ r : ℝ, x i = r) (n : ℝ) (hn : 0 < n) :
    ∃ r : ℝ, 0 ≤ r ∧
      Ideal.div (∑ i, (x i - Ideal.div (∑ j, x j) (n : EReal)) * (x i - Ideal.div (∑ j, x j) (n : EReal))) (n : EReal) = r := by
  choose x' hx' using hx
  refine ⟨(∑ i, (x' i - (∑ j, x' j) * (1 / n)) * (x' i - (∑ j, x' j) * (1 / n))) * (1 / n), ?_, ?_⟩
  · exact mul_nonneg (sum_nonneg fun i _ => mul_self_nonneg _) (by positivity)
  · simp only [hx']
    rw [mean_coe x' n hn.ne', centred_coe x' _ n hn.ne']

end Cert.Lib.BatchNormStats

end
-- ==== Proof.KiBnStatsMath.lean ====
/-
  Batch statistics of a [50000, 64] array, column by column: the accumulated form against the whole-sum form.

  One column f of 50000 entries. The accumulated form starts a running value at the zero word and adds, tile by tile,
  the sum of the 5000 entries of rows 5000·t … 5000·t + 4999, for t = 0 … 9; the same with the squares f·f. After ten
  tiles it divides: mean = S / n, variance = Q / n − mean · mean, with n the float word 0x47435000, which is the
  real 50000. The whole-sum form takes mean = (0 + Σ f) / n and the centred variance (0 + Σ (f − mean)²) / (n − 0),
  selected by the test n − 0 > 0 against a not-a-number word.

  Ten consecutive blocks of 5000 are the whole sum (associativity and commutativity only), so the two means are equal
  with no assumption. The test is true since n − 0 = 50000 > 0. The two variances are the two forms of the variance,
  equal when every entry is a real number (expanding the square uses Σ f = n · mean, which needs the count of rows to
  be n, and subtraction, which needs finiteness). Real entries also make the mean real and the variance a
  nonnegative real.
-/
import Idealize.ShloMosaic.PureOps.Ideal
import Idealize.ShloMosaic.PureOps.Ideal.Laws
import Idealize.ShloMosaic.Lib.ValueIdx
import Idealize.ShloMosaic.Lib.ValueLayout
import proofs.«159573_j34617436406345_1_alg».proof.Proof.LibAccChunks
import proofs.«159573_j34617436406345_1_alg».proof.Proof.LibBlockSum
import proofs.«159573_j34617436406345_1_alg».proof.Proof.LibBatchNormStats
import proofs.«159573_j34617436406345_1_alg».proof.Proof.LibRealScalars
import proofs.«159573_j34617436406345_1_alg».proof.Proof.KiBnSpec

noncomputable section

namespace Cert.KernelIdeal.HandValue

open Finset Idealize.ShloMosaic Idealize.ShloMosaic.ValueIdx Cert.Lib

/-- The divisor, kept as its float word. -/
def n50000 : EReal := Ideal.ofBits .f32 0x47435000#32

/-- The word denotes the real 50000. -/
theorem n50000_eq : n50000 = ((50000 : ℝ) : EReal) := by
  simp [n50000, Ideal.ofBits, Ideal.ieee, -EReal.coe_mul]; norm_num

/-- Row i of tile t. -/
def tileRow (t : Fin 10) (i : Fin 5000) : Fin 50000 :=
  ⟨t.val * 5000 + i.val, by have := t.isLt; have := i.isLt; omega⟩

@[simp] theorem tileRow_val (t : Fin 10) (i : Fin 5000) : (tileRow t i).val = t.val * 5000 + i.val := rfl

/-- The running value after n tiles: from the zero word, one tile's sum added per step. -/
def accK (f : Fin 50000 → EReal) : ℕ → EReal
  | 0 => Ideal.ofBits .f32 0x00000000#32
  | n + 1 => accK f n + (if h : n < 10 then ∑ i : Fin 5000, f (tileRow ⟨n, h⟩ i) else 0)

theorem accK_zero (f : Fin 50000 → EReal) : accK f 0 = Ideal.ofBits .f32 0x00000000#32 := rfl

theorem accK_succ (f : Fin 50000 → EReal) (n : ℕ) (h : n < 10) :
    accK f (n + 1) = accK f n + ∑ i : Fin 5000, f (tileRow ⟨n, h⟩ i) := by
  show accK f n + _ = _
  rw [dif_pos h]

/-- After the ten tiles the running value is the zero word plus the sum of the whole column. -/
theorem accK_ten (f : Fin 50000 → EReal) : accK f 10 = Ideal.ofBits .f32 0x00000000#32 + ∑ r, f r := by
  have h := AccChunks.acc_chunks_fin 10 5000 (fun k : Fin (10 * 5000) => f ⟨k.val, k.isLt⟩)
    (Ideal.ofBits .f32 0x00000000#32) (accK f) rfl (fun n hn => by rw [accK_succ f n hn]; rfl)
  rw [h]

/-- The accumulated mean and variance of a column. -/
def meanK (f : Fin 50000 → EReal) : EReal := Ideal.div (accK f 10) n50000
def varK (f : Fin 50000 → EReal) : EReal :=
  Ideal.div (accK (fun r => f r * f r) 10) n50000 - meanK f * meanK f

/-- The whole-sum mean and the guarded centred variance of a column. -/
def meanR (f : Fin 50000 → EReal) : EReal := Ideal.div (Ideal.ofBits .f32 0x00000000#32 + ∑ r, f r) n50000
def varR (f : Fin 50000 → EReal) : EReal :=
  Scalar.select
    (Ideal.cmp .ogt (n50000 - (((0#32 : BitVec 32).toInt : ℝ) : EReal)) (Ideal.ofBits .f32 0x00000000#32))
    (Ideal.div (Ideal.ofBits .f32 0x00000000#32 + ∑ r, (f r - meanR f) * (f r - meanR f))
      (n50000 - (((0#32 : BitVec 32).toInt : ℝ) : EReal)))
    (Ideal.ofBits .f32 0x7FC00000#32)

/-- The two means are one number, with no assumption on the entries. -/
theorem meanK_eq_meanR (f : Fin 50000 → EReal) : meanK f = meanR f := by
  unfold meanK meanR
  rw [accK_ten]

/-- The divisor less the integer 0 read as a real is the real 50000. -/
theorem n50000_sub_zero : n50000 - (((0#32 : BitVec 32).toInt : ℝ) : EReal) = ((50000 : ℝ) : EReal) := by
  rw [n50000_eq]; simp

theorem meanR_eq (f : Fin 50000 → EReal) : meanR f = Ideal.div (∑ r, f r) ((50000 : ℝ) : EReal) := by
  unfold meanR
  rw [n50000_eq, Ideal.ofBits_zero_f32, zero_add]

/-- The guard holds, so the guarded variance is the centred one. -/
theorem varR_eq (f : Fin 50000 → EReal) :
    varR f = Ideal.div (∑ r, (f r - meanR f) * (f r - meanR f)) ((50000 : ℝ) : EReal) := by
  unfold varR
  rw [n50000_sub_zero, Ideal.ofBits_zero_f32, RealScalars.cmp_ogt_pos 50000 (by norm_num), select_one, zero_add]

/-- On a column of real entries the two variances are one number. -/
theorem varK_eq_varR (f : Fin 50000 → EReal) (hf : ∀ r, ∃ x : ℝ, f r = x) : varK f = varR f := by
  rw [varR_eq]
  unfold varK
  rw [meanK_eq_meanR, accK_ten, meanR_eq, n50000_eq, Ideal.ofBits_zero_f32, zero_add]
  exact (BatchNormStats.var_two_forms_of_real f hf 50000 (by norm_num) (by simp)).symm

/-- The mean of a column of real entries is real. -/
theorem meanR_real (f : Fin 50000 → EReal) (hf : ∀ r, ∃ x : ℝ, f r = x) : ∃ x : ℝ, meanR f = x := by
  rw [meanR_eq]
  exact BatchNormStats.mean_real f hf 50000 (by norm_num)

/-- The variance of a column of real entries is a nonnegative real. -/
theorem varR_real_nonneg (f : Fin 50000 → EReal) (hf : ∀ r, ∃ x : ℝ, f r = x) : ∃ x : ℝ, 0 ≤ x ∧ varR f = x := by
  rw [varR_eq, meanR_eq]
  exact BatchNormStats.centred_var_nonneg f hf 50000 (by norm_num)

/-! ## The array forms -/

/-- Column s of the array, as a function of the row. -/
def colOf (X : Sh50000x64.Idx → EReal) (s : Fin 64) : Fin 50000 → EReal := fun r => X (ix2 r s)

/-- The accumulated statistics as [1, 64] rows, the whole-sum statistics as [64] vectors. -/
def bnMeanK (X : Sh50000x64.Idx → EReal) : Sh1x64.Idx → EReal := fun j => meanK (colOf X (j 1))
def bnVarK (X : Sh50000x64.Idx → EReal) : Sh1x64.Idx → EReal := fun j => varK (colOf X (j 1))
def bnMeanR (X : Sh50000x64.Idx → EReal) : Sh64.Idx → EReal := fun j => meanR (colOf X (j 0))
def bnVarR (X : Sh50000x64.Idx → EReal) : Sh64.Idx → EReal := fun j => varR (colOf X (j 0))

theorem bnMeanK_apply (X : Sh50000x64.Idx → EReal) (u : Fin 1) (s : Fin 64) : bnMeanK X (ix2 u s) = meanK (colOf X s) := rfl
theorem bnVarK_apply (X : Sh50000x64.Idx → EReal) (u : Fin 1) (s : Fin 64) : bnVarK X (ix2 u s) = varK (colOf X s) := rfl
theorem bnMeanR_apply (X : Sh50000x64.Idx → EReal) (s : Fin 64) : bnMeanR X (ix1 s) = meanR (colOf X s) := rfl
theorem bnVarR_apply (X : Sh50000x64.Idx → EReal) (s : Fin 64) : bnVarR X (ix1 s) = varR (colOf X s) := rfl

/-- The accumulated mean row is the whole-sum mean vector made a row. -/
theorem bnMeanK_eq (X : Sh50000x64.Idx → EReal) (hc : Sh64.ShapeCasts Sh1x64) :
    bnMeanK X = shapeCast Sh1x64 (bnMeanR X) hc := by
  funext j
  obtain ⟨u, s, rfl⟩ : ∃ (u : Fin 1) (s : Fin 64), j = ix2 u s := ⟨j 0, j 1, eq_ix2 j⟩
  rw [shapeCast_a_1a_apply, bnMeanK_apply, bnMeanR_apply]
  exact meanK_eq_meanR _

/-- On an array of real entries the accumulated variance row is the whole-sum variance vector made a row. -/
theorem bnVarK_eq (X : Sh50000x64.Idx → EReal) (hX : ∀ i, ∃ x : ℝ, X i = x) (hc : Sh64.ShapeCasts Sh1x64) :
    bnVarK X = shapeCast Sh1x64 (bnVarR X) hc := by
  funext j
  obtain ⟨u, s, rfl⟩ : ∃ (u : Fin 1) (s : Fin 64), j = ix2 u s := ⟨j 0, j 1, eq_ix2 j⟩
  rw [shapeCast_a_1a_apply, bnVarK_apply, bnVarR_apply]
  exact varK_eq_varR _ fun r => hX _

/-- On an array of real entries the mean is real and the variance a nonnegative real, entry by entry. -/
theorem bnMeanR_real (X : Sh50000x64.Idx → EReal) (hX : ∀ i, ∃ x : ℝ, X i = x) (j : Sh64.Idx) :
    ∃ x : ℝ, bnMeanR X j = x := meanR_real _ fun r => hX _
theorem bnVarR_real_nonneg (X : Sh50000x64.Idx → EReal) (hX : ∀ i, ∃ x : ℝ, X i = x) (j : Sh64.Idx) :
    ∃ x : ℝ, 0 ≤ x ∧ bnVarR X j = x := varR_real_nonneg _ fun r => hX _

end Cert.KernelIdeal.HandValue

end
-- ==== Proof.KiBnStatsPay.lean ====
/-
  The arithmetic of the two statistics bodies read at an index.

  Each body keeps two [1, 64] scratch rows. At the first tile it sets both to the zero word; at every tile it adds to
  the first the column sums of the [5000, 64] tile and to the second the column sums of the tile's squares; at the
  last tile it stores the first row divided by the row count as the mean, and the second row divided by the row
  count less the squared mean as the variance. A lane sum over the rows of a tile, read at column s, is the sum over
  the tile's rows of the entries of column s.
-/
import proofs.«159573_j34617436406345_1_alg».proof.Proof.Gen.KernelIdeal.Skeleton
import proofs.«159573_j34617436406345_1_alg».proof.Proof.KiBnSpec
import proofs.«159573_j34617436406345_1_alg».proof.Proof.KiBnStatsMath
import Idealize.ShloMosaic.Lib.Pipeline.Value
import Idealize.ShloMosaic.Lib.ValueLayout
import Idealize.ShloMosaic.PureOps.Ideal.Laws

noncomputable section

namespace Cert.KernelIdeal.HandValue

open Finset Idealize.ShloMosaic Idealize.ShloMosaic.ValueIdx Cert.KernelIdeal Cert.KernelIdeal.Gen

/-- The sum over the first axis of an [a, b] matrix, read at column s: the sum of the column's entries. -/
theorem multiReduction_add_col {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (s : Fin b) :
    multiReduction .add [0] ⟨1, ![b]⟩ src acc h hφ hacc (ix1 s) = ∑ k : Fin a, src (ix2 k s) :=
  (Ideal.multiReduction_add_single src acc h hφ hacc (ix1 s)).trans
    (Finset.sum_congr rfl fun k _ => congrArg src (funext fun ax => Fin.ext (by
      match ax with
      | ⟨0, _⟩ => rfl
      | ⟨1, _⟩ => rfl)))

/-- Region 1: the two scratch rows start at the zero word. -/
theorem k1_pay1_apply (u : Fin 1) (s : Fin 64) :
    (k1_pay1 (F := Ideal) : S1x64.Idx → EReal) (ix2 u s) = Ideal.ofBits .f32 0x00000000#32 := by
  unfold k1_pay1
  simp only [shapeCast_self]
  rfl
theorem k1_pay2_apply (u : Fin 1) (s : Fin 64) :
    (k1_pay2 (F := Ideal) : S1x64.Idx → EReal) (ix2 u s) = Ideal.ofBits .f32 0x00000000#32 := by
  unfold k1_pay2
  simp only [shapeCast_self]
  rfl

/-- Region 1: the sum row after a tile is the row before plus the column sums of the tile. -/
theorem k1_pay4_apply (x : Vec Ideal S5000x64 .f32) (a : Vec Ideal S1x64 .f32) (u : Fin 1) (s : Fin 64) :
    (k1_pay4 x a : S1x64.Idx → EReal) (ix2 u s) = a (ix2 u s) + ∑ i : Fin 5000, x (ix2 i s) := by
  unfold k1_pay4 k1_pay3
  simp only [shapeCast_self]
  rw [addf_apply, shapeCast_a_1a_apply]
  exact congrArg (a (ix2 u s) + ·) (multiReduction_add_col _ _ _ _ _ s)

/-- Region 1: the square-sum row after a tile is the row before plus the column sums of the tile's squares. -/
theorem k1_pay5_apply (x : Vec Ideal S5000x64 .f32) (a : Vec Ideal S1x64 .f32) (u : Fin 1) (s : Fin 64) :
    (k1_pay5 x a : S1x64.Idx → EReal) (ix2 u s) = a (ix2 u s) + ∑ i : Fin 5000, x (ix2 i s) * x (ix2 i s) := by
  unfold k1_pay5 k1_pay3
  simp only [shapeCast_self]
  rw [addf_apply, shapeCast_a_1a_apply]
  exact congrArg (a (ix2 u s) + ·) ((multiReduction_add_col _ _ _ _ _ s).trans (Finset.sum_congr rfl fun i _ => rfl))

/-- Region 1: the mean row is the sum row divided by the row count. -/
theorem k1_pay6_apply (a : Vec Ideal S1x64 .f32) (u : Fin 1) (s : Fin 64) :
    (k1_pay6 a : S1x64.Idx → EReal) (ix2 u s) = Ideal.div (a (ix2 u s)) n50000 := rfl

/-- Region 1: the variance row is the square-sum row divided by the row count, less the squared mean. -/
theorem k1_pay7_apply (a q : Vec Ideal S1x64 .f32) (u : Fin 1) (s : Fin 64) :
    (k1_pay7 a q : S1x64.Idx → EReal) (ix2 u s)
      = Ideal.div (q (ix2 u s)) n50000 - Ideal.div (a (ix2 u s)) n50000 * Ideal.div (a (ix2 u s)) n50000 := rfl

/-- Region 4: the two scratch rows start at the zero word. -/
theorem k4_pay1_apply (u : Fin 1) (s : Fin 64) :
    (k4_pay1 (F := Ideal) : S1x64.Idx → EReal) (ix2 u s) = Ideal.ofBits .f32 0x00000000#32 := by
  unfold k4_pay1
  simp only [shapeCast_self]
  rfl
theorem k4_pay2_apply (u : Fin 1) (s : Fin 64) :
    (k4_pay2 (F := Ideal) : S1x64.Idx → EReal) (ix2 u s) = Ideal.ofBits .f32 0x00000000#32 := by
  unfold k4_pay2
  simp only [shapeCast_self]
  rfl

/-- Region 4: the sum row after a tile is the row before plus the column sums of the tile. -/
theorem k4_pay4_apply (x : Vec Ideal S5000x64 .f32) (a : Vec Ideal S1x64 .f32) (u : Fin 1) (s : Fin 64) :
    (k4_pay4 x a : S1x64.Idx → EReal) (ix2 u s) = a (ix2 u s) + ∑ i : Fin 5000, x (ix2 i s) := by
  unfold k4_pay4 k4_pay3
  simp only [shapeCast_self]
  rw [addf_apply, shapeCast_a_1a_apply]
  exact congrArg (a (ix2 u s) + ·) (multiReduction_add_col _ _ _ _ _ s)

/-- Region 4: the square-sum row after a tile is the row before plus the column sums of the tile's squares. -/
theorem k4_pay5_apply (x : Vec Ideal S5000x64 .f32) (a : Vec Ideal S1x64 .f32) (u : Fin 1) (s : Fin 64) :
    (k4_pay5 x a : S1x64.Idx → EReal) (ix2 u s) = a (ix2 u s) + ∑ i : Fin 5000, x (ix2 i s) * x (ix2 i s) := by
  unfold k4_pay5 k4_pay3
  simp only [shapeCast_self]
  rw [addf_apply, shapeCast_a_1a_apply]
  exact congrArg (a (ix2 u s) + ·) ((multiReduction_add_col _ _ _ _ _ s).trans (Finset.sum_congr rfl fun i _ => rfl))

/-- Region 4: the mean row is the sum row divided by the row count. -/
theorem k4_pay6_apply (a : Vec Ideal S1x64 .f32) (u : Fin 1) (s : Fin 64) :
    (k4_pay6 a : S1x64.Idx → EReal) (ix2 u s) = Ideal.div (a (ix2 u s)) n50000 := rfl

/-- Region 4: the variance row is the square-sum row divided by the row count, less the squared mean. -/
theorem k4_pay7_apply (a q : Vec Ideal S1x64 .f32) (u : Fin 1) (s : Fin 64) :
    (k4_pay7 a q : S1x64.Idx → EReal) (ix2 u s)
      = Ideal.div (q (ix2 u s)) n50000 - Ideal.div (a (ix2 u s)) n50000 * Ideal.div (a (ix2 u s)) n50000 := rfl

end Cert.KernelIdeal.HandValue

end
-- ==== Proof.KiBnStats1.lean ====
/-
  Region 1 (batch statistics of a [50000, 64] array accumulated over ten row tiles of 5000): the two output arrays
  after the region are the accumulated mean and variance rows of the input array as the region finds it.

  What each control case leaves: the first point sets the two scratch rows to the zero rows plus the tile's column
  sums (of the entries, of their squares); every later point adds the tile's column sums onto what the point before
  left; the last point also stores the mean row (first scratch row over the row count) and the variance row (second
  scratch row over the row count, less the squared mean). By induction on the point, after point n the scratch rows
  hold, at column s, the running values after n + 1 tiles of column s and of its squares. The outputs are written
  back once, at the last point, and that block is the whole [1, 64] array.
-/
import proofs.«159573_j34617436406345_1_alg».proof.Proof.KiRegion1
import proofs.«159573_j34617436406345_1_alg».proof.Proof.KiBnStatsPay
import Idealize.ShloMosaic.Lib.Pipeline.Value
import Idealize.ShloMosaic.Lib.Tactic

set_option maxRecDepth 16384

noncomputable section

namespace Cert.KernelIdeal.HandValue

open Finset Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.Hand

theorem hzS1 : (![0, 0] : Fin 2 → Nat) = fun _ => 0 := funext fun a => by fin_cases a <;> rfl

/-! ## What each control case leaves, as the body's arithmetic of what it read -/

section Pieces

variable {F : FTy → Type} [FloatOps F]

/-- First point, sum row: the zero row plus the tile's column sums. -/
theorem sout1_A_0_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) :
    sout1_A_0 c i arg1 harg1 arg2 harg2 arg3 harg3 arg4 harg4 arg5 harg5 hc0 hc1 x0 = k1_pay4 x0 k1_pay1 := by
  unfold sout1_A_0
  rw [View.read_writes_eq_canon _ _ _ (scover1_A_0 c i arg1 harg1 arg2 harg2 arg3 harg3 arg4 harg4 arg5 harg5 hc0 hc1 x0)]
  unfold kernelRun1_A
  dsimp only
  try sl_unfold_words
  rw [View.canon_cons_unit_zero hzS1]
  simp only [View.readAt_eq_ld, harg1.read_unread, harg4.read_unread, harg5.read_unread,
    View.ld_unit_zero (S := S5000x64) hzS1, View.ld_unit_zero (S := S1x64) hzS1, View.readCov_unit_zero (S := S1x64) _ hzS1]

/-- First point, square-sum row. -/
theorem sout1_A_1_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) :
    sout1_A_1 c i arg1 harg1 arg2 harg2 arg3 harg3 arg4 harg4 arg5 harg5 hc0 hc1 x0 = k1_pay5 x0 k1_pay2 := by
  unfold sout1_A_1
  rw [View.read_writes_eq_canon _ _ _ (scover1_A_1 c i arg1 harg1 arg2 harg2 arg3 harg3 arg4 harg4 arg5 harg5 hc0 hc1 x0)]
  unfold kernelRun1_A
  dsimp only
  try sl_unfold_words
  rw [View.canon_cons_unit_zero hzS1]
  simp only [View.readAt_eq_ld, harg1.read_unread, harg4.read_unread, harg5.read_unread,
    View.ld_unit_zero (S := S5000x64) hzS1, View.ld_unit_zero (S := S1x64) hzS1, View.readCov_unit_zero (S := S1x64) _ hzS1]

/-- Middle point, sum row: the row before plus the tile's column sums. -/
theorem sout1_B_0_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) :
    sout1_B_0 c i arg1 harg1 arg2 harg2 arg3 harg3 arg4 harg4 arg5 harg5 hc0 hc1 x0 xs0 xs1 = k1_pay4 x0 xs0 := by
  unfold sout1_B_0
  rw [View.read_writes_eq_canon _ _ _ (scover1_B_0 c i arg1 harg1 arg2 harg2 arg3 harg3 arg4 harg4 arg5 harg5 hc0 hc1 x0 xs0 xs1)]
  unfold kernelRun1_B
  dsimp only
  try sl_unfold_words
  rw [View.canon_cons_unit_zero hzS1]
  simp only [View.readAt_eq_ld, harg1.read_unread, harg4.read_unread, harg5.read_unread,
    View.ld_unit_zero (S := S5000x64) hzS1, View.ld_unit_zero (S := S1x64) hzS1, View.readCov_unit_zero (S := S1x64) _ hzS1]

/-- Middle point, square-sum row. -/
theorem sout1_B_1_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) :
    sout1_B_1 c i arg1 harg1 arg2 harg2 arg3 harg3 arg4 harg4 arg5 harg5 hc0 hc1 x0 xs0 xs1 = k1_pay5 x0 xs1 := by
  unfold sout1_B_1
  rw [View.read_writes_eq_canon _ _ _ (scover1_B_1 c i arg1 harg1 arg2 harg2 arg3 harg3 arg4 harg4 arg5 harg5 hc0 hc1 x0 xs0 xs1)]
  unfold kernelRun1_B
  dsimp only
  try sl_unfold_words
  rw [View.canon_cons_unit_zero hzS1]
  simp only [View.readAt_eq_ld, harg1.read_unread, harg4.read_unread, harg5.read_unread,
    View.ld_unit_zero (S := S5000x64) hzS1, View.ld_unit_zero (S := S1x64) hzS1, View.readCov_unit_zero (S := S1x64) _ hzS1]

/-- Last point, sum row. -/
theorem sout1_C_0_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    sout1_C_0 c i arg1 harg1 arg2 harg2 arg3 harg3 arg4 harg4 arg5 harg5 hc0 hc1 x0 xs0 xs1 = k1_pay4 x0 xs0 := by
  unfold sout1_C_0
  rw [View.read_writes_eq_canon _ _ _ (scover1_C_0 c i arg1 harg1 arg2 harg2 arg3 harg3 arg4 harg4 arg5 harg5 hc0 hc1 x0 xs0 xs1)]
  unfold kernelRun1_C
  dsimp only
  try sl_unfold_words
  rw [View.canon_cons_unit_zero hzS1]
  simp only [View.readAt_eq_ld, harg1.read_unread, harg4.read_unread, harg5.read_unread,
    View.ld_unit_zero (S := S5000x64) hzS1, View.ld_unit_zero (S := S1x64) hzS1, View.readCov_unit_zero (S := S1x64) _ hzS1]

/-- Last point, square-sum row. -/
theorem sout1_C_1_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    sout1_C_1 c i arg1 harg1 arg2 harg2 arg3 harg3 arg4 harg4 arg5 harg5 hc0 hc1 x0 xs0 xs1 = k1_pay5 x0 xs1 := by
  unfold sout1_C_1
  rw [View.read_writes_eq_canon _ _ _ (scover1_C_1 c i arg1 harg1 arg2 harg2 arg3 harg3 arg4 harg4 arg5 harg5 hc0 hc1 x0 xs0 xs1)]
  unfold kernelRun1_C
  dsimp only
  try sl_unfold_words
  rw [View.canon_cons_unit_zero hzS1]
  simp only [View.readAt_eq_ld, harg1.read_unread, harg4.read_unread, harg5.read_unread,
    View.ld_unit_zero (S := S5000x64) hzS1, View.ld_unit_zero (S := S1x64) hzS1, View.readCov_unit_zero (S := S1x64) _ hzS1]

/-- Last point, the mean row stored. -/
theorem out1_C_1_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    out1_C_1 c i arg1 harg1 arg2 harg2 arg3 harg3 arg4 harg4 arg5 harg5 hc0 hc1 x0 xs0 xs1 = k1_pay6 (k1_pay4 x0 xs0) := by
  unfold out1_C_1
  rw [View.read_writes_eq_canon _ _ _ (cover1_C_1 c i arg1 harg1 arg2 harg2 arg3 harg3 arg4 harg4 arg5 harg5 hc0 hc1 x0 xs0 xs1)]
  unfold kernelRun1_C
  dsimp only
  try sl_unfold_words
  rw [View.canon_cons_unit_zero hzS1]
  simp only [View.readAt_eq_ld, harg1.read_unread, harg4.read_unread, harg5.read_unread,
    View.ld_unit_zero (S := S5000x64) hzS1, View.ld_unit_zero (S := S1x64) hzS1, View.readCov_unit_zero (S := S1x64) _ hzS1]

/-- Last point, the variance row stored. -/
theorem out1_C_2_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    out1_C_2 c i arg1 harg1 arg2 harg2 arg3 harg3 arg4 harg4 arg5 harg5 hc0 hc1 x0 xs0 xs1 = k1_pay7 (k1_pay4 x0 xs0) (k1_pay5 x0 xs1) := by
  unfold out1_C_2
  rw [View.read_writes_eq_canon _ _ _ (cover1_C_2 c i arg1 harg1 arg2 harg2 arg3 harg3 arg4 harg4 arg5 harg5 hc0 hc1 x0 xs0 xs1)]
  unfold kernelRun1_C
  dsimp only
  try sl_unfold_words
  rw [View.canon_cons_unit_zero hzS1]
  simp only [View.readAt_eq_ld, harg1.read_unread, harg4.read_unread, harg5.read_unread,
    View.ld_unit_zero (S := S5000x64) hzS1, View.ld_unit_zero (S := S1x64) hzS1, View.readCov_unit_zero (S := S1x64) _ hzS1]

end Pieces

/-! ## The scratch rows after each point -/

variable (V : (c : Dev nD) → (b : Ref sig .tc) → Buf (Elt Ideal) ((c : Thread nD τ).loc b))

/-- The printed index maps over the grid: the input window sits at row block t, the two output windows at their one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The input window's block at point t holds, at (i, s), row i of tile t of column s. -/
theorem iblk1_0_apply (c : Dev nD) (t : Fin cfg1.N) (ht : t.val < 10) (i : Fin 5000) (s : Fin 64) :
    (iblk1 (F := Ideal) V c 0 t : S5000x64.Idx → EReal) (ix2 i s)
      = colOf (V c (Pipeline.arrRef spec1 0)) s (tileRow ⟨t.val, ht⟩ i) := by
  obtain ⟨e0, e1, -⟩ := idx_facts1 t
  unfold iblk1 colOf
  rw [View.read_apply]
  show (V c (Pipeline.arrRef spec1 0) : S50000x64.Idx → EReal) (((cfg1.win 0).blk t).view.emb (ix2 i s)) = _
  refine congrArg (V c (Pipeline.arrRef spec1 0) : S50000x64.Idx → EReal) (funext fun a => Fin.ext ?_)
  match a with
  | ⟨0, _⟩ => show win1_0.index t (0 : Fin 2) * 5000 + 1 * i.val = t.val * 5000 + i.val; omega
  | ⟨1, _⟩ => show win1_0.index t (1 : Fin 2) * 64 + 1 * s.val = s.val; omega

/-- One tile added onto the sum row: the running value one tile further. -/
theorem step1_row0 (x : Vec Ideal S5000x64 .f32) (a : Vec Ideal S1x64 .f32) (f : Fin 50000 → EReal) (n : ℕ) (hn : n < 10)
    (u : Fin 1) (s : Fin 64) (hx : ∀ i : Fin 5000, x (ix2 i s) = f (tileRow ⟨n, hn⟩ i)) (ha : a (ix2 u s) = accK f n) :
    (k1_pay4 x a : S1x64.Idx → EReal) (ix2 u s) = accK f (n + 1) := by
  rw [k1_pay4_apply, accK_succ f n hn, ha]
  exact congrArg (accK f n + ·) (Finset.sum_congr rfl fun i _ => hx i)

/-- One tile's squares added onto the square-sum row. -/
theorem step1_row1 (x : Vec Ideal S5000x64 .f32) (a : Vec Ideal S1x64 .f32) (f : Fin 50000 → EReal) (n : ℕ) (hn : n < 10)
    (u : Fin 1) (s : Fin 64) (hx : ∀ i : Fin 5000, x (ix2 i s) = f (tileRow ⟨n, hn⟩ i))
    (ha : a (ix2 u s) = accK (fun r => f r * f r) n) :
    (k1_pay5 x a : S1x64.Idx → EReal) (ix2 u s) = accK (fun r => f r * f r) (n + 1) := by
  rw [k1_pay5_apply, accK_succ _ n hn, ha]
  exact congrArg (accK (fun r => f r * f r) n + ·) (Finset.sum_congr rfl fun i _ => by rw [hx i])

/-- After point n the two scratch rows hold, at column s, the running values after n + 1 tiles. -/
theorem sAt1_eq (c : Dev nD) : ∀ (n : ℕ) (hn : n < cfg1.N) (u : Fin 1) (s : Fin 64),
    ((sAt1 (F := Ideal) V c n hn).1 : S1x64.Idx → EReal) (ix2 u s) = accK (colOf (V c (Pipeline.arrRef spec1 0)) s) (n + 1)
    ∧ ((sAt1 (F := Ideal) V c n hn).2 : S1x64.Idx → EReal) (ix2 u s)
        = accK (fun r => colOf (V c (Pipeline.arrRef spec1 0)) s r * colOf (V c (Pipeline.arrRef spec1 0)) s r) (n + 1) := by
  have hN : cfg1.N = 10 := N_1
  intro n
  induction n with
  | zero =>
    intro hn u s
    have hc0 : cond1_0 (grid1.coords ⟨0, hn⟩) := (hcond1_0 ⟨0, hn⟩).mpr rfl
    have hc1 : ¬cond1_1 (grid1.coords ⟨0, hn⟩) := fun h => by have h9 := (hcond1_1 ⟨0, hn⟩).mp h; simp at h9
    have e := sAt1_A V c ⟨0, hn⟩ rfl hc0 hc1
    rw [show sAt1 V c 0 hn = _ from e]
    dsimp only
    rw [sout1_A_0_eq, sout1_A_1_eq]
    exact ⟨step1_row0 _ _ _ 0 (by norm_num) u s (fun i => iblk1_0_apply V c ⟨0, hn⟩ (by norm_num) i s) (k1_pay1_apply u s),
      step1_row1 _ _ _ 0 (by norm_num) u s (fun i => iblk1_0_apply V c ⟨0, hn⟩ (by norm_num) i s) (k1_pay2_apply u s)⟩
  | succ n ih =>
    intro hn u s
    have hn10 : n + 1 < 10 := hN ▸ hn
    have ih' := ih (Nat.lt_of_succ_lt hn) u s
    have hc0 : ¬cond1_0 (grid1.coords ⟨n + 1, hn⟩) := fun h => absurd ((hcond1_0 ⟨n + 1, hn⟩).mp h) (Nat.succ_ne_zero n)
    by_cases h9 : n + 1 = 9
    · have hc1 : cond1_1 (grid1.coords ⟨n + 1, hn⟩) := (hcond1_1 ⟨n + 1, hn⟩).mpr h9
      have e := sAt1_C V c ⟨n + 1, hn⟩ h9 hc0 hc1
      rw [show sAt1 V c (n + 1) hn = _ from e]
      dsimp only
      rw [sout1_C_0_eq, sout1_C_1_eq]
      exact ⟨step1_row0 _ _ _ (n + 1) hn10 u s (fun i => iblk1_0_apply V c ⟨n + 1, hn⟩ hn10 i s) ih'.1,
        step1_row1 _ _ _ (n + 1) hn10 u s (fun i => iblk1_0_apply V c ⟨n + 1, hn⟩ hn10 i s) ih'.2⟩
    · have hc1 : ¬cond1_1 (grid1.coords ⟨n + 1, hn⟩) := fun h => h9 ((hcond1_1 ⟨n + 1, hn⟩).mp h)
      have e := sAt1_B V c ⟨n + 1, hn⟩ (Nat.succ_ne_zero n) h9 hc0 hc1
      rw [show sAt1 V c (n + 1) hn = _ from e]
      dsimp only
      rw [sout1_B_0_eq, sout1_B_1_eq]
      exact ⟨step1_row0 _ _ _ (n + 1) hn10 u s (fun i => iblk1_0_apply V c ⟨n + 1, hn⟩ hn10 i s) ih'.1,
        step1_row1 _ _ _ (n + 1) hn10 u s (fun i => iblk1_0_apply V c ⟨n + 1, hn⟩ hn10 i s) ih'.2⟩

/-! ## The two outputs -/

/-- What the last point stores: the accumulated mean and variance rows. -/
theorem oAt1_last (c : Dev nD) (t : Fin cfg1.N) (h9 : t.val = 9) :
    ((oAt1 (F := Ideal) V c t).1 : S1x64.Idx → EReal) = bnMeanK (V c (Pipeline.arrRef spec1 0))
    ∧ ((oAt1 (F := Ideal) V c t).2 : S1x64.Idx → EReal) = bnVarK (V c (Pipeline.arrRef spec1 0)) := by
  have hN : cfg1.N = 10 := N_1
  have hc0 : ¬cond1_0 (grid1.coords t) := fun h => by have := (hcond1_0 t).mp h; omega
  have hc1 : cond1_1 (grid1.coords t) := (hcond1_1 t).mpr h9
  rw [oAt1_C V c t h9 hc0 hc1]
  dsimp only
  rw [out1_C_1_eq, out1_C_2_eq]
  have hs := sAt1_eq V c (t.val - 1) (Nat.lt_of_le_of_lt (Nat.sub_le _ _) t.isLt)
  have ht9 : t.val - 1 + 1 = 9 := by omega
  have hx : ∀ (s : Fin 64) (i : Fin 5000), (iblk1 (F := Ideal) V c 0 t : S5000x64.Idx → EReal) (ix2 i s)
      = colOf (V c (Pipeline.arrRef spec1 0)) s (tileRow ⟨9, by norm_num⟩ i) := fun s i => by
    rw [iblk1_0_apply V c t (by omega) i s]
    exact congrArg (fun k : Fin 10 => colOf (V c (Pipeline.arrRef spec1 0)) s (tileRow k i)) (Fin.ext h9)
  have h0 : ∀ (u : Fin 1) (s : Fin 64), (k1_pay4 (iblk1 (F := Ideal) V c 0 t) (sAt1 (F := Ideal) V c (t.val - 1) (Nat.lt_of_le_of_lt (Nat.sub_le _ _) t.isLt)).1 : S1x64.Idx → EReal) (ix2 u s)
      = accK (colOf (V c (Pipeline.arrRef spec1 0)) s) 10 := fun u s =>
    step1_row0 _ _ _ 9 (by norm_num) u s (hx s) (by rw [(hs u s).1, ht9])
  have h1 : ∀ (u : Fin 1) (s : Fin 64), (k1_pay5 (iblk1 (F := Ideal) V c 0 t) (sAt1 (F := Ideal) V c (t.val - 1) (Nat.lt_of_le_of_lt (Nat.sub_le _ _) t.isLt)).2 : S1x64.Idx → EReal) (ix2 u s)
      = accK (fun r => colOf (V c (Pipeline.arrRef spec1 0)) s r * colOf (V c (Pipeline.arrRef spec1 0)) s r) 10 := fun u s =>
    step1_row1 _ _ _ 9 (by norm_num) u s (hx s) (by rw [(hs u s).2, ht9])
  refine ⟨funext fun j => ?_, funext fun j => ?_⟩
  · obtain ⟨u, s, rfl⟩ : ∃ (u : Fin 1) (s : Fin 64), j = ix2 u s := ⟨j 0, j 1, eq_ix2 j⟩
    rw [k1_pay6_apply, h0, bnMeanK_apply]
    rfl
  · obtain ⟨u, s, rfl⟩ : ∃ (u : Fin 1) (s : Fin 64), j = ix2 u s := ⟨j 0, j 1, eq_ix2 j⟩
    rw [k1_pay7_apply, h0, h1, bnVarK_apply]
    rfl

/-- An output window's block, at any point, is its whole [1, 64] array. -/
theorem blk1_1_read (t : Fin cfg1.N) (G : S1x64.Idx → EReal) :
    (((cfg1.win 1).blk t).view.read (Elt Ideal) G : S1x64.Idx → EReal) = G := by
  obtain ⟨-, -, e2, e3, -, -⟩ := idx_facts1 t
  funext y
  rw [View.read_apply]
  show G (((cfg1.win 1).blk t).view.emb y) = G y
  refine congrArg G (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

theorem blk1_2_read (t : Fin cfg1.N) (G : S1x64.Idx → EReal) :
    (((cfg1.win 2).blk t).view.read (Elt Ideal) G : S1x64.Idx → EReal) = G := by
  obtain ⟨-, -, -, -, e4, e5⟩ := idx_facts1 t
  funext y
  rw [View.read_apply]
  show G (((cfg1.win 2).blk t).view.emb y) = G y
  refine congrArg G (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The one write-back of the mean, at the last point, writes the accumulated mean row. -/
theorem flushed1_1_eq (c : Dev nD) (t : Fin cfg1.N) (hf : (cfg1.win 1).flush t = true) :
    (dat1 (F := Ideal) V c).flushed 1 t
      = ((cfg1.win 1).blk t).view.read (Elt Ideal) (bnMeanK (V c (Pipeline.arrRef spec1 0))) := by
  have hN : cfg1.N = 10 := N_1
  have h9 : t.val = 9 := by have := (flush1_1 t).mp hf; have := t.isLt; omega
  show (cfg1.win 1).cut (grid1.coords t) ((dat1 (F := Ideal) V c).after 1 t) = _
  rw [after1_1]
  exact (oAt1_last V c t h9).1.trans (blk1_1_read t _).symm

/-- The one write-back of the variance, at the last point, writes the accumulated variance row. -/
theorem flushed1_2_eq (c : Dev nD) (t : Fin cfg1.N) (hf : (cfg1.win 2).flush t = true) :
    (dat1 (F := Ideal) V c).flushed 2 t
      = ((cfg1.win 2).blk t).view.read (Elt Ideal) (bnVarK (V c (Pipeline.arrRef spec1 0))) := by
  have hN : cfg1.N = 10 := N_1
  have h9 : t.val = 9 := by have := (flush1_2 t).mp hf; have := t.isLt; omega
  show (cfg1.win 2).cut (grid1.coords t) ((dat1 (F := Ideal) V c).after 2 t) = _
  rw [after1_2]
  exact (oAt1_last V c t h9).2.trans (blk1_2_read t _).symm

/-- The last point's block of either output covers its array. -/
theorem cover1_1 (i : S1x64.Idx) : ∃ t : Fin cfg1.N, (cfg1.win 1).flush t = true ∧ i ∈ ((cfg1.win 1).blk t).view.set := by
  have hN : grid1.N = 10 := N_1
  have hi0 : (i 0).val < 1 := (i 0).isLt
  have hi1 : (i 1).val < 64 := (i 1).isLt
  let t : Fin cfg1.N := ⟨9, by show 9 < grid1.N; omega⟩
  obtain ⟨-, -, e2, e3, -, -⟩ := idx_facts1 t
  refine ⟨t, (flush1_1 t).mpr rfl, ?_⟩
  show i ∈ ((View.whole main_v23_0).slice (win1_1.rect t)).set
  rw [View.set_slice_whole, Rect.mem_set_unit]
  intro a
  match a with
  | ⟨0, _⟩ => show win1_1.index t (0 : Fin 2) * 1 ≤ (i 0).val ∧ (i 0).val < win1_1.index t (0 : Fin 2) * 1 + 1; omega
  | ⟨1, _⟩ => show win1_1.index t (1 : Fin 2) * 64 ≤ (i 1).val ∧ (i 1).val < win1_1.index t (1 : Fin 2) * 64 + 64; omega

theorem cover1_2 (i : S1x64.Idx) : ∃ t : Fin cfg1.N, (cfg1.win 2).flush t = true ∧ i ∈ ((cfg1.win 2).blk t).view.set := by
  have hN : grid1.N = 10 := N_1
  have hi0 : (i 0).val < 1 := (i 0).isLt
  have hi1 : (i 1).val < 64 := (i 1).isLt
  let t : Fin cfg1.N := ⟨9, by show 9 < grid1.N; omega⟩
  obtain ⟨-, -, -, -, e4, e5⟩ := idx_facts1 t
  refine ⟨t, (flush1_2 t).mpr rfl, ?_⟩
  show i ∈ ((View.whole main_v23_1).slice (win1_2.rect t)).set
  rw [View.set_slice_whole, Rect.mem_set_unit]
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 64 ≤ (i 1).val ∧ (i 1).val < win1_2.index t (1 : Fin 2) * 64 + 64; omega

/-- The mean array after the region: the accumulated mean row of the input array as the region finds it. -/
theorem value1_mean (c : Dev nD) :
    (dat1 (F := Ideal) V c).arrAt 1 cfg1.N = bnMeanK (V c (Pipeline.arrRef spec1 0)) :=
  (dat1 (F := Ideal) V c).arrAt_eq_of_cover 1 _ (fun t hf => flushed1_1_eq V c t hf) cover1_1

/-- The variance array after the region: the accumulated variance row of the input array as the region finds it. -/
theorem value1_var (c : Dev nD) :
    (dat1 (F := Ideal) V c).arrAt 2 cfg1.N = bnVarK (V c (Pipeline.arrRef spec1 0)) :=
  (dat1 (F := Ideal) V c).arrAt_eq_of_cover 2 _ (fun t hf => flushed1_2_eq V c t hf) cover1_2

end Cert.KernelIdeal.HandValue

end
-- ==== Proof.KiBnApplyPay.lean ====
/-
  The arithmetic of the two normalisation bodies read at an index.

  Each body loads a [5000, 64] block x and four [1, 64] rows μ, v, g, b, spreads each row over the 5000 rows of the
  block, and stores (x − μ) · rsqrt(v + ε) · g + b. Read at (p, q) this is the entry arithmetic of the
  specification, with each row read at (0, q).
-/
import proofs.«159573_j34617436406345_1_alg».proof.Proof.Gen.KernelIdeal.Skeleton
import proofs.«159573_j34617436406345_1_alg».proof.Proof.KiBnSpec
import Idealize.ShloMosaic.Lib.Pipeline.Value
import Idealize.ShloMosaic.Lib.ValueLayout

noncomputable section

namespace Cert.KernelIdeal.HandValue

open Idealize.ShloMosaic Idealize.ShloMosaic.ValueIdx Cert.KernelIdeal Cert.KernelIdeal.Gen

/-- The stored value of the normalisation body (region 2) at (p, q). -/
theorem k2_pay1_apply (x0 : Vec Ideal S5000x64 .f32) (x1 x2 x3 x4 : Vec Ideal S1x64 .f32) (p : Fin 5000) (q : Fin 64) :
    (k2_pay1 x0 x1 x2 x3 x4 : S5000x64.Idx → EReal) (ix2 p q)
      = (x0 (ix2 p q) - x1 (ix2 (0 : Fin 1) q)) * Ideal.rsqrt (x2 (ix2 (0 : Fin 1) q) + bnEps)
        * x3 (ix2 (0 : Fin 1) q) + x4 (ix2 (0 : Fin 1) q) := by
  unfold k2_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The stored value of the normalisation body (region 5) at (p, q). -/
theorem k5_pay1_apply (x0 : Vec Ideal S5000x64 .f32) (x1 x2 x3 x4 : Vec Ideal S1x64 .f32) (p : Fin 5000) (q : Fin 64) :
    (k5_pay1 x0 x1 x2 x3 x4 : S5000x64.Idx → EReal) (ix2 p q)
      = (x0 (ix2 p q) - x1 (ix2 (0 : Fin 1) q)) * Ideal.rsqrt (x2 (ix2 (0 : Fin 1) q) + bnEps)
        * x3 (ix2 (0 : Fin 1) q) + x4 (ix2 (0 : Fin 1) q) := by
  unfold k5_pay1
  simp only [shapeCast_self]
  rw [addf_apply, mulf_apply, mulf_apply, subf_apply, broadcastTo_1b_ab_apply, broadcastTo_1b_ab_apply,
    broadcastTo_1b_ab_apply, broadcastTo_1b_ab_apply]
  rfl

end Cert.KernelIdeal.HandValue

end
-- ==== Proof.KiBnApply2.lean ====
/-
  Region 2 (normalisation applied to a [50000, 64] array in ten row tiles of 5000): the output array after the
  region is the normalised array of the five operand arrays as the region finds them.

  At point t the body reads rows 5000·t … 5000·t + 4999 of x and the four whole [1, 64] rows, and writes back the
  entry arithmetic of those; that is block t of the one whole-array function. Row r lies in tile r / 5000, so the ten
  blocks cover the array.
-/
import proofs.«159573_j34617436406345_1_alg».proof.Proof.KiRegion2
import proofs.«159573_j34617436406345_1_alg».proof.Proof.KiBnApplyPay
import Idealize.ShloMosaic.Lib.Pipeline.Value

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the x window and the output window sit at row block t, the four row
    windows at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The stored value at an entry of the block, from what the loaded blocks hold there. -/
theorem pay2_at (x0 : Vec Ideal S5000x64 .f32) (x1 x2 x3 x4 : Vec Ideal S1x64 .f32)
    (A0 : Sh50000x64.Idx → EReal) (A1 A2 A3 A4 : Sh1x64.Idx → EReal) (j : S5000x64.Idx) (i : S50000x64.Idx)
    (h0 : x0 j = A0 i) (h1 : x1 = A1) (h2 : x2 = A2) (h3 : x3 = A3) (h4 : x4 = A4) (hi : (i 1).val = (j 1).val) :
    (k2_pay1 x0 x1 x2 x3 x4 : S5000x64.Idx → EReal) j = bnApplySpec A0 A1 A2 A3 A4 i := by
  subst h1 h2 h3 h4
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hi
  rw [k2_pay1_apply, bnApplySpec_apply, h0]

/-- The x window's block at point t holds rows 5000·t … of the array. -/
theorem iblk2_0_apply (c : Dev nD) (t : Fin cfg2.N) (y : S5000x64.Idx) :
    (iblk2 (F := Ideal) V c 0 t : S5000x64.Idx → EReal) y
      = (V c (Pipeline.arrRef spec2 0) : S50000x64.Idx → EReal) (((cfg2.win 5).blk t).view.emb y) := by
  obtain ⟨e0, e1, -, -, -, -, -, -, -, -, e10, e11⟩ := idx_facts2 t
  unfold iblk2
  rw [View.read_apply]
  show (V c (Pipeline.arrRef spec2 0) : S50000x64.Idx → EReal) (((cfg2.win 0).blk t).view.emb y) = _
  refine congrArg (V c (Pipeline.arrRef spec2 0) : S50000x64.Idx → EReal) (funext fun a => Fin.ext ?_)
  match a with
  | ⟨0, _⟩ => show win2_0.index t (0 : Fin 2) * 5000 + 1 * (y 0).val = win2_5.index t (0 : Fin 2) * 5000 + 1 * (y 0).val; omega
  | ⟨1, _⟩ => show win2_0.index t (1 : Fin 2) * 64 + 1 * (y 1).val = win2_5.index t (1 : Fin 2) * 64 + 1 * (y 1).val; omega

/-- Row window 1's block at any point is its whole array. -/
theorem iblk2_1_eq (c : Dev nD) (t : Fin cfg2.N) :
    (iblk2 (F := Ideal) V c 1 t : S1x64.Idx → EReal) = (V c (Pipeline.arrRef spec2 1) : S1x64.Idx → EReal) := by
  obtain ⟨-, -, e2, e3, e4, e5, e6, e7, e8, e9, -, -⟩ := idx_facts2 t
  funext y
  unfold iblk2
  rw [View.read_apply]
  show (V c (Pipeline.arrRef spec2 1) : S1x64.Idx → EReal) (((cfg2.win 1).blk t).view.emb y) = _
  congr 1
  funext a; apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- Row window 2's block at any point is its whole array. -/
theorem iblk2_2_eq (c : Dev nD) (t : Fin cfg2.N) :
    (iblk2 (F := Ideal) V c 2 t : S1x64.Idx → EReal) = (V c (Pipeline.arrRef spec2 2) : S1x64.Idx → EReal) := by
  obtain ⟨-, -, e2, e3, e4, e5, e6, e7, e8, e9, -, -⟩ := idx_facts2 t
  funext y
  unfold iblk2
  rw [View.read_apply]
  show (V c (Pipeline.arrRef spec2 2) : S1x64.Idx → EReal) (((cfg2.win 2).blk t).view.emb y) = _
  congr 1
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Row window 3's block at any point is its whole array. -/
theorem iblk2_3_eq (c : Dev nD) (t : Fin cfg2.N) :
    (iblk2 (F := Ideal) V c 3 t : S1x64.Idx → EReal) = (V c (Pipeline.arrRef spec2 3) : S1x64.Idx → EReal) := by
  obtain ⟨-, -, e2, e3, e4, e5, e6, e7, e8, e9, -, -⟩ := idx_facts2 t
  funext y
  unfold iblk2
  rw [View.read_apply]
  show (V c (Pipeline.arrRef spec2 3) : S1x64.Idx → EReal) (((cfg2.win 3).blk t).view.emb y) = _
  congr 1
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- Row window 4's block at any point is its whole array. -/
theorem iblk2_4_eq (c : Dev nD) (t : Fin cfg2.N) :
    (iblk2 (F := Ideal) V c 4 t : S1x64.Idx → EReal) = (V c (Pipeline.arrRef spec2 4) : S1x64.Idx → EReal) := by
  obtain ⟨-, -, e2, e3, e4, e5, e6, e7, e8, e9, -, -⟩ := idx_facts2 t
  funext y
  unfold iblk2
  rw [View.read_apply]
  show (V c (Pipeline.arrRef spec2 4) : S1x64.Idx → EReal) (((cfg2.win 4).blk t).view.emb y) = _
  congr 1
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- What point t writes back is block t of the normalised array. -/
theorem flushed2_eq (c : Dev nD) (t : Fin cfg2.N) :
    (dat2 (F := Ideal) V c).flushed 5 t = ((cfg2.win 5).blk t).view.read (Elt Ideal)
      (bnApplySpec (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero hz2]
  simp only [View.ld_unit_zero (S := S5000x64) hz2, View.ld_unit_zero (S := S1x64) hz2]
  obtain ⟨-, -, -, -, -, -, -, -, -, -, e10, e11⟩ := idx_facts2 t
  funext j
  refine pay2_at _ _ _ _ _ _ _ _ _ _ j (((cfg2.win 5).blk t).view.emb j) (iblk2_0_apply V c t j)
    (iblk2_1_eq V c t) (iblk2_2_eq V c t) (iblk2_3_eq V c t) (iblk2_4_eq V c t) ?_
  show win2_5.index t (1 : Fin 2) * 64 + 1 * (j 1).val = (j 1).val
  omega

/-- An index of the array is in point t's block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v26).slice (win2_5.rect t)).set ↔ _
  rw [View.set_slice_whole, Rect.mem_set_unit]
  exact Iff.rfl

/-- Row r lies in the block of point r / 5000. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  let t : Fin cfg2.N := ⟨(i 0).val / 5000, by show (i 0).val / 5000 < grid2.N; omega⟩
  obtain ⟨-, -, -, -, -, -, -, -, -, -, e10, e11⟩ := idx_facts2 t
  have ht : t.val = (i 0).val / 5000 := rfl
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after the region: the normalised array of the operands as the region finds them. -/
theorem value2 (c : Dev nD) :
    (dat2 (F := Ideal) V c).arrAt 5 cfg2.N
      = bnApplySpec (V c (Pipeline.arrRef spec2 0)) (V c (Pipeline.arrRef spec2 1)) (V c (Pipeline.arrRef spec2 2))
        (V c (Pipeline.arrRef spec2 3)) (V c (Pipeline.arrRef spec2 4)) :=
  (dat2 (F := Ideal) V c).arrAt_eq_of_cover 5 _ (fun t _ => flushed2_eq V c t) (cover2)

end Cert.KernelIdeal.HandValue

end
-- ==== Proof.KiBnRef.lean ====
/-
  The reference's three normalisation stages read at an index.

  The stages spread a per-column [64] vector over the rows in two steps ([64] → [1, 64] → [50000, 64]); read at
  (r, s) the spread vector is its entry s. A sum over the rows of a [50000, 64] array, read at column s, is the initial
  value plus the sum over r of the entries (r, s). With these the column-mean stage is the whole-sum mean of each
  column, the variance stage is the guarded centred variance of each column, and the normalisation stage is the
  entry arithmetic of the specification with each [64] vector made a [1, 64] row.
-/
import proofs.«159573_j34617436406345_1_alg».proof.Proof.RefRunStages
import proofs.«159573_j34617436406345_1_alg».proof.Proof.KiBnSpec
import proofs.«159573_j34617436406345_1_alg».proof.Proof.KiBnStatsMath
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Finset Idealize.ShloMosaic Idealize.ShloMosaic.ValueIdx Cert.ReferenceIdeal.Hand

variable {α : Type}

/-- A [64] vector made a [1, 64] row by a broadcast along a new leading axis reads, at (u, s), its entry s. -/
theorem bcastRow_at (bv : Sh64.Idx → α) (h1 : Sh64.BroadcastsInDim Sh1x64 ![1]) (u : Fin 1) (s : Fin 64) :
    broadcastInDim Sh1x64 ![1] h1 bv (ix2 u s) = bv (ix1 s) :=
  broadcastInDim_apply _ h1 _ (ix2 u s) (ix1 s) fun ax => by
    match ax with
    | ⟨0, _⟩ => rfl

/-- A [1, 64] row spread over 50000 rows reads, at (r, s), the row at (0, s). -/
theorem bcastRows_at (M : Sh1x64.Idx → α) (h2 : Sh1x64.BroadcastsInDim Sh50000x64 ![0, 1]) (r : Fin 50000) (s : Fin 64) :
    broadcastInDim Sh50000x64 ![0, 1] h2 M (ix2 r s) = M (ix2 (0 : Fin 1) s) :=
  broadcastInDim_apply _ h2 _ (ix2 r s) (ix2 (0 : Fin 1) s) fun ax => by
    match ax with
    | ⟨0, _⟩ => rfl
    | ⟨1, _⟩ => rfl

/-- The sum over the rows, read at column s: the initial word's value plus the sum of the column. -/
theorem reduceRows_at (h : Sh50000x64.Idx → EReal) (hr : Sh50000x64.ReducesTo [0] Sh64)
    (hu : 0 < (⟨0, ![]⟩ : Shape).numel) (w : BitVec 32) (s : Fin 64) :
    (Host.reduceAdd (F := Ideal) (φ := .f32) h (constant (F := Ideal) ⟨0, ![]⟩ .f32 w) hr hu : Sh64.Idx → EReal) (ix1 s)
      = Ideal.ofBits .f32 w + ∑ r : Fin 50000, h (ix2 r s) :=
  (Ideal.hostReduceAdd_single hr (by decide) h (Ideal.ofBits .f32 w) (ix1 s)).trans
    (congrArg (Ideal.ofBits .f32 w + ·) (Finset.sum_congr rfl fun r _ => congrArg h (funext fun ax => Fin.ext (by
      match ax with
      | ⟨0, _⟩ => rfl
      | ⟨1, _⟩ => rfl))))

/-- The column-mean stage is the whole-sum mean of each column. -/
theorem refMeanStage_eq (h : Sh50000x64.Idx → EReal) : refMeanStage h = bnMeanR h := by
  funext j
  obtain ⟨s, rfl⟩ : ∃ s : Fin 64, j = ix1 s := ⟨j 0, eq_ix1 j⟩
  rw [bnMeanR_apply]
  unfold refMeanStage meanR
  show Ideal.div ((Host.reduceAdd (F := Ideal) (φ := .f32) h (constant (F := Ideal) ⟨0, ![]⟩ .f32 0x00000000#32) _ _ : Sh64.Idx → EReal) (ix1 s)) n50000 = _
  rw [reduceRows_at]
  rfl

/-- The variance stage is the guarded centred variance of each column. -/
theorem refVarStage_eq (h : Sh50000x64.Idx → EReal) : refVarStage h = bnVarR h := by
  funext j
  obtain ⟨s, rfl⟩ : ∃ s : Fin 64, j = ix1 s := ⟨j 0, eq_ix1 j⟩
  rw [bnVarR_apply]
  unfold refVarStage varR
  rw [select_apply]
  refine congrArg₂ (fun a b => Scalar.select a b (Ideal.ofBits .f32 0x7FC00000#32)) rfl ?_
  rw [show ∀ (a b : Sh64.Idx → EReal), (Host.divf (F := Ideal) (φ := .f32) a b : Sh64.Idx → EReal) (ix1 s) = Ideal.div (a (ix1 s)) (b (ix1 s)) from fun _ _ => rfl,
    reduceRows_at]
  refine congrArg₂ Ideal.div (congrArg (Ideal.ofBits .f32 0x00000000#32 + ·) (Finset.sum_congr rfl fun r _ => ?_)) rfl
  rw [mulf_apply, subf_apply, bcastRows_at]
  have hm : ∀ (R : Sh64.Idx → EReal) (h1 : Sh64.BroadcastsInDim Sh1x64 ![1]) (c : Sh1x64.Idx → EReal),
      (Host.divf (F := Ideal) (φ := .f32) (broadcastInDim Sh1x64 ![1] h1 R) c : Sh1x64.Idx → EReal) (ix2 (0 : Fin 1) s)
        = Ideal.div (R (ix1 s)) (c (ix2 (0 : Fin 1) s)) := fun R h1 c => by
    show Ideal.div (broadcastInDim Sh1x64 ![1] h1 R (ix2 (0 : Fin 1) s)) _ = _
    rw [bcastRow_at]
  rw [hm, reduceRows_at]
  rfl

/-- The normalisation stage is the specification's entry arithmetic, each [64] vector made a [1, 64] row. -/
theorem refBnApply_eq (h : Sh50000x64.Idx → EReal) (mean var g be : Sh64.Idx → EReal) (hc : Sh64.ShapeCasts Sh1x64) :
    refBnApplyStage h mean var g be
      = bnApplySpec h (shapeCast Sh1x64 mean hc) (shapeCast Sh1x64 var hc) (shapeCast Sh1x64 g hc) (shapeCast Sh1x64 be hc) := by
  funext i
  obtain ⟨r, s, rfl⟩ : ∃ (r : Fin 50000) (s : Fin 64), i = ix2 r s := ⟨i 0, i 1, eq_ix2 i⟩
  rw [bnApplySpec_apply]
  unfold refBnApplyStage
  rw [addf_apply, mulf_apply, mulf_apply, subf_apply, bcastRows_at, bcastRows_at, bcastRows_at, bcastRows_at,
    bcastRow_at, bcastRow_at, bcastRow_at, bcastRow_at,
    shapeCast_a_1a_apply, shapeCast_a_1a_apply, shapeCast_a_1a_apply, shapeCast_a_1a_apply]
  rfl

end Cert.KernelIdeal.HandValue

end
-- ==== Proof.KiBnNorm.lean ====
/-
  One normalisation round as a whole: the reference's normalisation of an array by its own column statistics is the
  specification's entry arithmetic at the ACCUMULATED mean and variance rows, when every entry of the array is a real
  number; and then every entry of the normalised array is real, when the scale and the shift are real too.

  The two means agree with no assumption; the two variances are the two forms of the variance, equal on real entries;
  the variance is then a nonnegative real, so adding the positive constant leaves a positive real.
-/
import proofs.«159573_j34617436406345_1_alg».proof.Proof.KiBnRef

noncomputable section

namespace Cert.KernelIdeal.HandValue

open Idealize.ShloMosaic Idealize.ShloMosaic.ValueIdx Cert.ReferenceIdeal.Hand

/-- A [64] vector of reals made a [1, 64] row is a row of reals. -/
theorem row_real (v : Sh64.Idx → EReal) (hv : ∀ j, ∃ x : ℝ, v j = x) (hc : Sh64.ShapeCasts Sh1x64) (j : Sh1x64.Idx) :
    ∃ x : ℝ, shapeCast Sh1x64 v hc j = x := by
  obtain ⟨u, s, rfl⟩ : ∃ (u : Fin 1) (s : Fin 64), j = ix2 u s := ⟨j 0, j 1, eq_ix2 j⟩
  rw [shapeCast_a_1a_apply]
  exact hv _

/-- The reference's normalisation of a real array is the entry arithmetic at the accumulated statistics. -/
theorem refNorm_eq (h : Sh50000x64.Idx → EReal) (g be : Sh64.Idx → EReal) (hX : ∀ i, ∃ x : ℝ, h i = x)
    (hc : Sh64.ShapeCasts Sh1x64) :
    refNorm h g be = bnApplySpec h (bnMeanK h) (bnVarK h) (shapeCast Sh1x64 g hc) (shapeCast Sh1x64 be hc) := by
  unfold refNorm
  rw [refBnApply_eq h _ _ g be hc, refMeanStage_eq, refVarStage_eq, ← bnMeanK_eq h hc, ← bnVarK_eq h hX hc]

/-- The accumulated mean row of a real array is real, its variance row a nonnegative real. -/
theorem bnMeanK_real (h : Sh50000x64.Idx → EReal) (hX : ∀ i, ∃ x : ℝ, h i = x) (j : Sh1x64.Idx) :
    ∃ x : ℝ, bnMeanK h j = x := by
  rw [bnMeanK_eq h (by decide)]
  exact row_real _ (bnMeanR_real h hX) _ j

theorem bnVarK_real_nonneg (h : Sh50000x64.Idx → EReal) (hX : ∀ i, ∃ x : ℝ, h i = x) (j : Sh1x64.Idx) :
    ∃ x : ℝ, 0 ≤ x ∧ bnVarK h j = x := by
  rw [bnVarK_eq h hX (by decide)]
  obtain ⟨u, s, rfl⟩ : ∃ (u : Fin 1) (s : Fin 64), j = ix2 u s := ⟨j 0, j 1, eq_ix2 j⟩
  rw [shapeCast_a_1a_apply]
  exact bnVarR_real_nonneg h hX _

/-- The normalised array of a real array, with real scale and shift, is real entry by entry. -/
theorem bnNorm_real (h : Sh50000x64.Idx → EReal) (g be : Sh64.Idx → EReal) (hX : ∀ i, ∃ x : ℝ, h i = x)
    (hg : ∀ j, ∃ x : ℝ, g j = x) (hb : ∀ j, ∃ x : ℝ, be j = x) (hc : Sh64.ShapeCasts Sh1x64) (i : Sh50000x64.Idx) :
    ∃ x : ℝ, bnApplySpec h (bnMeanK h) (bnVarK h) (shapeCast Sh1x64 g hc) (shapeCast Sh1x64 be hc) i = x :=
  bnApplySpec_real h _ _ _ _ hX (bnMeanK_real h hX) (bnVarK_real_nonneg h hX) (row_real g hg hc) (row_real be hb hc) i

end Cert.KernelIdeal.HandValue

end
-- ==== Proof.KiValueA.lean ====
/-
  The kernel program's first round, boundary by boundary: the combine of the input rows with their neighbourhood mean
  (the first region), its column means and variances accumulated over the row tiles (the second), and the normalisation
  (the third) — each array, where the next segment reads it, is the reference program's stage of the launch contents.
-/
import proofs.«159573_j34617436406345_1_alg».proof.Proof.KiFrame
import proofs.«159573_j34617436406345_1_alg».proof.Proof.KiHostVal0
import proofs.«159573_j34617436406345_1_alg».proof.Proof.KiHostVal3
import proofs.«159573_j34617436406345_1_alg».proof.Proof.KiSageValue0
import proofs.«159573_j34617436406345_1_alg».proof.Proof.KiSageRef
import proofs.«159573_j34617436406345_1_alg».proof.Proof.KiBnStats1
import proofs.«159573_j34617436406345_1_alg».proof.Proof.KiBnApply2
import proofs.«159573_j34617436406345_1_alg».proof.Proof.KiBnNorm

set_option maxRecDepth 16384

noncomputable section

namespace Cert.KernelIdeal.HandValue

open Idealize.ShloMosaic Idealize.ShloMosaic.TcCoe Idealize.SL.Sem
open Cert.KernelIdeal Cert.KernelIdeal.Gen Cert.KernelIdeal.Hand RegionRecord
open Cert.ReferenceIdeal.Hand (refInvDeg refAgg refSageStage refLayer refNorm refPoolStage refMlpStage refTerm)

variable (m : (ℓ : Loc nD τ sig) → Buf (Elt Ideal) ℓ) (c : Dev nD)

/-- Region 0's output array, the five arrays it reads being given. -/
theorem sage0_of (V : (c : Dev nD) → (b : Ref sig .tc) → Buf (Elt Ideal) ((c : Thread nD τ).loc b)) (c : Dev nD)
    {x agg : (⟨2, ![50000, 64]⟩ : Shape).Idx → EReal} {ws wn : (⟨2, ![64, 64]⟩ : Shape).Idx → EReal} {b : (⟨2, ![1, 64]⟩ : Shape).Idx → EReal}
    (h0 : V c (Pipeline.arrRef spec0 0) = x) (h1 : V c (Pipeline.arrRef spec0 1) = agg) (h2 : V c (Pipeline.arrRef spec0 2) = ws)
    (h3 : V c (Pipeline.arrRef spec0 3) = wn) (h4 : V c (Pipeline.arrRef spec0 4) = b) :
    (dat0 (F := Ideal) V c).arrAt 5 cfg0.N = sageSpec x agg ws wn b := by
  subst h0 h1 h2 h3 h4
  exact value0 V c

/-- Region 2's output array, the five arrays it reads being given. -/
theorem bn2_of (V : (c : Dev nD) → (b : Ref sig .tc) → Buf (Elt Ideal) ((c : Thread nD τ).loc b)) (c : Dev nD)
    {x : Sh50000x64.Idx → EReal} {mean var g be : Sh1x64.Idx → EReal}
    (h0 : V c (Pipeline.arrRef spec2 0) = x) (h1 : V c (Pipeline.arrRef spec2 1) = mean) (h2 : V c (Pipeline.arrRef spec2 2) = var)
    (h3 : V c (Pipeline.arrRef spec2 3) = g) (h4 : V c (Pipeline.arrRef spec2 4) = be) :
    (dat2 (F := Ideal) V c).arrAt 5 cfg2.N = bnApplySpec x mean var g be := by
  subst h0 h1 h2 h3 h4
  exact value2 V c

/-- The reciprocal clamped in-degrees, as the host operations before the first region leave them. -/
theorem Wv1_invdeg : Wv1 (F := Ideal) m c (Proc.devRef .tc main_v8) = refInvDeg (Wv0 (F := Ideal) m c (Proc.devRef .tc main_arg2)) :=
  hostOps0_v8 (Wv0 m c)

/-- After the first region: the combine of the input rows with their neighbourhood mean. -/
theorem Wv2_h1 : Wv2 (F := Ideal) m c (Proc.devRef .tc main_v22) = refLayer (Wv0 (F := Ideal) m c (Proc.devRef .tc main_arg0)) (Wv0 (F := Ideal) m c (Proc.devRef .tc main_arg1)) (Wv0 (F := Ideal) m c (Proc.devRef .tc main_arg2)) (Wv0 (F := Ideal) m c (Proc.devRef .tc main_arg5)) (Wv0 (F := Ideal) m c (Proc.devRef .tc main_arg6)) (Wv0 (F := Ideal) m c (Proc.devRef .tc main_arg7)) := by
  have h0 : tcVal (Wv1 (F := Ideal) m) c (Pipeline.arrRef spec0 0) = (Wv0 (F := Ideal) m c (Proc.devRef .tc main_arg0)) := (StableHlo.after_of_writes_sub (hostOps0 (F := Ideal)) _ hostOps0_writes (by decide) : Wv1 (F := Ideal) m c (Proc.devRef .tc main_arg0) = Wv0 (F := Ideal) m c (Proc.devRef .tc main_arg0))
  have h1 : tcVal (Wv1 (F := Ideal) m) c (Pipeline.arrRef spec0 1) = refAgg (Wv0 (F := Ideal) m c (Proc.devRef .tc main_arg0)) (Wv0 (F := Ideal) m c (Proc.devRef .tc main_arg1)) (Wv0 (F := Ideal) m c (Proc.devRef .tc main_arg2)) (refInvDeg (Wv0 (F := Ideal) m c (Proc.devRef .tc main_arg2))) := hostOps0_v20 (Wv0 m c)
  have h2 : tcVal (Wv1 (F := Ideal) m) c (Pipeline.arrRef spec0 2) = (Wv0 (F := Ideal) m c (Proc.devRef .tc main_arg5)) := (StableHlo.after_of_writes_sub (hostOps0 (F := Ideal)) _ hostOps0_writes (by decide) : Wv1 (F := Ideal) m c (Proc.devRef .tc main_arg5) = Wv0 (F := Ideal) m c (Proc.devRef .tc main_arg5))
  have h3 : tcVal (Wv1 (F := Ideal) m) c (Pipeline.arrRef spec0 3) = (Wv0 (F := Ideal) m c (Proc.devRef .tc main_arg6)) := (StableHlo.after_of_writes_sub (hostOps0 (F := Ideal)) _ hostOps0_writes (by decide) : Wv1 (F := Ideal) m c (Proc.devRef .tc main_arg6) = Wv0 (F := Ideal) m c (Proc.devRef .tc main_arg6))
  have h4 : tcVal (Wv1 (F := Ideal) m) c (Pipeline.arrRef spec0 4) = shapeCast S1x64 (Wv0 (F := Ideal) m c (Proc.devRef .tc main_arg7) : (⟨S64, .f32⟩ : BufTy).Contents (Elt Ideal)) shapeCasts_S64_S1x64 := hostOps0_v21 (Wv0 m c)
  refine (Wv2_arr m c 5).trans ((sage0_of (tcVal (Wv1 (F := Ideal) m)) c h0 h1 h2 h3 h4).trans ?_)
  unfold refLayer
  exact (refSage_eq _ _ _ _ _ shapeCasts_S64_S1x64).symm

/-- After the second region: the accumulated column means and variances of the first round's rows. -/
theorem Wv3_mean : Wv3 (F := Ideal) m c (Proc.devRef .tc main_v23_0) = bnMeanK (Wv2 (F := Ideal) m c (Proc.devRef .tc main_v22)) :=
  (Wv3_arr m c 1).trans (value1_mean (tcVal (Wv2 (F := Ideal) m)) c)
theorem Wv3_var : Wv3 (F := Ideal) m c (Proc.devRef .tc main_v23_1) = bnVarK (Wv2 (F := Ideal) m c (Proc.devRef .tc main_v22)) :=
  (Wv3_arr m c 2).trans (value1_var (tcVal (Wv2 (F := Ideal) m)) c)

/-- The scale and shift rows of the first normalisation, as the host operations before the third region leave them. -/
theorem Wv4_g : Wv4 (F := Ideal) m c (Proc.devRef .tc main_v24) = shapeCast S1x64 (Wv0 (F := Ideal) m c (Proc.devRef .tc main_arg14) : (⟨S64, .f32⟩ : BufTy).Contents (Elt Ideal)) shapeCasts_S64_S1x64 := by
  have hk : Wv3 (F := Ideal) m c (Proc.devRef .tc main_arg14) = (Wv0 (F := Ideal) m c (Proc.devRef .tc main_arg14)) := (Wv3_keep m c main_arg14 (by decide)).trans <| (Wv2_keep m c main_arg14 (by decide)).trans <| (StableHlo.after_of_writes_sub (hostOps0 (F := Ideal)) _ hostOps0_writes (by decide) : Wv1 (F := Ideal) m c (Proc.devRef .tc main_arg14) = Wv0 (F := Ideal) m c (Proc.devRef .tc main_arg14))
  have e := hostOps2_v24 (Wv3 (F := Ideal) m c)
  rw [hk] at e
  exact e
theorem Wv4_be : Wv4 (F := Ideal) m c (Proc.devRef .tc main_v25) = shapeCast S1x64 (Wv0 (F := Ideal) m c (Proc.devRef .tc main_arg15) : (⟨S64, .f32⟩ : BufTy).Contents (Elt Ideal)) shapeCasts_S64_S1x64 := by
  have hk : Wv3 (F := Ideal) m c (Proc.devRef .tc main_arg15) = (Wv0 (F := Ideal) m c (Proc.devRef .tc main_arg15)) := (Wv3_keep m c main_arg15 (by decide)).trans <| (Wv2_keep m c main_arg15 (by decide)).trans <| (StableHlo.after_of_writes_sub (hostOps0 (F := Ideal)) _ hostOps0_writes (by decide) : Wv1 (F := Ideal) m c (Proc.devRef .tc main_arg15) = Wv0 (F := Ideal) m c (Proc.devRef .tc main_arg15))
  have e := hostOps2_v25 (Wv3 (F := Ideal) m c)
  rw [hk] at e
  exact e

/-- After the third region: the first round's rows normalised — given that those rows are real entry by entry, which
    is what makes the accumulated variance the centred one. -/
theorem Wv5_n1 (hX : ∀ i, ∃ x : ℝ, (Wv2 (F := Ideal) m c (Proc.devRef .tc main_v22) : Sh50000x64.Idx → EReal) i = (x : EReal)) :
    Wv5 (F := Ideal) m c (Proc.devRef .tc main_v26) = refNorm (Wv2 (F := Ideal) m c (Proc.devRef .tc main_v22)) (Wv0 (F := Ideal) m c (Proc.devRef .tc main_arg14)) (Wv0 (F := Ideal) m c (Proc.devRef .tc main_arg15)) := by
  have h0 : tcVal (Wv4 (F := Ideal) m) c (Pipeline.arrRef spec2 0) = (Wv2 (F := Ideal) m c (Proc.devRef .tc main_v22)) := (StableHlo.after_of_writes_sub (hostOps2 (F := Ideal)) _ hostOps2_writes (by decide) : Wv4 (F := Ideal) m c (Proc.devRef .tc main_v22) = Wv3 (F := Ideal) m c (Proc.devRef .tc main_v22)).trans <| (Wv3_keep m c main_v22 (by decide))
  have h1 : tcVal (Wv4 (F := Ideal) m) c (Pipeline.arrRef spec2 1) = bnMeanK (Wv2 (F := Ideal) m c (Proc.devRef .tc main_v22)) := ((StableHlo.after_of_writes_sub (hostOps2 (F := Ideal)) _ hostOps2_writes (by decide) : Wv4 (F := Ideal) m c (Proc.devRef .tc main_v23_0) = Wv3 (F := Ideal) m c (Proc.devRef .tc main_v23_0))).trans (Wv3_mean m c)
  have h2 : tcVal (Wv4 (F := Ideal) m) c (Pipeline.arrRef spec2 2) = bnVarK (Wv2 (F := Ideal) m c (Proc.devRef .tc main_v22)) := ((StableHlo.after_of_writes_sub (hostOps2 (F := Ideal)) _ hostOps2_writes (by decide) : Wv4 (F := Ideal) m c (Proc.devRef .tc main_v23_1) = Wv3 (F := Ideal) m c (Proc.devRef .tc main_v23_1))).trans (Wv3_var m c)
  have h3 : tcVal (Wv4 (F := Ideal) m) c (Pipeline.arrRef spec2 3) = shapeCast S1x64 (Wv0 (F := Ideal) m c (Proc.devRef .tc main_arg14) : (⟨S64, .f32⟩ : BufTy).Contents (Elt Ideal)) shapeCasts_S64_S1x64 := Wv4_g m c
  have h4 : tcVal (Wv4 (F := Ideal) m) c (Pipeline.arrRef spec2 4) = shapeCast S1x64 (Wv0 (F := Ideal) m c (Proc.devRef .tc main_arg15) : (⟨S64, .f32⟩ : BufTy).Contents (Elt Ideal)) shapeCasts_S64_S1x64 := Wv4_be m c
  exact (Wv5_arr m c 5).trans ((bn2_of (tcVal (Wv4 (F := Ideal) m)) c h0 h1 h2 h3 h4).trans (refNorm_eq _ _ _ hX shapeCasts_S64_S1x64).symm)

end Cert.KernelIdeal.HandValue

end
-- ==== Proof.KiHostVal6.lean ====
/-
  The kernel program's host operations before its sixth and seventh regions, read from any contents W: the scale and shift
  rows of the second normalisation as one-row matrices; the neighbourhood mean of the normalised rows and the third bias.
-/
import proofs.«159573_j34617436406345_1_alg».proof.Proof.Gen.KernelIdeal.Launch
import proofs.«159573_j34617436406345_1_alg».proof.Proof.RefRunStages
import Idealize.ShloMosaic.Lib.StableHlo.Run

noncomputable section

namespace Cert.KernelIdeal.HandValue

open Cert.KernelIdeal Cert.KernelIdeal.Gen Idealize.ShloMosaic Idealize.ShloMosaic.TcCoe Idealize.SL.Sem Idealize.ShloMosaic.StableHlo
open Cert.ReferenceIdeal.Hand (refInvDeg refAgg refPoolStage)

attribute [local irreducible] Host.scatterAdd Host.gather Host.divf

/-- The row `main_arg16` laid out as a one-row matrix. -/
theorem hostOps5_v42 (W : Valuation τ sig (Elt Ideal)) :
    after (hostOps5 (F := Ideal)) W (no_index (Proc.devRef .tc main_v42))
      = shapeCast S1x64 (W (Proc.devRef .tc main_arg16) : (⟨S64, .f32⟩ : BufTy).Contents (Elt Ideal)) shapeCasts_S64_S1x64 := by
  simp only [hostOps5]
  after_results_simp
  rfl

/-- The row `main_arg17` laid out as a one-row matrix. -/
theorem hostOps5_v43 (W : Valuation τ sig (Elt Ideal)) :
    after (hostOps5 (F := Ideal)) W (no_index (Proc.devRef .tc main_v43))
      = shapeCast S1x64 (W (Proc.devRef .tc main_arg17) : (⟨S64, .f32⟩ : BufTy).Contents (Elt Ideal)) shapeCasts_S64_S1x64 := by
  simp only [hostOps5]
  after_results_simp
  rfl

/-- The neighbourhood mean of the rows of `main_v44`, with the reciprocal degrees found in `main_v8`. -/
theorem hostOps6_v56 (W : Valuation τ sig (Elt Ideal)) :
    after (hostOps6 (F := Ideal)) W (no_index (Proc.devRef .tc main_v56))
      = refAgg (W (Proc.devRef .tc main_v44)) (W (Proc.devRef .tc main_arg1)) (W (Proc.devRef .tc main_arg2)) (W (Proc.devRef .tc main_v8)) := by
  simp only [hostOps6]
  after_results_simp
  rfl

/-- The row `main_arg13` laid out as a one-row matrix. -/
theorem hostOps6_v57 (W : Valuation τ sig (Elt Ideal)) :
    after (hostOps6 (F := Ideal)) W (no_index (Proc.devRef .tc main_v57))
      = shapeCast S1x64 (W (Proc.devRef .tc main_arg13) : (⟨S64, .f32⟩ : BufTy).Contents (Elt Ideal)) shapeCasts_S64_S1x64 := by
  simp only [hostOps6]
  after_results_simp
  rfl

end Cert.KernelIdeal.HandValue

end
-- ==== Proof.KiSageValue3.lean ====
/-
  Region 3 (a graph-convolution combine step over ten row tiles of 5000 rows): the output array after the region,
  as one function of the five arrays the region reads.

  At each grid point the body multiplies the point's 5000 rows of the two feature arrays by the two whole weight
  matrices (two matrix products into zero accumulators: at (p, s) the sum over k of row p times column s), adds the
  two products and the bias row spread over the rows, and keeps the larger of that and zero.  Row p of tile t is row
  5000·t + p of the arrays, a weight or bias block is the whole array, so what point t writes back is tile t of the
  whole-array function; row r lies in tile r / 5000, so the tiles cover the array.
-/
import proofs.«159573_j34617436406345_1_alg».proof.Proof.KiRegion3
import Idealize.ShloMosaic.Lib.Pipeline.Value
import Idealize.ShloMosaic.Lib.ValueLayout
import proofs.«159573_j34617436406345_1_alg».proof.Proof.LibPlainDot
import proofs.«159573_j34617436406345_1_alg».proof.Proof.KiSageSpec

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.Lib Cert.KernelIdeal Cert.KernelIdeal.Gen Cert.KernelIdeal.Hand
open scoped BigOperators

theorem hz3 : (![0, 0] : Fin 2 → Nat) = fun _ => 0 := funext fun a => by fin_cases a <;> rfl

/-- The body's stored value at (p, s): the two contractions of row p against column s, the bias at s, and zero. -/
theorem pay3_apply (x0 x1 : Vec Ideal S5000x64 .f32) (x2 x3 : Vec Ideal S64x64 .f32) (x4 : Vec Ideal S1x64 .f32)
    (p : Fin 5000) (s : Fin 64) :
    k3_pay1 (F := Ideal) x0 x1 x2 x3 x4 (ix2 p s)
      = max (∑ k : Fin 64, x0 (ix2 p k) * x2 (ix2 k s) + ∑ k : Fin 64, x1 (ix2 p k) * x3 (ix2 k s) + x4 (ix2 (0 : Fin 1) s)) 0 := by
  unfold k3_pay1
  have hd : dot_S5000x64_S64x64_S5000x64_1_0_0_1_n_n = DotDims.plain 5000 64 64 := rfl
  show max (FloatOps.matmul (F := Ideal) dot_S5000x64_S64x64_S5000x64_1_0_0_1_n_n none (shapeCast S5000x64 x0 shapeCasts_S5000x64_S5000x64) x2 (constant (F := Ideal) S5000x64 .f32 0x00000000#32) (ix2 p s)
      + FloatOps.matmul (F := Ideal) dot_S5000x64_S64x64_S5000x64_1_0_0_1_n_n none (shapeCast S5000x64 x1 shapeCasts_S5000x64_S5000x64) x3 (constant (F := Ideal) S5000x64 .f32 0x00000000#32) (ix2 p s)
      + broadcastTo S5000x64 (shapeCast S1x64 x4 shapeCasts_S1x64_S1x64) broadcasts_S1x64_S5000x64 (ix2 p s)) (Ideal.ofBits .f32 0x00000000#32) = _
  rw [shapeCast_self, shapeCast_self, shapeCast_self, PlainDot.matmul_zero_apply _ hd, PlainDot.matmul_zero_apply _ hd, mm_ix2, mm_ix2,
    broadcastTo_1b_ab_apply, Ideal.ofBits_zero_f32]

/-- One stored entry against the whole-array function: when the two feature blocks are rows 5000·tv + p of their
    arrays and the weight and bias blocks are their arrays, the entry at y is the function at the array index i with
    row 5000·tv + (row of y) and the column of y. -/
theorem point3 (X AG : S50000x64.Idx → EReal) (WS WN : S64x64.Idx → EReal) (B : S1x64.Idx → EReal)
    (x0 x1 : Vec Ideal S5000x64 .f32) (x2 x3 : Vec Ideal S64x64 .f32) (x4 : Vec Ideal S1x64 .f32) (tv : Nat)
    (h0 : ∀ (y : S5000x64.Idx) (i : S50000x64.Idx), (i 0).val = tv * 5000 + (y 0).val → (i 1).val = (y 1).val → x0 y = X i)
    (h1 : ∀ (y : S5000x64.Idx) (i : S50000x64.Idx), (i 0).val = tv * 5000 + (y 0).val → (i 1).val = (y 1).val → x1 y = AG i)
    (h2 : x2 = WS) (h3 : x3 = WN) (h4 : x4 = B)
    (y : S5000x64.Idx) (i : S50000x64.Idx) (hi0 : (i 0).val = tv * 5000 + (y 0).val) (hi1 : (i 1).val = (y 1).val) :
    k3_pay1 (F := Ideal) x0 x1 x2 x3 x4 y = sageSpec X AG WS WN B i := by
  obtain ⟨p, s, rfl⟩ : ∃ (p : Fin 5000) (s : Fin 64), y = ix2 p s := ⟨y 0, y 1, eq_ix2 y⟩
  obtain ⟨r, s', rfl⟩ : ∃ (r : Fin 50000) (s' : Fin 64), i = ix2 r s' := ⟨i 0, i 1, eq_ix2 i⟩
  have hs : s' = s := Fin.ext hi1
  subst hs
  subst h2 h3 h4
  have e0 : ∀ k : Fin 64, x0 (ix2 p k) = X (ix2 r k) := fun k => h0 (ix2 p k) (ix2 r k) hi0 rfl
  have e1 : ∀ k : Fin 64, x1 (ix2 p k) = AG (ix2 r k) := fun k => h1 (ix2 p k) (ix2 r k) hi0 rfl
  rw [pay3_apply, sageSpec_ix2]
  unfold sageAt
  simp only [e0, e1]

variable (V : (c : Dev nD) → (b : Ref sig .tc) → Buf (Elt Ideal) ((c : Thread nD τ).loc b))

/-- The printed index maps over the grid: the feature windows and the output window sit at row tile t, column tile
    0; the weight and bias windows at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The first feature window's block at point t is rows 5000·t … of its array. -/
theorem iblk3_0_apply (c : Dev nD) (t : Fin cfg3.N) (y : S5000x64.Idx) (i : S50000x64.Idx)
    (h0 : (i 0).val = t.val * 5000 + (y 0).val) (h1 : (i 1).val = (y 1).val) :
    (iblk3 V c 0 t : Vec Ideal S5000x64 .f32) y = (V c (Pipeline.arrRef spec3 0) : S50000x64.Idx → EReal) i := by
  obtain ⟨e0, e1, -⟩ := idx_facts3 t
  unfold iblk3
  rw [View.read_apply]
  refine congrArg (V c (Pipeline.arrRef spec3 0) : S50000x64.Idx → EReal) ?_
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The second feature window's block at point t is rows 5000·t … of its array. -/
theorem iblk3_1_apply (c : Dev nD) (t : Fin cfg3.N) (y : S5000x64.Idx) (i : S50000x64.Idx)
    (h0 : (i 0).val = t.val * 5000 + (y 0).val) (h1 : (i 1).val = (y 1).val) :
    (iblk3 V c 1 t : Vec Ideal S5000x64 .f32) y = (V c (Pipeline.arrRef spec3 1) : S50000x64.Idx → EReal) i := by
  obtain ⟨-, -, e0, e1, -⟩ := idx_facts3 t
  unfold iblk3
  rw [View.read_apply]
  refine congrArg (V c (Pipeline.arrRef spec3 1) : S50000x64.Idx → EReal) ?_
  funext a
  apply Fin.ext
  match a with
  | ⟨0, _⟩ => show win3_1.index t (0 : Fin 2) * 5000 + 1 * (y 0).val = (i 0).val; rw [e0, h0]; omega
  | ⟨1, _⟩ => show win3_1.index t (1 : Fin 2) * 64 + 1 * (y 1).val = (i 1).val; rw [e1, h1]; omega

/-- A weight window's block is its whole array. -/
theorem iblk3_2_eq (c : Dev nD) (t : Fin cfg3.N) :
    (iblk3 V c 2 t : Vec Ideal S64x64 .f32) = (V c (Pipeline.arrRef spec3 2) : S64x64.Idx → EReal) := by
  obtain ⟨-, -, -, -, e0, e1, -⟩ := idx_facts3 t
  unfold iblk3
  refine funext fun (y : S64x64.Idx) => ?_
  rw [View.read_apply]
  refine congrArg (V c (Pipeline.arrRef spec3 2) : S64x64.Idx → EReal) ?_
  funext a
  apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

theorem iblk3_3_eq (c : Dev nD) (t : Fin cfg3.N) :
    (iblk3 V c 3 t : Vec Ideal S64x64 .f32) = (V c (Pipeline.arrRef spec3 3) : S64x64.Idx → EReal) := by
  obtain ⟨-, -, -, -, -, -, e0, e1, -⟩ := idx_facts3 t
  unfold iblk3
  refine funext fun (y : S64x64.Idx) => ?_
  rw [View.read_apply]
  refine congrArg (V c (Pipeline.arrRef spec3 3) : S64x64.Idx → EReal) ?_
  funext a
  apply Fin.ext
  match a with
  | ⟨0, _⟩ => show win3_3.index t (0 : Fin 2) * 64 + 1 * (y 0).val = (y 0).val; rw [e0]; omega
  | ⟨1, _⟩ => show win3_3.index t (1 : Fin 2) * 64 + 1 * (y 1).val = (y 1).val; rw [e1]; omega

/-- The bias window's block is its whole array. -/
theorem iblk3_4_eq (c : Dev nD) (t : Fin cfg3.N) :
    (iblk3 V c 4 t : Vec Ideal S1x64 .f32) = (V c (Pipeline.arrRef spec3 4) : S1x64.Idx → EReal) := by
  obtain ⟨-, -, -, -, -, -, -, -, e0, e1, -⟩ := idx_facts3 t
  unfold iblk3
  refine funext fun (y : S1x64.Idx) => ?_
  rw [View.read_apply]
  refine congrArg (V c (Pipeline.arrRef spec3 4) : S1x64.Idx → EReal) ?_
  funext a
  apply Fin.ext
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-- What point t writes back is tile t of the whole-array function of the arrays as the region finds them. -/
theorem flushed3_eq (c : Dev nD) (t : Fin cfg3.N) :
    (dat3 (F := Ideal) V c).flushed 5 t = ((cfg3.win 5).blk t).view.read (Elt Ideal)
      (sageSpec (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz3]
  simp only [View.ld_unit_zero (S := S5000x64) hz3, View.ld_unit_zero (S := S64x64) hz3, View.ld_unit_zero (S := S1x64) hz3]
  obtain ⟨-, -, -, -, -, -, -, -, -, -, e0, e1⟩ := idx_facts3 t
  funext j
  rw [View.read_apply]
  refine point3 _ _ _ _ _ _ _ _ _ _ t.val (iblk3_0_apply V c t) (iblk3_1_apply V c t) (iblk3_2_eq V c t) (iblk3_3_eq V c t)
    (iblk3_4_eq V c t) j _ ?_ ?_
  · show win3_5.index t (0 : Fin 2) * 5000 + 1 * (j 0).val = t.val * 5000 + (j 0).val; rw [e0]; omega
  · show win3_5.index t (1 : Fin 2) * 64 + 1 * (j 1).val = (j 1).val; rw [e1]; omega

/-- An index of the array is in point t's block iff each coordinate is in the block's range on its axis. -/
theorem mem_blk3 (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v40).slice (win3_5.rect t)).set ↔ _
  rw [View.set_slice_whole, Rect.mem_set_unit]
  exact Iff.rfl

/-- Row r lies in tile r / 5000: the ten tiles cover the array. -/
theorem cover3 (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  have ht : (i 0).val / 5000 < cfg3.N := by rw [hN]; omega
  refine ⟨⟨(i 0).val / 5000, ht⟩, flush3_5 _, ?_⟩
  rw [mem_blk3]
  obtain ⟨-, -, -, -, -, -, -, -, -, -, e0, e1⟩ := idx_facts3 ⟨(i 0).val / 5000, ht⟩
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val ∧ (i 1).val < win3_5.index ⟨(i 0).val / 5000, ht⟩ (1 : Fin 2) * 64 + 64
    rw [e1]; omega

/-- The output array after the region: the combine step of the five arrays the region reads. -/
theorem value3 (c : Dev nD) :
    (dat3 (F := Ideal) V c).arrAt 5 cfg3.N
      = sageSpec (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed3_eq V c t) (cover3)

end Cert.KernelIdeal.HandValue

end
-- ==== Proof.KiBnStats4.lean ====
/-
  Region 4 (batch statistics of a [50000, 64] array accumulated over ten row tiles of 5000): the two output arrays
  after the region are the accumulated mean and variance rows of the input array as the region finds it.

  What each control case leaves: the first point sets the two scratch rows to the zero rows plus the tile's column
  sums (of the entries, of their squares); every later point adds the tile's column sums onto what the point before
  left; the last point also stores the mean row (first scratch row over the row count) and the variance row (second
  scratch row over the row count, less the squared mean). By induction on the point, after point n the scratch rows
  hold, at column s, the running values after n + 1 tiles of column s and of its squares. The outputs are written
  back once, at the last point, and that block is the whole [1, 64] array.
-/
import proofs.«159573_j34617436406345_1_alg».proof.Proof.KiRegion4
import proofs.«159573_j34617436406345_1_alg».proof.Proof.KiBnStatsPay
import Idealize.ShloMosaic.Lib.Pipeline.Value
import Idealize.ShloMosaic.Lib.Tactic

set_option maxRecDepth 16384

noncomputable section

namespace Cert.KernelIdeal.HandValue

open Finset Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.Hand

theorem hzS4 : (![0, 0] : Fin 2 → Nat) = fun _ => 0 := funext fun a => by fin_cases a <;> rfl

/-! ## What each control case leaves, as the body's arithmetic of what it read -/

section Pieces

variable {F : FTy → Type} [FloatOps F]

/-- First point, sum row: the zero row plus the tile's column sums. -/
theorem sout4_A_0_eq (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) :
    sout4_A_0 c i arg1 harg1 arg2 harg2 arg3 harg3 arg4 harg4 arg5 harg5 hc0 hc1 x0 = k4_pay4 x0 k4_pay1 := by
  unfold sout4_A_0
  rw [View.read_writes_eq_canon _ _ _ (scover4_A_0 c i arg1 harg1 arg2 harg2 arg3 harg3 arg4 harg4 arg5 harg5 hc0 hc1 x0)]
  unfold kernelRun4_A
  dsimp only
  try sl_unfold_words
  rw [View.canon_cons_unit_zero hzS4]
  simp only [View.readAt_eq_ld, harg1.read_unread, harg4.read_unread, harg5.read_unread,
    View.ld_unit_zero (S := S5000x64) hzS4, View.ld_unit_zero (S := S1x64) hzS4, View.readCov_unit_zero (S := S1x64) _ hzS4]

/-- First point, square-sum row. -/
theorem sout4_A_1_eq (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond4_0 i) (hc1 : ¬cond4_1 i)
    (x0 : Vec F S5000x64 .f32) :
    sout4_A_1 c i arg1 harg1 arg2 harg2 arg3 harg3 arg4 harg4 arg5 harg5 hc0 hc1 x0 = k4_pay5 x0 k4_pay2 := by
  unfold sout4_A_1
  rw [View.read_writes_eq_canon _ _ _ (scover4_A_1 c i arg1 harg1 arg2 harg2 arg3 harg3 arg4 harg4 arg5 harg5 hc0 hc1 x0)]
  unfold kernelRun4_A
  dsimp only
  try sl_unfold_words
  rw [View.canon_cons_unit_zero hzS4]
  simp only [View.readAt_eq_ld, harg1.read_unread, harg4.read_unread, harg5.read_unread,
    View.ld_unit_zero (S := S5000x64) hzS4, View.ld_unit_zero (S := S1x64) hzS4, View.readCov_unit_zero (S := S1x64) _ hzS4]

/-- Middle point, sum row: the row before plus the tile's column sums. -/
theorem sout4_B_0_eq (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) :
    sout4_B_0 c i arg1 harg1 arg2 harg2 arg3 harg3 arg4 harg4 arg5 harg5 hc0 hc1 x0 xs0 xs1 = k4_pay4 x0 xs0 := by
  unfold sout4_B_0
  rw [View.read_writes_eq_canon _ _ _ (scover4_B_0 c i arg1 harg1 arg2 harg2 arg3 harg3 arg4 harg4 arg5 harg5 hc0 hc1 x0 xs0 xs1)]
  unfold kernelRun4_B
  dsimp only
  try sl_unfold_words
  rw [View.canon_cons_unit_zero hzS4]
  simp only [View.readAt_eq_ld, harg1.read_unread, harg4.read_unread, harg5.read_unread,
    View.ld_unit_zero (S := S5000x64) hzS4, View.ld_unit_zero (S := S1x64) hzS4, View.readCov_unit_zero (S := S1x64) _ hzS4]

/-- Middle point, square-sum row. -/
theorem sout4_B_1_eq (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : ¬cond4_1 i)
    (x0 : Vec F S5000x64 .f32) (xs0 xs1 : Vec F S1x64 .f32) :
    sout4_B_1 c i arg1 harg1 arg2 harg2 arg3 harg3 arg4 harg4 arg5 harg5 hc0 hc1 x0 xs0 xs1 = k4_pay5 x0 xs1 := by
  unfold sout4_B_1
  rw [View.read_writes_eq_canon _ _ _ (scover4_B_1 c i arg1 harg1 arg2 harg2 arg3 harg3 arg4 harg4 arg5 harg5 hc0 hc1 x0 xs0 xs1)]
  unfold kernelRun4_B
  dsimp only
  try sl_unfold_words
  rw [View.canon_cons_unit_zero hzS4]
  simp only [View.readAt_eq_ld, harg1.read_unread, harg4.read_unread, harg5.read_unread,
    View.ld_unit_zero (S := S5000x64) hzS4, View.ld_unit_zero (S := S1x64) hzS4, View.readCov_unit_zero (S := S1x64) _ hzS4]

/-- Last point, sum row. -/
theorem sout4_C_0_eq (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) :
    sout4_C_0 c i arg1 harg1 arg2 harg2 arg3 harg3 arg4 harg4 arg5 harg5 hc0 hc1 x0 xs0 xs1 = k4_pay4 x0 xs0 := by
  unfold sout4_C_0
  rw [View.read_writes_eq_canon _ _ _ (scover4_C_0 c i arg1 harg1 arg2 harg2 arg3 harg3 arg4 harg4 arg5 harg5 hc0 hc1 x0 xs0 xs1)]
  unfold kernelRun4_C
  dsimp only
  try sl_unfold_words
  rw [View.canon_cons_unit_zero hzS4]
  simp only [View.readAt_eq_ld, harg1.read_unread, harg4.read_unread, harg5.read_unread,
    View.ld_unit_zero (S := S5000x64) hzS4, View.ld_unit_zero (S := S1x64) hzS4, View.readCov_unit_zero (S := S1x64) _ hzS4]

/-- Last point, square-sum row. -/
theorem sout4_C_1_eq (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) :
    sout4_C_1 c i arg1 harg1 arg2 harg2 arg3 harg3 arg4 harg4 arg5 harg5 hc0 hc1 x0 xs0 xs1 = k4_pay5 x0 xs1 := by
  unfold sout4_C_1
  rw [View.read_writes_eq_canon _ _ _ (scover4_C_1 c i arg1 harg1 arg2 harg2 arg3 harg3 arg4 harg4 arg5 harg5 hc0 hc1 x0 xs0 xs1)]
  unfold kernelRun4_C
  dsimp only
  try sl_unfold_words
  rw [View.canon_cons_unit_zero hzS4]
  simp only [View.readAt_eq_ld, harg1.read_unread, harg4.read_unread, harg5.read_unread,
    View.ld_unit_zero (S := S5000x64) hzS4, View.ld_unit_zero (S := S1x64) hzS4, View.readCov_unit_zero (S := S1x64) _ hzS4]

/-- Last point, the mean row stored. -/
theorem out4_C_1_eq (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) :
    out4_C_1 c i arg1 harg1 arg2 harg2 arg3 harg3 arg4 harg4 arg5 harg5 hc0 hc1 x0 xs0 xs1 = k4_pay6 (k4_pay4 x0 xs0) := by
  unfold out4_C_1
  rw [View.read_writes_eq_canon _ _ _ (cover4_C_1 c i arg1 harg1 arg2 harg2 arg3 harg3 arg4 harg4 arg5 harg5 hc0 hc1 x0 xs0 xs1)]
  unfold kernelRun4_C
  dsimp only
  try sl_unfold_words
  rw [View.canon_cons_unit_zero hzS4]
  simp only [View.readAt_eq_ld, harg1.read_unread, harg4.read_unread, harg5.read_unread,
    View.ld_unit_zero (S := S5000x64) hzS4, View.ld_unit_zero (S := S1x64) hzS4, View.readCov_unit_zero (S := S1x64) _ hzS4]

/-- Last point, the variance row stored. -/
theorem out4_C_2_eq (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (hc1 : cond4_1 i)
    (x0 : Vec F S5000x64 .f32) (xs0 xs1 : Vec F S1x64 .f32) :
    out4_C_2 c i arg1 harg1 arg2 harg2 arg3 harg3 arg4 harg4 arg5 harg5 hc0 hc1 x0 xs0 xs1 = k4_pay7 (k4_pay4 x0 xs0) (k4_pay5 x0 xs1) := by
  unfold out4_C_2
  rw [View.read_writes_eq_canon _ _ _ (cover4_C_2 c i arg1 harg1 arg2 harg2 arg3 harg3 arg4 harg4 arg5 harg5 hc0 hc1 x0 xs0 xs1)]
  unfold kernelRun4_C
  dsimp only
  try sl_unfold_words
  rw [View.canon_cons_unit_zero hzS4]
  simp only [View.readAt_eq_ld, harg1.read_unread, harg4.read_unread, harg5.read_unread,
    View.ld_unit_zero (S := S5000x64) hzS4, View.ld_unit_zero (S := S1x64) hzS4, View.readCov_unit_zero (S := S1x64) _ hzS4]

end Pieces

/-! ## The scratch rows after each point -/

variable (V : (c : Dev nD) → (b : Ref sig .tc) → Buf (Elt Ideal) ((c : Thread nD τ).loc b))

/-- The printed index maps over the grid: the input window sits at row block t, the two output windows at their one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- The input window's block at point t holds, at (i, s), row i of tile t of column s. -/
theorem iblk4_0_apply (c : Dev nD) (t : Fin cfg4.N) (ht : t.val < 10) (i : Fin 5000) (s : Fin 64) :
    (iblk4 (F := Ideal) V c 0 t : S5000x64.Idx → EReal) (ix2 i s)
      = colOf (V c (Pipeline.arrRef spec4 0)) s (tileRow ⟨t.val, ht⟩ i) := by
  obtain ⟨e0, e1, -⟩ := idx_facts4 t
  unfold iblk4 colOf
  rw [View.read_apply]
  show (V c (Pipeline.arrRef spec4 0) : S50000x64.Idx → EReal) (((cfg4.win 0).blk t).view.emb (ix2 i s)) = _
  refine congrArg (V c (Pipeline.arrRef spec4 0) : S50000x64.Idx → EReal) (funext fun a => Fin.ext ?_)
  match a with
  | ⟨0, _⟩ => show win4_0.index t (0 : Fin 2) * 5000 + 1 * i.val = t.val * 5000 + i.val; omega
  | ⟨1, _⟩ => show win4_0.index t (1 : Fin 2) * 64 + 1 * s.val = s.val; omega

/-- One tile added onto the sum row: the running value one tile further. -/
theorem step4_row0 (x : Vec Ideal S5000x64 .f32) (a : Vec Ideal S1x64 .f32) (f : Fin 50000 → EReal) (n : ℕ) (hn : n < 10)
    (u : Fin 1) (s : Fin 64) (hx : ∀ i : Fin 5000, x (ix2 i s) = f (tileRow ⟨n, hn⟩ i)) (ha : a (ix2 u s) = accK f n) :
    (k4_pay4 x a : S1x64.Idx → EReal) (ix2 u s) = accK f (n + 1) := by
  rw [k4_pay4_apply, accK_succ f n hn, ha]
  exact congrArg (accK f n + ·) (Finset.sum_congr rfl fun i _ => hx i)

/-- One tile's squares added onto the square-sum row. -/
theorem step4_row1 (x : Vec Ideal S5000x64 .f32) (a : Vec Ideal S1x64 .f32) (f : Fin 50000 → EReal) (n : ℕ) (hn : n < 10)
    (u : Fin 1) (s : Fin 64) (hx : ∀ i : Fin 5000, x (ix2 i s) = f (tileRow ⟨n, hn⟩ i))
    (ha : a (ix2 u s) = accK (fun r => f r * f r) n) :
    (k4_pay5 x a : S1x64.Idx → EReal) (ix2 u s) = accK (fun r => f r * f r) (n + 1) := by
  rw [k4_pay5_apply, accK_succ _ n hn, ha]
  exact congrArg (accK (fun r => f r * f r) n + ·) (Finset.sum_congr rfl fun i _ => by rw [hx i])

/-- After point n the two scratch rows hold, at column s, the running values after n + 1 tiles. -/
theorem sAt4_eq (c : Dev nD) : ∀ (n : ℕ) (hn : n < cfg4.N) (u : Fin 1) (s : Fin 64),
    ((sAt4 (F := Ideal) V c n hn).1 : S1x64.Idx → EReal) (ix2 u s) = accK (colOf (V c (Pipeline.arrRef spec4 0)) s) (n + 1)
    ∧ ((sAt4 (F := Ideal) V c n hn).2 : S1x64.Idx → EReal) (ix2 u s)
        = accK (fun r => colOf (V c (Pipeline.arrRef spec4 0)) s r * colOf (V c (Pipeline.arrRef spec4 0)) s r) (n + 1) := by
  have hN : cfg4.N = 10 := N_4
  intro n
  induction n with
  | zero =>
    intro hn u s
    have hc0 : cond4_0 (grid4.coords ⟨0, hn⟩) := (hcond4_0 ⟨0, hn⟩).mpr rfl
    have hc1 : ¬cond4_1 (grid4.coords ⟨0, hn⟩) := fun h => by have h9 := (hcond4_1 ⟨0, hn⟩).mp h; simp at h9
    have e := sAt4_A V c ⟨0, hn⟩ rfl hc0 hc1
    rw [show sAt4 V c 0 hn = _ from e]
    dsimp only
    rw [sout4_A_0_eq, sout4_A_1_eq]
    exact ⟨step4_row0 _ _ _ 0 (by norm_num) u s (fun i => iblk4_0_apply V c ⟨0, hn⟩ (by norm_num) i s) (k4_pay1_apply u s),
      step4_row1 _ _ _ 0 (by norm_num) u s (fun i => iblk4_0_apply V c ⟨0, hn⟩ (by norm_num) i s) (k4_pay2_apply u s)⟩
  | succ n ih =>
    intro hn u s
    have hn10 : n + 1 < 10 := hN ▸ hn
    have ih' := ih (Nat.lt_of_succ_lt hn) u s
    have hc0 : ¬cond4_0 (grid4.coords ⟨n + 1, hn⟩) := fun h => absurd ((hcond4_0 ⟨n + 1, hn⟩).mp h) (Nat.succ_ne_zero n)
    by_cases h9 : n + 1 = 9
    · have hc1 : cond4_1 (grid4.coords ⟨n + 1, hn⟩) := (hcond4_1 ⟨n + 1, hn⟩).mpr h9
      have e := sAt4_C V c ⟨n + 1, hn⟩ h9 hc0 hc1
      rw [show sAt4 V c (n + 1) hn = _ from e]
      dsimp only
      rw [sout4_C_0_eq, sout4_C_1_eq]
      exact ⟨step4_row0 _ _ _ (n + 1) hn10 u s (fun i => iblk4_0_apply V c ⟨n + 1, hn⟩ hn10 i s) ih'.1,
        step4_row1 _ _ _ (n + 1) hn10 u s (fun i => iblk4_0_apply V c ⟨n + 1, hn⟩ hn10 i s) ih'.2⟩
    · have hc1 : ¬cond4_1 (grid4.coords ⟨n + 1, hn⟩) := fun h => h9 ((hcond4_1 ⟨n + 1, hn⟩).mp h)
      have e := sAt4_B V c ⟨n + 1, hn⟩ (Nat.succ_ne_zero n) h9 hc0 hc1
      rw [show sAt4 V c (n + 1) hn = _ from e]
      dsimp only
      rw [sout4_B_0_eq, sout4_B_1_eq]
      exact ⟨step4_row0 _ _ _ (n + 1) hn10 u s (fun i => iblk4_0_apply V c ⟨n + 1, hn⟩ hn10 i s) ih'.1,
        step4_row1 _ _ _ (n + 1) hn10 u s (fun i => iblk4_0_apply V c ⟨n + 1, hn⟩ hn10 i s) ih'.2⟩

/-! ## The two outputs -/

/-- What the last point stores: the accumulated mean and variance rows. -/
theorem oAt4_last (c : Dev nD) (t : Fin cfg4.N) (h9 : t.val = 9) :
    ((oAt4 (F := Ideal) V c t).1 : S1x64.Idx → EReal) = bnMeanK (V c (Pipeline.arrRef spec4 0))
    ∧ ((oAt4 (F := Ideal) V c t).2 : S1x64.Idx → EReal) = bnVarK (V c (Pipeline.arrRef spec4 0)) := by
  have hN : cfg4.N = 10 := N_4
  have hc0 : ¬cond4_0 (grid4.coords t) := fun h => by have := (hcond4_0 t).mp h; omega
  have hc1 : cond4_1 (grid4.coords t) := (hcond4_1 t).mpr h9
  rw [oAt4_C V c t h9 hc0 hc1]
  dsimp only
  rw [out4_C_1_eq, out4_C_2_eq]
  have hs := sAt4_eq V c (t.val - 1) (Nat.lt_of_le_of_lt (Nat.sub_le _ _) t.isLt)
  have ht9 : t.val - 1 + 1 = 9 := by omega
  have hx : ∀ (s : Fin 64) (i : Fin 5000), (iblk4 (F := Ideal) V c 0 t : S5000x64.Idx → EReal) (ix2 i s)
      = colOf (V c (Pipeline.arrRef spec4 0)) s (tileRow ⟨9, by norm_num⟩ i) := fun s i => by
    rw [iblk4_0_apply V c t (by omega) i s]
    exact congrArg (fun k : Fin 10 => colOf (V c (Pipeline.arrRef spec4 0)) s (tileRow k i)) (Fin.ext h9)
  have h0 : ∀ (u : Fin 1) (s : Fin 64), (k4_pay4 (iblk4 (F := Ideal) V c 0 t) (sAt4 (F := Ideal) V c (t.val - 1) (Nat.lt_of_le_of_lt (Nat.sub_le _ _) t.isLt)).1 : S1x64.Idx → EReal) (ix2 u s)
      = accK (colOf (V c (Pipeline.arrRef spec4 0)) s) 10 := fun u s =>
    step4_row0 _ _ _ 9 (by norm_num) u s (hx s) (by rw [(hs u s).1, ht9])
  have h1 : ∀ (u : Fin 1) (s : Fin 64), (k4_pay5 (iblk4 (F := Ideal) V c 0 t) (sAt4 (F := Ideal) V c (t.val - 1) (Nat.lt_of_le_of_lt (Nat.sub_le _ _) t.isLt)).2 : S1x64.Idx → EReal) (ix2 u s)
      = accK (fun r => colOf (V c (Pipeline.arrRef spec4 0)) s r * colOf (V c (Pipeline.arrRef spec4 0)) s r) 10 := fun u s =>
    step4_row1 _ _ _ 9 (by norm_num) u s (hx s) (by rw [(hs u s).2, ht9])
  refine ⟨funext fun j => ?_, funext fun j => ?_⟩
  · obtain ⟨u, s, rfl⟩ : ∃ (u : Fin 1) (s : Fin 64), j = ix2 u s := ⟨j 0, j 1, eq_ix2 j⟩
    rw [k4_pay6_apply, h0, bnMeanK_apply]
    rfl
  · obtain ⟨u, s, rfl⟩ : ∃ (u : Fin 1) (s : Fin 64), j = ix2 u s := ⟨j 0, j 1, eq_ix2 j⟩
    rw [k4_pay7_apply, h0, h1, bnVarK_apply]
    rfl

/-- An output window's block, at any point, is its whole [1, 64] array. -/
theorem blk4_1_read (t : Fin cfg4.N) (G : S1x64.Idx → EReal) :
    (((cfg4.win 1).blk t).view.read (Elt Ideal) G : S1x64.Idx → EReal) = G := by
  obtain ⟨-, -, e2, e3, -, -⟩ := idx_facts4 t
  funext y
  rw [View.read_apply]
  show G (((cfg4.win 1).blk t).view.emb y) = G y
  refine congrArg G (funext fun a => Fin.ext ?_)
  match a with
  | ⟨0, _⟩ => show win4_1.index t (0 : Fin 2) * 1 + 1 * (y 0).val = (y 0).val; omega
  | ⟨1, _⟩ => show win4_1.index t (1 : Fin 2) * 64 + 1 * (y 1).val = (y 1).val; omega

theorem blk4_2_read (t : Fin cfg4.N) (G : S1x64.Idx → EReal) :
    (((cfg4.win 2).blk t).view.read (Elt Ideal) G : S1x64.Idx → EReal) = G := by
  obtain ⟨-, -, -, -, e4, e5⟩ := idx_facts4 t
  funext y
  rw [View.read_apply]
  show G (((cfg4.win 2).blk t).view.emb y) = G y
  refine congrArg G (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- The one write-back of the mean, at the last point, writes the accumulated mean row. -/
theorem flushed4_1_eq (c : Dev nD) (t : Fin cfg4.N) (hf : (cfg4.win 1).flush t = true) :
    (dat4 (F := Ideal) V c).flushed 1 t
      = ((cfg4.win 1).blk t).view.read (Elt Ideal) (bnMeanK (V c (Pipeline.arrRef spec4 0))) := by
  have hN : cfg4.N = 10 := N_4
  have h9 : t.val = 9 := by have := (flush4_1 t).mp hf; have := t.isLt; omega
  show (cfg4.win 1).cut (grid4.coords t) ((dat4 (F := Ideal) V c).after 1 t) = _
  rw [after4_1]
  exact (oAt4_last V c t h9).1.trans (blk4_1_read t _).symm

/-- The one write-back of the variance, at the last point, writes the accumulated variance row. -/
theorem flushed4_2_eq (c : Dev nD) (t : Fin cfg4.N) (hf : (cfg4.win 2).flush t = true) :
    (dat4 (F := Ideal) V c).flushed 2 t
      = ((cfg4.win 2).blk t).view.read (Elt Ideal) (bnVarK (V c (Pipeline.arrRef spec4 0))) := by
  have hN : cfg4.N = 10 := N_4
  have h9 : t.val = 9 := by have := (flush4_2 t).mp hf; have := t.isLt; omega
  show (cfg4.win 2).cut (grid4.coords t) ((dat4 (F := Ideal) V c).after 2 t) = _
  rw [after4_2]
  exact (oAt4_last V c t h9).2.trans (blk4_2_read t _).symm

/-- The last point's block of either output covers its array. -/
theorem cover4_1 (i : S1x64.Idx) : ∃ t : Fin cfg4.N, (cfg4.win 1).flush t = true ∧ i ∈ ((cfg4.win 1).blk t).view.set := by
  have hN : grid4.N = 10 := N_4
  have hi0 : (i 0).val < 1 := (i 0).isLt
  have hi1 : (i 1).val < 64 := (i 1).isLt
  let t : Fin cfg4.N := ⟨9, by show 9 < grid4.N; omega⟩
  obtain ⟨-, -, e2, e3, -, -⟩ := idx_facts4 t
  refine ⟨t, (flush4_1 t).mpr rfl, ?_⟩
  show i ∈ ((View.whole main_v41_0).slice (win4_1.rect t)).set
  rw [View.set_slice_whole, Rect.mem_set_unit]
  intro a
  match a with
  | ⟨0, _⟩ => show win4_1.index t (0 : Fin 2) * 1 ≤ (i 0).val ∧ (i 0).val < win4_1.index t (0 : Fin 2) * 1 + 1; omega
  | ⟨1, _⟩ => show win4_1.index t (1 : Fin 2) * 64 ≤ (i 1).val ∧ (i 1).val < win4_1.index t (1 : Fin 2) * 64 + 64; omega

theorem cover4_2 (i : S1x64.Idx) : ∃ t : Fin cfg4.N, (cfg4.win 2).flush t = true ∧ i ∈ ((cfg4.win 2).blk t).view.set := by
  have hN : grid4.N = 10 := N_4
  have hi0 : (i 0).val < 1 := (i 0).isLt
  have hi1 : (i 1).val < 64 := (i 1).isLt
  let t : Fin cfg4.N := ⟨9, by show 9 < grid4.N; omega⟩
  obtain ⟨-, -, -, -, e4, e5⟩ := idx_facts4 t
  refine ⟨t, (flush4_2 t).mpr rfl, ?_⟩
  show i ∈ ((View.whole main_v41_1).slice (win4_2.rect t)).set
  rw [View.set_slice_whole, Rect.mem_set_unit]
  intro a
  match a with
  | ⟨0, _⟩ => show win4_2.index t (0 : Fin 2) * 1 ≤ (i 0).val ∧ (i 0).val < win4_2.index t (0 : Fin 2) * 1 + 1; omega
  | ⟨1, _⟩ => show win4_2.index t (1 : Fin 2) * 64 ≤ (i 1).val ∧ (i 1).val < win4_2.index t (1 : Fin 2) * 64 + 64; omega

/-- The mean array after the region: the accumulated mean row of the input array as the region finds it. -/
theorem value4_mean (c : Dev nD) :
    (dat4 (F := Ideal) V c).arrAt 1 cfg4.N = bnMeanK (V c (Pipeline.arrRef spec4 0)) :=
  (dat4 (F := Ideal) V c).arrAt_eq_of_cover 1 _ (fun t hf => flushed4_1_eq V c t hf) cover4_1

/-- The variance array after the region: the accumulated variance row of the input array as the region finds it. -/
theorem value4_var (c : Dev nD) :
    (dat4 (F := Ideal) V c).arrAt 2 cfg4.N = bnVarK (V c (Pipeline.arrRef spec4 0)) :=
  (dat4 (F := Ideal) V c).arrAt_eq_of_cover 2 _ (fun t hf => flushed4_2_eq V c t hf) cover4_2

end Cert.KernelIdeal.HandValue

end
-- ==== Proof.KiBnApply5.lean ====
/-
  Region 5 (normalisation applied to a [50000, 64] array in ten row tiles of 5000): the output array after the
  region is the normalised array of the five operand arrays as the region finds them.

  At point t the body reads rows 5000·t … 5000·t + 4999 of x and the four whole [1, 64] rows, and writes back the
  entry arithmetic of those; that is block t of the one whole-array function. Row r lies in tile r / 5000, so the ten
  blocks cover the array.
-/
import proofs.«159573_j34617436406345_1_alg».proof.Proof.KiRegion5
import proofs.«159573_j34617436406345_1_alg».proof.Proof.KiBnApplyPay
import Idealize.ShloMosaic.Lib.Pipeline.Value

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the x window and the output window sit at row block t, the four row
    windows at their one block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The stored value at an entry of the block, from what the loaded blocks hold there. -/
theorem pay5_at (x0 : Vec Ideal S5000x64 .f32) (x1 x2 x3 x4 : Vec Ideal S1x64 .f32)
    (A0 : Sh50000x64.Idx → EReal) (A1 A2 A3 A4 : Sh1x64.Idx → EReal) (j : S5000x64.Idx) (i : S50000x64.Idx)
    (h0 : x0 j = A0 i) (h1 : x1 = A1) (h2 : x2 = A2) (h3 : x3 = A3) (h4 : x4 = A4) (hi : (i 1).val = (j 1).val) :
    (k5_pay1 x0 x1 x2 x3 x4 : S5000x64.Idx → EReal) j = bnApplySpec A0 A1 A2 A3 A4 i := by
  subst h1 h2 h3 h4
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hi
  rw [k5_pay1_apply, bnApplySpec_apply, h0]

/-- The x window's block at point t holds rows 5000·t … of the array. -/
theorem iblk5_0_apply (c : Dev nD) (t : Fin cfg5.N) (y : S5000x64.Idx) :
    (iblk5 (F := Ideal) V c 0 t : S5000x64.Idx → EReal) y
      = (V c (Pipeline.arrRef spec5 0) : S50000x64.Idx → EReal) (((cfg5.win 5).blk t).view.emb y) := by
  obtain ⟨e0, e1, -, -, -, -, -, -, -, -, e10, e11⟩ := idx_facts5 t
  unfold iblk5
  rw [View.read_apply]
  show (V c (Pipeline.arrRef spec5 0) : S50000x64.Idx → EReal) (((cfg5.win 0).blk t).view.emb y) = _
  refine congrArg (V c (Pipeline.arrRef spec5 0) : S50000x64.Idx → EReal) (funext fun a => Fin.ext ?_)
  match a with
  | ⟨0, _⟩ => show win5_0.index t (0 : Fin 2) * 5000 + 1 * (y 0).val = win5_5.index t (0 : Fin 2) * 5000 + 1 * (y 0).val; omega
  | ⟨1, _⟩ => show win5_0.index t (1 : Fin 2) * 64 + 1 * (y 1).val = win5_5.index t (1 : Fin 2) * 64 + 1 * (y 1).val; omega

/-- Row window 1's block at any point is its whole array. -/
theorem iblk5_1_eq (c : Dev nD) (t : Fin cfg5.N) :
    (iblk5 (F := Ideal) V c 1 t : S1x64.Idx → EReal) = (V c (Pipeline.arrRef spec5 1) : S1x64.Idx → EReal) := by
  obtain ⟨-, -, e2, e3, e4, e5, e6, e7, e8, e9, -, -⟩ := idx_facts5 t
  funext y
  unfold iblk5
  rw [View.read_apply]
  show (V c (Pipeline.arrRef spec5 1) : S1x64.Idx → EReal) (((cfg5.win 1).blk t).view.emb y) = _
  congr 1
  funext a; apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- Row window 2's block at any point is its whole array. -/
theorem iblk5_2_eq (c : Dev nD) (t : Fin cfg5.N) :
    (iblk5 (F := Ideal) V c 2 t : S1x64.Idx → EReal) = (V c (Pipeline.arrRef spec5 2) : S1x64.Idx → EReal) := by
  obtain ⟨-, -, e2, e3, e4, e5, e6, e7, e8, e9, -, -⟩ := idx_facts5 t
  funext y
  unfold iblk5
  rw [View.read_apply]
  show (V c (Pipeline.arrRef spec5 2) : S1x64.Idx → EReal) (((cfg5.win 2).blk t).view.emb y) = _
  congr 1
  funext a; apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- Row window 3's block at any point is its whole array. -/
theorem iblk5_3_eq (c : Dev nD) (t : Fin cfg5.N) :
    (iblk5 (F := Ideal) V c 3 t : S1x64.Idx → EReal) = (V c (Pipeline.arrRef spec5 3) : S1x64.Idx → EReal) := by
  obtain ⟨-, -, e2, e3, e4, e5, e6, e7, e8, e9, -, -⟩ := idx_facts5 t
  funext y
  unfold iblk5
  rw [View.read_apply]
  show (V c (Pipeline.arrRef spec5 3) : S1x64.Idx → EReal) (((cfg5.win 3).blk t).view.emb y) = _
  congr 1
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Row window 4's block at any point is its whole array. -/
theorem iblk5_4_eq (c : Dev nD) (t : Fin cfg5.N) :
    (iblk5 (F := Ideal) V c 4 t : S1x64.Idx → EReal) = (V c (Pipeline.arrRef spec5 4) : S1x64.Idx → EReal) := by
  obtain ⟨-, -, e2, e3, e4, e5, e6, e7, e8, e9, -, -⟩ := idx_facts5 t
  funext y
  unfold iblk5
  rw [View.read_apply]
  show (V c (Pipeline.arrRef spec5 4) : S1x64.Idx → EReal) (((cfg5.win 4).blk t).view.emb y) = _
  congr 1
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- What point t writes back is block t of the normalised array. -/
theorem flushed5_eq (c : Dev nD) (t : Fin cfg5.N) :
    (dat5 (F := Ideal) V c).flushed 5 t = ((cfg5.win 5).blk t).view.read (Elt Ideal)
      (bnApplySpec (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero hz5]
  simp only [View.ld_unit_zero (S := S5000x64) hz5, View.ld_unit_zero (S := S1x64) hz5]
  obtain ⟨-, -, -, -, -, -, -, -, -, -, e10, e11⟩ := idx_facts5 t
  funext j
  refine pay5_at _ _ _ _ _ _ _ _ _ _ j (((cfg5.win 5).blk t).view.emb j) (iblk5_0_apply V c t j)
    (iblk5_1_eq V c t) (iblk5_2_eq V c t) (iblk5_3_eq V c t) (iblk5_4_eq V c t) ?_
  show win5_5.index t (1 : Fin 2) * 64 + 1 * (j 1).val = (j 1).val
  omega

/-- An index of the array is in point t's block iff each coordinate is in the block's range on its axis. -/
theorem mem_blk5 (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v44).slice (win5_5.rect t)).set ↔ _
  rw [View.set_slice_whole, Rect.mem_set_unit]
  exact Iff.rfl

/-- Row r lies in the block of point r / 5000. -/
theorem cover5 (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  have hN : grid5.N = 10 := N_5
  let t : Fin cfg5.N := ⟨(i 0).val / 5000, by show (i 0).val / 5000 < grid5.N; omega⟩
  obtain ⟨-, -, -, -, -, -, -, -, -, -, e10, e11⟩ := idx_facts5 t
  have ht : t.val = (i 0).val / 5000 := rfl
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

/-- The output array after the region: the normalised array of the operands as the region finds them. -/
theorem value5 (c : Dev nD) :
    (dat5 (F := Ideal) V c).arrAt 5 cfg5.N
      = bnApplySpec (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 5 _ (fun t _ => flushed5_eq V c t) (cover5)

end Cert.KernelIdeal.HandValue

end
-- ==== Proof.KiValueB.lean ====
/-
  The kernel program's second round, boundary by boundary, relative to the rows the first round left: their neighbourhood
  mean and the combine (the fourth region), its accumulated column means and variances (the fifth), and the normalisation
  (the sixth).
-/
import proofs.«159573_j34617436406345_1_alg».proof.Proof.KiFrame
import proofs.«159573_j34617436406345_1_alg».proof.Proof.KiHostVal0
import proofs.«159573_j34617436406345_1_alg».proof.Proof.KiHostVal3
import proofs.«159573_j34617436406345_1_alg».proof.Proof.KiHostVal6
import proofs.«159573_j34617436406345_1_alg».proof.Proof.KiSageValue3
import proofs.«159573_j34617436406345_1_alg».proof.Proof.KiSageRef
import proofs.«159573_j34617436406345_1_alg».proof.Proof.KiBnStats4
import proofs.«159573_j34617436406345_1_alg».proof.Proof.KiBnApply5
import proofs.«159573_j34617436406345_1_alg».proof.Proof.KiBnNorm

set_option maxRecDepth 16384

noncomputable section

namespace Cert.KernelIdeal.HandValue

open Idealize.ShloMosaic Idealize.ShloMosaic.TcCoe Idealize.SL.Sem
open Cert.KernelIdeal Cert.KernelIdeal.Gen Cert.KernelIdeal.Hand RegionRecord
open Cert.ReferenceIdeal.Hand (refInvDeg refAgg refSageStage refLayer refNorm refPoolStage refMlpStage refTerm)

variable (m : (ℓ : Loc nD τ sig) → Buf (Elt Ideal) ℓ) (c : Dev nD)

/-- Region 3's output array, the five arrays it reads being given. -/
theorem sage3_of (V : (c : Dev nD) → (b : Ref sig .tc) → Buf (Elt Ideal) ((c : Thread nD τ).loc b)) (c : Dev nD)
    {x agg : (⟨2, ![50000, 64]⟩ : Shape).Idx → EReal} {ws wn : (⟨2, ![64, 64]⟩ : Shape).Idx → EReal} {b : (⟨2, ![1, 64]⟩ : Shape).Idx → EReal}
    (h0 : V c (Pipeline.arrRef spec3 0) = x) (h1 : V c (Pipeline.arrRef spec3 1) = agg) (h2 : V c (Pipeline.arrRef spec3 2) = ws)
    (h3 : V c (Pipeline.arrRef spec3 3) = wn) (h4 : V c (Pipeline.arrRef spec3 4) = b) :
    (dat3 (F := Ideal) V c).arrAt 5 cfg3.N = sageSpec x agg ws wn b := by
  subst h0 h1 h2 h3 h4
  exact value3 V c

/-- Region 5's output array, the five arrays it reads being given. -/
theorem bn5_of (V : (c : Dev nD) → (b : Ref sig .tc) → Buf (Elt Ideal) ((c : Thread nD τ).loc b)) (c : Dev nD)
    {x : Sh50000x64.Idx → EReal} {mean var g be : Sh1x64.Idx → EReal}
    (h0 : V c (Pipeline.arrRef spec5 0) = x) (h1 : V c (Pipeline.arrRef spec5 1) = mean) (h2 : V c (Pipeline.arrRef spec5 2) = var)
    (h3 : V c (Pipeline.arrRef spec5 3) = g) (h4 : V c (Pipeline.arrRef spec5 4) = be) :
    (dat5 (F := Ideal) V c).arrAt 5 cfg5.N = bnApplySpec x mean var g be := by
  subst h0 h1 h2 h3 h4
  exact value5 V c

/-- The neighbourhood mean of the normalised rows, as the host operations before the fourth region leave it: the
    reciprocal degrees are still those the first stretch computed. -/
theorem Wv6_agg : Wv6 (F := Ideal) m c (Proc.devRef .tc main_v38) = refAgg (Wv5 (F := Ideal) m c (Proc.devRef .tc main_v26)) (Wv0 (F := Ideal) m c (Proc.devRef .tc main_arg1)) (Wv0 (F := Ideal) m c (Proc.devRef .tc main_arg2)) (refInvDeg (Wv0 (F := Ideal) m c (Proc.devRef .tc main_arg2))) := by
  have k1 : Wv5 (F := Ideal) m c (Proc.devRef .tc main_arg1) = (Wv0 (F := Ideal) m c (Proc.devRef .tc main_arg1)) := (Wv5_keep m c main_arg1 (by decide)).trans <| (StableHlo.after_of_writes_sub (hostOps2 (F := Ideal)) _ hostOps2_writes (by decide) : Wv4 (F := Ideal) m c (Proc.devRef .tc main_arg1) = Wv3 (F := Ideal) m c (Proc.devRef .tc main_arg1)).trans <| (Wv3_keep m c main_arg1 (by decide)).trans <| (Wv2_keep m c main_arg1 (by decide)).trans <| (StableHlo.after_of_writes_sub (hostOps0 (F := Ideal)) _ hostOps0_writes (by decide) : Wv1 (F := Ideal) m c (Proc.devRef .tc main_arg1) = Wv0 (F := Ideal) m c (Proc.devRef .tc main_arg1))
  have k2 : Wv5 (F := Ideal) m c (Proc.devRef .tc main_arg2) = (Wv0 (F := Ideal) m c (Proc.devRef .tc main_arg2)) := (Wv5_keep m c main_arg2 (by decide)).trans <| (StableHlo.after_of_writes_sub (hostOps2 (F := Ideal)) _ hostOps2_writes (by decide) : Wv4 (F := Ideal) m c (Proc.devRef .tc main_arg2) = Wv3 (F := Ideal) m c (Proc.devRef .tc main_arg2)).trans <| (Wv3_keep m c main_arg2 (by decide)).trans <| (Wv2_keep m c main_arg2 (by decide)).trans <| (StableHlo.after_of_writes_sub (hostOps0 (F := Ideal)) _ hostOps0_writes (by decide) : Wv1 (F := Ideal) m c (Proc.devRef .tc main_arg2) = Wv0 (F := Ideal) m c (Proc.devRef .tc main_arg2))
  have k8 : Wv5 (F := Ideal) m c (Proc.devRef .tc main_v8) = (refInvDeg (Wv0 (F := Ideal) m c (Proc.devRef .tc main_arg2))) := ((Wv5_keep m c main_v8 (by decide)).trans <| (StableHlo.after_of_writes_sub (hostOps2 (F := Ideal)) _ hostOps2_writes (by decide) : Wv4 (F := Ideal) m c (Proc.devRef .tc main_v8) = Wv3 (F := Ideal) m c (Proc.devRef .tc main_v8)).trans <| (Wv3_keep m c main_v8 (by decide)).trans <| (Wv2_keep m c main_v8 (by decide))).trans (hostOps0_v8 (Wv0 m c))
  have e := hostOps3_v38 (Wv5 (F := Ideal) m c)
  rw [k1, k2, k8] at e
  exact e
theorem Wv6_b : Wv6 (F := Ideal) m c (Proc.devRef .tc main_v39) = shapeCast S1x64 (Wv0 (F := Ideal) m c (Proc.devRef .tc main_arg10) : (⟨S64, .f32⟩ : BufTy).Contents (Elt Ideal)) shapeCasts_S64_S1x64 := by
  have hk : Wv5 (F := Ideal) m c (Proc.devRef .tc main_arg10) = (Wv0 (F := Ideal) m c (Proc.devRef .tc main_arg10)) := (Wv5_keep m c main_arg10 (by decide)).trans <| (StableHlo.after_of_writes_sub (hostOps2 (F := Ideal)) _ hostOps2_writes (by decide) : Wv4 (F := Ideal) m c (Proc.devRef .tc main_arg10) = Wv3 (F := Ideal) m c (Proc.devRef .tc main_arg10)).trans <| (Wv3_keep m c main_arg10 (by decide)).trans <| (Wv2_keep m c main_arg10 (by decide)).trans <| (StableHlo.after_of_writes_sub (hostOps0 (F := Ideal)) _ hostOps0_writes (by decide) : Wv1 (F := Ideal) m c (Proc.devRef .tc main_arg10) = Wv0 (F := Ideal) m c (Proc.devRef .tc main_arg10))
  have e := hostOps3_v39 (Wv5 (F := Ideal) m c)
  rw [hk] at e
  exact e

/-- After the fourth region: the combine of the normalised rows with their neighbourhood mean. -/
theorem Wv7_h2 : Wv7 (F := Ideal) m c (Proc.devRef .tc main_v40) = refLayer (Wv5 (F := Ideal) m c (Proc.devRef .tc main_v26)) (Wv0 (F := Ideal) m c (Proc.devRef .tc main_arg1)) (Wv0 (F := Ideal) m c (Proc.devRef .tc main_arg2)) (Wv0 (F := Ideal) m c (Proc.devRef .tc main_arg8)) (Wv0 (F := Ideal) m c (Proc.devRef .tc main_arg9)) (Wv0 (F := Ideal) m c (Proc.devRef .tc main_arg10)) := by
  have h0 : tcVal (Wv6 (F := Ideal) m) c (Pipeline.arrRef spec3 0) = (Wv5 (F := Ideal) m c (Proc.devRef .tc main_v26)) := (StableHlo.after_of_writes_sub (hostOps3 (F := Ideal)) _ hostOps3_writes (by decide) : Wv6 (F := Ideal) m c (Proc.devRef .tc main_v26) = Wv5 (F := Ideal) m c (Proc.devRef .tc main_v26))
  have h1 : tcVal (Wv6 (F := Ideal) m) c (Pipeline.arrRef spec3 1) = refAgg (Wv5 (F := Ideal) m c (Proc.devRef .tc main_v26)) (Wv0 (F := Ideal) m c (Proc.devRef .tc main_arg1)) (Wv0 (F := Ideal) m c (Proc.devRef .tc main_arg2)) (refInvDeg (Wv0 (F := Ideal) m c (Proc.devRef .tc main_arg2))) := Wv6_agg m c
  have h2 : tcVal (Wv6 (F := Ideal) m) c (Pipeline.arrRef spec3 2) = (Wv0 (F := Ideal) m c (Proc.devRef .tc main_arg8)) := (StableHlo.after_of_writes_sub (hostOps3 (F := Ideal)) _ hostOps3_writes (by decide) : Wv6 (F := Ideal) m c (Proc.devRef .tc main_arg8) = Wv5 (F := Ideal) m c (Proc.devRef .tc main_arg8)).trans <| (Wv5_keep m c main_arg8 (by decide)).trans <| (StableHlo.after_of_writes_sub (hostOps2 (F := Ideal)) _ hostOps2_writes (by decide) : Wv4 (F := Ideal) m c (Proc.devRef .tc main_arg8) = Wv3 (F := Ideal) m c (Proc.devRef .tc main_arg8)).trans <| (Wv3_keep m c main_arg8 (by decide)).trans <| (Wv2_keep m c main_arg8 (by decide)).trans <| (StableHlo.after_of_writes_sub (hostOps0 (F := Ideal)) _ hostOps0_writes (by decide) : Wv1 (F := Ideal) m c (Proc.devRef .tc main_arg8) = Wv0 (F := Ideal) m c (Proc.devRef .tc main_arg8))
  have h3 : tcVal (Wv6 (F := Ideal) m) c (Pipeline.arrRef spec3 3) = (Wv0 (F := Ideal) m c (Proc.devRef .tc main_arg9)) := (StableHlo.after_of_writes_sub (hostOps3 (F := Ideal)) _ hostOps3_writes (by decide) : Wv6 (F := Ideal) m c (Proc.devRef .tc main_arg9) = Wv5 (F := Ideal) m c (Proc.devRef .tc main_arg9)).trans <| (Wv5_keep m c main_arg9 (by decide)).trans <| (StableHlo.after_of_writes_sub (hostOps2 (F := Ideal)) _ hostOps2_writes (by decide) : Wv4 (F := Ideal) m c (Proc.devRef .tc main_arg9) = Wv3 (F := Ideal) m c (Proc.devRef .tc main_arg9)).trans <| (Wv3_keep m c main_arg9 (by decide)).trans <| (Wv2_keep m c main_arg9 (by decide)).trans <| (StableHlo.after_of_writes_sub (hostOps0 (F := Ideal)) _ hostOps0_writes (by decide) : Wv1 (F := Ideal) m c (Proc.devRef .tc main_arg9) = Wv0 (F := Ideal) m c (Proc.devRef .tc main_arg9))
  have h4 : tcVal (Wv6 (F := Ideal) m) c (Pipeline.arrRef spec3 4) = shapeCast S1x64 (Wv0 (F := Ideal) m c (Proc.devRef .tc main_arg10) : (⟨S64, .f32⟩ : BufTy).Contents (Elt Ideal)) shapeCasts_S64_S1x64 := Wv6_b m c
  refine (Wv7_arr m c 5).trans ((sage3_of (tcVal (Wv6 (F := Ideal) m)) c h0 h1 h2 h3 h4).trans ?_)
  unfold refLayer
  exact (refSage_eq _ _ _ _ _ shapeCasts_S64_S1x64).symm

/-- After the fifth region: the accumulated column means and variances of the second round's rows. -/
theorem Wv8_mean : Wv8 (F := Ideal) m c (Proc.devRef .tc main_v41_0) = bnMeanK (Wv7 (F := Ideal) m c (Proc.devRef .tc main_v40)) :=
  (Wv8_arr m c 1).trans (value4_mean (tcVal (Wv7 (F := Ideal) m)) c)
theorem Wv8_var : Wv8 (F := Ideal) m c (Proc.devRef .tc main_v41_1) = bnVarK (Wv7 (F := Ideal) m c (Proc.devRef .tc main_v40)) :=
  (Wv8_arr m c 2).trans (value4_var (tcVal (Wv7 (F := Ideal) m)) c)

/-- The scale and shift rows of the second normalisation. -/
theorem Wv9_g : Wv9 (F := Ideal) m c (Proc.devRef .tc main_v42) = shapeCast S1x64 (Wv0 (F := Ideal) m c (Proc.devRef .tc main_arg16) : (⟨S64, .f32⟩ : BufTy).Contents (Elt Ideal)) shapeCasts_S64_S1x64 := by
  have hk : Wv8 (F := Ideal) m c (Proc.devRef .tc main_arg16) = (Wv0 (F := Ideal) m c (Proc.devRef .tc main_arg16)) := (Wv8_keep m c main_arg16 (by decide)).trans <| (Wv7_keep m c main_arg16 (by decide)).trans <| (StableHlo.after_of_writes_sub (hostOps3 (F := Ideal)) _ hostOps3_writes (by decide) : Wv6 (F := Ideal) m c (Proc.devRef .tc main_arg16) = Wv5 (F := Ideal) m c (Proc.devRef .tc main_arg16)).trans <| (Wv5_keep m c main_arg16 (by decide)).trans <| (StableHlo.after_of_writes_sub (hostOps2 (F := Ideal)) _ hostOps2_writes (by decide) : Wv4 (F := Ideal) m c (Proc.devRef .tc main_arg16) = Wv3 (F := Ideal) m c (Proc.devRef .tc main_arg16)).trans <| (Wv3_keep m c main_arg16 (by decide)).trans <| (Wv2_keep m c main_arg16 (by decide)).trans <| (StableHlo.after_of_writes_sub (hostOps0 (F := Ideal)) _ hostOps0_writes (by decide) : Wv1 (F := Ideal) m c (Proc.devRef .tc main_arg16) = Wv0 (F := Ideal) m c (Proc.devRef .tc main_arg16))
  have e := hostOps5_v42 (Wv8 (F := Ideal) m c)
  rw [hk] at e
  exact e
theorem Wv9_be : Wv9 (F := Ideal) m c (Proc.devRef .tc main_v43) = shapeCast S1x64 (Wv0 (F := Ideal) m c (Proc.devRef .tc main_arg17) : (⟨S64, .f32⟩ : BufTy).Contents (Elt Ideal)) shapeCasts_S64_S1x64 := by
  have hk : Wv8 (F := Ideal) m c (Proc.devRef .tc main_arg17) = (Wv0 (F := Ideal) m c (Proc.devRef .tc main_arg17)) := (Wv8_keep m c main_arg17 (by decide)).trans <| (Wv7_keep m c main_arg17 (by decide)).trans <| (StableHlo.after_of_writes_sub (hostOps3 (F := Ideal)) _ hostOps3_writes (by decide) : Wv6 (F := Ideal) m c (Proc.devRef .tc main_arg17) = Wv5 (F := Ideal) m c (Proc.devRef .tc main_arg17)).trans <| (Wv5_keep m c main_arg17 (by decide)).trans <| (StableHlo.after_of_writes_sub (hostOps2 (F := Ideal)) _ hostOps2_writes (by decide) : Wv4 (F := Ideal) m c (Proc.devRef .tc main_arg17) = Wv3 (F := Ideal) m c (Proc.devRef .tc main_arg17)).trans <| (Wv3_keep m c main_arg17 (by decide)).trans <| (Wv2_keep m c main_arg17 (by decide)).trans <| (StableHlo.after_of_writes_sub (hostOps0 (F := Ideal)) _ hostOps0_writes (by decide) : Wv1 (F := Ideal) m c (Proc.devRef .tc main_arg17) = Wv0 (F := Ideal) m c (Proc.devRef .tc main_arg17))
  have e := hostOps5_v43 (Wv8 (F := Ideal) m c)
  rw [hk] at e
  exact e

/-- After the sixth region: the second round's rows normalised, given that they are real entry by entry. -/
theorem Wv10_n2 (hX : ∀ i, ∃ x : ℝ, (Wv7 (F := Ideal) m c (Proc.devRef .tc main_v40) : Sh50000x64.Idx → EReal) i = (x : EReal)) :
    Wv10 (F := Ideal) m c (Proc.devRef .tc main_v44) = refNorm (Wv7 (F := Ideal) m c (Proc.devRef .tc main_v40)) (Wv0 (F := Ideal) m c (Proc.devRef .tc main_arg16)) (Wv0 (F := Ideal) m c (Proc.devRef .tc main_arg17)) := by
  have h0 : tcVal (Wv9 (F := Ideal) m) c (Pipeline.arrRef spec5 0) = (Wv7 (F := Ideal) m c (Proc.devRef .tc main_v40)) := (StableHlo.after_of_writes_sub (hostOps5 (F := Ideal)) _ hostOps5_writes (by decide) : Wv9 (F := Ideal) m c (Proc.devRef .tc main_v40) = Wv8 (F := Ideal) m c (Proc.devRef .tc main_v40)).trans <| (Wv8_keep m c main_v40 (by decide))
  have h1 : tcVal (Wv9 (F := Ideal) m) c (Pipeline.arrRef spec5 1) = bnMeanK (Wv7 (F := Ideal) m c (Proc.devRef .tc main_v40)) := ((StableHlo.after_of_writes_sub (hostOps5 (F := Ideal)) _ hostOps5_writes (by decide) : Wv9 (F := Ideal) m c (Proc.devRef .tc main_v41_0) = Wv8 (F := Ideal) m c (Proc.devRef .tc main_v41_0))).trans (Wv8_mean m c)
  have h2 : tcVal (Wv9 (F := Ideal) m) c (Pipeline.arrRef spec5 2) = bnVarK (Wv7 (F := Ideal) m c (Proc.devRef .tc main_v40)) := ((StableHlo.after_of_writes_sub (hostOps5 (F := Ideal)) _ hostOps5_writes (by decide) : Wv9 (F := Ideal) m c (Proc.devRef .tc main_v41_1) = Wv8 (F := Ideal) m c (Proc.devRef .tc main_v41_1))).trans (Wv8_var m c)
  have h3 : tcVal (Wv9 (F := Ideal) m) c (Pipeline.arrRef spec5 3) = shapeCast S1x64 (Wv0 (F := Ideal) m c (Proc.devRef .tc main_arg16) : (⟨S64, .f32⟩ : BufTy).Contents (Elt Ideal)) shapeCasts_S64_S1x64 := Wv9_g m c
  have h4 : tcVal (Wv9 (F := Ideal) m) c (Pipeline.arrRef spec5 4) = shapeCast S1x64 (Wv0 (F := Ideal) m c (Proc.devRef .tc main_arg17) : (⟨S64, .f32⟩ : BufTy).Contents (Elt Ideal)) shapeCasts_S64_S1x64 := Wv9_be m c
  exact (Wv10_arr m c 5).trans ((bn5_of (tcVal (Wv9 (F := Ideal) m)) c h0 h1 h2 h3 h4).trans (refNorm_eq _ _ _ hX shapeCasts_S64_S1x64).symm)

end Cert.KernelIdeal.HandValue

end
-- ==== Proof.KiHostVal7.lean ====
/-
  The kernel program's host operations before its last region, read from any contents W: the per-graph sums of the rows,
  and the perceptron's three biases as one-row matrices.
-/
import proofs.«159573_j34617436406345_1_alg».proof.Proof.Gen.KernelIdeal.Launch
import proofs.«159573_j34617436406345_1_alg».proof.Proof.RefRunStages
import Idealize.ShloMosaic.Lib.StableHlo.Run

noncomputable section

namespace Cert.KernelIdeal.HandValue

open Cert.KernelIdeal Cert.KernelIdeal.Gen Idealize.ShloMosaic Idealize.ShloMosaic.TcCoe Idealize.SL.Sem Idealize.ShloMosaic.StableHlo
open Cert.ReferenceIdeal.Hand (refInvDeg refAgg refPoolStage)

attribute [local irreducible] Host.scatterAdd Host.gather Host.divf

/-- The per-graph sums of the rows of `main_v58`. -/
theorem hostOps7_v61 (W : Valuation τ sig (Elt Ideal)) :
    after (hostOps7 (F := Ideal)) W (no_index (Proc.devRef .tc main_v61))
      = refPoolStage (W (Proc.devRef .tc main_v58)) (W (Proc.devRef .tc main_arg3)) := by
  simp only [hostOps7]
  after_results_simp
  rfl

/-- The row `main_arg19` laid out as a one-row matrix. -/
theorem hostOps7_v62 (W : Valuation τ sig (Elt Ideal)) :
    after (hostOps7 (F := Ideal)) W (no_index (Proc.devRef .tc main_v62))
      = shapeCast S1x128 (W (Proc.devRef .tc main_arg19) : (⟨S128, .f32⟩ : BufTy).Contents (Elt Ideal)) shapeCasts_S128_S1x128 := by
  simp only [hostOps7]
  after_results_simp
  rfl

/-- The row `main_arg21` laid out as a one-row matrix. -/
theorem hostOps7_v63 (W : Valuation τ sig (Elt Ideal)) :
    after (hostOps7 (F := Ideal)) W (no_index (Proc.devRef .tc main_v63))
      = shapeCast S1x64 (W (Proc.devRef .tc main_arg21) : (⟨S64, .f32⟩ : BufTy).Contents (Elt Ideal)) shapeCasts_S64_S1x64 := by
  simp only [hostOps7]
  after_results_simp
  rfl

/-- The row `main_arg23` laid out as a one-row matrix. -/
theorem hostOps7_v64 (W : Valuation τ sig (Elt Ideal)) :
    after (hostOps7 (F := Ideal)) W (no_index (Proc.devRef .tc main_v64))
      = shapeCast S1x10 (W (Proc.devRef .tc main_arg23) : (⟨S10, .f32⟩ : BufTy).Contents (Elt Ideal)) shapeCasts_S10_S1x10 := by
  simp only [hostOps7]
  after_results_simp
  rfl

end Cert.KernelIdeal.HandValue

end
-- ==== Proof.KiSageValue6.lean ====
/-
  Region 6 (a graph-convolution combine step over ten row tiles of 5000 rows): the output array after the region,
  as one function of the five arrays the region reads.

  At each grid point the body multiplies the point's 5000 rows of the two feature arrays by the two whole weight
  matrices (two matrix products into zero accumulators: at (p, s) the sum over k of row p times column s), adds the
  two products and the bias row spread over the rows, and keeps the larger of that and zero.  Row p of tile t is row
  5000·t + p of the arrays, a weight or bias block is the whole array, so what point t writes back is tile t of the
  whole-array function; row r lies in tile r / 5000, so the tiles cover the array.
-/
import proofs.«159573_j34617436406345_1_alg».proof.Proof.KiRegion6
import Idealize.ShloMosaic.Lib.Pipeline.Value
import Idealize.ShloMosaic.Lib.ValueLayout
import proofs.«159573_j34617436406345_1_alg».proof.Proof.LibPlainDot
import proofs.«159573_j34617436406345_1_alg».proof.Proof.KiSageSpec

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.Lib Cert.KernelIdeal Cert.KernelIdeal.Gen Cert.KernelIdeal.Hand
open scoped BigOperators

theorem hz6 : (![0, 0] : Fin 2 → Nat) = fun _ => 0 := funext fun a => by fin_cases a <;> rfl

/-- The body's stored value at (p, s): the two contractions of row p against column s, the bias at s, and zero. -/
theorem pay6_apply (x0 x1 : Vec Ideal S5000x64 .f32) (x2 x3 : Vec Ideal S64x64 .f32) (x4 : Vec Ideal S1x64 .f32)
    (p : Fin 5000) (s : Fin 64) :
    k6_pay1 (F := Ideal) x0 x1 x2 x3 x4 (ix2 p s)
      = max (∑ k : Fin 64, x0 (ix2 p k) * x2 (ix2 k s) + ∑ k : Fin 64, x1 (ix2 p k) * x3 (ix2 k s) + x4 (ix2 (0 : Fin 1) s)) 0 := by
  unfold k6_pay1
  have hd : dot_S5000x64_S64x64_S5000x64_1_0_0_1_n_n = DotDims.plain 5000 64 64 := rfl
  show max (FloatOps.matmul (F := Ideal) dot_S5000x64_S64x64_S5000x64_1_0_0_1_n_n none (shapeCast S5000x64 x0 shapeCasts_S5000x64_S5000x64) x2 (constant (F := Ideal) S5000x64 .f32 0x00000000#32) (ix2 p s)
      + FloatOps.matmul (F := Ideal) dot_S5000x64_S64x64_S5000x64_1_0_0_1_n_n none (shapeCast S5000x64 x1 shapeCasts_S5000x64_S5000x64) x3 (constant (F := Ideal) S5000x64 .f32 0x00000000#32) (ix2 p s)
      + broadcastTo S5000x64 (shapeCast S1x64 x4 shapeCasts_S1x64_S1x64) broadcasts_S1x64_S5000x64 (ix2 p s)) (Ideal.ofBits .f32 0x00000000#32) = _
  rw [shapeCast_self, shapeCast_self, shapeCast_self, PlainDot.matmul_zero_apply _ hd, PlainDot.matmul_zero_apply _ hd, mm_ix2, mm_ix2,
    broadcastTo_1b_ab_apply, Ideal.ofBits_zero_f32]

/-- One stored entry against the whole-array function: when the two feature blocks are rows 5000·tv + p of their
    arrays and the weight and bias blocks are their arrays, the entry at y is the function at the array index i with
    row 5000·tv + (row of y) and the column of y. -/
theorem point6 (X AG : S50000x64.Idx → EReal) (WS WN : S64x64.Idx → EReal) (B : S1x64.Idx → EReal)
    (x0 x1 : Vec Ideal S5000x64 .f32) (x2 x3 : Vec Ideal S64x64 .f32) (x4 : Vec Ideal S1x64 .f32) (tv : Nat)
    (h0 : ∀ (y : S5000x64.Idx) (i : S50000x64.Idx), (i 0).val = tv * 5000 + (y 0).val → (i 1).val = (y 1).val → x0 y = X i)
    (h1 : ∀ (y : S5000x64.Idx) (i : S50000x64.Idx), (i 0).val = tv * 5000 + (y 0).val → (i 1).val = (y 1).val → x1 y = AG i)
    (h2 : x2 = WS) (h3 : x3 = WN) (h4 : x4 = B)
    (y : S5000x64.Idx) (i : S50000x64.Idx) (hi0 : (i 0).val = tv * 5000 + (y 0).val) (hi1 : (i 1).val = (y 1).val) :
    k6_pay1 (F := Ideal) x0 x1 x2 x3 x4 y = sageSpec X AG WS WN B i := by
  obtain ⟨p, s, rfl⟩ : ∃ (p : Fin 5000) (s : Fin 64), y = ix2 p s := ⟨y 0, y 1, eq_ix2 y⟩
  obtain ⟨r, s', rfl⟩ : ∃ (r : Fin 50000) (s' : Fin 64), i = ix2 r s' := ⟨i 0, i 1, eq_ix2 i⟩
  have hs : s' = s := Fin.ext hi1
  subst hs
  subst h2 h3 h4
  have e0 : ∀ k : Fin 64, x0 (ix2 p k) = X (ix2 r k) := fun k => h0 (ix2 p k) (ix2 r k) hi0 rfl
  have e1 : ∀ k : Fin 64, x1 (ix2 p k) = AG (ix2 r k) := fun k => h1 (ix2 p k) (ix2 r k) hi0 rfl
  rw [pay6_apply, sageSpec_ix2]
  unfold sageAt
  simp only [e0, e1]

variable (V : (c : Dev nD) → (b : Ref sig .tc) → Buf (Elt Ideal) ((c : Thread nD τ).loc b))

/-- The printed index maps over the grid: the feature windows and the output window sit at row tile t, column tile
    0; the weight and bias windows at block (0, 0). -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The first feature window's block at point t is rows 5000·t … of its array. -/
theorem iblk6_0_apply (c : Dev nD) (t : Fin cfg6.N) (y : S5000x64.Idx) (i : S50000x64.Idx)
    (h0 : (i 0).val = t.val * 5000 + (y 0).val) (h1 : (i 1).val = (y 1).val) :
    (iblk6 V c 0 t : Vec Ideal S5000x64 .f32) y = (V c (Pipeline.arrRef spec6 0) : S50000x64.Idx → EReal) i := by
  obtain ⟨e0, e1, -⟩ := idx_facts6 t
  unfold iblk6
  rw [View.read_apply]
  refine congrArg (V c (Pipeline.arrRef spec6 0) : S50000x64.Idx → EReal) ?_
  funext a
  apply Fin.ext
  match a with
  | ⟨0, _⟩ => show win6_0.index t (0 : Fin 2) * 5000 + 1 * (y 0).val = (i 0).val; rw [e0, h0]; omega
  | ⟨1, _⟩ => show win6_0.index t (1 : Fin 2) * 64 + 1 * (y 1).val = (i 1).val; rw [e1, h1]; omega

/-- The second feature window's block at point t is rows 5000·t … of its array. -/
theorem iblk6_1_apply (c : Dev nD) (t : Fin cfg6.N) (y : S5000x64.Idx) (i : S50000x64.Idx)
    (h0 : (i 0).val = t.val * 5000 + (y 0).val) (h1 : (i 1).val = (y 1).val) :
    (iblk6 V c 1 t : Vec Ideal S5000x64 .f32) y = (V c (Pipeline.arrRef spec6 1) : S50000x64.Idx → EReal) i := by
  obtain ⟨-, -, e0, e1, -⟩ := idx_facts6 t
  unfold iblk6
  rw [View.read_apply]
  refine congrArg (V c (Pipeline.arrRef spec6 1) : S50000x64.Idx → EReal) ?_
  funext a
  apply Fin.ext
  match a with
  | ⟨0, _⟩ => show win6_1.index t (0 : Fin 2) * 5000 + 1 * (y 0).val = (i 0).val; rw [e0, h0]; omega
  | ⟨1, _⟩ => show win6_1.index t (1 : Fin 2) * 64 + 1 * (y 1).val = (i 1).val; rw [e1, h1]; omega

/-- A weight window's block is its whole array. -/
theorem iblk6_2_eq (c : Dev nD) (t : Fin cfg6.N) :
    (iblk6 V c 2 t : Vec Ideal S64x64 .f32) = (V c (Pipeline.arrRef spec6 2) : S64x64.Idx → EReal) := by
  obtain ⟨-, -, -, -, e0, e1, -⟩ := idx_facts6 t
  unfold iblk6
  refine funext fun (y : S64x64.Idx) => ?_
  rw [View.read_apply]
  refine congrArg (V c (Pipeline.arrRef spec6 2) : S64x64.Idx → EReal) ?_
  funext a
  apply Fin.ext
  match a with
  | ⟨0, _⟩ => show win6_2.index t (0 : Fin 2) * 64 + 1 * (y 0).val = (y 0).val; rw [e0]; omega
  | ⟨1, _⟩ => show win6_2.index t (1 : Fin 2) * 64 + 1 * (y 1).val = (y 1).val; rw [e1]; omega

theorem iblk6_3_eq (c : Dev nD) (t : Fin cfg6.N) :
    (iblk6 V c 3 t : Vec Ideal S64x64 .f32) = (V c (Pipeline.arrRef spec6 3) : S64x64.Idx → EReal) := by
  obtain ⟨-, -, -, -, -, -, e0, e1, -⟩ := idx_facts6 t
  unfold iblk6
  refine funext fun (y : S64x64.Idx) => ?_
  rw [View.read_apply]
  refine congrArg (V c (Pipeline.arrRef spec6 3) : S64x64.Idx → EReal) ?_
  funext a
  apply Fin.ext
  match a with
  | ⟨0, _⟩ => show win6_3.index t (0 : Fin 2) * 64 + 1 * (y 0).val = (y 0).val; rw [e0]; omega
  | ⟨1, _⟩ => show win6_3.index t (1 : Fin 2) * 64 + 1 * (y 1).val = (y 1).val; rw [e1]; omega

/-- The bias window's block is its whole array. -/
theorem iblk6_4_eq (c : Dev nD) (t : Fin cfg6.N) :
    (iblk6 V c 4 t : Vec Ideal S1x64 .f32) = (V c (Pipeline.arrRef spec6 4) : S1x64.Idx → EReal) := by
  obtain ⟨-, -, -, -, -, -, -, -, e0, e1, -⟩ := idx_facts6 t
  unfold iblk6
  refine funext fun (y : S1x64.Idx) => ?_
  rw [View.read_apply]
  refine congrArg (V c (Pipeline.arrRef spec6 4) : S1x64.Idx → EReal) ?_
  funext a
  apply Fin.ext
  match a with
  | ⟨0, _⟩ => show win6_4.index t (0 : Fin 2) * 1 + 1 * (y 0).val = (y 0).val; rw [e0]; omega
  | ⟨1, _⟩ => show win6_4.index t (1 : Fin 2) * 64 + 1 * (y 1).val = (y 1).val; rw [e1]; omega

/-- What point t writes back is tile t of the whole-array function of the arrays as the region finds them. -/
theorem flushed6_eq (c : Dev nD) (t : Fin cfg6.N) :
    (dat6 (F := Ideal) V c).flushed 5 t = ((cfg6.win 5).blk t).view.read (Elt Ideal)
      (sageSpec (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero hz6]
  simp only [View.ld_unit_zero (S := S5000x64) hz6, View.ld_unit_zero (S := S64x64) hz6, View.ld_unit_zero (S := S1x64) hz6]
  obtain ⟨-, -, -, -, -, -, -, -, -, -, e0, e1⟩ := idx_facts6 t
  funext j
  rw [View.read_apply]
  refine point6 _ _ _ _ _ _ _ _ _ _ t.val (iblk6_0_apply V c t) (iblk6_1_apply V c t) (iblk6_2_eq V c t) (iblk6_3_eq V c t)
    (iblk6_4_eq V c t) j _ ?_ ?_
  · show win6_5.index t (0 : Fin 2) * 5000 + 1 * (j 0).val = t.val * 5000 + (j 0).val; rw [e0]; omega
  · show win6_5.index t (1 : Fin 2) * 64 + 1 * (j 1).val = (j 1).val; rw [e1]; omega

/-- An index of the array is in point t's block iff each coordinate is in the block's range on its axis. -/
theorem mem_blk6 (t : Fin cfg6.N) (i : S50000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v58).slice (win6_5.rect t)).set ↔ _
  rw [View.set_slice_whole, Rect.mem_set_unit]
  exact Iff.rfl

/-- Row r lies in tile r / 5000: the ten tiles cover the array. -/
theorem cover6 (i : S50000x64.Idx) : ∃ t : Fin cfg6.N, (cfg6.win 5).flush t = true ∧ i ∈ ((cfg6.win 5).blk t).view.set := by
  have hi0 : (i 0).val < 50000 := (i 0).isLt
  have hi1 : (i 1).val < 64 := (i 1).isLt
  have hN : cfg6.N = 10 := N_6
  have ht : (i 0).val / 5000 < cfg6.N := by rw [hN]; omega
  refine ⟨⟨(i 0).val / 5000, ht⟩, flush6_5 _, ?_⟩
  rw [mem_blk6]
  obtain ⟨-, -, -, -, -, -, -, -, -, -, e0, e1⟩ := idx_facts6 ⟨(i 0).val / 5000, ht⟩
  intro a
  match a with
  | ⟨0, _⟩ =>
    show win6_5.index ⟨(i 0).val / 5000, ht⟩ (0 : Fin 2) * 5000 ≤ (i 0).val ∧ (i 0).val < win6_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_5.index ⟨(i 0).val / 5000, ht⟩ (1 : Fin 2) * 64 ≤ (i 1).val ∧ (i 1).val < win6_5.index ⟨(i 0).val / 5000, ht⟩ (1 : Fin 2) * 64 + 64
    rw [e1]; omega

/-- The output array after the region: the combine step of the five arrays the region reads. -/
theorem value6 (c : Dev nD) :
    (dat6 (F := Ideal) V c).arrAt 5 cfg6.N
      = sageSpec (V c (Pipeline.arrRef spec6 0)) (V c (Pipeline.arrRef spec6 1)) (V c (Pipeline.arrRef spec6 2))
          (V c (Pipeline.arrRef spec6 3)) (V c (Pipeline.arrRef spec6 4)) :=
  (dat6 (F := Ideal) V c).arrAt_eq_of_cover 5 _ (fun t _ => flushed6_eq V c t) (cover6)

end Cert.KernelIdeal.HandValue

end
-- ==== Proof.KiMlpSpec.lean ====
/-
  The value of a three-layer perceptron head on a pooled [512, 64] array, stated index by index over the
  extended reals.

  With weights W1 [64, 128], W2 [128, 64], W3 [64, 10] and bias rows b1 [1, 128], b2 [1, 64], b3 [1, 10]:

      h1(g,k) = max (Σ_q pooled(g,q)·W1(q,k) + b1(0,k)) 0,
      h2(g,k) = max (Σ_q h1(g,q)·W2(q,k) + b2(0,k)) 0,
      out(g,j) = Σ_k h2(g,k)·W3(k,j) + b3(0,j).
-/
import Idealize.ShloMosaic.PureOps.Ideal.Laws
import Idealize.ShloMosaic.Lib.ValueIdx

noncomputable section

namespace Cert.KernelIdeal.HandValue

open Idealize.ShloMosaic Idealize.ShloMosaic.ValueIdx
open scoped BigOperators

/-- The first hidden layer at (g, k). -/
def mlpH1 (pooled : (⟨2, ![512, 64]⟩ : Shape).Idx → EReal) (W1 : (⟨2, ![64, 128]⟩ : Shape).Idx → EReal)
    (b1 : (⟨2, ![1, 128]⟩ : Shape).Idx → EReal) (g : Fin 512) (k : Fin 128) : EReal :=
  max (∑ q : Fin 64, pooled (ix2 g q) * W1 (ix2 q k) + b1 (ix2 (0 : Fin 1) k)) 0

/-- The second hidden layer at (g, k). -/
def mlpH2 (pooled : (⟨2, ![512, 64]⟩ : Shape).Idx → EReal) (W1 : (⟨2, ![64, 128]⟩ : Shape).Idx → EReal)
    (b1 : (⟨2, ![1, 128]⟩ : Shape).Idx → EReal) (W2 : (⟨2, ![128, 64]⟩ : Shape).Idx → EReal)
    (b2 : (⟨2, ![1, 64]⟩ : Shape).Idx → EReal) (g : Fin 512) (k : Fin 64) : EReal :=
  max (∑ q : Fin 128, mlpH1 pooled W1 b1 g q * W2 (ix2 q k) + b2 (ix2 (0 : Fin 1) k)) 0

/-- The head's output at (g, j). -/
def mlpAt (pooled : (⟨2, ![512, 64]⟩ : Shape).Idx → EReal) (W1 : (⟨2, ![64, 128]⟩ : Shape).Idx → EReal)
    (b1 : (⟨2, ![1, 128]⟩ : Shape).Idx → EReal) (W2 : (⟨2, ![128, 64]⟩ : Shape).Idx → EReal)
    (b2 : (⟨2, ![1, 64]⟩ : Shape).Idx → EReal) (W3 : (⟨2, ![64, 10]⟩ : Shape).Idx → EReal)
    (b3 : (⟨2, ![1, 10]⟩ : Shape).Idx → EReal) (g : Fin 512) (j : Fin 10) : EReal :=
  ∑ k : Fin 64, mlpH2 pooled W1 b1 W2 b2 g k * W3 (ix2 k j) + b3 (ix2 (0 : Fin 1) j)

/-- The head as one function of the seven arrays, index by index. -/
def mlpSpec (pooled : (⟨2, ![512, 64]⟩ : Shape).Idx → EReal) (W1 : (⟨2, ![64, 128]⟩ : Shape).Idx → EReal)
    (b1 : (⟨2, ![1, 128]⟩ : Shape).Idx → EReal) (W2 : (⟨2, ![128, 64]⟩ : Shape).Idx → EReal)
    (b2 : (⟨2, ![1, 64]⟩ : Shape).Idx → EReal) (W3 : (⟨2, ![64, 10]⟩ : Shape).Idx → EReal)
    (b3 : (⟨2, ![1, 10]⟩ : Shape).Idx → EReal) : (⟨2, ![512, 10]⟩ : Shape).Idx → EReal :=
  fun i => mlpAt pooled W1 b1 W2 b2 W3 b3 (i 0) (i 1)

theorem mlpSpec_ix2 (pooled : (⟨2, ![512, 64]⟩ : Shape).Idx → EReal) (W1 : (⟨2, ![64, 128]⟩ : Shape).Idx → EReal)
    (b1 : (⟨2, ![1, 128]⟩ : Shape).Idx → EReal) (W2 : (⟨2, ![128, 64]⟩ : Shape).Idx → EReal)
    (b2 : (⟨2, ![1, 64]⟩ : Shape).Idx → EReal) (W3 : (⟨2, ![64, 10]⟩ : Shape).Idx → EReal)
    (b3 : (⟨2, ![1, 10]⟩ : Shape).Idx → EReal) (g : Fin 512) (j : Fin 10) :
    mlpSpec pooled W1 b1 W2 b2 W3 b3 (ix2 g j) = mlpAt pooled W1 b1 W2 b2 W3 b3 g j := rfl

end Cert.KernelIdeal.HandValue

end
-- ==== Proof.KiMlpValue7.lean ====
/-
  Region 7 (the three-layer perceptron head, one block, one grid point): the output array after the region, as one
  function of the seven arrays the region reads.

  The body's stored value is three dense layers in a row — a matrix product into a zero accumulator (at (g, k) the
  sum over q of row g times column k) plus a bias row spread over the rows — the first two followed by the larger of
  the sum and zero.  Every window's block is its whole array, and the one point's output block is the whole output.
-/
import proofs.«159573_j34617436406345_1_alg».proof.Proof.KiRegion7
import Idealize.ShloMosaic.Lib.Pipeline.Value
import Idealize.ShloMosaic.Lib.ValueLayout
import proofs.«159573_j34617436406345_1_alg».proof.Proof.LibPlainDot
import proofs.«159573_j34617436406345_1_alg».proof.Proof.KiSageSpec
import proofs.«159573_j34617436406345_1_alg».proof.Proof.KiMlpSpec

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.Lib Cert.KernelIdeal Cert.KernelIdeal.Gen Cert.KernelIdeal.Hand
open scoped BigOperators

theorem hz7 : (![0, 0] : Fin 2 → Nat) = fun _ => 0 := funext fun a => by fin_cases a <;> rfl

/-- A dense layer: the product into a zero accumulator plus the bias row spread over the rows. -/
def dense {R K C : Nat} (d : DotDims ⟨2, ![R, K]⟩ ⟨2, ![K, C]⟩ ⟨2, ![R, C]⟩)
    (hb : (⟨2, ![1, C]⟩ : Shape).Broadcasts ⟨2, ![R, C]⟩)
    (x : (⟨2, ![R, K]⟩ : Shape).Idx → EReal) (w : (⟨2, ![K, C]⟩ : Shape).Idx → EReal)
    (bias : (⟨2, ![1, C]⟩ : Shape).Idx → EReal) : (⟨2, ![R, C]⟩ : Shape).Idx → EReal :=
  fun i => FloatOps.matmul (F := Ideal) (φ₁ := .f32) (φ₂ := .f32) d none x w (constant (F := Ideal) ⟨2, ![R, C]⟩ .f32 0x00000000#32) i
    + broadcastTo ⟨2, ![R, C]⟩ bias hb i

/-- A dense layer followed by the larger of its value and the zero word. -/
def denseRelu {R K C : Nat} (d : DotDims ⟨2, ![R, K]⟩ ⟨2, ![K, C]⟩ ⟨2, ![R, C]⟩)
    (hb : (⟨2, ![1, C]⟩ : Shape).Broadcasts ⟨2, ![R, C]⟩)
    (x : (⟨2, ![R, K]⟩ : Shape).Idx → EReal) (w : (⟨2, ![K, C]⟩ : Shape).Idx → EReal)
    (bias : (⟨2, ![1, C]⟩ : Shape).Idx → EReal) : (⟨2, ![R, C]⟩ : Shape).Idx → EReal :=
  fun i => max (dense d hb x w bias i) (Ideal.ofBits .f32 0x00000000#32)

theorem dense_apply {R K C : Nat} (d : DotDims ⟨2, ![R, K]⟩ ⟨2, ![K, C]⟩ ⟨2, ![R, C]⟩) (hd : d = DotDims.plain R K C)
    (hb : (⟨2, ![1, C]⟩ : Shape).Broadcasts ⟨2, ![R, C]⟩)
    (x : (⟨2, ![R, K]⟩ : Shape).Idx → EReal) (w : (⟨2, ![K, C]⟩ : Shape).Idx → EReal)
    (bias : (⟨2, ![1, C]⟩ : Shape).Idx → EReal) (g : Fin R) (k : Fin C) :
    dense d hb x w bias (ix2 g k) = ∑ q : Fin K, x (ix2 g q) * w (ix2 q k) + bias (ix2 (0 : Fin 1) k) := by
  unfold dense
  rw [PlainDot.matmul_zero_apply d hd, mm_ix2, broadcastTo_1b_ab_apply]

theorem denseRelu_apply {R K C : Nat} (d : DotDims ⟨2, ![R, K]⟩ ⟨2, ![K, C]⟩ ⟨2, ![R, C]⟩) (hd : d = DotDims.plain R K C)
    (hb : (⟨2, ![1, C]⟩ : Shape).Broadcasts ⟨2, ![R, C]⟩)
    (x : (⟨2, ![R, K]⟩ : Shape).Idx → EReal) (w : (⟨2, ![K, C]⟩ : Shape).Idx → EReal)
    (bias : (⟨2, ![1, C]⟩ : Shape).Idx → EReal) (g : Fin R) (k : Fin C) :
    denseRelu d hb x w bias (ix2 g k) = max (∑ q : Fin K, x (ix2 g q) * w (ix2 q k) + bias (ix2 (0 : Fin 1) k)) 0 := by
  unfold denseRelu
  rw [dense_apply d hd, Ideal.ofBits_zero_f32]

/-- The body's stored value is the three layers in a row. -/
theorem pay7_eq (x0 : Vec Ideal S512x64 .f32) (x1 : Vec Ideal S64x128 .f32) (x2 : Vec Ideal S1x128 .f32)
    (x3 : Vec Ideal S128x64 .f32) (x4 : Vec Ideal S1x64 .f32) (x5 : Vec Ideal S64x10 .f32) (x6 : Vec Ideal S1x10 .f32) :
    k7_pay1 (F := Ideal) x0 x1 x2 x3 x4 x5 x6
      = dense dot_S512x64_S64x10_S512x10_1_0_0_1_n_n broadcasts_S1x10_S512x10
          (denseRelu dot_S512x128_S128x64_S512x64_1_0_0_1_n_n broadcasts_S1x64_S512x64
            (denseRelu dot_S512x64_S64x128_S512x128_1_0_0_1_n_n broadcasts_S1x128_S512x128 x0 x1 x2) x3 x4) x5 x6 := by
  unfold k7_pay1
  rw [shapeCast_self, shapeCast_self, shapeCast_self, shapeCast_self]
  rfl

/-- The body's stored value at (g, j). -/
theorem pay7_apply (x0 : Vec Ideal S512x64 .f32) (x1 : Vec Ideal S64x128 .f32) (x2 : Vec Ideal S1x128 .f32)
    (x3 : Vec Ideal S128x64 .f32) (x4 : Vec Ideal S1x64 .f32) (x5 : Vec Ideal S64x10 .f32) (x6 : Vec Ideal S1x10 .f32)
    (g : Fin 512) (j : Fin 10) :
    k7_pay1 (F := Ideal) x0 x1 x2 x3 x4 x5 x6 (ix2 g j) = mlpAt x0 x1 x2 x3 x4 x5 x6 g j := by
  rw [pay7_eq, dense_apply dot_S512x64_S64x10_S512x10_1_0_0_1_n_n rfl]
  unfold mlpAt mlpH2 mlpH1
  simp only [denseRelu_apply dot_S512x128_S128x64_S512x64_1_0_0_1_n_n rfl, denseRelu_apply dot_S512x64_S64x128_S512x128_1_0_0_1_n_n rfl]

/-- One stored entry against the whole-array function: every block is its whole array. -/
theorem point7 (P0 : S512x64.Idx → EReal) (P1 : S64x128.Idx → EReal) (P2 : S1x128.Idx → EReal) (P3 : S128x64.Idx → EReal)
    (P4 : S1x64.Idx → EReal) (P5 : S64x10.Idx → EReal) (P6 : S1x10.Idx → EReal)
    (x0 : Vec Ideal S512x64 .f32) (x1 : Vec Ideal S64x128 .f32) (x2 : Vec Ideal S1x128 .f32)
    (x3 : Vec Ideal S128x64 .f32) (x4 : Vec Ideal S1x64 .f32) (x5 : Vec Ideal S64x10 .f32) (x6 : Vec Ideal S1x10 .f32)
    (h0 : x0 = P0) (h1 : x1 = P1) (h2 : x2 = P2) (h3 : x3 = P3) (h4 : x4 = P4) (h5 : x5 = P5) (h6 : x6 = P6)
    (y i : S512x10.Idx) (hi0 : (i 0).val = (y 0).val) (hi1 : (i 1).val = (y 1).val) :
    k7_pay1 (F := Ideal) x0 x1 x2 x3 x4 x5 x6 y = mlpSpec P0 P1 P2 P3 P4 P5 P6 i := by
  subst h0 h1 h2 h3 h4 h5 h6
  obtain ⟨g, j, rfl⟩ : ∃ (g : Fin 512) (j : Fin 10), y = ix2 g j := ⟨y 0, y 1, eq_ix2 y⟩
  obtain ⟨g', j', rfl⟩ : ∃ (g' : Fin 512) (j' : Fin 10), i = ix2 g' j' := ⟨i 0, i 1, eq_ix2 i⟩
  have hg : g' = g := Fin.ext hi0
  have hj : j' = j := Fin.ext hi1
  subst hg hj
  rw [pay7_apply, mlpSpec_ix2]

variable (V : (c : Dev nD) → (b : Ref sig .tc) → Buf (Elt Ideal) ((c : Thread nD τ).loc b))

/-- The printed index maps over the one-point grid: every window sits at block (0, 0). -/
theorem idx_facts7 : ∀ t : Fin cfg7.N,
    win7_0.index t (0 : Fin 2) = 0
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = 0
    ∧ win7_7.index t (1 : Fin 2) = 0 :=
  (by decide +kernel : ∀ t : Fin grid7.N, _)

theorem iblk7_0_eq (c : Dev nD) (t : Fin cfg7.N) :
    (iblk7 V c 0 t : Vec Ideal S512x64 .f32) = (V c (Pipeline.arrRef spec7 0) : S512x64.Idx → EReal) := by
  obtain ⟨e0, e1, -⟩ := idx_facts7 t
  unfold iblk7
  refine funext fun (y : S512x64.Idx) => ?_
  rw [View.read_apply]
  refine congrArg (V c (Pipeline.arrRef spec7 0) : S512x64.Idx → EReal) ?_
  funext a
  apply Fin.ext
  match a with
  | ⟨0, _⟩ => show win7_0.index t (0 : Fin 2) * 512 + 1 * (y 0).val = (y 0).val; rw [e0]; omega
  | ⟨1, _⟩ => show win7_0.index t (1 : Fin 2) * 64 + 1 * (y 1).val = (y 1).val; rw [e1]; omega

theorem iblk7_1_eq (c : Dev nD) (t : Fin cfg7.N) :
    (iblk7 V c 1 t : Vec Ideal S64x128 .f32) = (V c (Pipeline.arrRef spec7 1) : S64x128.Idx → EReal) := by
  obtain ⟨-, -, e0, e1, -⟩ := idx_facts7 t
  unfold iblk7
  refine funext fun (y : S64x128.Idx) => ?_
  rw [View.read_apply]
  refine congrArg (V c (Pipeline.arrRef spec7 1) : S64x128.Idx → EReal) ?_
  funext a
  apply Fin.ext
  match a with
  | ⟨0, _⟩ => show win7_1.index t (0 : Fin 2) * 64 + 1 * (y 0).val = (y 0).val; rw [e0]; omega
  | ⟨1, _⟩ => show win7_1.index t (1 : Fin 2) * 128 + 1 * (y 1).val = (y 1).val; rw [e1]; omega

theorem iblk7_2_eq (c : Dev nD) (t : Fin cfg7.N) :
    (iblk7 V c 2 t : Vec Ideal S1x128 .f32) = (V c (Pipeline.arrRef spec7 2) : S1x128.Idx → EReal) := by
  obtain ⟨-, -, -, -, e0, e1, -⟩ := idx_facts7 t
  unfold iblk7
  refine funext fun (y : S1x128.Idx) => ?_
  rw [View.read_apply]
  refine congrArg (V c (Pipeline.arrRef spec7 2) : S1x128.Idx → EReal) ?_
  funext a
  apply Fin.ext
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

theorem iblk7_3_eq (c : Dev nD) (t : Fin cfg7.N) :
    (iblk7 V c 3 t : Vec Ideal S128x64 .f32) = (V c (Pipeline.arrRef spec7 3) : S128x64.Idx → EReal) := by
  obtain ⟨-, -, -, -, -, -, e0, e1, -⟩ := idx_facts7 t
  unfold iblk7
  refine funext fun (y : S128x64.Idx) => ?_
  rw [View.read_apply]
  refine congrArg (V c (Pipeline.arrRef spec7 3) : S128x64.Idx → EReal) ?_
  funext a
  apply Fin.ext
  match a with
  | ⟨0, _⟩ => show win7_3.index t (0 : Fin 2) * 128 + 1 * (y 0).val = (y 0).val; rw [e0]; omega
  | ⟨1, _⟩ => show win7_3.index t (1 : Fin 2) * 64 + 1 * (y 1).val = (y 1).val; rw [e1]; omega

theorem iblk7_4_eq (c : Dev nD) (t : Fin cfg7.N) :
    (iblk7 V c 4 t : Vec Ideal S1x64 .f32) = (V c (Pipeline.arrRef spec7 4) : S1x64.Idx → EReal) := by
  obtain ⟨-, -, -, -, -, -, -, -, e0, e1, -⟩ := idx_facts7 t
  unfold iblk7
  refine funext fun (y : S1x64.Idx) => ?_
  rw [View.read_apply]
  refine congrArg (V c (Pipeline.arrRef spec7 4) : S1x64.Idx → EReal) ?_
  funext a
  apply Fin.ext
  match a with
  | ⟨0, _⟩ => show win7_4.index t (0 : Fin 2) * 1 + 1 * (y 0).val = (y 0).val; rw [e0]; omega
  | ⟨1, _⟩ => show win7_4.index t (1 : Fin 2) * 64 + 1 * (y 1).val = (y 1).val; rw [e1]; omega

theorem iblk7_5_eq (c : Dev nD) (t : Fin cfg7.N) :
    (iblk7 V c 5 t : Vec Ideal S64x10 .f32) = (V c (Pipeline.arrRef spec7 5) : S64x10.Idx → EReal) := by
  obtain ⟨-, -, -, -, -, -, -, -, -, -, e0, e1, -⟩ := idx_facts7 t
  unfold iblk7
  refine funext fun (y : S64x10.Idx) => ?_
  rw [View.read_apply]
  refine congrArg (V c (Pipeline.arrRef spec7 5) : S64x10.Idx → EReal) ?_
  funext a
  apply Fin.ext
  match a with
  | ⟨0, _⟩ => show win7_5.index t (0 : Fin 2) * 64 + 1 * (y 0).val = (y 0).val; rw [e0]; omega
  | ⟨1, _⟩ => show win7_5.index t (1 : Fin 2) * 10 + 1 * (y 1).val = (y 1).val; rw [e1]; omega

theorem iblk7_6_eq (c : Dev nD) (t : Fin cfg7.N) :
    (iblk7 V c 6 t : Vec Ideal S1x10 .f32) = (V c (Pipeline.arrRef spec7 6) : S1x10.Idx → EReal) := by
  obtain ⟨-, -, -, -, -, -, -, -, -, -, -, -, e0, e1, -⟩ := idx_facts7 t
  unfold iblk7
  refine funext fun (y : S1x10.Idx) => ?_
  rw [View.read_apply]
  refine congrArg (V c (Pipeline.arrRef spec7 6) : S1x10.Idx → EReal) ?_
  funext a
  apply Fin.ext
  match a with
  | ⟨0, _⟩ => show win7_6.index t (0 : Fin 2) * 1 + 1 * (y 0).val = (y 0).val; rw [e0]; omega
  | ⟨1, _⟩ => show win7_6.index t (1 : Fin 2) * 10 + 1 * (y 1).val = (y 1).val; rw [e1]; omega

set_option maxHeartbeats 1000000 in
/-- What the one point writes back is the whole-array function of the arrays as the region finds them. -/
theorem flushed7_eq (c : Dev nD) (t : Fin cfg7.N) :
    (dat7 (F := Ideal) V c).flushed 7 t = ((cfg7.win 7).blk t).view.read (Elt Ideal)
      (mlpSpec (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5)) (V c (Pipeline.arrRef spec7 6))) := by
  show (cfg7.win 7).cut (grid7.coords t) ((dat7 V c).after 7 t) = _
  rw [after7_7]
  unfold out7_7
  rw [View.canon_unit_zero hz7]
  simp only [View.ld_unit_zero (S := S512x64) hz7, View.ld_unit_zero (S := S64x128) hz7, View.ld_unit_zero (S := S1x128) hz7,
    View.ld_unit_zero (S := S128x64) hz7, View.ld_unit_zero (S := S1x64) hz7, View.ld_unit_zero (S := S64x10) hz7,
    View.ld_unit_zero (S := S1x10) hz7]
  obtain ⟨-, -, -, -, -, -, -, -, -, -, -, -, -, -, e0, e1⟩ := idx_facts7 t
  refine funext fun (j : S512x10.Idx) => ?_
  rw [View.read_apply]
  refine point7 _ _ _ _ _ _ _ _ _ _ _ _ _ _ (iblk7_0_eq V c t) (iblk7_1_eq V c t) (iblk7_2_eq V c t) (iblk7_3_eq V c t)
    (iblk7_4_eq V c t) (iblk7_5_eq V c t) (iblk7_6_eq V c t) j _ ?_ ?_
  · exact win7_7.rect_emb_val_of_index_zero t (0 : Fin 2) e0 j
  · exact win7_7.rect_emb_val_of_index_zero t (1 : Fin 2) e1 j

/-- An index of the array is in point t's block iff each coordinate is in the block's range on its axis. -/
theorem mem_blk7 (t : Fin cfg7.N) (i : S512x10.Idx) :
    i ∈ ((cfg7.win 7).blk t).view.set ↔ ∀ a : Fin 2, win7_7.index t a * S512x10.size a ≤ (i a).val ∧ (i a).val < win7_7.index t a * S512x10.size a + S512x10.size a := by
  show i ∈ ((View.whole main_v65).slice (win7_7.rect t)).set ↔ _
  rw [View.set_slice_whole, Rect.mem_set_unit]
  exact Iff.rfl

/-- The one point's block is the whole output array. -/
theorem cover7 (i : S512x10.Idx) : ∃ t : Fin cfg7.N, (cfg7.win 7).flush t = true ∧ i ∈ ((cfg7.win 7).blk t).view.set := by
  have hi0 : (i 0).val < 512 := (i 0).isLt
  have hi1 : (i 1).val < 10 := (i 1).isLt
  refine ⟨t7_0, flush7_7 _, ?_⟩
  rw [mem_blk7]
  obtain ⟨-, -, -, -, -, -, -, -, -, -, -, -, -, -, e0, e1⟩ := idx_facts7 t7_0
  intro a
  match a with
  | ⟨0, _⟩ =>
    show win7_7.index t7_0 (0 : Fin 2) * 512 ≤ (i 0).val ∧ (i 0).val < win7_7.index t7_0 (0 : Fin 2) * 512 + 512
    rw [e0]; omega
  | ⟨1, _⟩ =>
    show win7_7.index t7_0 (1 : Fin 2) * 10 ≤ (i 1).val ∧ (i 1).val < win7_7.index t7_0 (1 : Fin 2) * 10 + 10
    rw [e1]; omega

/-- The output array after the region: the perceptron head of the seven arrays the region reads. -/
theorem value7 (c : Dev nD) :
    (dat7 (F := Ideal) V c).arrAt 7 cfg7.N
      = mlpSpec (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5)) (V c (Pipeline.arrRef spec7 6)) :=
  (dat7 (F := Ideal) V c).arrAt_eq_of_cover 7 _ (fun t _ => flushed7_eq V c t) (cover7)

end Cert.KernelIdeal.HandValue

end
-- ==== Proof.KiMlpRef.lean ====
/-
  The reference's perceptron head is the head of the specification.

  Each of the reference's three layers is the host's contraction (at (g, k) the sum over q of row g times column k)
  plus the bias vector spread first to a one-row array and then over the rows (at (g, k) the vector's entry k, the
  same as the vector reshaped to the row, read at (0, k)); the first two layers are followed by the larger of the
  sum and the zero constant spread over the array.
-/
import proofs.«159573_j34617436406345_1_alg».proof.Proof.RefRunStages
import Idealize.ShloMosaic.Lib.Pipeline.Value
import Idealize.ShloMosaic.Lib.ValueLayout
import proofs.«159573_j34617436406345_1_alg».proof.Proof.LibPlainDot
import proofs.«159573_j34617436406345_1_alg».proof.Proof.LibSpread
import proofs.«159573_j34617436406345_1_alg».proof.Proof.KiSageSpec
import proofs.«159573_j34617436406345_1_alg».proof.Proof.KiMlpSpec

noncomputable section

namespace Cert.KernelIdeal.HandValue

open Idealize.ShloMosaic Idealize.ShloMosaic.ValueIdx
open Cert.Lib Cert.ReferenceIdeal Cert.ReferenceIdeal.Gen Cert.ReferenceIdeal.Hand
open scoped BigOperators

/-- A host dense layer: the contraction plus the bias vector spread to a row and then over the rows. -/
def hostDense {R K C : Nat} (d : DotDims ⟨2, ![R, K]⟩ ⟨2, ![K, C]⟩ ⟨2, ![R, C]⟩)
    (h1 : (⟨1, ![C]⟩ : Shape).BroadcastsInDim ⟨2, ![1, C]⟩ ![1])
    (h2 : (⟨2, ![1, C]⟩ : Shape).BroadcastsInDim ⟨2, ![R, C]⟩ ![0, 1])
    (x : (⟨2, ![R, K]⟩ : Shape).Idx → EReal) (w : (⟨2, ![K, C]⟩ : Shape).Idx → EReal)
    (bv : (⟨1, ![C]⟩ : Shape).Idx → EReal) : (⟨2, ![R, C]⟩ : Shape).Idx → EReal :=
  fun i => FloatOps.dotGeneral (F := Ideal) (φ₁ := .f32) (φ₂ := .f32) d none .single x w i
    + broadcastInDim ⟨2, ![R, C]⟩ ![0, 1] h2 (broadcastInDim ⟨2, ![1, C]⟩ ![1] h1 bv) i

/-- A host dense layer followed by the larger of its value and the zero word. -/
def hostDenseRelu {R K C : Nat} (d : DotDims ⟨2, ![R, K]⟩ ⟨2, ![K, C]⟩ ⟨2, ![R, C]⟩)
    (h1 : (⟨1, ![C]⟩ : Shape).BroadcastsInDim ⟨2, ![1, C]⟩ ![1])
    (h2 : (⟨2, ![1, C]⟩ : Shape).BroadcastsInDim ⟨2, ![R, C]⟩ ![0, 1])
    (x : (⟨2, ![R, K]⟩ : Shape).Idx → EReal) (w : (⟨2, ![K, C]⟩ : Shape).Idx → EReal)
    (bv : (⟨1, ![C]⟩ : Shape).Idx → EReal) : (⟨2, ![R, C]⟩ : Shape).Idx → EReal :=
  fun i => max (hostDense d h1 h2 x w bv i) (Ideal.ofBits .f32 0x00000000#32)

theorem hostDense_apply {R K C : Nat} (d : DotDims ⟨2, ![R, K]⟩ ⟨2, ![K, C]⟩ ⟨2, ![R, C]⟩) (hd : d = DotDims.plain R K C)
    (h1 : (⟨1, ![C]⟩ : Shape).BroadcastsInDim ⟨2, ![1, C]⟩ ![1])
    (h2 : (⟨2, ![1, C]⟩ : Shape).BroadcastsInDim ⟨2, ![R, C]⟩ ![0, 1])
    (hc : (⟨1, ![C]⟩ : Shape).ShapeCasts ⟨2, ![1, C]⟩)
    (x : (⟨2, ![R, K]⟩ : Shape).Idx → EReal) (w : (⟨2, ![K, C]⟩ : Shape).Idx → EReal)
    (bv : (⟨1, ![C]⟩ : Shape).Idx → EReal) (g : Fin R) (k : Fin C) :
    hostDense d h1 h2 x w bv (ix2 g k)
      = ∑ q : Fin K, x (ix2 g q) * w (ix2 q k) + shapeCast ⟨2, ![1, C]⟩ bv hc (ix2 (0 : Fin 1) k) := by
  unfold hostDense
  rw [PlainDot.dotGeneral_apply d hd, mm_ix2, Spread.spread_row bv h1 h2 hc]
  rfl

theorem hostDenseRelu_apply {R K C : Nat} (d : DotDims ⟨2, ![R, K]⟩ ⟨2, ![K, C]⟩ ⟨2, ![R, C]⟩) (hd : d = DotDims.plain R K C)
    (h1 : (⟨1, ![C]⟩ : Shape).BroadcastsInDim ⟨2, ![1, C]⟩ ![1])
    (h2 : (⟨2, ![1, C]⟩ : Shape).BroadcastsInDim ⟨2, ![R, C]⟩ ![0, 1])
    (hc : (⟨1, ![C]⟩ : Shape).ShapeCasts ⟨2, ![1, C]⟩)
    (x : (⟨2, ![R, K]⟩ : Shape).Idx → EReal) (w : (⟨2, ![K, C]⟩ : Shape).Idx → EReal)
    (bv : (⟨1, ![C]⟩ : Shape).Idx → EReal) (g : Fin R) (k : Fin C) :
    hostDenseRelu d h1 h2 x w bv (ix2 g k)
      = max (∑ q : Fin K, x (ix2 g q) * w (ix2 q k) + shapeCast ⟨2, ![1, C]⟩ bv hc (ix2 (0 : Fin 1) k)) 0 := by
  unfold hostDenseRelu
  rw [hostDense_apply d hd h1 h2 hc, Ideal.ofBits_zero_f32]

/-- The reference's head is the three host layers in a row. -/
theorem refMlp_layers (pooled : (⟨S512x64, .f32⟩ : BufTy).Contents (Elt Ideal))
    (W1 : (⟨S64x128, .f32⟩ : BufTy).Contents (Elt Ideal)) (b1 : (⟨S128, .f32⟩ : BufTy).Contents (Elt Ideal))
    (W2 : (⟨S128x64, .f32⟩ : BufTy).Contents (Elt Ideal)) (b2 : (⟨S64, .f32⟩ : BufTy).Contents (Elt Ideal))
    (W3 : (⟨S64x10, .f32⟩ : BufTy).Contents (Elt Ideal)) (b3 : (⟨S10, .f32⟩ : BufTy).Contents (Elt Ideal)) :
    refMlpStage pooled W1 b1 W2 b2 W3 b3
      = hostDense dot_S512x64_S64x10_S512x10_1_0_0_1_n_n bcast_S10_S1x10_1 bcast_S1x10_S512x10_0_1
          (hostDenseRelu dot_S512x128_S128x64_S512x64_1_0_0_1_n_n bcast_S64_S1x64_1 bcast_S1x64_S512x64_0_1
            (hostDenseRelu dot_S512x64_S64x128_S512x128_1_0_0_1_n_n bcast_S128_S1x128_1 bcast_S1x128_S512x128_0_1 pooled W1 b1)
            W2 b2) W3 b3 := rfl

/-- The reference's head, with each bias vector reshaped to the one-row array the kernel program stages. -/
theorem refMlp_eq (pooled : (⟨S512x64, .f32⟩ : BufTy).Contents (Elt Ideal))
    (W1 : (⟨S64x128, .f32⟩ : BufTy).Contents (Elt Ideal)) (b1 : (⟨S128, .f32⟩ : BufTy).Contents (Elt Ideal))
    (W2 : (⟨S128x64, .f32⟩ : BufTy).Contents (Elt Ideal)) (b2 : (⟨S64, .f32⟩ : BufTy).Contents (Elt Ideal))
    (W3 : (⟨S64x10, .f32⟩ : BufTy).Contents (Elt Ideal)) (b3 : (⟨S10, .f32⟩ : BufTy).Contents (Elt Ideal))
    (h1 : (⟨1, ![128]⟩ : Shape).ShapeCasts ⟨2, ![1, 128]⟩) (h2 : (⟨1, ![64]⟩ : Shape).ShapeCasts ⟨2, ![1, 64]⟩)
    (h3 : (⟨1, ![10]⟩ : Shape).ShapeCasts ⟨2, ![1, 10]⟩) :
    refMlpStage pooled W1 b1 W2 b2 W3 b3
      = mlpSpec pooled W1 (shapeCast ⟨2, ![1, 128]⟩ b1 h1) W2 (shapeCast ⟨2, ![1, 64]⟩ b2 h2) W3 (shapeCast ⟨2, ![1, 10]⟩ b3 h3) := by
  funext i
  obtain ⟨g, j, rfl⟩ : ∃ (g : Fin 512) (j : Fin 10), i = ix2 g j := ⟨i 0, i 1, eq_ix2 i⟩
  rw [refMlp_layers, hostDense_apply dot_S512x64_S64x10_S512x10_1_0_0_1_n_n rfl bcast_S10_S1x10_1 bcast_S1x10_S512x10_0_1 h3, mlpSpec_ix2]
  unfold mlpAt mlpH2 mlpH1
  simp only [hostDenseRelu_apply dot_S512x128_S128x64_S512x64_1_0_0_1_n_n rfl bcast_S64_S1x64_1 bcast_S1x64_S512x64_0_1 h2,
    hostDenseRelu_apply dot_S512x64_S64x128_S512x128_1_0_0_1_n_n rfl bcast_S128_S1x128_1 bcast_S1x128_S512x128_0_1 h1]

end Cert.KernelIdeal.HandValue

end
-- ==== Proof.KiValueC.lean ====
/-
  The kernel program's third round and its head, boundary by boundary, relative to the rows the second round left: their
  neighbourhood mean and the combine (the seventh region), the per-graph sums, and the perceptron (the last region).
-/
import proofs.«159573_j34617436406345_1_alg».proof.Proof.KiFrame
import proofs.«159573_j34617436406345_1_alg».proof.Proof.KiHostVal0
import proofs.«159573_j34617436406345_1_alg».proof.Proof.KiHostVal6
import proofs.«159573_j34617436406345_1_alg».proof.Proof.KiHostVal7
import proofs.«159573_j34617436406345_1_alg».proof.Proof.KiSageValue6
import proofs.«159573_j34617436406345_1_alg».proof.Proof.KiSageRef
import proofs.«159573_j34617436406345_1_alg».proof.Proof.KiMlpValue7
import proofs.«159573_j34617436406345_1_alg».proof.Proof.KiMlpRef

set_option maxRecDepth 16384

noncomputable section

namespace Cert.KernelIdeal.HandValue

open Idealize.ShloMosaic Idealize.ShloMosaic.TcCoe Idealize.SL.Sem
open Cert.KernelIdeal Cert.KernelIdeal.Gen Cert.KernelIdeal.Hand RegionRecord
open Cert.ReferenceIdeal.Hand (refInvDeg refAgg refSageStage refLayer refNorm refPoolStage refMlpStage refTerm)

variable (m : (ℓ : Loc nD τ sig) → Buf (Elt Ideal) ℓ) (c : Dev nD)

/-- Region 6's output array, the five arrays it reads being given. -/
theorem sage6_of (V : (c : Dev nD) → (b : Ref sig .tc) → Buf (Elt Ideal) ((c : Thread nD τ).loc b)) (c : Dev nD)
    {x agg : (⟨2, ![50000, 64]⟩ : Shape).Idx → EReal} {ws wn : (⟨2, ![64, 64]⟩ : Shape).Idx → EReal} {b : (⟨2, ![1, 64]⟩ : Shape).Idx → EReal}
    (h0 : V c (Pipeline.arrRef spec6 0) = x) (h1 : V c (Pipeline.arrRef spec6 1) = agg) (h2 : V c (Pipeline.arrRef spec6 2) = ws)
    (h3 : V c (Pipeline.arrRef spec6 3) = wn) (h4 : V c (Pipeline.arrRef spec6 4) = b) :
    (dat6 (F := Ideal) V c).arrAt 5 cfg6.N = sageSpec x agg ws wn b := by
  subst h0 h1 h2 h3 h4
  exact value6 V c

/-- The last region's output array, the seven arrays it reads being given. -/
theorem mlp7_of (V : (c : Dev nD) → (b : Ref sig .tc) → Buf (Elt Ideal) ((c : Thread nD τ).loc b)) (c : Dev nD)
    {p : (⟨2, ![512, 64]⟩ : Shape).Idx → EReal} {W1 : (⟨2, ![64, 128]⟩ : Shape).Idx → EReal} {b1 : (⟨2, ![1, 128]⟩ : Shape).Idx → EReal}
    {W2 : (⟨2, ![128, 64]⟩ : Shape).Idx → EReal} {b2 : (⟨2, ![1, 64]⟩ : Shape).Idx → EReal}
    {W3 : (⟨2, ![64, 10]⟩ : Shape).Idx → EReal} {b3 : (⟨2, ![1, 10]⟩ : Shape).Idx → EReal}
    (h0 : V c (Pipeline.arrRef spec7 0) = p) (h1 : V c (Pipeline.arrRef spec7 1) = W1) (h2 : V c (Pipeline.arrRef spec7 2) = b1)
    (h3 : V c (Pipeline.arrRef spec7 3) = W2) (h4 : V c (Pipeline.arrRef spec7 4) = b2) (h5 : V c (Pipeline.arrRef spec7 5) = W3)
    (h6 : V c (Pipeline.arrRef spec7 6) = b3) :
    (dat7 (F := Ideal) V c).arrAt 7 cfg7.N = mlpSpec p W1 b1 W2 b2 W3 b3 := by
  subst h0 h1 h2 h3 h4 h5 h6
  exact value7 V c

/-- The neighbourhood mean of the twice-normalised rows, as the host operations before the seventh region leave it. -/
theorem Wv11_agg : Wv11 (F := Ideal) m c (Proc.devRef .tc main_v56) = refAgg (Wv10 (F := Ideal) m c (Proc.devRef .tc main_v44)) (Wv0 (F := Ideal) m c (Proc.devRef .tc main_arg1)) (Wv0 (F := Ideal) m c (Proc.devRef .tc main_arg2)) (refInvDeg (Wv0 (F := Ideal) m c (Proc.devRef .tc main_arg2))) := by
  have k1 : Wv10 (F := Ideal) m c (Proc.devRef .tc main_arg1) = (Wv0 (F := Ideal) m c (Proc.devRef .tc main_arg1)) := (Wv10_keep m c main_arg1 (by decide)).trans <| (StableHlo.after_of_writes_sub (hostOps5 (F := Ideal)) _ hostOps5_writes (by decide) : Wv9 (F := Ideal) m c (Proc.devRef .tc main_arg1) = Wv8 (F := Ideal) m c (Proc.devRef .tc main_arg1)).trans <| (Wv8_keep m c main_arg1 (by decide)).trans <| (Wv7_keep m c main_arg1 (by decide)).trans <| (StableHlo.after_of_writes_sub (hostOps3 (F := Ideal)) _ hostOps3_writes (by decide) : Wv6 (F := Ideal) m c (Proc.devRef .tc main_arg1) = Wv5 (F := Ideal) m c (Proc.devRef .tc main_arg1)).trans <| (Wv5_keep m c main_arg1 (by decide)).trans <| (StableHlo.after_of_writes_sub (hostOps2 (F := Ideal)) _ hostOps2_writes (by decide) : Wv4 (F := Ideal) m c (Proc.devRef .tc main_arg1) = Wv3 (F := Ideal) m c (Proc.devRef .tc main_arg1)).trans <| (Wv3_keep m c main_arg1 (by decide)).trans <| (Wv2_keep m c main_arg1 (by decide)).trans <| (StableHlo.after_of_writes_sub (hostOps0 (F := Ideal)) _ hostOps0_writes (by decide) : Wv1 (F := Ideal) m c (Proc.devRef .tc main_arg1) = Wv0 (F := Ideal) m c (Proc.devRef .tc main_arg1))
  have k2 : Wv10 (F := Ideal) m c (Proc.devRef .tc main_arg2) = (Wv0 (F := Ideal) m c (Proc.devRef .tc main_arg2)) := (Wv10_keep m c main_arg2 (by decide)).trans <| (StableHlo.after_of_writes_sub (hostOps5 (F := Ideal)) _ hostOps5_writes (by decide) : Wv9 (F := Ideal) m c (Proc.devRef .tc main_arg2) = Wv8 (F := Ideal) m c (Proc.devRef .tc main_arg2)).trans <| (Wv8_keep m c main_arg2 (by decide)).trans <| (Wv7_keep m c main_arg2 (by decide)).trans <| (StableHlo.after_of_writes_sub (hostOps3 (F := Ideal)) _ hostOps3_writes (by decide) : Wv6 (F := Ideal) m c (Proc.devRef .tc main_arg2) = Wv5 (F := Ideal) m c (Proc.devRef .tc main_arg2)).trans <| (Wv5_keep m c main_arg2 (by decide)).trans <| (StableHlo.after_of_writes_sub (hostOps2 (F := Ideal)) _ hostOps2_writes (by decide) : Wv4 (F := Ideal) m c (Proc.devRef .tc main_arg2) = Wv3 (F := Ideal) m c (Proc.devRef .tc main_arg2)).trans <| (Wv3_keep m c main_arg2 (by decide)).trans <| (Wv2_keep m c main_arg2 (by decide)).trans <| (StableHlo.after_of_writes_sub (hostOps0 (F := Ideal)) _ hostOps0_writes (by decide) : Wv1 (F := Ideal) m c (Proc.devRef .tc main_arg2) = Wv0 (F := Ideal) m c (Proc.devRef .tc main_arg2))
  have k8 : Wv10 (F := Ideal) m c (Proc.devRef .tc main_v8) = (refInvDeg (Wv0 (F := Ideal) m c (Proc.devRef .tc main_arg2))) := ((Wv10_keep m c main_v8 (by decide)).trans <| (StableHlo.after_of_writes_sub (hostOps5 (F := Ideal)) _ hostOps5_writes (by decide) : Wv9 (F := Ideal) m c (Proc.devRef .tc main_v8) = Wv8 (F := Ideal) m c (Proc.devRef .tc main_v8)).trans <| (Wv8_keep m c main_v8 (by decide)).trans <| (Wv7_keep m c main_v8 (by decide)).trans <| (StableHlo.after_of_writes_sub (hostOps3 (F := Ideal)) _ hostOps3_writes (by decide) : Wv6 (F := Ideal) m c (Proc.devRef .tc main_v8) = Wv5 (F := Ideal) m c (Proc.devRef .tc main_v8)).trans <| (Wv5_keep m c main_v8 (by decide)).trans <| (StableHlo.after_of_writes_sub (hostOps2 (F := Ideal)) _ hostOps2_writes (by decide) : Wv4 (F := Ideal) m c (Proc.devRef .tc main_v8) = Wv3 (F := Ideal) m c (Proc.devRef .tc main_v8)).trans <| (Wv3_keep m c main_v8 (by decide)).trans <| (Wv2_keep m c main_v8 (by decide))).trans (hostOps0_v8 (Wv0 m c))
  have e := hostOps6_v56 (Wv10 (F := Ideal) m c)
  rw [k1, k2, k8] at e
  exact e
theorem Wv11_b : Wv11 (F := Ideal) m c (Proc.devRef .tc main_v57) = shapeCast S1x64 (Wv0 (F := Ideal) m c (Proc.devRef .tc main_arg13) : (⟨S64, .f32⟩ : BufTy).Contents (Elt Ideal)) shapeCasts_S64_S1x64 := by
  have hk : Wv10 (F := Ideal) m c (Proc.devRef .tc main_arg13) = (Wv0 (F := Ideal) m c (Proc.devRef .tc main_arg13)) := (Wv10_keep m c main_arg13 (by decide)).trans <| (StableHlo.after_of_writes_sub (hostOps5 (F := Ideal)) _ hostOps5_writes (by decide) : Wv9 (F := Ideal) m c (Proc.devRef .tc main_arg13) = Wv8 (F := Ideal) m c (Proc.devRef .tc main_arg13)).trans <| (Wv8_keep m c main_arg13 (by decide)).trans <| (Wv7_keep m c main_arg13 (by decide)).trans <| (StableHlo.after_of_writes_sub (hostOps3 (F := Ideal)) _ hostOps3_writes (by decide) : Wv6 (F := Ideal) m c (Proc.devRef .tc main_arg13) = Wv5 (F := Ideal) m c (Proc.devRef .tc main_arg13)).trans <| (Wv5_keep m c main_arg13 (by decide)).trans <| (StableHlo.after_of_writes_sub (hostOps2 (F := Ideal)) _ hostOps2_writes (by decide) : Wv4 (F := Ideal) m c (Proc.devRef .tc main_arg13) = Wv3 (F := Ideal) m c (Proc.devRef .tc main_arg13)).trans <| (Wv3_keep m c main_arg13 (by decide)).trans <| (Wv2_keep m c main_arg13 (by decide)).trans <| (StableHlo.after_of_writes_sub (hostOps0 (F := Ideal)) _ hostOps0_writes (by decide) : Wv1 (F := Ideal) m c (Proc.devRef .tc main_arg13) = Wv0 (F := Ideal) m c (Proc.devRef .tc main_arg13))
  have e := hostOps6_v57 (Wv10 (F := Ideal) m c)
  rw [hk] at e
  exact e

/-- After the seventh region: the combine of the twice-normalised rows with their neighbourhood mean. -/
theorem Wv12_h3 : Wv12 (F := Ideal) m c (Proc.devRef .tc main_v58) = refLayer (Wv10 (F := Ideal) m c (Proc.devRef .tc main_v44)) (Wv0 (F := Ideal) m c (Proc.devRef .tc main_arg1)) (Wv0 (F := Ideal) m c (Proc.devRef .tc main_arg2)) (Wv0 (F := Ideal) m c (Proc.devRef .tc main_arg11)) (Wv0 (F := Ideal) m c (Proc.devRef .tc main_arg12)) (Wv0 (F := Ideal) m c (Proc.devRef .tc main_arg13)) := by
  have h0 : tcVal (Wv11 (F := Ideal) m) c (Pipeline.arrRef spec6 0) = (Wv10 (F := Ideal) m c (Proc.devRef .tc main_v44)) := (StableHlo.after_of_writes_sub (hostOps6 (F := Ideal)) _ hostOps6_writes (by decide) : Wv11 (F := Ideal) m c (Proc.devRef .tc main_v44) = Wv10 (F := Ideal) m c (Proc.devRef .tc main_v44))
  have h1 : tcVal (Wv11 (F := Ideal) m) c (Pipeline.arrRef spec6 1) = refAgg (Wv10 (F := Ideal) m c (Proc.devRef .tc main_v44)) (Wv0 (F := Ideal) m c (Proc.devRef .tc main_arg1)) (Wv0 (F := Ideal) m c (Proc.devRef .tc main_arg2)) (refInvDeg (Wv0 (F := Ideal) m c (Proc.devRef .tc main_arg2))) := Wv11_agg m c
  have h2 : tcVal (Wv11 (F := Ideal) m) c (Pipeline.arrRef spec6 2) = (Wv0 (F := Ideal) m c (Proc.devRef .tc main_arg11)) := (StableHlo.after_of_writes_sub (hostOps6 (F := Ideal)) _ hostOps6_writes (by decide) : Wv11 (F := Ideal) m c (Proc.devRef .tc main_arg11) = Wv10 (F := Ideal) m c (Proc.devRef .tc main_arg11)).trans <| (Wv10_keep m c main_arg11 (by decide)).trans <| (StableHlo.after_of_writes_sub (hostOps5 (F := Ideal)) _ hostOps5_writes (by decide) : Wv9 (F := Ideal) m c (Proc.devRef .tc main_arg11) = Wv8 (F := Ideal) m c (Proc.devRef .tc main_arg11)).trans <| (Wv8_keep m c main_arg11 (by decide)).trans <| (Wv7_keep m c main_arg11 (by decide)).trans <| (StableHlo.after_of_writes_sub (hostOps3 (F := Ideal)) _ hostOps3_writes (by decide) : Wv6 (F := Ideal) m c (Proc.devRef .tc main_arg11) = Wv5 (F := Ideal) m c (Proc.devRef .tc main_arg11)).trans <| (Wv5_keep m c main_arg11 (by decide)).trans <| (StableHlo.after_of_writes_sub (hostOps2 (F := Ideal)) _ hostOps2_writes (by decide) : Wv4 (F := Ideal) m c (Proc.devRef .tc main_arg11) = Wv3 (F := Ideal) m c (Proc.devRef .tc main_arg11)).trans <| (Wv3_keep m c main_arg11 (by decide)).trans <| (Wv2_keep m c main_arg11 (by decide)).trans <| (StableHlo.after_of_writes_sub (hostOps0 (F := Ideal)) _ hostOps0_writes (by decide) : Wv1 (F := Ideal) m c (Proc.devRef .tc main_arg11) = Wv0 (F := Ideal) m c (Proc.devRef .tc main_arg11))
  have h3 : tcVal (Wv11 (F := Ideal) m) c (Pipeline.arrRef spec6 3) = (Wv0 (F := Ideal) m c (Proc.devRef .tc main_arg12)) := (StableHlo.after_of_writes_sub (hostOps6 (F := Ideal)) _ hostOps6_writes (by decide) : Wv11 (F := Ideal) m c (Proc.devRef .tc main_arg12) = Wv10 (F := Ideal) m c (Proc.devRef .tc main_arg12)).trans <| (Wv10_keep m c main_arg12 (by decide)).trans <| (StableHlo.after_of_writes_sub (hostOps5 (F := Ideal)) _ hostOps5_writes (by decide) : Wv9 (F := Ideal) m c (Proc.devRef .tc main_arg12) = Wv8 (F := Ideal) m c (Proc.devRef .tc main_arg12)).trans <| (Wv8_keep m c main_arg12 (by decide)).trans <| (Wv7_keep m c main_arg12 (by decide)).trans <| (StableHlo.after_of_writes_sub (hostOps3 (F := Ideal)) _ hostOps3_writes (by decide) : Wv6 (F := Ideal) m c (Proc.devRef .tc main_arg12) = Wv5 (F := Ideal) m c (Proc.devRef .tc main_arg12)).trans <| (Wv5_keep m c main_arg12 (by decide)).trans <| (StableHlo.after_of_writes_sub (hostOps2 (F := Ideal)) _ hostOps2_writes (by decide) : Wv4 (F := Ideal) m c (Proc.devRef .tc main_arg12) = Wv3 (F := Ideal) m c (Proc.devRef .tc main_arg12)).trans <| (Wv3_keep m c main_arg12 (by decide)).trans <| (Wv2_keep m c main_arg12 (by decide)).trans <| (StableHlo.after_of_writes_sub (hostOps0 (F := Ideal)) _ hostOps0_writes (by decide) : Wv1 (F := Ideal) m c (Proc.devRef .tc main_arg12) = Wv0 (F := Ideal) m c (Proc.devRef .tc main_arg12))
  have h4 : tcVal (Wv11 (F := Ideal) m) c (Pipeline.arrRef spec6 4) = shapeCast S1x64 (Wv0 (F := Ideal) m c (Proc.devRef .tc main_arg13) : (⟨S64, .f32⟩ : BufTy).Contents (Elt Ideal)) shapeCasts_S64_S1x64 := Wv11_b m c
  refine (Wv12_arr m c 5).trans ((sage6_of (tcVal (Wv11 (F := Ideal) m)) c h0 h1 h2 h3 h4).trans ?_)
  unfold refLayer
  exact (refSage_eq _ _ _ _ _ shapeCasts_S64_S1x64).symm

/-- The per-graph sums and the perceptron's biases, as the host operations before the last region leave them. -/
theorem Wv13_pool : Wv13 (F := Ideal) m c (Proc.devRef .tc main_v61) = refPoolStage (Wv12 (F := Ideal) m c (Proc.devRef .tc main_v58)) (Wv0 (F := Ideal) m c (Proc.devRef .tc main_arg3)) := by
  have hk : Wv12 (F := Ideal) m c (Proc.devRef .tc main_arg3) = (Wv0 (F := Ideal) m c (Proc.devRef .tc main_arg3)) := (Wv12_keep m c main_arg3 (by decide)).trans <| (StableHlo.after_of_writes_sub (hostOps6 (F := Ideal)) _ hostOps6_writes (by decide) : Wv11 (F := Ideal) m c (Proc.devRef .tc main_arg3) = Wv10 (F := Ideal) m c (Proc.devRef .tc main_arg3)).trans <| (Wv10_keep m c main_arg3 (by decide)).trans <| (StableHlo.after_of_writes_sub (hostOps5 (F := Ideal)) _ hostOps5_writes (by decide) : Wv9 (F := Ideal) m c (Proc.devRef .tc main_arg3) = Wv8 (F := Ideal) m c (Proc.devRef .tc main_arg3)).trans <| (Wv8_keep m c main_arg3 (by decide)).trans <| (Wv7_keep m c main_arg3 (by decide)).trans <| (StableHlo.after_of_writes_sub (hostOps3 (F := Ideal)) _ hostOps3_writes (by decide) : Wv6 (F := Ideal) m c (Proc.devRef .tc main_arg3) = Wv5 (F := Ideal) m c (Proc.devRef .tc main_arg3)).trans <| (Wv5_keep m c main_arg3 (by decide)).trans <| (StableHlo.after_of_writes_sub (hostOps2 (F := Ideal)) _ hostOps2_writes (by decide) : Wv4 (F := Ideal) m c (Proc.devRef .tc main_arg3) = Wv3 (F := Ideal) m c (Proc.devRef .tc main_arg3)).trans <| (Wv3_keep m c main_arg3 (by decide)).trans <| (Wv2_keep m c main_arg3 (by decide)).trans <| (StableHlo.after_of_writes_sub (hostOps0 (F := Ideal)) _ hostOps0_writes (by decide) : Wv1 (F := Ideal) m c (Proc.devRef .tc main_arg3) = Wv0 (F := Ideal) m c (Proc.devRef .tc main_arg3))
  have e := hostOps7_v61 (Wv12 (F := Ideal) m c)
  rw [hk] at e
  exact e
theorem Wv13_b1 : Wv13 (F := Ideal) m c (Proc.devRef .tc main_v62) = shapeCast S1x128 (Wv0 (F := Ideal) m c (Proc.devRef .tc main_arg19) : (⟨S128, .f32⟩ : BufTy).Contents (Elt Ideal)) shapeCasts_S128_S1x128 := by
  have hk : Wv12 (F := Ideal) m c (Proc.devRef .tc main_arg19) = (Wv0 (F := Ideal) m c (Proc.devRef .tc main_arg19)) := (Wv12_keep m c main_arg19 (by decide)).trans <| (StableHlo.after_of_writes_sub (hostOps6 (F := Ideal)) _ hostOps6_writes (by decide) : Wv11 (F := Ideal) m c (Proc.devRef .tc main_arg19) = Wv10 (F := Ideal) m c (Proc.devRef .tc main_arg19)).trans <| (Wv10_keep m c main_arg19 (by decide)).trans <| (StableHlo.after_of_writes_sub (hostOps5 (F := Ideal)) _ hostOps5_writes (by decide) : Wv9 (F := Ideal) m c (Proc.devRef .tc main_arg19) = Wv8 (F := Ideal) m c (Proc.devRef .tc main_arg19)).trans <| (Wv8_keep m c main_arg19 (by decide)).trans <| (Wv7_keep m c main_arg19 (by decide)).trans <| (StableHlo.after_of_writes_sub (hostOps3 (F := Ideal)) _ hostOps3_writes (by decide) : Wv6 (F := Ideal) m c (Proc.devRef .tc main_arg19) = Wv5 (F := Ideal) m c (Proc.devRef .tc main_arg19)).trans <| (Wv5_keep m c main_arg19 (by decide)).trans <| (StableHlo.after_of_writes_sub (hostOps2 (F := Ideal)) _ hostOps2_writes (by decide) : Wv4 (F := Ideal) m c (Proc.devRef .tc main_arg19) = Wv3 (F := Ideal) m c (Proc.devRef .tc main_arg19)).trans <| (Wv3_keep m c main_arg19 (by decide)).trans <| (Wv2_keep m c main_arg19 (by decide)).trans <| (StableHlo.after_of_writes_sub (hostOps0 (F := Ideal)) _ hostOps0_writes (by decide) : Wv1 (F := Ideal) m c (Proc.devRef .tc main_arg19) = Wv0 (F := Ideal) m c (Proc.devRef .tc main_arg19))
  have e := hostOps7_v62 (Wv12 (F := Ideal) m c)
  rw [hk] at e
  exact e
theorem Wv13_b2 : Wv13 (F := Ideal) m c (Proc.devRef .tc main_v63) = shapeCast S1x64 (Wv0 (F := Ideal) m c (Proc.devRef .tc main_arg21) : (⟨S64, .f32⟩ : BufTy).Contents (Elt Ideal)) shapeCasts_S64_S1x64 := by
  have hk : Wv12 (F := Ideal) m c (Proc.devRef .tc main_arg21) = (Wv0 (F := Ideal) m c (Proc.devRef .tc main_arg21)) := (Wv12_keep m c main_arg21 (by decide)).trans <| (StableHlo.after_of_writes_sub (hostOps6 (F := Ideal)) _ hostOps6_writes (by decide) : Wv11 (F := Ideal) m c (Proc.devRef .tc main_arg21) = Wv10 (F := Ideal) m c (Proc.devRef .tc main_arg21)).trans <| (Wv10_keep m c main_arg21 (by decide)).trans <| (StableHlo.after_of_writes_sub (hostOps5 (F := Ideal)) _ hostOps5_writes (by decide) : Wv9 (F := Ideal) m c (Proc.devRef .tc main_arg21) = Wv8 (F := Ideal) m c (Proc.devRef .tc main_arg21)).trans <| (Wv8_keep m c main_arg21 (by decide)).trans <| (Wv7_keep m c main_arg21 (by decide)).trans <| (StableHlo.after_of_writes_sub (hostOps3 (F := Ideal)) _ hostOps3_writes (by decide) : Wv6 (F := Ideal) m c (Proc.devRef .tc main_arg21) = Wv5 (F := Ideal) m c (Proc.devRef .tc main_arg21)).trans <| (Wv5_keep m c main_arg21 (by decide)).trans <| (StableHlo.after_of_writes_sub (hostOps2 (F := Ideal)) _ hostOps2_writes (by decide) : Wv4 (F := Ideal) m c (Proc.devRef .tc main_arg21) = Wv3 (F := Ideal) m c (Proc.devRef .tc main_arg21)).trans <| (Wv3_keep m c main_arg21 (by decide)).trans <| (Wv2_keep m c main_arg21 (by decide)).trans <| (StableHlo.after_of_writes_sub (hostOps0 (F := Ideal)) _ hostOps0_writes (by decide) : Wv1 (F := Ideal) m c (Proc.devRef .tc main_arg21) = Wv0 (F := Ideal) m c (Proc.devRef .tc main_arg21))
  have e := hostOps7_v63 (Wv12 (F := Ideal) m c)
  rw [hk] at e
  exact e
theorem Wv13_b3 : Wv13 (F := Ideal) m c (Proc.devRef .tc main_v64) = shapeCast S1x10 (Wv0 (F := Ideal) m c (Proc.devRef .tc main_arg23) : (⟨S10, .f32⟩ : BufTy).Contents (Elt Ideal)) shapeCasts_S10_S1x10 := by
  have hk : Wv12 (F := Ideal) m c (Proc.devRef .tc main_arg23) = (Wv0 (F := Ideal) m c (Proc.devRef .tc main_arg23)) := (Wv12_keep m c main_arg23 (by decide)).trans <| (StableHlo.after_of_writes_sub (hostOps6 (F := Ideal)) _ hostOps6_writes (by decide) : Wv11 (F := Ideal) m c (Proc.devRef .tc main_arg23) = Wv10 (F := Ideal) m c (Proc.devRef .tc main_arg23)).trans <| (Wv10_keep m c main_arg23 (by decide)).trans <| (StableHlo.after_of_writes_sub (hostOps5 (F := Ideal)) _ hostOps5_writes (by decide) : Wv9 (F := Ideal) m c (Proc.devRef .tc main_arg23) = Wv8 (F := Ideal) m c (Proc.devRef .tc main_arg23)).trans <| (Wv8_keep m c main_arg23 (by decide)).trans <| (Wv7_keep m c main_arg23 (by decide)).trans <| (StableHlo.after_of_writes_sub (hostOps3 (F := Ideal)) _ hostOps3_writes (by decide) : Wv6 (F := Ideal) m c (Proc.devRef .tc main_arg23) = Wv5 (F := Ideal) m c (Proc.devRef .tc main_arg23)).trans <| (Wv5_keep m c main_arg23 (by decide)).trans <| (StableHlo.after_of_writes_sub (hostOps2 (F := Ideal)) _ hostOps2_writes (by decide) : Wv4 (F := Ideal) m c (Proc.devRef .tc main_arg23) = Wv3 (F := Ideal) m c (Proc.devRef .tc main_arg23)).trans <| (Wv3_keep m c main_arg23 (by decide)).trans <| (Wv2_keep m c main_arg23 (by decide)).trans <| (StableHlo.after_of_writes_sub (hostOps0 (F := Ideal)) _ hostOps0_writes (by decide) : Wv1 (F := Ideal) m c (Proc.devRef .tc main_arg23) = Wv0 (F := Ideal) m c (Proc.devRef .tc main_arg23))
  have e := hostOps7_v64 (Wv12 (F := Ideal) m c)
  rw [hk] at e
  exact e

/-- After the last region: the perceptron of the per-graph sums. -/
theorem Wv14_out : Wv14 (F := Ideal) m c (Proc.devRef .tc main_v65) = refMlpStage (refPoolStage (Wv12 (F := Ideal) m c (Proc.devRef .tc main_v58)) (Wv0 (F := Ideal) m c (Proc.devRef .tc main_arg3))) (Wv0 (F := Ideal) m c (Proc.devRef .tc main_arg18)) (Wv0 (F := Ideal) m c (Proc.devRef .tc main_arg19)) (Wv0 (F := Ideal) m c (Proc.devRef .tc main_arg20)) (Wv0 (F := Ideal) m c (Proc.devRef .tc main_arg21)) (Wv0 (F := Ideal) m c (Proc.devRef .tc main_arg22)) (Wv0 (F := Ideal) m c (Proc.devRef .tc main_arg23)) := by
  have h0 : tcVal (Wv13 (F := Ideal) m) c (Pipeline.arrRef spec7 0) = (refPoolStage (Wv12 (F := Ideal) m c (Proc.devRef .tc main_v58)) (Wv0 (F := Ideal) m c (Proc.devRef .tc main_arg3))) := Wv13_pool m c
  have h1 : tcVal (Wv13 (F := Ideal) m) c (Pipeline.arrRef spec7 1) = (Wv0 (F := Ideal) m c (Proc.devRef .tc main_arg18)) := (StableHlo.after_of_writes_sub (hostOps7 (F := Ideal)) _ hostOps7_writes (by decide) : Wv13 (F := Ideal) m c (Proc.devRef .tc main_arg18) = Wv12 (F := Ideal) m c (Proc.devRef .tc main_arg18)).trans <| (Wv12_keep m c main_arg18 (by decide)).trans <| (StableHlo.after_of_writes_sub (hostOps6 (F := Ideal)) _ hostOps6_writes (by decide) : Wv11 (F := Ideal) m c (Proc.devRef .tc main_arg18) = Wv10 (F := Ideal) m c (Proc.devRef .tc main_arg18)).trans <| (Wv10_keep m c main_arg18 (by decide)).trans <| (StableHlo.after_of_writes_sub (hostOps5 (F := Ideal)) _ hostOps5_writes (by decide) : Wv9 (F := Ideal) m c (Proc.devRef .tc main_arg18) = Wv8 (F := Ideal) m c (Proc.devRef .tc main_arg18)).trans <| (Wv8_keep m c main_arg18 (by decide)).trans <| (Wv7_keep m c main_arg18 (by decide)).trans <| (StableHlo.after_of_writes_sub (hostOps3 (F := Ideal)) _ hostOps3_writes (by decide) : Wv6 (F := Ideal) m c (Proc.devRef .tc main_arg18) = Wv5 (F := Ideal) m c (Proc.devRef .tc main_arg18)).trans <| (Wv5_keep m c main_arg18 (by decide)).trans <| (StableHlo.after_of_writes_sub (hostOps2 (F := Ideal)) _ hostOps2_writes (by decide) : Wv4 (F := Ideal) m c (Proc.devRef .tc main_arg18) = Wv3 (F := Ideal) m c (Proc.devRef .tc main_arg18)).trans <| (Wv3_keep m c main_arg18 (by decide)).trans <| (Wv2_keep m c main_arg18 (by decide)).trans <| (StableHlo.after_of_writes_sub (hostOps0 (F := Ideal)) _ hostOps0_writes (by decide) : Wv1 (F := Ideal) m c (Proc.devRef .tc main_arg18) = Wv0 (F := Ideal) m c (Proc.devRef .tc main_arg18))
  have h2 : tcVal (Wv13 (F := Ideal) m) c (Pipeline.arrRef spec7 2) = shapeCast S1x128 (Wv0 (F := Ideal) m c (Proc.devRef .tc main_arg19) : (⟨S128, .f32⟩ : BufTy).Contents (Elt Ideal)) shapeCasts_S128_S1x128 := Wv13_b1 m c
  have h3 : tcVal (Wv13 (F := Ideal) m) c (Pipeline.arrRef spec7 3) = (Wv0 (F := Ideal) m c (Proc.devRef .tc main_arg20)) := (StableHlo.after_of_writes_sub (hostOps7 (F := Ideal)) _ hostOps7_writes (by decide) : Wv13 (F := Ideal) m c (Proc.devRef .tc main_arg20) = Wv12 (F := Ideal) m c (Proc.devRef .tc main_arg20)).trans <| (Wv12_keep m c main_arg20 (by decide)).trans <| (StableHlo.after_of_writes_sub (hostOps6 (F := Ideal)) _ hostOps6_writes (by decide) : Wv11 (F := Ideal) m c (Proc.devRef .tc main_arg20) = Wv10 (F := Ideal) m c (Proc.devRef .tc main_arg20)).trans <| (Wv10_keep m c main_arg20 (by decide)).trans <| (StableHlo.after_of_writes_sub (hostOps5 (F := Ideal)) _ hostOps5_writes (by decide) : Wv9 (F := Ideal) m c (Proc.devRef .tc main_arg20) = Wv8 (F := Ideal) m c (Proc.devRef .tc main_arg20)).trans <| (Wv8_keep m c main_arg20 (by decide)).trans <| (Wv7_keep m c main_arg20 (by decide)).trans <| (StableHlo.after_of_writes_sub (hostOps3 (F := Ideal)) _ hostOps3_writes (by decide) : Wv6 (F := Ideal) m c (Proc.devRef .tc main_arg20) = Wv5 (F := Ideal) m c (Proc.devRef .tc main_arg20)).trans <| (Wv5_keep m c main_arg20 (by decide)).trans <| (StableHlo.after_of_writes_sub (hostOps2 (F := Ideal)) _ hostOps2_writes (by decide) : Wv4 (F := Ideal) m c (Proc.devRef .tc main_arg20) = Wv3 (F := Ideal) m c (Proc.devRef .tc main_arg20)).trans <| (Wv3_keep m c main_arg20 (by decide)).trans <| (Wv2_keep m c main_arg20 (by decide)).trans <| (StableHlo.after_of_writes_sub (hostOps0 (F := Ideal)) _ hostOps0_writes (by decide) : Wv1 (F := Ideal) m c (Proc.devRef .tc main_arg20) = Wv0 (F := Ideal) m c (Proc.devRef .tc main_arg20))
  have h4 : tcVal (Wv13 (F := Ideal) m) c (Pipeline.arrRef spec7 4) = shapeCast S1x64 (Wv0 (F := Ideal) m c (Proc.devRef .tc main_arg21) : (⟨S64, .f32⟩ : BufTy).Contents (Elt Ideal)) shapeCasts_S64_S1x64 := Wv13_b2 m c
  have h5 : tcVal (Wv13 (F := Ideal) m) c (Pipeline.arrRef spec7 5) = (Wv0 (F := Ideal) m c (Proc.devRef .tc main_arg22)) := (StableHlo.after_of_writes_sub (hostOps7 (F := Ideal)) _ hostOps7_writes (by decide) : Wv13 (F := Ideal) m c (Proc.devRef .tc main_arg22) = Wv12 (F := Ideal) m c (Proc.devRef .tc main_arg22)).trans <| (Wv12_keep m c main_arg22 (by decide)).trans <| (StableHlo.after_of_writes_sub (hostOps6 (F := Ideal)) _ hostOps6_writes (by decide) : Wv11 (F := Ideal) m c (Proc.devRef .tc main_arg22) = Wv10 (F := Ideal) m c (Proc.devRef .tc main_arg22)).trans <| (Wv10_keep m c main_arg22 (by decide)).trans <| (StableHlo.after_of_writes_sub (hostOps5 (F := Ideal)) _ hostOps5_writes (by decide) : Wv9 (F := Ideal) m c (Proc.devRef .tc main_arg22) = Wv8 (F := Ideal) m c (Proc.devRef .tc main_arg22)).trans <| (Wv8_keep m c main_arg22 (by decide)).trans <| (Wv7_keep m c main_arg22 (by decide)).trans <| (StableHlo.after_of_writes_sub (hostOps3 (F := Ideal)) _ hostOps3_writes (by decide) : Wv6 (F := Ideal) m c (Proc.devRef .tc main_arg22) = Wv5 (F := Ideal) m c (Proc.devRef .tc main_arg22)).trans <| (Wv5_keep m c main_arg22 (by decide)).trans <| (StableHlo.after_of_writes_sub (hostOps2 (F := Ideal)) _ hostOps2_writes (by decide) : Wv4 (F := Ideal) m c (Proc.devRef .tc main_arg22) = Wv3 (F := Ideal) m c (Proc.devRef .tc main_arg22)).trans <| (Wv3_keep m c main_arg22 (by decide)).trans <| (Wv2_keep m c main_arg22 (by decide)).trans <| (StableHlo.after_of_writes_sub (hostOps0 (F := Ideal)) _ hostOps0_writes (by decide) : Wv1 (F := Ideal) m c (Proc.devRef .tc main_arg22) = Wv0 (F := Ideal) m c (Proc.devRef .tc main_arg22))
  have h6 : tcVal (Wv13 (F := Ideal) m) c (Pipeline.arrRef spec7 6) = shapeCast S1x10 (Wv0 (F := Ideal) m c (Proc.devRef .tc main_arg23) : (⟨S10, .f32⟩ : BufTy).Contents (Elt Ideal)) shapeCasts_S10_S1x10 := Wv13_b3 m c
  exact (Wv14_arr m c 7).trans ((mlp7_of (tcVal (Wv13 (F := Ideal) m)) c h0 h1 h2 h3 h4 h5 h6).trans
    (refMlp_eq _ _ _ _ _ _ _ shapeCasts_S128_S1x128 shapeCasts_S64_S1x64 shapeCasts_S10_S1x10).symm)

end Cert.KernelIdeal.HandValue

end
-- ==== Proof.KiPreReal.lean ====
/-
  The finiteness precondition read as facts.

  The precondition tests each float argument x entry by entry: |x i| = max (x i) (-(x i)) below +∞, all answers joined by
  "and" over the array, and the per-argument one-bit results joined by "and" again. When the whole conjunction is 1 every
  per-argument result is 1, so every answer of every argument is 1, so every entry of every float argument has
  |x i| < +∞ in the extended reals: it is a real number. The integer arguments are not tested.
-/
import Idealize.ShloMosaic.Lib.ReduceAll
import Idealize.ShloMosaic.Lib.ValueIdx
import Idealize.ShloMosaic.PureOps.Ideal
import proofs.«159573_j34617436406345_1_alg».proof.Pre_finite_inputs
import proofs.«159573_j34617436406345_1_alg».proof.Proof.LibRealScalars

noncomputable section

namespace Cert.KernelIdeal.HandValue

open Idealize.ShloMosaic

/-- The shape with no axes has one index. -/
instance preReal_subsingleton_scalar_idx : Subsingleton (⟨0, ![]⟩ : Shape).Idx := ⟨fun a b => funext fun d => d.elim0⟩

/-- An array whose finiteness test comes out 1 is real entrywise: the conjunction over the array is 1, so each entry's
    answer is 1, and an entry with |x i| < +∞ is a real number. -/
theorem real_of_tested {S : Shape} {axes : List (Fin S.rank)}
    (hb : (⟨0, ![]⟩ : Shape).BroadcastsInDim S (![] : Fin 0 → Fin S.rank))
    (hr : S.ReducesTo axes (⟨0, ![]⟩ : Shape)) (hu : 0 < (⟨0, ![]⟩ : Shape).numel)
    (x : FVec Ideal S .f32)
    (e : Host.reduce IntOp.andi
          (cmpf .olt (Host.absf x) (broadcastInDim S ![] hb (constant (⟨0, ![]⟩ : Shape) .f32 0x7F800000#32)))
          (constantI (⟨0, ![]⟩ : Shape) 1 1#1) hr hu ValueIdx.ix0 = 1#1) :
    ∀ i, ∃ r : ℝ, x i = (r : EReal) := by
  intro i
  have h1 := Host.reduce_andi_all _ _ hr hu ValueIdx.ix0 e i
  exact Cert.Lib.RealScalars.real_of_abs_lt (x i) h1

open Cert.Pre_finite_inputs

/-- THE PRECONDITION DECODED: when the finiteness test of the twenty float arguments comes out 1, each of them is real
    entrywise (one conjunct per float argument, in argument order: 0, 5, 6, …, 23). -/
theorem pre_real [Cert.Pre_finite_inputs.Facts]
    (a0 : FVec Ideal S50000x64 .f32) (a1 : IVec S800000 32) (a2 : IVec S800000 32) (a3 : IVec S50000 32) (a4 : IVec S512 32) (a5 : FVec Ideal S64x64 .f32) (a6 : FVec Ideal S64x64 .f32) (a7 : FVec Ideal S64 .f32) (a8 : FVec Ideal S64x64 .f32) (a9 : FVec Ideal S64x64 .f32) (a10 : FVec Ideal S64 .f32) (a11 : FVec Ideal S64x64 .f32) (a12 : FVec Ideal S64x64 .f32) (a13 : FVec Ideal S64 .f32) (a14 : FVec Ideal S64 .f32) (a15 : FVec Ideal S64 .f32) (a16 : FVec Ideal S64 .f32) (a17 : FVec Ideal S64 .f32) (a18 : FVec Ideal S64x128 .f32) (a19 : FVec Ideal S128 .f32) (a20 : FVec Ideal S128x64 .f32) (a21 : FVec Ideal S64 .f32) (a22 : FVec Ideal S64x10 .f32) (a23 : FVec Ideal S10 .f32)
    (h : Cert.Pre_finite_inputs.fn (F := Ideal) a0 a1 a2 a3 a4 a5 a6 a7 a8 a9 a10 a11 a12 a13 a14 a15 a16 a17 a18 a19 a20 a21 a22 a23 = (fun _ => 1#1)) :
    (∀ i, ∃ r : ℝ, a0 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) ∧
      (∀ i, ∃ r : ℝ, a20 i = (r : EReal)) ∧
      (∀ i, ∃ r : ℝ, a21 i = (r : EReal)) ∧
      (∀ i, ∃ r : ℝ, a22 i = (r : EReal)) ∧
      (∀ i, ∃ r : ℝ, a23 i = (r : EReal)) := by
  -- the one result word, with the printed chain of operations in view
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at e
  -- a conjunction of one-bit words is 1 exactly when each is
  simp only [IntOp.andi_eq_one] at e
  obtain ⟨⟨⟨⟨⟨⟨⟨⟨⟨⟨⟨⟨⟨⟨⟨⟨⟨⟨⟨e0, e5⟩, e6⟩, e7⟩, e8⟩, e9⟩, e10⟩, e11⟩, e12⟩, e13⟩, e14⟩, e15⟩, e16⟩, e17⟩, e18⟩, e19⟩, e20⟩, e21⟩, e22⟩, e23⟩ := e
  exact ⟨real_of_tested _ _ _ a0 e0,
    real_of_tested _ _ _ a5 e5,
    real_of_tested _ _ _ a6 e6,
    real_of_tested _ _ _ a7 e7,
    real_of_tested _ _ _ a8 e8,
    real_of_tested _ _ _ a9 e9,
    real_of_tested _ _ _ a10 e10,
    real_of_tested _ _ _ a11 e11,
    real_of_tested _ _ _ a12 e12,
    real_of_tested _ _ _ a13 e13,
    real_of_tested _ _ _ a14 e14,
    real_of_tested _ _ _ a15 e15,
    real_of_tested _ _ _ a16 e16,
    real_of_tested _ _ _ a17 e17,
    real_of_tested _ _ _ a18 e18,
    real_of_tested _ _ _ a19 e19,
    real_of_tested _ _ _ a20 e20,
    real_of_tested _ _ _ a21 e21,
    real_of_tested _ _ _ a22 e22,
    real_of_tested _ _ _ a23 e23⟩

/-- The same facts as a record with one named field per float argument. -/
structure PreReal
    (a0 : FVec Ideal Cert.Pre_finite_inputs.S50000x64 .f32) (a5 : FVec Ideal Cert.Pre_finite_inputs.S64x64 .f32) (a6 : FVec Ideal Cert.Pre_finite_inputs.S64x64 .f32) (a7 : FVec Ideal Cert.Pre_finite_inputs.S64 .f32) (a8 : FVec Ideal Cert.Pre_finite_inputs.S64x64 .f32) (a9 : FVec Ideal Cert.Pre_finite_inputs.S64x64 .f32) (a10 : FVec Ideal Cert.Pre_finite_inputs.S64 .f32) (a11 : FVec Ideal Cert.Pre_finite_inputs.S64x64 .f32) (a12 : FVec Ideal Cert.Pre_finite_inputs.S64x64 .f32) (a13 : FVec Ideal Cert.Pre_finite_inputs.S64 .f32) (a14 : FVec Ideal Cert.Pre_finite_inputs.S64 .f32) (a15 : FVec Ideal Cert.Pre_finite_inputs.S64 .f32) (a16 : FVec Ideal Cert.Pre_finite_inputs.S64 .f32) (a17 : FVec Ideal Cert.Pre_finite_inputs.S64 .f32) (a18 : FVec Ideal Cert.Pre_finite_inputs.S64x128 .f32) (a19 : FVec Ideal Cert.Pre_finite_inputs.S128 .f32) (a20 : FVec Ideal Cert.Pre_finite_inputs.S128x64 .f32) (a21 : FVec Ideal Cert.Pre_finite_inputs.S64 .f32) (a22 : FVec Ideal Cert.Pre_finite_inputs.S64x10 .f32) (a23 : FVec Ideal Cert.Pre_finite_inputs.S10 .f32) : Prop where
  r0 : ∀ i, ∃ r : ℝ, a0 i = (r : EReal)
  r5 : ∀ i, ∃ r : ℝ, a5 i = (r : EReal)
  r6 : ∀ i, ∃ r : ℝ, a6 i = (r : EReal)
  r7 : ∀ i, ∃ r : ℝ, a7 i = (r : EReal)
  r8 : ∀ i, ∃ r : ℝ, a8 i = (r : EReal)
  r9 : ∀ i, ∃ r : ℝ, a9 i = (r : EReal)
  r10 : ∀ i, ∃ r : ℝ, a10 i = (r : EReal)
  r11 : ∀ i, ∃ r : ℝ, a11 i = (r : EReal)
  r12 : ∀ i, ∃ r : ℝ, a12 i = (r : EReal)
  r13 : ∀ i, ∃ r : ℝ, a13 i = (r : EReal)
  r14 : ∀ i, ∃ r : ℝ, a14 i = (r : EReal)
  r15 : ∀ i, ∃ r : ℝ, a15 i = (r : EReal)
  r16 : ∀ i, ∃ r : ℝ, a16 i = (r : EReal)
  r17 : ∀ i, ∃ r : ℝ, a17 i = (r : EReal)
  r18 : ∀ i, ∃ r : ℝ, a18 i = (r : EReal)
  r19 : ∀ i, ∃ r : ℝ, a19 i = (r : EReal)
  r20 : ∀ i, ∃ r : ℝ, a20 i = (r : EReal)
  r21 : ∀ i, ∃ r : ℝ, a21 i = (r : EReal)
  r22 : ∀ i, ∃ r : ℝ, a22 i = (r : EReal)
  r23 : ∀ i, ∃ r : ℝ, a23 i = (r : EReal)

theorem pre_real_record [Cert.Pre_finite_inputs.Facts]
    (a0 : FVec Ideal S50000x64 .f32) (a1 : IVec S800000 32) (a2 : IVec S800000 32) (a3 : IVec S50000 32) (a4 : IVec S512 32) (a5 : FVec Ideal S64x64 .f32) (a6 : FVec Ideal S64x64 .f32) (a7 : FVec Ideal S64 .f32) (a8 : FVec Ideal S64x64 .f32) (a9 : FVec Ideal S64x64 .f32) (a10 : FVec Ideal S64 .f32) (a11 : FVec Ideal S64x64 .f32) (a12 : FVec Ideal S64x64 .f32) (a13 : FVec Ideal S64 .f32) (a14 : FVec Ideal S64 .f32) (a15 : FVec Ideal S64 .f32) (a16 : FVec Ideal S64 .f32) (a17 : FVec Ideal S64 .f32) (a18 : FVec Ideal S64x128 .f32) (a19 : FVec Ideal S128 .f32) (a20 : FVec Ideal S128x64 .f32) (a21 : FVec Ideal S64 .f32) (a22 : FVec Ideal S64x10 .f32) (a23 : FVec Ideal S10 .f32)
    (h : Cert.Pre_finite_inputs.fn (F := Ideal) a0 a1 a2 a3 a4 a5 a6 a7 a8 a9 a10 a11 a12 a13 a14 a15 a16 a17 a18 a19 a20 a21 a22 a23 = (fun _ => 1#1)) :
    PreReal a0 a5 a6 a7 a8 a9 a10 a11 a12 a13 a14 a15 a16 a17 a18 a19 a20 a21 a22 a23 := by
  obtain ⟨h0, h5, h6, h7, h8, h9, h10, h11, h12, h13, h14, h15, h16, h17, h18, h19, h20, h21, h22, h23⟩ := pre_real a0 a1 a2 a3 a4 a5 a6 a7 a8 a9 a10 a11 a12 a13 a14 a15 a16 a17 a18 a19 a20 a21 a22 a23 h
  exact ⟨h0, h5, h6, h7, h8, h9, h10, h11, h12, h13, h14, h15, h16, h17, h18, h19, h20, h21, h22, h23⟩

end Cert.KernelIdeal.HandValue

end
-- ==== Proof.LibRealArrays.lean ====
/-
  Arrays of extended reals whose every entry is a real number, and the operations that keep them so.

  At the ideal values an array entry ranges over the extended reals. A sum, a product, a maximum of real numbers is
  real; an entry gathered or stretched out of an array is one of that array's entries; a scatter-add leaves at each
  entry the operand's entry plus a finite sum of updates; a contraction is a finite sum of products. So each of these
  operations takes arrays of real entries to an array of real entries. The one guarded step is the reciprocal square
  root: 1/√d is real only for d > 0, and "d > 0 ? 1/√d : z" is real whenever d and z are.
-/
import Idealize.ShloMosaic.PureOps.Ideal
import Idealize.ShloMosaic.PureOps.Ideal.Laws
import Idealize.ShloMosaic.Lib.ValueIdx
import proofs.«159573_j34617436406345_1_alg».proof.Proof.LibRealSums
import proofs.«159573_j34617436406345_1_alg».proof.Proof.LibRealScalars

noncomputable section

namespace Cert.Lib.RealArrays

open Idealize.ShloMosaic Idealize.ShloMosaic.ValueIdx Cert.Lib

/-- Every entry of the array is a real number. -/
def AllReal {s : Shape} (v : s.Idx → EReal) : Prop := ∀ i, ∃ r : ℝ, v i = r

variable {s t : Shape}

/-- An array filled with the word of 0.0. -/
theorem constant_zero (s : Shape) : AllReal (constant (F := Ideal) s .f32 0x00000000#32) :=
  fun i => ⟨0, by rw [constant_apply, Ideal.ofBits_zero_f32]; rfl⟩

/-- An array filled with the word of 1.0. -/
theorem constant_one (s : Shape) : AllReal (constant (F := Ideal) s .f32 0x3F800000#32) :=
  fun i => ⟨1, by rw [constant_apply, RealScalars.ofBits_one]⟩

/-- Every entry of a stretched array is an entry of the array. -/
theorem broadcastInDim_real (dims : Fin s.rank → Fin t.rank) (h : s.BroadcastsInDim t dims) (x : s.Idx → EReal)
    (hx : AllReal x) : AllReal (broadcastInDim t dims h x) := fun j => by
  unfold broadcastInDim; exact hx _

/-- Every gathered entry is an entry of the operand. -/
theorem gather_real {si : Shape} {w : Nat} (d : GatherDims s si t) (x : s.Idx → EReal) (idx : IVec si w)
    (hx : AllReal x) : AllReal (Host.gather d x idx) := fun j => hx _

/-- A scatter-add of real updates into a real operand. -/
theorem scatterAdd_real {si u : Shape} {w : Nat} {φ : FTy} (d : ScatterDims s si u) (x : FVec Ideal s φ) (idx : IVec si w)
    (upd : FVec Ideal u φ) (hx : AllReal x) (hu : AllReal upd) : AllReal (Host.scatterAdd d x idx upd) := by
  intro i
  show ∃ r : ℝ, x i + ∑ j ∈ Finset.univ.filter (fun j => d.resultIdx? j idx = some i), upd j = r
  choose u' hu' using hu
  obtain ⟨a, ha⟩ := hx i
  refine ⟨a + ∑ j ∈ Finset.univ.filter (fun j => d.resultIdx? j idx = some i), u' j, ?_⟩
  rw [ha, EReal.coe_add, RealSums.coe_sum]
  exact congrArg _ (Finset.sum_congr rfl fun j _ => hu' j)

/-- A contraction of real operands. -/
theorem dotGeneral_real {sl sr : Shape} {φ₁ φ₂ : FTy} (d : DotDims sl sr t) (prec : Option ContractPrecision)
    (x : FVec Ideal sl φ₁) (w : FVec Ideal sr φ₂) (hx : AllReal x) (hw : AllReal w) :
    AllReal (Host.dotGeneral d prec x w) := by
  intro j
  simp only [Host.dotGeneral]
  rw [Ideal.dotGeneral_apply]
  exact RealSums.sum_mul_real _ _ _ (fun q => hx _) (fun q => hw _)

/-- Pointwise product, sum and maximum. -/
theorem mulf_real {φ : FTy} (a b : FVec Ideal s φ) (ha : AllReal a) (hb : AllReal b) : AllReal (mulf a b) := fun i => by
  obtain ⟨x, hx⟩ := ha i; obtain ⟨y, hy⟩ := hb i
  exact ⟨x * y, by show a i * b i = _; rw [hx, hy, EReal.coe_mul]⟩
theorem addf_real {φ : FTy} (a b : FVec Ideal s φ) (ha : AllReal a) (hb : AllReal b) : AllReal (addf a b) := fun i =>
  RealSums.add_real (ha i) (hb i)
theorem maximumf_real {φ : FTy} (a b : FVec Ideal s φ) (ha : AllReal a) (hb : AllReal b) : AllReal (maximumf a b) := fun i => by
  obtain ⟨x, hx⟩ := ha i; obtain ⟨y, hy⟩ := hb i
  exact ⟨max x y, by show max (a i) (b i) = _; rw [hx, hy]; exact (EReal.coe_strictMono.monotone.map_max).symm⟩

/-- A choice between two real arrays. -/
theorem select_real (c : IVec s 1) (a b : s.Idx → EReal) (ha : AllReal a) (hb : AllReal b) : AllReal (select c a b) := fun i => by
  show ∃ r : ℝ, (if c i = 1 then a i else b i) = r
  split
  · exact ha i
  · exact hb i

/-- "d > 0 ? 1/√d : z" for real d and z, the comparison against an array of zeros. -/
theorem guardedRsqrt_real (d zero z : FVec Ideal s .f32) (hd : AllReal d) (h0 : ∀ i, zero i = 0) (hz : AllReal z) :
    AllReal (select (cmpf .ogt d zero) (Host.rsqrt d) z) := fun i => by
  show ∃ r : ℝ, (if Ideal.cmp .ogt (d i) (zero i) = 1 then Ideal.rsqrt (d i) else z i) = r
  obtain ⟨x, hx⟩ := hd i
  split
  · rename_i hc
    rw [h0 i, hx] at hc
    have hpos : (0 : EReal) < (x : EReal) := of_decide_eq_true (RealScalars.of_ofBool_eq_one hc)
    rw [hx, RealScalars.rsqrt_pos x (by exact_mod_cast hpos)]
    exact ⟨_, rfl⟩
  · exact hz i

end Cert.Lib.RealArrays

end
-- ==== Proof.LibSageMath.lean ====
/- The pure mathematics of a two-layer bidirectional mean-aggregating graph encoder with batch
   normalisation, a rectifier and a final maximum over rows, over the extended reals: which values stay
   real, why dividing by `max c 1` is multiplying by its reciprocal, why the dense layer may be regrouped,
   and why a maximum over all rows is the running maximum of the maxima of consecutive blocks of rows. -/
import Idealize.ShloMosaic.PureOps.Ideal

noncomputable section

namespace SageMath

open Idealize.ShloMosaic

open scoped BigOperators

/-! ### A. Realness -/

/-- An extended real is REAL when it is the image of a real number (neither infinity). -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is real. -/
theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real divided by a nonzero real is real: the division is the product with the real `1 / c`. -/
theorem IsReal.div_coe {x : EReal} (hx : IsReal x) {c : ℝ} (hc : c ≠ 0) :
    IsReal (Ideal.div x (c : EReal)) := by
  rw [Ideal.div_coe hc]
  exact hx.mul (IsReal.coe _)

/-- A real is not `-∞`. -/
theorem IsReal.ne_bot {x : EReal} (hx : IsReal x) : x ≠ ⊥ := by
  obtain ⟨a, rfl⟩ := hx
  exact EReal.coe_ne_bot a

/-- A real is not `+∞`. -/
theorem IsReal.ne_top {x : EReal} (hx : IsReal x) : x ≠ ⊤ := by
  obtain ⟨a, rfl⟩ := hx
  exact EReal.coe_ne_top a

/-! ### B. The reciprocal -/

/-- `max c 1` is at least one, so it is not zero. -/
theorem max_one_ne_zero (c : EReal) : max c 1 ≠ 0 :=
  (lt_of_lt_of_le zero_lt_one (le_max_right c 1)).ne'

/-- Off zero, dividing is multiplying by the reciprocal `1 / c`: both are the product with `c⁻¹`. -/
theorem div_eq_mul_recip (s c : EReal) (hc : c ≠ 0) : Ideal.div s c = s * Ideal.div 1 c := by
  rw [Ideal.div, Ideal.div, if_neg hc, if_neg hc, one_mul]

/-- Dividing by `max c 1` is multiplying by its reciprocal, whatever `s` and `c` are. -/
theorem div_max_one (s c : EReal) : Ideal.div s (max c 1) = s * Ideal.div 1 (max c 1) :=
  div_eq_mul_recip s (max c 1) (max_one_ne_zero c)

/-- The reciprocal of `max c 1` is real when `c` is: `max c 1` is a real that is at least one. -/
theorem isReal_recip_max_one {c : EReal} (hc : IsReal c) : IsReal (Ideal.div 1 (max c 1)) := by
  obtain ⟨r, rfl⟩ := hc
  have h1 : Max.max (r : EReal) 1 = ((Max.max r 1 : ℝ) : EReal) := by
    rw [← EReal.coe_one]; exact (EReal.coe_strictMono.monotone.map_max).symm
  have hne : (Max.max r 1 : ℝ) ≠ 0 := (lt_of_lt_of_le zero_lt_one (le_max_right r 1)).ne'
  rw [h1]
  exact isReal_one.div_coe hne

/-! ### C. The dense layer regrouped -/

/-- For real `x`, `u`, `v` the product distributes over the sum (it need not at the infinities). -/
theorem mul_add_of_isReal {x u v : EReal} (hx : IsReal x) (hu : IsReal u) (hv : IsReal v) :
    x * (u + v) = x * u + x * v := by
  obtain ⟨a, rfl⟩ := hx
  obtain ⟨b, rfl⟩ := hu
  obtain ⟨c, rfl⟩ := hv
  rw [← EReal.coe_add, ← EReal.coe_mul, ← EReal.coe_mul, ← EReal.coe_mul, ← EReal.coe_add, mul_add]

/-- A contraction of a real row against the sum of two real columns is the sum of the two
    contractions. -/
theorem sum_mul_add {κ : Type} [Fintype κ] (x wf wb : κ → EReal) (hx : ∀ k, IsReal (x k))
    (hwf : ∀ k, IsReal (wf k)) (hwb : ∀ k, IsReal (wb k)) :
    ∑ k, x k * (wf k + wb k) = ∑ k, x k * wf k + ∑ k, x k * wb k := by
  rw [← Finset.sum_add_distrib]
  exact Finset.sum_congr rfl fun k _ => mul_add_of_isReal (hx k) (hwf k) (hwb k)

/-- The dense layer regrouped: the two aggregate terms `a`, `b` and the two biases `bf`, `bb` are
    arbitrary extended reals, only moved around by commutativity and associativity of the sum; the one
    contraction against the summed columns splits into the two contractions because its entries are real. -/
theorem layer_regroup {κ : Type} [Fintype κ] (a b bf bb : EReal) (x wf wb : κ → EReal)
    (hx : ∀ k, IsReal (x k)) (hwf : ∀ k, IsReal (wf k)) (hwb : ∀ k, IsReal (wb k)) :
    ((a + b) + ∑ k, x k * (wf k + wb k)) + (bf + bb)
      = ((a + bf) + ∑ k, x k * wf k) + ((b + bb) + ∑ k, x k * wb k) := by
  rw [sum_mul_add x wf wb hx hwf hwb]
  abel

/-- One output entry of the dense layer is real when the aggregates, the biases, the row and the
    column are. -/
theorem layer_isReal {κ : Type} [Fintype κ] {a b bf bb : EReal} (ha : IsReal a) (hb : IsReal b)
    (hbf : IsReal bf) (hbb : IsReal bb) (x w : κ → EReal) (hx : ∀ k, IsReal (x k))
    (hw : ∀ k, IsReal (w k)) : IsReal (((a + b) + ∑ k, x k * w k) + (bf + bb)) :=
  ((ha.add hb).add (IsReal.sum _ _ fun k _ => (hx k).mul (hw k))).add (hbf.add hbb)

/-! ### E. The float literals, as the extended reals their patterns denote -/

/-- The pattern of `1.0` denotes `1`. -/
theorem ofBits_one : Ideal.ofBits .f32 0x3F800000#32 = 1 := by
  simp [Ideal.ofBits, Ideal.ieee, -EReal.coe_mul]; norm_num

/-- The pattern of `50000.0` (the row count) denotes the real `50000`. -/
theorem ofBits_50000 : Ideal.ofBits .f32 0x47435000#32 = ((50000 : ℝ) : EReal) := by
  simp [Ideal.ofBits, Ideal.ieee, -EReal.coe_mul]; norm_num

/-- The pattern of the variance offset (about `1e-5`) denotes the real `10995116 · 2⁻⁴⁰`. -/
theorem ofBits_eps : Ideal.ofBits .f32 0x3727C5AC#32 = ((10995116 * (2 : ℝ) ^ (-40 : ℤ) : ℝ) : EReal) := by
  simp [Ideal.ofBits, Ideal.ieee, -EReal.coe_mul]

/-- The variance offset is real. -/
theorem ofBits_eps_isReal : IsReal (Ideal.ofBits .f32 0x3727C5AC#32) := by
  rw [ofBits_eps]; exact IsReal.coe _

/-- The variance offset is positive. -/
theorem ofBits_eps_pos : 0 < Ideal.ofBits .f32 0x3727C5AC#32 := by
  rw [ofBits_eps]
  have h : (0 : ℝ) < 10995116 * (2 : ℝ) ^ (-40 : ℤ) := by positivity
  exact_mod_cast h

/-- The pattern of `-inf` denotes `-∞`. -/
theorem ofBits_neg_inf : Ideal.ofBits .f32 0xFF800000#32 = ⊥ := by
  simp [Ideal.ofBits, Ideal.ieee]

/-! ### D. Batch normalisation followed by the rectifier stays real -/

/-- The reciprocal square root of a positive real is real. -/
theorem isReal_rsqrt {v : EReal} (hv : IsReal v) (hpos : 0 < v) : IsReal (Ideal.rsqrt v) := by
  obtain ⟨r, rfl⟩ := hv
  have hr : 0 < r := by exact_mod_cast hpos
  rw [Ideal.rsqrt_coe, if_neg (not_lt.mpr hr.le), if_neg hr.ne']
  exact IsReal.coe _

/-- The square of a real is nonnegative. -/
theorem mul_self_nonneg_of_isReal {d : EReal} (hd : IsReal d) : 0 ≤ d * d := by
  obtain ⟨a, rfl⟩ := hd
  rw [← EReal.coe_mul]
  exact_mod_cast mul_self_nonneg a

/-- A finite sum of squares of reals is nonnegative. -/
theorem sum_mul_self_nonneg {ι : Type} [Fintype ι] (d : ι → EReal) (hd : ∀ i, IsReal (d i)) :
    0 ≤ ∑ i, d i * d i :=
  Finset.sum_nonneg fun i _ => mul_self_nonneg_of_isReal (hd i)

/-- A nonnegative real divided by a positive real is nonnegative. -/
theorem div_coe_nonneg {x : EReal} (hx : IsReal x) (h0 : 0 ≤ x) {N : ℝ} (hN : 0 < N) :
    0 ≤ Ideal.div x (N : EReal) := by
  obtain ⟨a, rfl⟩ := hx
  have ha : 0 ≤ a := by exact_mod_cast h0
  rw [Ideal.div_coe hN.ne', ← EReal.coe_mul]
  have h : 0 ≤ a * (1 / N) := mul_nonneg ha (by positivity)
  exact_mod_cast h

/-- A nonnegative real plus a positive real is positive. -/
theorem add_pos_of_isReal {v e : EReal} (hv : IsReal v) (h0 : 0 ≤ v) (he : IsReal e) (hepos : 0 < e) :
    0 < v + e := by
  obtain ⟨a, rfl⟩ := hv
  obtain ⟨b, rfl⟩ := he
  have ha : 0 ≤ a := by exact_mod_cast h0
  have hb : 0 < b := by exact_mod_cast hepos
  rw [← EReal.coe_add]
  have h : 0 < a + b := add_pos_of_nonneg_of_pos ha hb
  exact_mod_cast h

/-- Normalising real entries around ANY real centre `μ` stays real: each deviation is real, the sum of
    their squares is a nonnegative real, so the mean square is a nonnegative real, the mean square plus a
    positive real offset is a positive real, its reciprocal square root is real, and scaling, shifting and
    taking the greater with a real keep it real. -/
theorem normalise_isReal {ι : Type} [Fintype ι] (h : ι → EReal) (hh : ∀ i, IsReal (h i)) {μ : EReal}
    (hμ : IsReal μ) {N : ℝ} (hN : 0 < N) {g b e z : EReal} (hg : IsReal g) (hb : IsReal b)
    (he : IsReal e) (hepos : 0 < e) (hz : IsReal z) (n : ι) :
    IsReal (max ((((h n - μ) * Ideal.rsqrt
      (Ideal.div (0 + ∑ i, (h i - μ) * (h i - μ)) (N : EReal) + e)) * g) + b) z) := by
  have hd : ∀ i, IsReal (h i - μ) := fun i => (hh i).sub hμ
  have hS : IsReal (0 + ∑ i, (h i - μ) * (h i - μ)) :=
    isReal_zero.add (IsReal.sum _ _ fun i _ => (hd i).mul (hd i))
  have hS0 : 0 ≤ 0 + ∑ i, (h i - μ) * (h i - μ) := by
    rw [zero_add]
    exact sum_mul_self_nonneg (fun i => h i - μ) hd
  have hv : IsReal (Ideal.div (0 + ∑ i, (h i - μ) * (h i - μ)) (N : EReal)) := hS.div_coe hN.ne'
  have hv0 : 0 ≤ Ideal.div (0 + ∑ i, (h i - μ) * (h i - μ)) (N : EReal) := div_coe_nonneg hS hS0 hN
  have hr := isReal_rsqrt (hv.add he) (add_pos_of_isReal hv hv0 he hepos)
  exact ((((hd n).mul hr).mul hg).add hb).max hz

/-- Batch normalisation followed by the rectifier, on real entries with real scale, shift, offset
    (positive) and floor: the mean `(0 + Σ h) / N` is real, so this is the normalisation around a real
    centre. -/
theorem bn_relu_isReal {ι : Type} [Fintype ι] (h : ι → EReal) (hh : ∀ i, IsReal (h i)) {N : ℝ}
    (hN : 0 < N) {g b e z : EReal} (hg : IsReal g) (hb : IsReal b) (he : IsReal e) (hepos : 0 < e)
    (hz : IsReal z) (n : ι) :
    IsReal (max ((((h n - Ideal.div (0 + ∑ i, h i) (N : EReal)) * Ideal.rsqrt
      (Ideal.div (0 + ∑ i, (h i - Ideal.div (0 + ∑ j, h j) (N : EReal))
        * (h i - Ideal.div (0 + ∑ j, h j) (N : EReal))) (N : EReal) + e)) * g) + b) z) :=
  normalise_isReal h hh ((isReal_zero.add (IsReal.sum _ _ fun i _ => hh i)).div_coe hN.ne') hN hg hb he
    hepos hz n

end SageMath

end
-- ==== Proof.KiAggReal.lean ====
/-
  Realness through the host stages the two programs share.

  The reciprocal clamped in-degree: the count of edges ending at a row is a finite sum of ones added to zero, a real; its
  maximum with one is a real that is at least one, so one divided by it is real. The neighbourhood mean: a gathered entry
  is an entry of the operand, a scatter-add of real updates into zeros is real, and the product with a stretched real
  column is real. A reshaped array has the entries of the array it reshapes.
-/
import proofs.«159573_j34617436406345_1_alg».proof.Proof.RefRunStages
import proofs.«159573_j34617436406345_1_alg».proof.Proof.LibRealArrays
import proofs.«159573_j34617436406345_1_alg».proof.Proof.LibSageMath

noncomputable section

namespace Cert.KernelIdeal.HandValue

open Cert.ReferenceIdeal Cert.ReferenceIdeal.Gen Cert.ReferenceIdeal.Hand Idealize.ShloMosaic Idealize.SL.Sem Cert.Lib Cert.Lib.RealArrays

/-- One divided by the maximum of a real count and one is real, entry by entry. -/
theorem recip_max_one_real {s : Shape} (one cnt : FVec Ideal s .f32) (h1 : ∀ i, one i = 1) (hc : AllReal cnt) :
    AllReal (Host.divf one (maximumf cnt one)) := fun i => by
  show ∃ r : ℝ, Ideal.div (one i) (max (cnt i) (one i)) = r
  rw [h1 i]
  exact SageMath.isReal_recip_max_one (hc i)

/-- The reciprocal clamped in-degree is real at every row. -/
theorem refInvDeg_real (a2 : (⟨S800000, .i32⟩ : BufTy).Contents (Elt Ideal)) :
    ∀ i, ∃ r : ℝ, refInvDeg a2 i = (r : EReal) := by
  unfold refInvDeg
  refine broadcastInDim_real _ _ _ ?_
  have hz : AllReal (broadcastInDim S50000 ![] bcast_S_S50000 (constant (F := Ideal) S_ .f32 0x00000000#32)) :=
    broadcastInDim_real _ _ _ (constant_zero _)
  have ho : AllReal (broadcastInDim S800000 ![] bcast_S_S800000 (constant (F := Ideal) S_ .f32 0x3F800000#32)) :=
    broadcastInDim_real _ _ _ (constant_one _)
  -- the count: ones added into zeros
  have hcnt := scatterAdd_real (φ := .f32) scatter_S50000_S800000x1_S800000_n_0_0_1 _
    (broadcastInDim S800000x1 ![0] bcast_S800000_S800000x1_0 a2) _ hz ho
  -- the stretched word of 1.0 is 1 at every row
  have h1 : ∀ i, broadcastInDim S50000 ![] bcast_S_S50000 (constant (F := Ideal) S_ .f32 0x3F800000#32) i = 1 := fun i => by
    show Ideal.ofBits .f32 0x3F800000#32 = 1
    exact SageMath.ofBits_one
  exact recip_max_one_real _ _ h1 hcnt

/-- The neighbourhood mean of a real array by a real column is real. -/
theorem refAgg_real (x : (⟨S50000x64, .f32⟩ : BufTy).Contents (Elt Ideal)) (a1 a2 : (⟨S800000, .i32⟩ : BufTy).Contents (Elt Ideal))
    (invdeg : (⟨S50000x1, .f32⟩ : BufTy).Contents (Elt Ideal))
    (hx : ∀ i, ∃ r : ℝ, x i = (r : EReal)) (hinv : ∀ i, ∃ r : ℝ, invdeg i = (r : EReal)) :
    ∀ i, ∃ r : ℝ, refAgg x a1 a2 invdeg i = (r : EReal) := by
  unfold refAgg
  have hx' : AllReal x := hx
  have hinv' : AllReal invdeg := hinv
  -- a gathered entry is an entry of x
  have hg := gather_real gather_S50000x64_S800000x1_S800000x64_1_0_n_n_0_1_164 x
        (broadcastInDim S800000x1 ![0] bcast_S800000_S800000x1_0
          (select
            (cmpi .slt a1 (broadcastInDim S800000 ![] bcast_S_S800000 (constantI S_ 32 0#32)))
            (addi a1 (broadcastInDim S800000 ![] bcast_S_S800000 (constantI S_ 32 50000#32)))
            a1)) hx'
  have hz : AllReal (broadcastInDim S50000x64 ![] bcast_S_S50000x64 (constant (F := Ideal) S_ .f32 0x00000000#32)) :=
    broadcastInDim_real _ _ _ (constant_zero _)
  -- the sums of the gathered rows at the destination rows
  have hs := scatterAdd_real (φ := .f32) scatter_S50000x64_S800000x1_S800000x64_1_0_0_1 _
      (broadcastInDim S800000x1 ![0] bcast_S800000_S800000x1_0 a2) _ hz hg
  -- the stretched column
  have hb := broadcastInDim_real ![0, 1] bcast_S50000x1_S50000x64_0_1 invdeg hinv'
  exact mulf_real (φ := .f32) _ _ hs hb

/-- Every entry of a reshaped array is an entry of the array. -/
theorem shapeCast_entry {s t : Shape} (v : s.Idx → EReal) (h : s.ShapeCasts t) (j : t.Idx) :
    ∃ i, shapeCast t v h j = v i := ⟨_, rfl⟩

/-- A reshaped real array is real. -/
theorem shapeCast_real {s t : Shape} (v : s.Idx → EReal) (h : s.ShapeCasts t)
    (hv : ∀ i, ∃ r : ℝ, v i = (r : EReal)) : ∀ j, ∃ r : ℝ, shapeCast t v h j = (r : EReal) :=
  fun j => hv _

end Cert.KernelIdeal.HandValue

end
-- ==== Proof.KiValue.lean ====
/-
  The kernel program's value: at the last boundary its result array is the reference program's value of the launch
  contents of the arguments, when the float arguments are real entry by entry.  The three rounds are chained: a round's
  combine of real arrays is real (sums of products of reals, a maximum with zero), which is what the next normalisation
  needs of it — on real rows the variance accumulated as the mean of squares less the squared mean is the centred one —
  and a normalisation of real rows by real scale and shift rows is real (the variance is nonnegative, so the square
  root of it plus a positive constant is a positive real).
-/
import proofs.«159573_j34617436406345_1_alg».proof.Proof.KiValueA
import proofs.«159573_j34617436406345_1_alg».proof.Proof.KiValueB
import proofs.«159573_j34617436406345_1_alg».proof.Proof.KiValueC
import proofs.«159573_j34617436406345_1_alg».proof.Proof.KiPreReal
import proofs.«159573_j34617436406345_1_alg».proof.Proof.KiAggReal
import proofs.«159573_j34617436406345_1_alg».proof.Proof.KiSageSpec
import proofs.«159573_j34617436406345_1_alg».proof.Proof.KiBnNorm

set_option maxRecDepth 16384

noncomputable section

namespace Cert.KernelIdeal.HandValue

open Idealize.ShloMosaic Idealize.ShloMosaic.TcCoe Idealize.SL.Sem
open Cert.KernelIdeal Cert.KernelIdeal.Gen Cert.KernelIdeal.Hand RegionRecord
open Cert.ReferenceIdeal.Hand (refInvDeg refAgg refSageStage refLayer refNorm refPoolStage refMlpStage refTerm)

variable (m : (ℓ : Loc nD τ sig) → Buf (Elt Ideal) ℓ) (c : Dev nD)

/-- One round's combine of real arrays is real entry by entry. -/
theorem refLayer_real (x : Sh50000x64.Idx → EReal) (a1 a2 : (⟨⟨1, ![800000]⟩, .i32⟩ : BufTy).Contents (Elt Ideal))
    (Ws Wn : (⟨2, ![64, 64]⟩ : Shape).Idx → EReal) (b : Sh64.Idx → EReal)
    (hx : ∀ i, ∃ r : ℝ, x i = (r : EReal)) (hWs : ∀ i, ∃ r : ℝ, Ws i = (r : EReal)) (hWn : ∀ i, ∃ r : ℝ, Wn i = (r : EReal))
    (hb : ∀ i, ∃ r : ℝ, b i = (r : EReal)) : ∀ i, ∃ r : ℝ, refLayer x a1 a2 Ws Wn b i = (r : EReal) := by
  intro i
  unfold refLayer
  rw [refSage_eq _ _ _ _ _ shapeCasts_S64_S1x64]
  exact sageSpec_real _ _ _ _ _ hx (refAgg_real x a1 a2 _ hx (refInvDeg_real a2)) hWs hWn (shapeCast_real b _ hb) i

/-- The normalisation of a real array by real scale and shift rows is real entry by entry. -/
theorem refNorm_real (h : Sh50000x64.Idx → EReal) (g be : Sh64.Idx → EReal)
    (hX : ∀ i, ∃ r : ℝ, h i = (r : EReal)) (hg : ∀ i, ∃ r : ℝ, g i = (r : EReal)) (hb : ∀ i, ∃ r : ℝ, be i = (r : EReal)) :
    ∀ i, ∃ r : ℝ, refNorm h g be i = (r : EReal) := by
  intro i
  rw [refNorm_eq h g be hX shapeCasts_S64_S1x64]
  exact bnNorm_real h g be hX hg hb _ i

/-- The kernel program's result array at the last boundary is the reference program's value of the arguments' launch
    contents, the float arguments being real entry by entry. -/
theorem kernel_value
    (hr : PreReal (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))) :
    Wv14 (F := Ideal) m c (Proc.devRef .tc main_v65)
      = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  have e2 := Wv2_h1 m c
  have r2 : ∀ i, ∃ x : ℝ, (Wv2 (F := Ideal) m c (Proc.devRef .tc main_v22) : Sh50000x64.Idx → EReal) i = (x : EReal) := by
    rw [e2]; exact refLayer_real _ _ _ _ _ _ hr.r0 hr.r5 hr.r6 hr.r7
  have e5 := Wv5_n1 m c r2
  have r5 : ∀ i, ∃ x : ℝ, (Wv5 (F := Ideal) m c (Proc.devRef .tc main_v26) : Sh50000x64.Idx → EReal) i = (x : EReal) := by
    rw [e5]; exact refNorm_real _ _ _ r2 hr.r14 hr.r15
  have e7 := Wv7_h2 m c
  have r7 : ∀ i, ∃ x : ℝ, (Wv7 (F := Ideal) m c (Proc.devRef .tc main_v40) : Sh50000x64.Idx → EReal) i = (x : EReal) := by
    rw [e7]; exact refLayer_real _ _ _ _ _ _ r5 hr.r8 hr.r9 hr.r10
  have e10 := Wv10_n2 m c r7
  rw [Wv14_out m c, Wv12_h3 m c, e10, e7, e5, e2]
  unfold refTerm
  rfl

end Cert.KernelIdeal.HandValue

end
-- ==== Proof.KiAlgebraic.lean ====
/-
  The two idealized programs, run from memories that agree on the arguments, end with equal results: the kernel
  program's last region leaves in its result array the perceptron of the pooled third round, which stage by stage is the
  reference's composed term of the arguments; the reference's run ends at that same term of its own arguments, which
  are the kernel program's. The precondition enters once: every float argument is real entry by entry, which the
  two spellings of the column variance need in order to agree.
-/
import proofs.«159573_j34617436406345_1_alg».proof.Defs
import proofs.«159573_j34617436406345_1_alg».proof.Proof.KiArgs
import proofs.«159573_j34617436406345_1_alg».proof.Proof.KiValue
import proofs.«159573_j34617436406345_1_alg».proof.Proof.KiPreReal
import proofs.«159573_j34617436406345_1_alg».proof.Proof.RefRun

set_option maxRecDepth 16384

noncomputable section

namespace Cert.KernelIdeal.HandValue

open Idealize.ShloMosaic Idealize.ShloMosaic.TcCoe Idealize.SL.Sem

open Cert.ReferenceIdeal in
/-- The reference's term respects equality of its arguments. -/
theorem refTerm_congr {x0 y0 : (⟨S50000x64, .f32⟩ : BufTy).Contents (Elt Ideal)} {x1 y1 : (⟨S800000, .i32⟩ : BufTy).Contents (Elt Ideal)} {x2 y2 : (⟨S800000, .i32⟩ : BufTy).Contents (Elt Ideal)} {x3 y3 : (⟨S50000, .i32⟩ : BufTy).Contents (Elt Ideal)} {x4 y4 : (⟨S512, .i32⟩ : BufTy).Contents (Elt Ideal)} {x5 y5 : (⟨S64x64, .f32⟩ : BufTy).Contents (Elt Ideal)} {x6 y6 : (⟨S64x64, .f32⟩ : BufTy).Contents (Elt Ideal)} {x7 y7 : (⟨S64, .f32⟩ : BufTy).Contents (Elt Ideal)} {x8 y8 : (⟨S64x64, .f32⟩ : BufTy).Contents (Elt Ideal)} {x9 y9 : (⟨S64x64, .f32⟩ : BufTy).Contents (Elt Ideal)} {x10 y10 : (⟨S64, .f32⟩ : BufTy).Contents (Elt Ideal)} {x11 y11 : (⟨S64x64, .f32⟩ : BufTy).Contents (Elt Ideal)} {x12 y12 : (⟨S64x64, .f32⟩ : BufTy).Contents (Elt Ideal)} {x13 y13 : (⟨S64, .f32⟩ : BufTy).Contents (Elt Ideal)} {x14 y14 : (⟨S64, .f32⟩ : BufTy).Contents (Elt Ideal)} {x15 y15 : (⟨S64, .f32⟩ : BufTy).Contents (Elt Ideal)} {x16 y16 : (⟨S64, .f32⟩ : BufTy).Contents (Elt Ideal)} {x17 y17 : (⟨S64, .f32⟩ : BufTy).Contents (Elt Ideal)} {x18 y18 : (⟨S64x128, .f32⟩ : BufTy).Contents (Elt Ideal)} {x19 y19 : (⟨S128, .f32⟩ : BufTy).Contents (Elt Ideal)} {x20 y20 : (⟨S128x64, .f32⟩ : BufTy).Contents (Elt Ideal)} {x21 y21 : (⟨S64, .f32⟩ : BufTy).Contents (Elt Ideal)} {x22 y22 : (⟨S64x10, .f32⟩ : BufTy).Contents (Elt Ideal)} {x23 y23 : (⟨S10, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) :
    Cert.ReferenceIdeal.Hand.refTerm x0 x1 x2 x3 x4 x5 x6 x7 x8 x9 x10 x11 x12 x13 x14 x15 x16 x17 x18 x19 x20 x21 x22 x23 = Cert.ReferenceIdeal.Hand.refTerm y0 y1 y2 y3 y4 y5 y6 y7 y8 y9 y10 y11 y12 y13 y14 y15 y16 y17 y18 y19 y20 y21 y22 y23 := by
  subst_vars; rfl

set_option maxHeartbeats 1000000 in
theorem algebraic : Cert.algebraic_KernelIdeal_ReferenceIdeal
    (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.ReferenceIdeal.Hand.refTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run (Cert.KernelIdeal.defs (F := Ideal)) _ _).mono (fun r h c => ⟨
      (h c _ (Cert.KernelIdeal.Hand.mem_uc Cert.KernelIdeal.main_v65 (by decide))).trans
        (kernel_value m c (pre_real_record _ _ _ _ _ _ _ _ _ _ _ _ _ _ _ _ _ _ _ _ _ _ _ _ (hpre c))),
      (h c _ (Cert.KernelIdeal.Hand.mem_uc Cert.KernelIdeal.main_arg0 (by decide))).trans (Cert.KernelIdeal.Hand.Wv14_main_arg0_from0 m c),
      (h c _ (Cert.KernelIdeal.Hand.mem_uc Cert.KernelIdeal.main_arg1 (by decide))).trans (Cert.KernelIdeal.Hand.Wv14_main_arg1_from0 m c),
      (h c _ (Cert.KernelIdeal.Hand.mem_uc Cert.KernelIdeal.main_arg2 (by decide))).trans (Cert.KernelIdeal.Hand.Wv14_main_arg2_from0 m c),
      (h c _ (Cert.KernelIdeal.Hand.mem_uc Cert.KernelIdeal.main_arg3 (by decide))).trans (Cert.KernelIdeal.Hand.Wv14_main_arg3_from0 m c),
      (h c _ (Cert.KernelIdeal.Hand.mem_uc Cert.KernelIdeal.main_arg4 (by decide))).trans (Cert.KernelIdeal.Hand.Wv14_main_arg4_from0 m c),
      (h c _ (Cert.KernelIdeal.Hand.mem_uc Cert.KernelIdeal.main_arg5 (by decide))).trans (Cert.KernelIdeal.Hand.Wv14_main_arg5_from0 m c),
      (h c _ (Cert.KernelIdeal.Hand.mem_uc Cert.KernelIdeal.main_arg6 (by decide))).trans (Cert.KernelIdeal.Hand.Wv14_main_arg6_from0 m c),
      (h c _ (Cert.KernelIdeal.Hand.mem_uc Cert.KernelIdeal.main_arg7 (by decide))).trans (Cert.KernelIdeal.Hand.Wv14_main_arg7_from0 m c),
      (h c _ (Cert.KernelIdeal.Hand.mem_uc Cert.KernelIdeal.main_arg8 (by decide))).trans (Cert.KernelIdeal.Hand.Wv14_main_arg8_from0 m c),
      (h c _ (Cert.KernelIdeal.Hand.mem_uc Cert.KernelIdeal.main_arg9 (by decide))).trans (Cert.KernelIdeal.Hand.Wv14_main_arg9_from0 m c),
      (h c _ (Cert.KernelIdeal.Hand.mem_uc Cert.KernelIdeal.main_arg10 (by decide))).trans (Cert.KernelIdeal.Hand.Wv14_main_arg10_from0 m c),
      (h c _ (Cert.KernelIdeal.Hand.mem_uc Cert.KernelIdeal.main_arg11 (by decide))).trans (Cert.KernelIdeal.Hand.Wv14_main_arg11_from0 m c),
      (h c _ (Cert.KernelIdeal.Hand.mem_uc Cert.KernelIdeal.main_arg12 (by decide))).trans (Cert.KernelIdeal.Hand.Wv14_main_arg12_from0 m c),
      (h c _ (Cert.KernelIdeal.Hand.mem_uc Cert.KernelIdeal.main_arg13 (by decide))).trans (Cert.KernelIdeal.Hand.Wv14_main_arg13_from0 m c),
      (h c _ (Cert.KernelIdeal.Hand.mem_uc Cert.KernelIdeal.main_arg14 (by decide))).trans (Cert.KernelIdeal.Hand.Wv14_main_arg14_from0 m c),
      (h c _ (Cert.KernelIdeal.Hand.mem_uc Cert.KernelIdeal.main_arg15 (by decide))).trans (Cert.KernelIdeal.Hand.Wv14_main_arg15_from0 m c),
      (h c _ (Cert.KernelIdeal.Hand.mem_uc Cert.KernelIdeal.main_arg16 (by decide))).trans (Cert.KernelIdeal.Hand.Wv14_main_arg16_from0 m c),
      (h c _ (Cert.KernelIdeal.Hand.mem_uc Cert.KernelIdeal.main_arg17 (by decide))).trans (Cert.KernelIdeal.Hand.Wv14_main_arg17_from0 m c),
      (h c _ (Cert.KernelIdeal.Hand.mem_uc Cert.KernelIdeal.main_arg18 (by decide))).trans (Cert.KernelIdeal.Hand.Wv14_main_arg18_from0 m c),
      (h c _ (Cert.KernelIdeal.Hand.mem_uc Cert.KernelIdeal.main_arg19 (by decide))).trans (Cert.KernelIdeal.Hand.Wv14_main_arg19_from0 m c),
      (h c _ (Cert.KernelIdeal.Hand.mem_uc Cert.KernelIdeal.main_arg20 (by decide))).trans (Cert.KernelIdeal.Hand.Wv14_main_arg20_from0 m c),
      (h c _ (Cert.KernelIdeal.Hand.mem_uc Cert.KernelIdeal.main_arg21 (by decide))).trans (Cert.KernelIdeal.Hand.Wv14_main_arg21_from0 m c),
      (h c _ (Cert.KernelIdeal.Hand.mem_uc Cert.KernelIdeal.main_arg22 (by decide))).trans (Cert.KernelIdeal.Hand.Wv14_main_arg22_from0 m c),
      (h c _ (Cert.KernelIdeal.Hand.mem_uc Cert.KernelIdeal.main_arg23 (by decide))).trans (Cert.KernelIdeal.Hand.Wv14_main_arg23_from0 m c)⟩)
      (Cert.KernelIdeal.Hand.run_all (F := Ideal) m ρ)
  · refine (θ_run (Cert.ReferenceIdeal.defs (F := Ideal)) _ _).mono (fun r h c => ⟨?_, (h c).2⟩) (Cert.ReferenceIdeal.Hand.run m' ρ')
    obtain ⟨e0, e1, e2, e3, e4, e5, e6, e7, e8, e9, e10, e11, e12, e13, e14, e15, e16, e17, e18, e19, e20, e21, e22, e23⟩ := hagree c
    exact (h c).1.trans (refTerm_congr e0 e1 e2 e3 e4 e5 e6 e7 e8 e9 e10 e11 e12 e13 e14 e15 e16 e17 e18 e19 e20 e21 e22 e23)

end Cert.KernelIdeal.HandValue

end
-- ==== Proof.lean ====
/-
  A three-round neighbourhood-averaging graph network with two column normalisations, a per-graph sum and a
  three-layer perceptron, computed by a program of eight kernel regions between stretches of host operations, against
  the same network written in plain array operations.

  The three frames. The kernel program, at the word level and idealized, is run as a list of fourteen segments: a
  host stretch moves the contents of the unscoped buffers to the fold of its operations; a region replaces its output
  arrays by what its write-backs leave. The combine, the normalisation and the perceptron regions load whole blocks
  and store one value over the whole output block; the statistics regions accumulate column sums in two scratch rows
  carried from point to point and store the mean and the variance at the last point only. No segment writes an argument.
  The reference is a straight line of host operations, run to the composed term of its arguments.

  The value. At the idealized instance every stage of the kernel program is the reference's stage of the same
  inputs: a block-wise product into a zero accumulator is the whole product; ten tile sums are the column sum; and
  the mean of the squares less the squared mean is the mean of the squared deviations — on real entries, which the
  precondition gives for the arguments and which every stage preserves.
-/
import proofs.«159573_j34617436406345_1_alg».proof.Defs
import proofs.«159573_j34617436406345_1_alg».proof.Proof.Gen.Kernel
import proofs.«159573_j34617436406345_1_alg».proof.Proof.Gen.KernelIdeal
import proofs.«159573_j34617436406345_1_alg».proof.Proof.Gen.ReferenceIdeal
import proofs.«159573_j34617436406345_1_alg».proof.Proof.Gen.Pre_finite_inputs
import proofs.«159573_j34617436406345_1_alg».proof.Proof.KArgs
import proofs.«159573_j34617436406345_1_alg».proof.Proof.KiArgs
import proofs.«159573_j34617436406345_1_alg».proof.Proof.RefRun
import proofs.«159573_j34617436406345_1_alg».proof.Proof.KiAlgebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.ReferenceIdeal.Hand.frame_ri,
  trivial,
  Cert.KernelIdeal.HandValue.algebraic⟩

end Cert.Proof

end
